-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel

variable [Facts]

def fn {F : FTy → Type} [FloatOps F] (main_arg0 : FVec F S4x8192x2048 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  main_v3
-- ==== Kernel.lean ====
abbrev S4x8192x2048 : Shape := ⟨3, ![4, 8192, 2048]⟩
abbrev S32768x2048 : Shape := ⟨2, ![32768, 2048]⟩
abbrev S8x1024 : Shape := ⟨2, ![8, 1024]⟩
abbrev S_ : Shape := ⟨0, ![]⟩
abbrev S1024x512 : Shape := ⟨2, ![1024, 512]⟩
abbrev S16 : Shape := ⟨1, ![16]⟩
abbrev S1x16 : Shape := ⟨2, ![1, 16]⟩

abbrev nBuf : Table → Nat
  | .hbm => 4
  | .local .scVector .vmem => 2
  | _ => 0

abbrev bufTy : (tb : Table) → Fin (nBuf tb) → BufTy
  | .hbm, ⟨0, _⟩ => ⟨S4x8192x2048, .f32⟩
  | .hbm, ⟨1, _⟩ => ⟨S32768x2048, .f32⟩
  | .hbm, ⟨2, _⟩ => ⟨S32768x2048, .f32⟩
  | .hbm, ⟨3, _⟩ => ⟨S4x8192x2048, .f32⟩
  | .local .scVector .vmem, ⟨0, _⟩ => ⟨S8x1024, .f32⟩
  | .local .scVector .vmem, ⟨1, _⟩ => ⟨S8x1024, .f32⟩
  | _, _ => ⟨S4x8192x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_4_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c1536_i32_r1 : BitVec 32 := 1536#32
  ![v2.toNat, 1536]
@[reducible] def k0_t1_loop : Scf.Loop 32 :=
  let c0_i32_1 : BitVec 32 := 0#32
  let c128_i32 : BitVec 32 := 128#32
  let v11 : BitVec 32 := Scalar.addi c0_i32_1 c128_i32
  let c1_i32_2 : BitVec 32 := 1#32
  ⟨c0_i32_1, v11, c1_i32_2⟩
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_1 : BitVec 32 := 0#32
  let c1_i32_2 : BitVec 32 := 1#32
  let arg6 : BitVec 32 := Scf.iv c0_i32_1 c1_i32_2 k0_t1
  let c8_i32 : BitVec 32 := 8#32
  let v12 : BitVec 32 := Scalar.muli arg6 c8_i32
  let v13 : BitVec 32 := Scalar.addi v2 v12
  let c512_i32_r2 : BitVec 32 := 512#32
  ![v13.toNat, 512]

def k0_chk1 (v17 : IVec S16 32) (v19 : IVec S16 32) : Prop :=
  (∀ a x, ((![v17, v19] : Fin 2 → IVec S16 32) a x).toNat < S8x1024.size a)
instance k0_chk1.dec : ∀ (v17 : IVec S16 32) (v19 : IVec S16 32), Decidable (k0_chk1 v17 v19) := fun v17 v19 => decidable_of_iff' _ (Iff.of_eq (k0_chk1.eq_1 v17 v19))
theorem k0_idx1_inb : ∀ (v17 : IVec S16 32) (v19 : IVec S16 32) (k0_hw1 : k0_chk1 v17 v19), ∀ a x, ((![v17, v19] : Fin 2 → IVec S16 32) a x).toNat < S8x1024.size a := fun v17 v19 k0_hw1 => k0_hw1

def k0_chk2 (v17 : IVec S16 32) (v24 : IVec S16 32) : Prop :=
  (∀ a x, ((![v17, v24] : Fin 2 → IVec S16 32) a x).toNat < S8x1024.size a)
instance k0_chk2.dec : ∀ (v17 : IVec S16 32) (v24 : IVec S16 32), Decidable (k0_chk2 v17 v24) := fun v17 v24 => decidable_of_iff' _ (Iff.of_eq (k0_chk2.eq_1 v17 v24))
theorem k0_idx2_inb : ∀ (v17 : IVec S16 32) (v24 : IVec S16 32) (k0_hw2 : k0_chk2 v17 v24), ∀ a x, ((![v17, v24] : Fin 2 → IVec S16 32) a x).toNat < S8x1024.size a := fun v17 v24 k0_hw2 => k0_hw2

def k0_chk3 (v17 : IVec S16 32) (v29 : IVec S16 32) : Prop :=
  (∀ a x, ((![v17, v29] : Fin 2 → IVec S16 32) a x).toNat < S8x1024.size a)
instance k0_chk3.dec : ∀ (v17 : IVec S16 32) (v29 : IVec S16 32), Decidable (k0_chk3 v17 v29) := fun v17 v29 => decidable_of_iff' _ (Iff.of_eq (k0_chk3.eq_1 v17 v29))
theorem k0_idx3_inb : ∀ (v17 : IVec S16 32) (v29 : IVec S16 32) (k0_hw3 : k0_chk3 v17 v29), ∀ a x, ((![v17, v29] : Fin 2 → IVec S16 32) a x).toNat < S8x1024.size a := fun v17 v29 k0_hw3 => k0_hw3

def k0_chk4 (v17 : IVec S16 32) (v34 : IVec S16 32) : Prop :=
  (∀ a x, ((![v17, v34] : Fin 2 → IVec S16 32) a x).toNat < S8x1024.size a)
instance k0_chk4.dec : ∀ (v17 : IVec S16 32) (v34 : IVec S16 32), Decidable (k0_chk4 v17 v34) := fun v17 v34 => decidable_of_iff' _ (Iff.of_eq (k0_chk4.eq_1 v17 v34))
theorem k0_idx4_inb : ∀ (v17 : IVec S16 32) (v34 : IVec S16 32) (k0_hw4 : k0_chk4 v17 v34), ∀ a x, ((![v17, v34] : Fin 2 → IVec S16 32) a x).toNat < S8x1024.size a := fun v17 v34 k0_hw4 => k0_hw4

def k0_chk5 (v17 : IVec S16 32) (v39 : IVec S16 32) : Prop :=
  (∀ a x, ((![v17, v39] : Fin 2 → IVec S16 32) a x).toNat < S8x1024.size a)
instance k0_chk5.dec : ∀ (v17 : IVec S16 32) (v39 : IVec S16 32), Decidable (k0_chk5 v17 v39) := fun v17 v39 => decidable_of_iff' _ (Iff.of_eq (k0_chk5.eq_1 v17 v39))
theorem k0_idx5_inb : ∀ (v17 : IVec S16 32) (v39 : IVec S16 32) (k0_hw5 : k0_chk5 v17 v39), ∀ a x, ((![v17, v39] : Fin 2 → IVec S16 32) a x).toNat < S8x1024.size a := fun v17 v39 k0_hw5 => k0_hw5

def k0_chk6 (v17 : IVec S16 32) (v44 : IVec S16 32) : Prop :=
  (∀ a x, ((![v17, v44] : Fin 2 → IVec S16 32) a x).toNat < S8x1024.size a)
instance k0_chk6.dec : ∀ (v17 : IVec S16 32) (v44 : IVec S16 32), Decidable (k0_chk6 v17 v44) := fun v17 v44 => decidable_of_iff' _ (Iff.of_eq (k0_chk6.eq_1 v17 v44))
theorem k0_idx6_inb : ∀ (v17 : IVec S16 32) (v44 : IVec S16 32) (k0_hw6 : k0_chk6 v17 v44), ∀ a x, ((![v17, v44] : Fin 2 → IVec S16 32) a x).toNat < S8x1024.size a := fun v17 v44 k0_hw6 => k0_hw6

def k0_chk7 (v17 : IVec S16 32) (v49 : IVec S16 32) : Prop :=
  (∀ a x, ((![v17, v49] : Fin 2 → IVec S16 32) a x).toNat < S8x1024.size a)
instance k0_chk7.dec : ∀ (v17 : IVec S16 32) (v49 : IVec S16 32), Decidable (k0_chk7 v17 v49) := fun v17 v49 => decidable_of_iff' _ (Iff.of_eq (k0_chk7.eq_1 v17 v49))
theorem k0_idx7_inb : ∀ (v17 : IVec S16 32) (v49 : IVec S16 32) (k0_hw7 : k0_chk7 v17 v49), ∀ a x, ((![v17, v49] : Fin 2 → IVec S16 32) a x).toNat < S8x1024.size a := fun v17 v49 k0_hw7 => k0_hw7

def k0_chk8 (v17 : IVec S16 32) (v54 : IVec S16 32) : Prop :=
  (∀ a x, ((![v17, v54] : Fin 2 → IVec S16 32) a x).toNat < S8x1024.size a)
instance k0_chk8.dec : ∀ (v17 : IVec S16 32) (v54 : IVec S16 32), Decidable (k0_chk8 v17 v54) := fun v17 v54 => decidable_of_iff' _ (Iff.of_eq (k0_chk8.eq_1 v17 v54))
theorem k0_idx8_inb : ∀ (v17 : IVec S16 32) (v54 : IVec S16 32) (k0_hw8 : k0_chk8 v17 v54), ∀ a x, ((![v17, v54] : Fin 2 → IVec S16 32) a x).toNat < S8x1024.size a := fun v17 v54 k0_hw8 => k0_hw8

def k0_chk9 (v17 : IVec S16 32) (v59 : IVec S16 32) : Prop :=
  (∀ a x, ((![v17, v59] : Fin 2 → IVec S16 32) a x).toNat < S8x1024.size a)
instance k0_chk9.dec : ∀ (v17 : IVec S16 32) (v59 : IVec S16 32), Decidable (k0_chk9 v17 v59) := fun v17 v59 => decidable_of_iff' _ (Iff.of_eq (k0_chk9.eq_1 v17 v59))
theorem k0_idx9_inb : ∀ (v17 : IVec S16 32) (v59 : IVec S16 32) (k0_hw9 : k0_chk9 v17 v59), ∀ a x, ((![v17, v59] : Fin 2 → IVec S16 32) a x).toNat < S8x1024.size a := fun v17 v59 k0_hw9 => k0_hw9

def k0_chk10 (v17 : IVec S16 32) (v64 : IVec S16 32) : Prop :=
  (∀ a x, ((![v17, v64] : Fin 2 → IVec S16 32) a x).toNat < S8x1024.size a)
instance k0_chk10.dec : ∀ (v17 : IVec S16 32) (v64 : IVec S16 32), Decidable (k0_chk10 v17 v64) := fun v17 v64 => decidable_of_iff' _ (Iff.of_eq (k0_chk10.eq_1 v17 v64))
theorem k0_idx10_inb : ∀ (v17 : IVec S16 32) (v64 : IVec S16 32) (k0_hw10 : k0_chk10 v17 v64), ∀ a x, ((![v17, v64] : Fin 2 → IVec S16 32) a x).toNat < S8x1024.size a := fun v17 v64 k0_hw10 => k0_hw10

def k0_chk11 (v17 : IVec S16 32) (v69 : IVec S16 32) : Prop :=
  (∀ a x, ((![v17, v69] : Fin 2 → IVec S16 32) a x).toNat < S8x1024.size a)
instance k0_chk11.dec : ∀ (v17 : IVec S16 32) (v69 : IVec S16 32), Decidable (k0_chk11 v17 v69) := fun v17 v69 => decidable_of_iff' _ (Iff.of_eq (k0_chk11.eq_1 v17 v69))
theorem k0_idx11_inb : ∀ (v17 : IVec S16 32) (v69 : IVec S16 32) (k0_hw11 : k0_chk11 v17 v69), ∀ a x, ((![v17, v69] : Fin 2 → IVec S16 32) a x).toNat < S8x1024.size a := fun v17 v69 k0_hw11 => k0_hw11

def k0_chk12 (v17 : IVec S16 32) (v74 : IVec S16 32) : Prop :=
  (∀ a x, ((![v17, v74] : Fin 2 → IVec S16 32) a x).toNat < S8x1024.size a)
instance k0_chk12.dec : ∀ (v17 : IVec S16 32) (v74 : IVec S16 32), Decidable (k0_chk12 v17 v74) := fun v17 v74 => decidable_of_iff' _ (Iff.of_eq (k0_chk12.eq_1 v17 v74))
theorem k0_idx12_inb : ∀ (v17 : IVec S16 32) (v74 : IVec S16 32) (k0_hw12 : k0_chk12 v17 v74), ∀ a x, ((![v17, v74] : Fin 2 → IVec S16 32) a x).toNat < S8x1024.size a := fun v17 v74 k0_hw12 => k0_hw12

def k0_chk13 (v17 : IVec S16 32) (v79 : IVec S16 32) : Prop :=
  (∀ a x, ((![v17, v79] : Fin 2 → IVec S16 32) a x).toNat < S8x1024.size a)
instance k0_chk13.dec : ∀ (v17 : IVec S16 32) (v79 : IVec S16 32), Decidable (k0_chk13 v17 v79) := fun v17 v79 => decidable_of_iff' _ (Iff.of_eq (k0_chk13.eq_1 v17 v79))
theorem k0_idx13_inb : ∀ (v17 : IVec S16 32) (v79 : IVec S16 32) (k0_hw13 : k0_chk13 v17 v79), ∀ a x, ((![v17, v79] : Fin 2 → IVec S16 32) a x).toNat < S8x1024.size a := fun v17 v79 k0_hw13 => k0_hw13

def k0_chk14 (v17 : IVec S16 32) (v84 : IVec S16 32) : Prop :=
  (∀ a x, ((![v17, v84] : Fin 2 → IVec S16 32) a x).toNat < S8x1024.size a)
instance k0_chk14.dec : ∀ (v17 : IVec S16 32) (v84 : IVec S16 32), Decidable (k0_chk14 v17 v84) := fun v17 v84 => decidable_of_iff' _ (Iff.of_eq (k0_chk14.eq_1 v17 v84))
theorem k0_idx14_inb : ∀ (v17 : IVec S16 32) (v84 : IVec S16 32) (k0_hw14 : k0_chk14 v17 v84), ∀ a x, ((![v17, v84] : Fin 2 → IVec S16 32) a x).toNat < S8x1024.size a := fun v17 v84 k0_hw14 => k0_hw14

def k0_chk15 (v17 : IVec S16 32) (v89 : IVec S16 32) : Prop :=
  (∀ a x, ((![v17, v89] : Fin 2 → IVec S16 32) a x).toNat < S8x1024.size a)
instance k0_chk15.dec : ∀ (v17 : IVec S16 32) (v89 : IVec S16 32), Decidable (k0_chk15 v17 v89) := fun v17 v89 => decidable_of_iff' _ (Iff.of_eq (k0_chk15.eq_1 v17 v89))
theorem k0_idx15_inb : ∀ (v17 : IVec S16 32) (v89 : IVec S16 32) (k0_hw15 : k0_chk15 v17 v89), ∀ a x, ((![v17, v89] : Fin 2 → IVec S16 32) a x).toNat < S8x1024.size a := fun v17 v89 k0_hw15 => k0_hw15

def k0_chk16 (v17 : IVec S16 32) (v94 : IVec S16 32) : Prop :=
  (∀ a x, ((![v17, v94] : Fin 2 → IVec S16 32) a x).toNat < S8x1024.size a)
instance k0_chk16.dec : ∀ (v17 : IVec S16 32) (v94 : IVec S16 32), Decidable (k0_chk16 v17 v94) := fun v17 v94 => decidable_of_iff' _ (Iff.of_eq (k0_chk16.eq_1 v17 v94))
theorem k0_idx16_inb : ∀ (v17 : IVec S16 32) (v94 : IVec S16 32) (k0_hw16 : k0_chk16 v17 v94), ∀ a x, ((![v17, v94] : Fin 2 → IVec S16 32) a x).toNat < S8x1024.size a := fun v17 v94 k0_hw16 => k0_hw16

def k0_chk17 (v17 : IVec S16 32) (v99 : IVec S16 32) : Prop :=
  (∀ a x, ((![v17, v99] : Fin 2 → IVec S16 32) a x).toNat < S8x1024.size a)
instance k0_chk17.dec : ∀ (v17 : IVec S16 32) (v99 : IVec S16 32), Decidable (k0_chk17 v17 v99) := fun v17 v99 => decidable_of_iff' _ (Iff.of_eq (k0_chk17.eq_1 v17 v99))
theorem k0_idx17_inb : ∀ (v17 : IVec S16 32) (v99 : IVec S16 32) (k0_hw17 : k0_chk17 v17 v99), ∀ a x, ((![v17, v99] : Fin 2 → IVec S16 32) a x).toNat < S8x1024.size a := fun v17 v99 k0_hw17 => k0_hw17

def k0_chk18 (v17 : IVec S16 32) (v104 : IVec S16 32) : Prop :=
  (∀ a x, ((![v17, v104] : Fin 2 → IVec S16 32) a x).toNat < S8x1024.size a)
instance k0_chk18.dec : ∀ (v17 : IVec S16 32) (v104 : IVec S16 32), Decidable (k0_chk18 v17 v104) := fun v17 v104 => decidable_of_iff' _ (Iff.of_eq (k0_chk18.eq_1 v17 v104))
theorem k0_idx18_inb : ∀ (v17 : IVec S16 32) (v104 : IVec S16 32) (k0_hw18 : k0_chk18 v17 v104), ∀ a x, ((![v17, v104] : Fin 2 → IVec S16 32) a x).toNat < S8x1024.size a := fun v17 v104 k0_hw18 => k0_hw18

def k0_chk19 (v17 : IVec S16 32) (v109 : IVec S16 32) : Prop :=
  (∀ a x, ((![v17, v109] : Fin 2 → IVec S16 32) a x).toNat < S8x1024.size a)
instance k0_chk19.dec : ∀ (v17 : IVec S16 32) (v109 : IVec S16 32), Decidable (k0_chk19 v17 v109) := fun v17 v109 => decidable_of_iff' _ (Iff.of_eq (k0_chk19.eq_1 v17 v109))
theorem k0_idx19_inb : ∀ (v17 : IVec S16 32) (v109 : IVec S16 32) (k0_hw19 : k0_chk19 v17 v109), ∀ a x, ((![v17, v109] : Fin 2 → IVec S16 32) a x).toNat < S8x1024.size a := fun v17 v109 k0_hw19 => k0_hw19

def k0_chk20 (v17 : IVec S16 32) (v114 : IVec S16 32) : Prop :=
  (∀ a x, ((![v17, v114] : Fin 2 → IVec S16 32) a x).toNat < S8x1024.size a)
instance k0_chk20.dec : ∀ (v17 : IVec S16 32) (v114 : IVec S16 32), Decidable (k0_chk20 v17 v114) := fun v17 v114 => decidable_of_iff' _ (Iff.of_eq (k0_chk20.eq_1 v17 v114))
theorem k0_idx20_inb : ∀ (v17 : IVec S16 32) (v114 : IVec S16 32) (k0_hw20 : k0_chk20 v17 v114), ∀ a x, ((![v17, v114] : Fin 2 → IVec S16 32) a x).toNat < S8x1024.size a := fun v17 v114 k0_hw20 => k0_hw20

def k0_chk21 (v17 : IVec S16 32) (v119 : IVec S16 32) : Prop :=
  (∀ a x, ((![v17, v119] : Fin 2 → IVec S16 32) a x).toNat < S8x1024.size a)
instance k0_chk21.dec : ∀ (v17 : IVec S16 32) (v119 : IVec S16 32), Decidable (k0_chk21 v17 v119) := fun v17 v119 => decidable_of_iff' _ (Iff.of_eq (k0_chk21.eq_1 v17 v119))
theorem k0_idx21_inb : ∀ (v17 : IVec S16 32) (v119 : IVec S16 32) (k0_hw21 : k0_chk21 v17 v119), ∀ a x, ((![v17, v119] : Fin 2 → IVec S16 32) a x).toNat < S8x1024.size a := fun v17 v119 k0_hw21 => k0_hw21

def k0_chk22 (v17 : IVec S16 32) (v124 : IVec S16 32) : Prop :=
  (∀ a x, ((![v17, v124] : Fin 2 → IVec S16 32) a x).toNat < S8x1024.size a)
instance k0_chk22.dec : ∀ (v17 : IVec S16 32) (v124 : IVec S16 32), Decidable (k0_chk22 v17 v124) := fun v17 v124 => decidable_of_iff' _ (Iff.of_eq (k0_chk22.eq_1 v17 v124))
theorem k0_idx22_inb : ∀ (v17 : IVec S16 32) (v124 : IVec S16 32) (k0_hw22 : k0_chk22 v17 v124), ∀ a x, ((![v17, v124] : Fin 2 → IVec S16 32) a x).toNat < S8x1024.size a := fun v17 v124 k0_hw22 => k0_hw22

def k0_chk23 (v17 : IVec S16 32) (v129 : IVec S16 32) : Prop :=
  (∀ a x, ((![v17, v129] : Fin 2 → IVec S16 32) a x).toNat < S8x1024.size a)
instance k0_chk23.dec : ∀ (v17 : IVec S16 32) (v129 : IVec S16 32), Decidable (k0_chk23 v17 v129) := fun v17 v129 => decidable_of_iff' _ (Iff.of_eq (k0_chk23.eq_1 v17 v129))
theorem k0_idx23_inb : ∀ (v17 : IVec S16 32) (v129 : IVec S16 32) (k0_hw23 : k0_chk23 v17 v129), ∀ a x, ((![v17, v129] : Fin 2 → IVec S16 32) a x).toNat < S8x1024.size a := fun v17 v129 k0_hw23 => k0_hw23

def k0_chk24 (v17 : IVec S16 32) (v134 : IVec S16 32) : Prop :=
  (∀ a x, ((![v17, v134] : Fin 2 → IVec S16 32) a x).toNat < S8x1024.size a)
instance k0_chk24.dec : ∀ (v17 : IVec S16 32) (v134 : IVec S16 32), Decidable (k0_chk24 v17 v134) := fun v17 v134 => decidable_of_iff' _ (Iff.of_eq (k0_chk24.eq_1 v17 v134))
theorem k0_idx24_inb : ∀ (v17 : IVec S16 32) (v134 : IVec S16 32) (k0_hw24 : k0_chk24 v17 v134), ∀ a x, ((![v17, v134] : Fin 2 → IVec S16 32) a x).toNat < S8x1024.size a := fun v17 v134 k0_hw24 => k0_hw24

def k0_chk25 (v17 : IVec S16 32) (v139 : IVec S16 32) : Prop :=
  (∀ a x, ((![v17, v139] : Fin 2 → IVec S16 32) a x).toNat < S8x1024.size a)
instance k0_chk25.dec : ∀ (v17 : IVec S16 32) (v139 : IVec S16 32), Decidable (k0_chk25 v17 v139) := fun v17 v139 => decidable_of_iff' _ (Iff.of_eq (k0_chk25.eq_1 v17 v139))
theorem k0_idx25_inb : ∀ (v17 : IVec S16 32) (v139 : IVec S16 32) (k0_hw25 : k0_chk25 v17 v139), ∀ a x, ((![v17, v139] : Fin 2 → IVec S16 32) a x).toNat < S8x1024.size a := fun v17 v139 k0_hw25 => k0_hw25

def k0_chk26 (v17 : IVec S16 32) (v144 : IVec S16 32) : Prop :=
  (∀ a x, ((![v17, v144] : Fin 2 → IVec S16 32) a x).toNat < S8x1024.size a)
instance k0_chk26.dec : ∀ (v17 : IVec S16 32) (v144 : IVec S16 32), Decidable (k0_chk26 v17 v144) := fun v17 v144 => decidable_of_iff' _ (Iff.of_eq (k0_chk26.eq_1 v17 v144))
theorem k0_idx26_inb : ∀ (v17 : IVec S16 32) (v144 : IVec S16 32) (k0_hw26 : k0_chk26 v17 v144), ∀ a x, ((![v17, v144] : Fin 2 → IVec S16 32) a x).toNat < S8x1024.size a := fun v17 v144 k0_hw26 => k0_hw26

def k0_chk27 (v17 : IVec S16 32) (v149 : IVec S16 32) : Prop :=
  (∀ a x, ((![v17, v149] : Fin 2 → IVec S16 32) a x).toNat < S8x1024.size a)
instance k0_chk27.dec : ∀ (v17 : IVec S16 32) (v149 : IVec S16 32), Decidable (k0_chk27 v17 v149) := fun v17 v149 => decidable_of_iff' _ (Iff.of_eq (k0_chk27.eq_1 v17 v149))
theorem k0_idx27_inb : ∀ (v17 : IVec S16 32) (v149 : IVec S16 32) (k0_hw27 : k0_chk27 v17 v149), ∀ a x, ((![v17, v149] : Fin 2 → IVec S16 32) a x).toNat < S8x1024.size a := fun v17 v149 k0_hw27 => k0_hw27

def k0_chk28 (v17 : IVec S16 32) (v154 : IVec S16 32) : Prop :=
  (∀ a x, ((![v17, v154] : Fin 2 → IVec S16 32) a x).toNat < S8x1024.size a)
instance k0_chk28.dec : ∀ (v17 : IVec S16 32) (v154 : IVec S16 32), Decidable (k0_chk28 v17 v154) := fun v17 v154 => decidable_of_iff' _ (Iff.of_eq (k0_chk28.eq_1 v17 v154))
theorem k0_idx28_inb : ∀ (v17 : IVec S16 32) (v154 : IVec S16 32) (k0_hw28 : k0_chk28 v17 v154), ∀ a x, ((![v17, v154] : Fin 2 → IVec S16 32) a x).toNat < S8x1024.size a := fun v17 v154 k0_hw28 => k0_hw28

def k0_chk29 (v17 : IVec S16 32) (v159 : IVec S16 32) : Prop :=
  (∀ a x, ((![v17, v159] : Fin 2 → IVec S16 32) a x).toNat < S8x1024.size a)
instance k0_chk29.dec : ∀ (v17 : IVec S16 32) (v159 : IVec S16 32), Decidable (k0_chk29 v17 v159) := fun v17 v159 => decidable_of_iff' _ (Iff.of_eq (k0_chk29.eq_1 v17 v159))
theorem k0_idx29_inb : ∀ (v17 : IVec S16 32) (v159 : IVec S16 32) (k0_hw29 : k0_chk29 v17 v159), ∀ a x, ((![v17, v159] : Fin 2 → IVec S16 32) a x).toNat < S8x1024.size a := fun v17 v159 k0_hw29 => k0_hw29

def k0_chk30 (v17 : IVec S16 32) (v164 : IVec S16 32) : Prop :=
  (∀ a x, ((![v17, v164] : Fin 2 → IVec S16 32) a x).toNat < S8x1024.size a)
instance k0_chk30.dec : ∀ (v17 : IVec S16 32) (v164 : IVec S16 32), Decidable (k0_chk30 v17 v164) := fun v17 v164 => decidable_of_iff' _ (Iff.of_eq (k0_chk30.eq_1 v17 v164))
theorem k0_idx30_inb : ∀ (v17 : IVec S16 32) (v164 : IVec S16 32) (k0_hw30 : k0_chk30 v17 v164), ∀ a x, ((![v17, v164] : Fin 2 → IVec S16 32) a x).toNat < S8x1024.size a := fun v17 v164 k0_hw30 => k0_hw30

def k0_chk31 (v17 : IVec S16 32) (v169 : IVec S16 32) : Prop :=
  (∀ a x, ((![v17, v169] : Fin 2 → IVec S16 32) a x).toNat < S8x1024.size a)
instance k0_chk31.dec : ∀ (v17 : IVec S16 32) (v169 : IVec S16 32), Decidable (k0_chk31 v17 v169) := fun v17 v169 => decidable_of_iff' _ (Iff.of_eq (k0_chk31.eq_1 v17 v169))
theorem k0_idx31_inb : ∀ (v17 : IVec S16 32) (v169 : IVec S16 32) (k0_hw31 : k0_chk31 v17 v169), ∀ a x, ((![v17, v169] : Fin 2 → IVec S16 32) a x).toNat < S8x1024.size a := fun v17 v169 k0_hw31 => k0_hw31

def k0_chk32 (v17 : IVec S16 32) (v174 : IVec S16 32) : Prop :=
  (∀ a x, ((![v17, v174] : Fin 2 → IVec S16 32) a x).toNat < S8x1024.size a)
instance k0_chk32.dec : ∀ (v17 : IVec S16 32) (v174 : IVec S16 32), Decidable (k0_chk32 v17 v174) := fun v17 v174 => decidable_of_iff' _ (Iff.of_eq (k0_chk32.eq_1 v17 v174))
theorem k0_idx32_inb : ∀ (v17 : IVec S16 32) (v174 : IVec S16 32) (k0_hw32 : k0_chk32 v17 v174), ∀ a x, ((![v17, v174] : Fin 2 → IVec S16 32) a x).toNat < S8x1024.size a := fun v17 v174 k0_hw32 => k0_hw32

def k0_chk33 (v17 : IVec S16 32) (v179 : IVec S16 32) : Prop :=
  (∀ a x, ((![v17, v179] : Fin 2 → IVec S16 32) a x).toNat < S8x1024.size a)
instance k0_chk33.dec : ∀ (v17 : IVec S16 32) (v179 : IVec S16 32), Decidable (k0_chk33 v17 v179) := fun v17 v179 => decidable_of_iff' _ (Iff.of_eq (k0_chk33.eq_1 v17 v179))
theorem k0_idx33_inb : ∀ (v17 : IVec S16 32) (v179 : IVec S16 32) (k0_hw33 : k0_chk33 v17 v179), ∀ a x, ((![v17, v179] : Fin 2 → IVec S16 32) a x).toNat < S8x1024.size a := fun v17 v179 k0_hw33 => k0_hw33

def k0_chk34 (v17 : IVec S16 32) (v184 : IVec S16 32) : Prop :=
  (∀ a x, ((![v17, v184] : Fin 2 → IVec S16 32) a x).toNat < S8x1024.size a)
instance k0_chk34.dec : ∀ (v17 : IVec S16 32) (v184 : IVec S16 32), Decidable (k0_chk34 v17 v184) := fun v17 v184 => decidable_of_iff' _ (Iff.of_eq (k0_chk34.eq_1 v17 v184))
theorem k0_idx34_inb : ∀ (v17 : IVec S16 32) (v184 : IVec S16 32) (k0_hw34 : k0_chk34 v17 v184), ∀ a x, ((![v17, v184] : Fin 2 → IVec S16 32) a x).toNat < S8x1024.size a := fun v17 v184 k0_hw34 => k0_hw34

def k0_chk35 (v17 : IVec S16 32) (v189 : IVec S16 32) : Prop :=
  (∀ a x, ((![v17, v189] : Fin 2 → IVec S16 32) a x).toNat < S8x1024.size a)
instance k0_chk35.dec : ∀ (v17 : IVec S16 32) (v189 : IVec S16 32), Decidable (k0_chk35 v17 v189) := fun v17 v189 => decidable_of_iff' _ (Iff.of_eq (k0_chk35.eq_1 v17 v189))
theorem k0_idx35_inb : ∀ (v17 : IVec S16 32) (v189 : IVec S16 32) (k0_hw35 : k0_chk35 v17 v189), ∀ a x, ((![v17, v189] : Fin 2 → IVec S16 32) a x).toNat < S8x1024.size a := fun v17 v189 k0_hw35 => k0_hw35

def k0_chk36 (v17 : IVec S16 32) (v194 : IVec S16 32) : Prop :=
  (∀ a x, ((![v17, v194] : Fin 2 → IVec S16 32) a x).toNat < S8x1024.size a)
instance k0_chk36.dec : ∀ (v17 : IVec S16 32) (v194 : IVec S16 32), Decidable (k0_chk36 v17 v194) := fun v17 v194 => decidable_of_iff' _ (Iff.of_eq (k0_chk36.eq_1 v17 v194))
theorem k0_idx36_inb : ∀ (v17 : IVec S16 32) (v194 : IVec S16 32) (k0_hw36 : k0_chk36 v17 v194), ∀ a x, ((![v17, v194] : Fin 2 → IVec S16 32) a x).toNat < S8x1024.size a := fun v17 v194 k0_hw36 => k0_hw36

def k0_chk37 (v17 : IVec S16 32) (v199 : IVec S16 32) : Prop :=
  (∀ a x, ((![v17, v199] : Fin 2 → IVec S16 32) a x).toNat < S8x1024.size a)
instance k0_chk37.dec : ∀ (v17 : IVec S16 32) (v199 : IVec S16 32), Decidable (k0_chk37 v17 v199) := fun v17 v199 => decidable_of_iff' _ (Iff.of_eq (k0_chk37.eq_1 v17 v199))
theorem k0_idx37_inb : ∀ (v17 : IVec S16 32) (v199 : IVec S16 32) (k0_hw37 : k0_chk37 v17 v199), ∀ a x, ((![v17, v199] : Fin 2 → IVec S16 32) a x).toNat < S8x1024.size a := fun v17 v199 k0_hw37 => k0_hw37

def k0_chk38 (v17 : IVec S16 32) (v204 : IVec S16 32) : Prop :=
  (∀ a x, ((![v17, v204] : Fin 2 → IVec S16 32) a x).toNat < S8x1024.size a)
instance k0_chk38.dec : ∀ (v17 : IVec S16 32) (v204 : IVec S16 32), Decidable (k0_chk38 v17 v204) := fun v17 v204 => decidable_of_iff' _ (Iff.of_eq (k0_chk38.eq_1 v17 v204))
theorem k0_idx38_inb : ∀ (v17 : IVec S16 32) (v204 : IVec S16 32) (k0_hw38 : k0_chk38 v17 v204), ∀ a x, ((![v17, v204] : Fin 2 → IVec S16 32) a x).toNat < S8x1024.size a := fun v17 v204 k0_hw38 => k0_hw38

def k0_chk39 (v17 : IVec S16 32) (v209 : IVec S16 32) : Prop :=
  (∀ a x, ((![v17, v209] : Fin 2 → IVec S16 32) a x).toNat < S8x1024.size a)
instance k0_chk39.dec : ∀ (v17 : IVec S16 32) (v209 : IVec S16 32), Decidable (k0_chk39 v17 v209) := fun v17 v209 => decidable_of_iff' _ (Iff.of_eq (k0_chk39.eq_1 v17 v209))
theorem k0_idx39_inb : ∀ (v17 : IVec S16 32) (v209 : IVec S16 32) (k0_hw39 : k0_chk39 v17 v209), ∀ a x, ((![v17, v209] : Fin 2 → IVec S16 32) a x).toNat < S8x1024.size a := fun v17 v209 k0_hw39 => k0_hw39

def k0_chk40 (v17 : IVec S16 32) (v214 : IVec S16 32) : Prop :=
  (∀ a x, ((![v17, v214] : Fin 2 → IVec S16 32) a x).toNat < S8x1024.size a)
instance k0_chk40.dec : ∀ (v17 : IVec S16 32) (v214 : IVec S16 32), Decidable (k0_chk40 v17 v214) := fun v17 v214 => decidable_of_iff' _ (Iff.of_eq (k0_chk40.eq_1 v17 v214))
theorem k0_idx40_inb : ∀ (v17 : IVec S16 32) (v214 : IVec S16 32) (k0_hw40 : k0_chk40 v17 v214), ∀ a x, ((![v17, v214] : Fin 2 → IVec S16 32) a x).toNat < S8x1024.size a := fun v17 v214 k0_hw40 => k0_hw40

def k0_chk41 (v17 : IVec S16 32) (v219 : IVec S16 32) : Prop :=
  (∀ a x, ((![v17, v219] : Fin 2 → IVec S16 32) a x).toNat < S8x1024.size a)
instance k0_chk41.dec : ∀ (v17 : IVec S16 32) (v219 : IVec S16 32), Decidable (k0_chk41 v17 v219) := fun v17 v219 => decidable_of_iff' _ (Iff.of_eq (k0_chk41.eq_1 v17 v219))
theorem k0_idx41_inb : ∀ (v17 : IVec S16 32) (v219 : IVec S16 32) (k0_hw41 : k0_chk41 v17 v219), ∀ a x, ((![v17, v219] : Fin 2 → IVec S16 32) a x).toNat < S8x1024.size a := fun v17 v219 k0_hw41 => k0_hw41

def k0_chk42 (v17 : IVec S16 32) (v224 : IVec S16 32) : Prop :=
  (∀ a x, ((![v17, v224] : Fin 2 → IVec S16 32) a x).toNat < S8x1024.size a)
instance k0_chk42.dec : ∀ (v17 : IVec S16 32) (v224 : IVec S16 32), Decidable (k0_chk42 v17 v224) := fun v17 v224 => decidable_of_iff' _ (Iff.of_eq (k0_chk42.eq_1 v17 v224))
theorem k0_idx42_inb : ∀ (v17 : IVec S16 32) (v224 : IVec S16 32) (k0_hw42 : k0_chk42 v17 v224), ∀ a x, ((![v17, v224] : Fin 2 → IVec S16 32) a x).toNat < S8x1024.size a := fun v17 v224 k0_hw42 => k0_hw42

def k0_chk43 (v17 : IVec S16 32) (v229 : IVec S16 32) : Prop :=
  (∀ a x, ((![v17, v229] : Fin 2 → IVec S16 32) a x).toNat < S8x1024.size a)
instance k0_chk43.dec : ∀ (v17 : IVec S16 32) (v229 : IVec S16 32), Decidable (k0_chk43 v17 v229) := fun v17 v229 => decidable_of_iff' _ (Iff.of_eq (k0_chk43.eq_1 v17 v229))
theorem k0_idx43_inb : ∀ (v17 : IVec S16 32) (v229 : IVec S16 32) (k0_hw43 : k0_chk43 v17 v229), ∀ a x, ((![v17, v229] : Fin 2 → IVec S16 32) a x).toNat < S8x1024.size a := fun v17 v229 k0_hw43 => k0_hw43

def k0_chk44 (v17 : IVec S16 32) (v234 : IVec S16 32) : Prop :=
  (∀ a x, ((![v17, v234] : Fin 2 → IVec S16 32) a x).toNat < S8x1024.size a)
instance k0_chk44.dec : ∀ (v17 : IVec S16 32) (v234 : IVec S16 32), Decidable (k0_chk44 v17 v234) := fun v17 v234 => decidable_of_iff' _ (Iff.of_eq (k0_chk44.eq_1 v17 v234))
theorem k0_idx44_inb : ∀ (v17 : IVec S16 32) (v234 : IVec S16 32) (k0_hw44 : k0_chk44 v17 v234), ∀ a x, ((![v17, v234] : Fin 2 → IVec S16 32) a x).toNat < S8x1024.size a := fun v17 v234 k0_hw44 => k0_hw44

def k0_chk45 (v17 : IVec S16 32) (v239 : IVec S16 32) : Prop :=
  (∀ a x, ((![v17, v239] : Fin 2 → IVec S16 32) a x).toNat < S8x1024.size a)
instance k0_chk45.dec : ∀ (v17 : IVec S16 32) (v239 : IVec S16 32), Decidable (k0_chk45 v17 v239) := fun v17 v239 => decidable_of_iff' _ (Iff.of_eq (k0_chk45.eq_1 v17 v239))
theorem k0_idx45_inb : ∀ (v17 : IVec S16 32) (v239 : IVec S16 32) (k0_hw45 : k0_chk45 v17 v239), ∀ a x, ((![v17, v239] : Fin 2 → IVec S16 32) a x).toNat < S8x1024.size a := fun v17 v239 k0_hw45 => k0_hw45

def k0_chk46 (v17 : IVec S16 32) (v244 : IVec S16 32) : Prop :=
  (∀ a x, ((![v17, v244] : Fin 2 → IVec S16 32) a x).toNat < S8x1024.size a)
instance k0_chk46.dec : ∀ (v17 : IVec S16 32) (v244 : IVec S16 32), Decidable (k0_chk46 v17 v244) := fun v17 v244 => decidable_of_iff' _ (Iff.of_eq (k0_chk46.eq_1 v17 v244))
theorem k0_idx46_inb : ∀ (v17 : IVec S16 32) (v244 : IVec S16 32) (k0_hw46 : k0_chk46 v17 v244), ∀ a x, ((![v17, v244] : Fin 2 → IVec S16 32) a x).toNat < S8x1024.size a := fun v17 v244 k0_hw46 => k0_hw46

def k0_chk47 (v17 : IVec S16 32) (v249 : IVec S16 32) : Prop :=
  (∀ a x, ((![v17, v249] : Fin 2 → IVec S16 32) a x).toNat < S8x1024.size a)
instance k0_chk47.dec : ∀ (v17 : IVec S16 32) (v249 : IVec S16 32), Decidable (k0_chk47 v17 v249) := fun v17 v249 => decidable_of_iff' _ (Iff.of_eq (k0_chk47.eq_1 v17 v249))
theorem k0_idx47_inb : ∀ (v17 : IVec S16 32) (v249 : IVec S16 32) (k0_hw47 : k0_chk47 v17 v249), ∀ a x, ((![v17, v249] : Fin 2 → IVec S16 32) a x).toNat < S8x1024.size a := fun v17 v249 k0_hw47 => k0_hw47

def k0_chk48 (v17 : IVec S16 32) (v254 : IVec S16 32) : Prop :=
  (∀ a x, ((![v17, v254] : Fin 2 → IVec S16 32) a x).toNat < S8x1024.size a)
instance k0_chk48.dec : ∀ (v17 : IVec S16 32) (v254 : IVec S16 32), Decidable (k0_chk48 v17 v254) := fun v17 v254 => decidable_of_iff' _ (Iff.of_eq (k0_chk48.eq_1 v17 v254))
theorem k0_idx48_inb : ∀ (v17 : IVec S16 32) (v254 : IVec S16 32) (k0_hw48 : k0_chk48 v17 v254), ∀ a x, ((![v17, v254] : Fin 2 → IVec S16 32) a x).toNat < S8x1024.size a := fun v17 v254 k0_hw48 => k0_hw48

def k0_chk49 (v17 : IVec S16 32) (v259 : IVec S16 32) : Prop :=
  (∀ a x, ((![v17, v259] : Fin 2 → IVec S16 32) a x).toNat < S8x1024.size a)
instance k0_chk49.dec : ∀ (v17 : IVec S16 32) (v259 : IVec S16 32), Decidable (k0_chk49 v17 v259) := fun v17 v259 => decidable_of_iff' _ (Iff.of_eq (k0_chk49.eq_1 v17 v259))
theorem k0_idx49_inb : ∀ (v17 : IVec S16 32) (v259 : IVec S16 32) (k0_hw49 : k0_chk49 v17 v259), ∀ a x, ((![v17, v259] : Fin 2 → IVec S16 32) a x).toNat < S8x1024.size a := fun v17 v259 k0_hw49 => k0_hw49

def k0_chk50 (v17 : IVec S16 32) (v264 : IVec S16 32) : Prop :=
  (∀ a x, ((![v17, v264] : Fin 2 → IVec S16 32) a x).toNat < S8x1024.size a)
instance k0_chk50.dec : ∀ (v17 : IVec S16 32) (v264 : IVec S16 32), Decidable (k0_chk50 v17 v264) := fun v17 v264 => decidable_of_iff' _ (Iff.of_eq (k0_chk50.eq_1 v17 v264))
theorem k0_idx50_inb : ∀ (v17 : IVec S16 32) (v264 : IVec S16 32) (k0_hw50 : k0_chk50 v17 v264), ∀ a x, ((![v17, v264] : Fin 2 → IVec S16 32) a x).toNat < S8x1024.size a := fun v17 v264 k0_hw50 => k0_hw50

def k0_chk51 (v17 : IVec S16 32) (v269 : IVec S16 32) : Prop :=
  (∀ a x, ((![v17, v269] : Fin 2 → IVec S16 32) a x).toNat < S8x1024.size a)
instance k0_chk51.dec : ∀ (v17 : IVec S16 32) (v269 : IVec S16 32), Decidable (k0_chk51 v17 v269) := fun v17 v269 => decidable_of_iff' _ (Iff.of_eq (k0_chk51.eq_1 v17 v269))
theorem k0_idx51_inb : ∀ (v17 : IVec S16 32) (v269 : IVec S16 32) (k0_hw51 : k0_chk51 v17 v269), ∀ a x, ((![v17, v269] : Fin 2 → IVec S16 32) a x).toNat < S8x1024.size a := fun v17 v269 k0_hw51 => k0_hw51

def k0_chk52 (v17 : IVec S16 32) (v274 : IVec S16 32) : Prop :=
  (∀ a x, ((![v17, v274] : Fin 2 → IVec S16 32) a x).toNat < S8x1024.size a)
instance k0_chk52.dec : ∀ (v17 : IVec S16 32) (v274 : IVec S16 32), Decidable (k0_chk52 v17 v274) := fun v17 v274 => decidable_of_iff' _ (Iff.of_eq (k0_chk52.eq_1 v17 v274))
theorem k0_idx52_inb : ∀ (v17 : IVec S16 32) (v274 : IVec S16 32) (k0_hw52 : k0_chk52 v17 v274), ∀ a x, ((![v17, v274] : Fin 2 → IVec S16 32) a x).toNat < S8x1024.size a := fun v17 v274 k0_hw52 => k0_hw52

def k0_chk53 (v17 : IVec S16 32) (v279 : IVec S16 32) : Prop :=
  (∀ a x, ((![v17, v279] : Fin 2 → IVec S16 32) a x).toNat < S8x1024.size a)
instance k0_chk53.dec : ∀ (v17 : IVec S16 32) (v279 : IVec S16 32), Decidable (k0_chk53 v17 v279) := fun v17 v279 => decidable_of_iff' _ (Iff.of_eq (k0_chk53.eq_1 v17 v279))
theorem k0_idx53_inb : ∀ (v17 : IVec S16 32) (v279 : IVec S16 32) (k0_hw53 : k0_chk53 v17 v279), ∀ a x, ((![v17, v279] : Fin 2 → IVec S16 32) a x).toNat < S8x1024.size a := fun v17 v279 k0_hw53 => k0_hw53

def k0_chk54 (v17 : IVec S16 32) (v284 : IVec S16 32) : Prop :=
  (∀ a x, ((![v17, v284] : Fin 2 → IVec S16 32) a x).toNat < S8x1024.size a)
instance k0_chk54.dec : ∀ (v17 : IVec S16 32) (v284 : IVec S16 32), Decidable (k0_chk54 v17 v284) := fun v17 v284 => decidable_of_iff' _ (Iff.of_eq (k0_chk54.eq_1 v17 v284))
theorem k0_idx54_inb : ∀ (v17 : IVec S16 32) (v284 : IVec S16 32) (k0_hw54 : k0_chk54 v17 v284), ∀ a x, ((![v17, v284] : Fin 2 → IVec S16 32) a x).toNat < S8x1024.size a := fun v17 v284 k0_hw54 => k0_hw54

def k0_chk55 (v17 : IVec S16 32) (v289 : IVec S16 32) : Prop :=
  (∀ a x, ((![v17, v289] : Fin 2 → IVec S16 32) a x).toNat < S8x1024.size a)
instance k0_chk55.dec : ∀ (v17 : IVec S16 32) (v289 : IVec S16 32), Decidable (k0_chk55 v17 v289) := fun v17 v289 => decidable_of_iff' _ (Iff.of_eq (k0_chk55.eq_1 v17 v289))
theorem k0_idx55_inb : ∀ (v17 : IVec S16 32) (v289 : IVec S16 32) (k0_hw55 : k0_chk55 v17 v289), ∀ a x, ((![v17, v289] : Fin 2 → IVec S16 32) a x).toNat < S8x1024.size a := fun v17 v289 k0_hw55 => k0_hw55

def k0_chk56 (v17 : IVec S16 32) (v294 : IVec S16 32) : Prop :=
  (∀ a x, ((![v17, v294] : Fin 2 → IVec S16 32) a x).toNat < S8x1024.size a)
instance k0_chk56.dec : ∀ (v17 : IVec S16 32) (v294 : IVec S16 32), Decidable (k0_chk56 v17 v294) := fun v17 v294 => decidable_of_iff' _ (Iff.of_eq (k0_chk56.eq_1 v17 v294))
theorem k0_idx56_inb : ∀ (v17 : IVec S16 32) (v294 : IVec S16 32) (k0_hw56 : k0_chk56 v17 v294), ∀ a x, ((![v17, v294] : Fin 2 → IVec S16 32) a x).toNat < S8x1024.size a := fun v17 v294 k0_hw56 => k0_hw56

def k0_chk57 (v17 : IVec S16 32) (v299 : IVec S16 32) : Prop :=
  (∀ a x, ((![v17, v299] : Fin 2 → IVec S16 32) a x).toNat < S8x1024.size a)
instance k0_chk57.dec : ∀ (v17 : IVec S16 32) (v299 : IVec S16 32), Decidable (k0_chk57 v17 v299) := fun v17 v299 => decidable_of_iff' _ (Iff.of_eq (k0_chk57.eq_1 v17 v299))
theorem k0_idx57_inb : ∀ (v17 : IVec S16 32) (v299 : IVec S16 32) (k0_hw57 : k0_chk57 v17 v299), ∀ a x, ((![v17, v299] : Fin 2 → IVec S16 32) a x).toNat < S8x1024.size a := fun v17 v299 k0_hw57 => k0_hw57

def k0_chk58 (v17 : IVec S16 32) (v304 : IVec S16 32) : Prop :=
  (∀ a x, ((![v17, v304] : Fin 2 → IVec S16 32) a x).toNat < S8x1024.size a)
instance k0_chk58.dec : ∀ (v17 : IVec S16 32) (v304 : IVec S16 32), Decidable (k0_chk58 v17 v304) := fun v17 v304 => decidable_of_iff' _ (Iff.of_eq (k0_chk58.eq_1 v17 v304))
theorem k0_idx58_inb : ∀ (v17 : IVec S16 32) (v304 : IVec S16 32) (k0_hw58 : k0_chk58 v17 v304), ∀ a x, ((![v17, v304] : Fin 2 → IVec S16 32) a x).toNat < S8x1024.size a := fun v17 v304 k0_hw58 => k0_hw58

def k0_chk59 (v17 : IVec S16 32) (v309 : IVec S16 32) : Prop :=
  (∀ a x, ((![v17, v309] : Fin 2 → IVec S16 32) a x).toNat < S8x1024.size a)
instance k0_chk59.dec : ∀ (v17 : IVec S16 32) (v309 : IVec S16 32), Decidable (k0_chk59 v17 v309) := fun v17 v309 => decidable_of_iff' _ (Iff.of_eq (k0_chk59.eq_1 v17 v309))
theorem k0_idx59_inb : ∀ (v17 : IVec S16 32) (v309 : IVec S16 32) (k0_hw59 : k0_chk59 v17 v309), ∀ a x, ((![v17, v309] : Fin 2 → IVec S16 32) a x).toNat < S8x1024.size a := fun v17 v309 k0_hw59 => k0_hw59

def k0_chk60 (v17 : IVec S16 32) (v314 : IVec S16 32) : Prop :=
  (∀ a x, ((![v17, v314] : Fin 2 → IVec S16 32) a x).toNat < S8x1024.size a)
instance k0_chk60.dec : ∀ (v17 : IVec S16 32) (v314 : IVec S16 32), Decidable (k0_chk60 v17 v314) := fun v17 v314 => decidable_of_iff' _ (Iff.of_eq (k0_chk60.eq_1 v17 v314))
theorem k0_idx60_inb : ∀ (v17 : IVec S16 32) (v314 : IVec S16 32) (k0_hw60 : k0_chk60 v17 v314), ∀ a x, ((![v17, v314] : Fin 2 → IVec S16 32) a x).toNat < S8x1024.size a := fun v17 v314 k0_hw60 => k0_hw60

def k0_chk61 (v17 : IVec S16 32) (v319 : IVec S16 32) : Prop :=
  (∀ a x, ((![v17, v319] : Fin 2 → IVec S16 32) a x).toNat < S8x1024.size a)
instance k0_chk61.dec : ∀ (v17 : IVec S16 32) (v319 : IVec S16 32), Decidable (k0_chk61 v17 v319) := fun v17 v319 => decidable_of_iff' _ (Iff.of_eq (k0_chk61.eq_1 v17 v319))
theorem k0_idx61_inb : ∀ (v17 : IVec S16 32) (v319 : IVec S16 32) (k0_hw61 : k0_chk61 v17 v319), ∀ a x, ((![v17, v319] : Fin 2 → IVec S16 32) a x).toNat < S8x1024.size a := fun v17 v319 k0_hw61 => k0_hw61

def k0_chk62 (v17 : IVec S16 32) (v324 : IVec S16 32) : Prop :=
  (∀ a x, ((![v17, v324] : Fin 2 → IVec S16 32) a x).toNat < S8x1024.size a)
instance k0_chk62.dec : ∀ (v17 : IVec S16 32) (v324 : IVec S16 32), Decidable (k0_chk62 v17 v324) := fun v17 v324 => decidable_of_iff' _ (Iff.of_eq (k0_chk62.eq_1 v17 v324))
theorem k0_idx62_inb : ∀ (v17 : IVec S16 32) (v324 : IVec S16 32) (k0_hw62 : k0_chk62 v17 v324), ∀ a x, ((![v17, v324] : Fin 2 → IVec S16 32) a x).toNat < S8x1024.size a := fun v17 v324 k0_hw62 => k0_hw62

def k0_chk63 (v17 : IVec S16 32) (v329 : IVec S16 32) : Prop :=
  (∀ a x, ((![v17, v329] : Fin 2 → IVec S16 32) a x).toNat < S8x1024.size a)
instance k0_chk63.dec : ∀ (v17 : IVec S16 32) (v329 : IVec S16 32), Decidable (k0_chk63 v17 v329) := fun v17 v329 => decidable_of_iff' _ (Iff.of_eq (k0_chk63.eq_1 v17 v329))
theorem k0_idx63_inb : ∀ (v17 : IVec S16 32) (v329 : IVec S16 32) (k0_hw63 : k0_chk63 v17 v329), ∀ a x, ((![v17, v329] : Fin 2 → IVec S16 32) a x).toNat < S8x1024.size a := fun v17 v329 k0_hw63 => k0_hw63

def k0_chk64 (v17 : IVec S16 32) (v334 : IVec S16 32) : Prop :=
  (∀ a x, ((![v17, v334] : Fin 2 → IVec S16 32) a x).toNat < S8x1024.size a)
instance k0_chk64.dec : ∀ (v17 : IVec S16 32) (v334 : IVec S16 32), Decidable (k0_chk64 v17 v334) := fun v17 v334 => decidable_of_iff' _ (Iff.of_eq (k0_chk64.eq_1 v17 v334))
theorem k0_idx64_inb : ∀ (v17 : IVec S16 32) (v334 : IVec S16 32) (k0_hw64 : k0_chk64 v17 v334), ∀ a x, ((![v17, v334] : Fin 2 → IVec S16 32) a x).toNat < S8x1024.size a := fun v17 v334 k0_hw64 => k0_hw64

def k0_chk65 (v339 : IVec S16 32) (v341 : IVec S16 32) : Prop :=
  (∀ a x, ((![v339, v341] : Fin 2 → IVec S16 32) a x).toNat < S8x1024.size a)
instance k0_chk65.dec : ∀ (v339 : IVec S16 32) (v341 : IVec S16 32), Decidable (k0_chk65 v339 v341) := fun v339 v341 => decidable_of_iff' _ (Iff.of_eq (k0_chk65.eq_1 v339 v341))
theorem k0_idx65_inb : ∀ (v339 : IVec S16 32) (v341 : IVec S16 32) (k0_hw65 : k0_chk65 v339 v341), ∀ a x, ((![v339, v341] : Fin 2 → IVec S16 32) a x).toNat < S8x1024.size a := fun v339 v341 k0_hw65 => k0_hw65

def k0_chk66 (v339 : IVec S16 32) (v346 : IVec S16 32) : Prop :=
  (∀ a x, ((![v339, v346] : Fin 2 → IVec S16 32) a x).toNat < S8x1024.size a)
instance k0_chk66.dec : ∀ (v339 : IVec S16 32) (v346 : IVec S16 32), Decidable (k0_chk66 v339 v346) := fun v339 v346 => decidable_of_iff' _ (Iff.of_eq (k0_chk66.eq_1 v339 v346))
theorem k0_idx66_inb : ∀ (v339 : IVec S16 32) (v346 : IVec S16 32) (k0_hw66 : k0_chk66 v339 v346), ∀ a x, ((![v339, v346] : Fin 2 → IVec S16 32) a x).toNat < S8x1024.size a := fun v339 v346 k0_hw66 => k0_hw66

def k0_chk67 (v339 : IVec S16 32) (v351 : IVec S16 32) : Prop :=
  (∀ a x, ((![v339, v351] : Fin 2 → IVec S16 32) a x).toNat < S8x1024.size a)
instance k0_chk67.dec : ∀ (v339 : IVec S16 32) (v351 : IVec S16 32), Decidable (k0_chk67 v339 v351) := fun v339 v351 => decidable_of_iff' _ (Iff.of_eq (k0_chk67.eq_1 v339 v351))
theorem k0_idx67_inb : ∀ (v339 : IVec S16 32) (v351 : IVec S16 32) (k0_hw67 : k0_chk67 v339 v351), ∀ a x, ((![v339, v351] : Fin 2 → IVec S16 32) a x).toNat < S8x1024.size a := fun v339 v351 k0_hw67 => k0_hw67

def k0_chk68 (v339 : IVec S16 32) (v356 : IVec S16 32) : Prop :=
  (∀ a x, ((![v339, v356] : Fin 2 → IVec S16 32) a x).toNat < S8x1024.size a)
instance k0_chk68.dec : ∀ (v339 : IVec S16 32) (v356 : IVec S16 32), Decidable (k0_chk68 v339 v356) := fun v339 v356 => decidable_of_iff' _ (Iff.of_eq (k0_chk68.eq_1 v339 v356))
theorem k0_idx68_inb : ∀ (v339 : IVec S16 32) (v356 : IVec S16 32) (k0_hw68 : k0_chk68 v339 v356), ∀ a x, ((![v339, v356] : Fin 2 → IVec S16 32) a x).toNat < S8x1024.size a := fun v339 v356 k0_hw68 => k0_hw68

def k0_chk69 (v339 : IVec S16 32) (v361 : IVec S16 32) : Prop :=
  (∀ a x, ((![v339, v361] : Fin 2 → IVec S16 32) a x).toNat < S8x1024.size a)
instance k0_chk69.dec : ∀ (v339 : IVec S16 32) (v361 : IVec S16 32), Decidable (k0_chk69 v339 v361) := fun v339 v361 => decidable_of_iff' _ (Iff.of_eq (k0_chk69.eq_1 v339 v361))
theorem k0_idx69_inb : ∀ (v339 : IVec S16 32) (v361 : IVec S16 32) (k0_hw69 : k0_chk69 v339 v361), ∀ a x, ((![v339, v361] : Fin 2 → IVec S16 32) a x).toNat < S8x1024.size a := fun v339 v361 k0_hw69 => k0_hw69

def k0_chk70 (v339 : IVec S16 32) (v366 : IVec S16 32) : Prop :=
  (∀ a x, ((![v339, v366] : Fin 2 → IVec S16 32) a x).toNat < S8x1024.size a)
instance k0_chk70.dec : ∀ (v339 : IVec S16 32) (v366 : IVec S16 32), Decidable (k0_chk70 v339 v366) := fun v339 v366 => decidable_of_iff' _ (Iff.of_eq (k0_chk70.eq_1 v339 v366))
theorem k0_idx70_inb : ∀ (v339 : IVec S16 32) (v366 : IVec S16 32) (k0_hw70 : k0_chk70 v339 v366), ∀ a x, ((![v339, v366] : Fin 2 → IVec S16 32) a x).toNat < S8x1024.size a := fun v339 v366 k0_hw70 => k0_hw70

def k0_chk71 (v339 : IVec S16 32) (v371 : IVec S16 32) : Prop :=
  (∀ a x, ((![v339, v371] : Fin 2 → IVec S16 32) a x).toNat < S8x1024.size a)
instance k0_chk71.dec : ∀ (v339 : IVec S16 32) (v371 : IVec S16 32), Decidable (k0_chk71 v339 v371) := fun v339 v371 => decidable_of_iff' _ (Iff.of_eq (k0_chk71.eq_1 v339 v371))
theorem k0_idx71_inb : ∀ (v339 : IVec S16 32) (v371 : IVec S16 32) (k0_hw71 : k0_chk71 v339 v371), ∀ a x, ((![v339, v371] : Fin 2 → IVec S16 32) a x).toNat < S8x1024.size a := fun v339 v371 k0_hw71 => k0_hw71

def k0_chk72 (v339 : IVec S16 32) (v376 : IVec S16 32) : Prop :=
  (∀ a x, ((![v339, v376] : Fin 2 → IVec S16 32) a x).toNat < S8x1024.size a)
instance k0_chk72.dec : ∀ (v339 : IVec S16 32) (v376 : IVec S16 32), Decidable (k0_chk72 v339 v376) := fun v339 v376 => decidable_of_iff' _ (Iff.of_eq (k0_chk72.eq_1 v339 v376))
theorem k0_idx72_inb : ∀ (v339 : IVec S16 32) (v376 : IVec S16 32) (k0_hw72 : k0_chk72 v339 v376), ∀ a x, ((![v339, v376] : Fin 2 → IVec S16 32) a x).toNat < S8x1024.size a := fun v339 v376 k0_hw72 => k0_hw72

def k0_chk73 (v339 : IVec S16 32) (v381 : IVec S16 32) : Prop :=
  (∀ a x, ((![v339, v381] : Fin 2 → IVec S16 32) a x).toNat < S8x1024.size a)
instance k0_chk73.dec : ∀ (v339 : IVec S16 32) (v381 : IVec S16 32), Decidable (k0_chk73 v339 v381) := fun v339 v381 => decidable_of_iff' _ (Iff.of_eq (k0_chk73.eq_1 v339 v381))
theorem k0_idx73_inb : ∀ (v339 : IVec S16 32) (v381 : IVec S16 32) (k0_hw73 : k0_chk73 v339 v381), ∀ a x, ((![v339, v381] : Fin 2 → IVec S16 32) a x).toNat < S8x1024.size a := fun v339 v381 k0_hw73 => k0_hw73

def k0_chk74 (v339 : IVec S16 32) (v386 : IVec S16 32) : Prop :=
  (∀ a x, ((![v339, v386] : Fin 2 → IVec S16 32) a x).toNat < S8x1024.size a)
instance k0_chk74.dec : ∀ (v339 : IVec S16 32) (v386 : IVec S16 32), Decidable (k0_chk74 v339 v386) := fun v339 v386 => decidable_of_iff' _ (Iff.of_eq (k0_chk74.eq_1 v339 v386))
theorem k0_idx74_inb : ∀ (v339 : IVec S16 32) (v386 : IVec S16 32) (k0_hw74 : k0_chk74 v339 v386), ∀ a x, ((![v339, v386] : Fin 2 → IVec S16 32) a x).toNat < S8x1024.size a := fun v339 v386 k0_hw74 => k0_hw74

def k0_chk75 (v339 : IVec S16 32) (v391 : IVec S16 32) : Prop :=
  (∀ a x, ((![v339, v391] : Fin 2 → IVec S16 32) a x).toNat < S8x1024.size a)
instance k0_chk75.dec : ∀ (v339 : IVec S16 32) (v391 : IVec S16 32), Decidable (k0_chk75 v339 v391) := fun v339 v391 => decidable_of_iff' _ (Iff.of_eq (k0_chk75.eq_1 v339 v391))
theorem k0_idx75_inb : ∀ (v339 : IVec S16 32) (v391 : IVec S16 32) (k0_hw75 : k0_chk75 v339 v391), ∀ a x, ((![v339, v391] : Fin 2 → IVec S16 32) a x).toNat < S8x1024.size a := fun v339 v391 k0_hw75 => k0_hw75

def k0_chk76 (v339 : IVec S16 32) (v396 : IVec S16 32) : Prop :=
  (∀ a x, ((![v339, v396] : Fin 2 → IVec S16 32) a x).toNat < S8x1024.size a)
instance k0_chk76.dec : ∀ (v339 : IVec S16 32) (v396 : IVec S16 32), Decidable (k0_chk76 v339 v396) := fun v339 v396 => decidable_of_iff' _ (Iff.of_eq (k0_chk76.eq_1 v339 v396))
theorem k0_idx76_inb : ∀ (v339 : IVec S16 32) (v396 : IVec S16 32) (k0_hw76 : k0_chk76 v339 v396), ∀ a x, ((![v339, v396] : Fin 2 → IVec S16 32) a x).toNat < S8x1024.size a := fun v339 v396 k0_hw76 => k0_hw76

def k0_chk77 (v339 : IVec S16 32) (v401 : IVec S16 32) : Prop :=
  (∀ a x, ((![v339, v401] : Fin 2 → IVec S16 32) a x).toNat < S8x1024.size a)
instance k0_chk77.dec : ∀ (v339 : IVec S16 32) (v401 : IVec S16 32), Decidable (k0_chk77 v339 v401) := fun v339 v401 => decidable_of_iff' _ (Iff.of_eq (k0_chk77.eq_1 v339 v401))
theorem k0_idx77_inb : ∀ (v339 : IVec S16 32) (v401 : IVec S16 32) (k0_hw77 : k0_chk77 v339 v401), ∀ a x, ((![v339, v401] : Fin 2 → IVec S16 32) a x).toNat < S8x1024.size a := fun v339 v401 k0_hw77 => k0_hw77

def k0_chk78 (v339 : IVec S16 32) (v406 : IVec S16 32) : Prop :=
  (∀ a x, ((![v339, v406] : Fin 2 → IVec S16 32) a x).toNat < S8x1024.size a)
instance k0_chk78.dec : ∀ (v339 : IVec S16 32) (v406 : IVec S16 32), Decidable (k0_chk78 v339 v406) := fun v339 v406 => decidable_of_iff' _ (Iff.of_eq (k0_chk78.eq_1 v339 v406))
theorem k0_idx78_inb : ∀ (v339 : IVec S16 32) (v406 : IVec S16 32) (k0_hw78 : k0_chk78 v339 v406), ∀ a x, ((![v339, v406] : Fin 2 → IVec S16 32) a x).toNat < S8x1024.size a := fun v339 v406 k0_hw78 => k0_hw78

def k0_chk79 (v339 : IVec S16 32) (v411 : IVec S16 32) : Prop :=
  (∀ a x, ((![v339, v411] : Fin 2 → IVec S16 32) a x).toNat < S8x1024.size a)
instance k0_chk79.dec : ∀ (v339 : IVec S16 32) (v411 : IVec S16 32), Decidable (k0_chk79 v339 v411) := fun v339 v411 => decidable_of_iff' _ (Iff.of_eq (k0_chk79.eq_1 v339 v411))
theorem k0_idx79_inb : ∀ (v339 : IVec S16 32) (v411 : IVec S16 32) (k0_hw79 : k0_chk79 v339 v411), ∀ a x, ((![v339, v411] : Fin 2 → IVec S16 32) a x).toNat < S8x1024.size a := fun v339 v411 k0_hw79 => k0_hw79

def k0_chk80 (v339 : IVec S16 32) (v416 : IVec S16 32) : Prop :=
  (∀ a x, ((![v339, v416] : Fin 2 → IVec S16 32) a x).toNat < S8x1024.size a)
instance k0_chk80.dec : ∀ (v339 : IVec S16 32) (v416 : IVec S16 32), Decidable (k0_chk80 v339 v416) := fun v339 v416 => decidable_of_iff' _ (Iff.of_eq (k0_chk80.eq_1 v339 v416))
theorem k0_idx80_inb : ∀ (v339 : IVec S16 32) (v416 : IVec S16 32) (k0_hw80 : k0_chk80 v339 v416), ∀ a x, ((![v339, v416] : Fin 2 → IVec S16 32) a x).toNat < S8x1024.size a := fun v339 v416 k0_hw80 => k0_hw80

def k0_chk81 (v339 : IVec S16 32) (v421 : IVec S16 32) : Prop :=
  (∀ a x, ((![v339, v421] : Fin 2 → IVec S16 32) a x).toNat < S8x1024.size a)
instance k0_chk81.dec : ∀ (v339 : IVec S16 32) (v421 : IVec S16 32), Decidable (k0_chk81 v339 v421) := fun v339 v421 => decidable_of_iff' _ (Iff.of_eq (k0_chk81.eq_1 v339 v421))
theorem k0_idx81_inb : ∀ (v339 : IVec S16 32) (v421 : IVec S16 32) (k0_hw81 : k0_chk81 v339 v421), ∀ a x, ((![v339, v421] : Fin 2 → IVec S16 32) a x).toNat < S8x1024.size a := fun v339 v421 k0_hw81 => k0_hw81

def k0_chk82 (v339 : IVec S16 32) (v426 : IVec S16 32) : Prop :=
  (∀ a x, ((![v339, v426] : Fin 2 → IVec S16 32) a x).toNat < S8x1024.size a)
instance k0_chk82.dec : ∀ (v339 : IVec S16 32) (v426 : IVec S16 32), Decidable (k0_chk82 v339 v426) := fun v339 v426 => decidable_of_iff' _ (Iff.of_eq (k0_chk82.eq_1 v339 v426))
theorem k0_idx82_inb : ∀ (v339 : IVec S16 32) (v426 : IVec S16 32) (k0_hw82 : k0_chk82 v339 v426), ∀ a x, ((![v339, v426] : Fin 2 → IVec S16 32) a x).toNat < S8x1024.size a := fun v339 v426 k0_hw82 => k0_hw82

def k0_chk83 (v339 : IVec S16 32) (v431 : IVec S16 32) : Prop :=
  (∀ a x, ((![v339, v431] : Fin 2 → IVec S16 32) a x).toNat < S8x1024.size a)
instance k0_chk83.dec : ∀ (v339 : IVec S16 32) (v431 : IVec S16 32), Decidable (k0_chk83 v339 v431) := fun v339 v431 => decidable_of_iff' _ (Iff.of_eq (k0_chk83.eq_1 v339 v431))
theorem k0_idx83_inb : ∀ (v339 : IVec S16 32) (v431 : IVec S16 32) (k0_hw83 : k0_chk83 v339 v431), ∀ a x, ((![v339, v431] : Fin 2 → IVec S16 32) a x).toNat < S8x1024.size a := fun v339 v431 k0_hw83 => k0_hw83

def k0_chk84 (v339 : IVec S16 32) (v436 : IVec S16 32) : Prop :=
  (∀ a x, ((![v339, v436] : Fin 2 → IVec S16 32) a x).toNat < S8x1024.size a)
instance k0_chk84.dec : ∀ (v339 : IVec S16 32) (v436 : IVec S16 32), Decidable (k0_chk84 v339 v436) := fun v339 v436 => decidable_of_iff' _ (Iff.of_eq (k0_chk84.eq_1 v339 v436))
theorem k0_idx84_inb : ∀ (v339 : IVec S16 32) (v436 : IVec S16 32) (k0_hw84 : k0_chk84 v339 v436), ∀ a x, ((![v339, v436] : Fin 2 → IVec S16 32) a x).toNat < S8x1024.size a := fun v339 v436 k0_hw84 => k0_hw84

def k0_chk85 (v339 : IVec S16 32) (v441 : IVec S16 32) : Prop :=
  (∀ a x, ((![v339, v441] : Fin 2 → IVec S16 32) a x).toNat < S8x1024.size a)
instance k0_chk85.dec : ∀ (v339 : IVec S16 32) (v441 : IVec S16 32), Decidable (k0_chk85 v339 v441) := fun v339 v441 => decidable_of_iff' _ (Iff.of_eq (k0_chk85.eq_1 v339 v441))
theorem k0_idx85_inb : ∀ (v339 : IVec S16 32) (v441 : IVec S16 32) (k0_hw85 : k0_chk85 v339 v441), ∀ a x, ((![v339, v441] : Fin 2 → IVec S16 32) a x).toNat < S8x1024.size a := fun v339 v441 k0_hw85 => k0_hw85

def k0_chk86 (v339 : IVec S16 32) (v446 : IVec S16 32) : Prop :=
  (∀ a x, ((![v339, v446] : Fin 2 → IVec S16 32) a x).toNat < S8x1024.size a)
instance k0_chk86.dec : ∀ (v339 : IVec S16 32) (v446 : IVec S16 32), Decidable (k0_chk86 v339 v446) := fun v339 v446 => decidable_of_iff' _ (Iff.of_eq (k0_chk86.eq_1 v339 v446))
theorem k0_idx86_inb : ∀ (v339 : IVec S16 32) (v446 : IVec S16 32) (k0_hw86 : k0_chk86 v339 v446), ∀ a x, ((![v339, v446] : Fin 2 → IVec S16 32) a x).toNat < S8x1024.size a := fun v339 v446 k0_hw86 => k0_hw86

def k0_chk87 (v339 : IVec S16 32) (v451 : IVec S16 32) : Prop :=
  (∀ a x, ((![v339, v451] : Fin 2 → IVec S16 32) a x).toNat < S8x1024.size a)
instance k0_chk87.dec : ∀ (v339 : IVec S16 32) (v451 : IVec S16 32), Decidable (k0_chk87 v339 v451) := fun v339 v451 => decidable_of_iff' _ (Iff.of_eq (k0_chk87.eq_1 v339 v451))
theorem k0_idx87_inb : ∀ (v339 : IVec S16 32) (v451 : IVec S16 32) (k0_hw87 : k0_chk87 v339 v451), ∀ a x, ((![v339, v451] : Fin 2 → IVec S16 32) a x).toNat < S8x1024.size a := fun v339 v451 k0_hw87 => k0_hw87

def k0_chk88 (v339 : IVec S16 32) (v456 : IVec S16 32) : Prop :=
  (∀ a x, ((![v339, v456] : Fin 2 → IVec S16 32) a x).toNat < S8x1024.size a)
instance k0_chk88.dec : ∀ (v339 : IVec S16 32) (v456 : IVec S16 32), Decidable (k0_chk88 v339 v456) := fun v339 v456 => decidable_of_iff' _ (Iff.of_eq (k0_chk88.eq_1 v339 v456))
theorem k0_idx88_inb : ∀ (v339 : IVec S16 32) (v456 : IVec S16 32) (k0_hw88 : k0_chk88 v339 v456), ∀ a x, ((![v339, v456] : Fin 2 → IVec S16 32) a x).toNat < S8x1024.size a := fun v339 v456 k0_hw88 => k0_hw88

def k0_chk89 (v339 : IVec S16 32) (v461 : IVec S16 32) : Prop :=
  (∀ a x, ((![v339, v461] : Fin 2 → IVec S16 32) a x).toNat < S8x1024.size a)
instance k0_chk89.dec : ∀ (v339 : IVec S16 32) (v461 : IVec S16 32), Decidable (k0_chk89 v339 v461) := fun v339 v461 => decidable_of_iff' _ (Iff.of_eq (k0_chk89.eq_1 v339 v461))
theorem k0_idx89_inb : ∀ (v339 : IVec S16 32) (v461 : IVec S16 32) (k0_hw89 : k0_chk89 v339 v461), ∀ a x, ((![v339, v461] : Fin 2 → IVec S16 32) a x).toNat < S8x1024.size a := fun v339 v461 k0_hw89 => k0_hw89

def k0_chk90 (v339 : IVec S16 32) (v466 : IVec S16 32) : Prop :=
  (∀ a x, ((![v339, v466] : Fin 2 → IVec S16 32) a x).toNat < S8x1024.size a)
instance k0_chk90.dec : ∀ (v339 : IVec S16 32) (v466 : IVec S16 32), Decidable (k0_chk90 v339 v466) := fun v339 v466 => decidable_of_iff' _ (Iff.of_eq (k0_chk90.eq_1 v339 v466))
theorem k0_idx90_inb : ∀ (v339 : IVec S16 32) (v466 : IVec S16 32) (k0_hw90 : k0_chk90 v339 v466), ∀ a x, ((![v339, v466] : Fin 2 → IVec S16 32) a x).toNat < S8x1024.size a := fun v339 v466 k0_hw90 => k0_hw90

def k0_chk91 (v339 : IVec S16 32) (v471 : IVec S16 32) : Prop :=
  (∀ a x, ((![v339, v471] : Fin 2 → IVec S16 32) a x).toNat < S8x1024.size a)
instance k0_chk91.dec : ∀ (v339 : IVec S16 32) (v471 : IVec S16 32), Decidable (k0_chk91 v339 v471) := fun v339 v471 => decidable_of_iff' _ (Iff.of_eq (k0_chk91.eq_1 v339 v471))
theorem k0_idx91_inb : ∀ (v339 : IVec S16 32) (v471 : IVec S16 32) (k0_hw91 : k0_chk91 v339 v471), ∀ a x, ((![v339, v471] : Fin 2 → IVec S16 32) a x).toNat < S8x1024.size a := fun v339 v471 k0_hw91 => k0_hw91

def k0_chk92 (v339 : IVec S16 32) (v476 : IVec S16 32) : Prop :=
  (∀ a x, ((![v339, v476] : Fin 2 → IVec S16 32) a x).toNat < S8x1024.size a)
instance k0_chk92.dec : ∀ (v339 : IVec S16 32) (v476 : IVec S16 32), Decidable (k0_chk92 v339 v476) := fun v339 v476 => decidable_of_iff' _ (Iff.of_eq (k0_chk92.eq_1 v339 v476))
theorem k0_idx92_inb : ∀ (v339 : IVec S16 32) (v476 : IVec S16 32) (k0_hw92 : k0_chk92 v339 v476), ∀ a x, ((![v339, v476] : Fin 2 → IVec S16 32) a x).toNat < S8x1024.size a := fun v339 v476 k0_hw92 => k0_hw92

def k0_chk93 (v339 : IVec S16 32) (v481 : IVec S16 32) : Prop :=
  (∀ a x, ((![v339, v481] : Fin 2 → IVec S16 32) a x).toNat < S8x1024.size a)
instance k0_chk93.dec : ∀ (v339 : IVec S16 32) (v481 : IVec S16 32), Decidable (k0_chk93 v339 v481) := fun v339 v481 => decidable_of_iff' _ (Iff.of_eq (k0_chk93.eq_1 v339 v481))
theorem k0_idx93_inb : ∀ (v339 : IVec S16 32) (v481 : IVec S16 32) (k0_hw93 : k0_chk93 v339 v481), ∀ a x, ((![v339, v481] : Fin 2 → IVec S16 32) a x).toNat < S8x1024.size a := fun v339 v481 k0_hw93 => k0_hw93

def k0_chk94 (v339 : IVec S16 32) (v486 : IVec S16 32) : Prop :=
  (∀ a x, ((![v339, v486] : Fin 2 → IVec S16 32) a x).toNat < S8x1024.size a)
instance k0_chk94.dec : ∀ (v339 : IVec S16 32) (v486 : IVec S16 32), Decidable (k0_chk94 v339 v486) := fun v339 v486 => decidable_of_iff' _ (Iff.of_eq (k0_chk94.eq_1 v339 v486))
theorem k0_idx94_inb : ∀ (v339 : IVec S16 32) (v486 : IVec S16 32) (k0_hw94 : k0_chk94 v339 v486), ∀ a x, ((![v339, v486] : Fin 2 → IVec S16 32) a x).toNat < S8x1024.size a := fun v339 v486 k0_hw94 => k0_hw94

def k0_chk95 (v339 : IVec S16 32) (v491 : IVec S16 32) : Prop :=
  (∀ a x, ((![v339, v491] : Fin 2 → IVec S16 32) a x).toNat < S8x1024.size a)
instance k0_chk95.dec : ∀ (v339 : IVec S16 32) (v491 : IVec S16 32), Decidable (k0_chk95 v339 v491) := fun v339 v491 => decidable_of_iff' _ (Iff.of_eq (k0_chk95.eq_1 v339 v491))
theorem k0_idx95_inb : ∀ (v339 : IVec S16 32) (v491 : IVec S16 32) (k0_hw95 : k0_chk95 v339 v491), ∀ a x, ((![v339, v491] : Fin 2 → IVec S16 32) a x).toNat < S8x1024.size a := fun v339 v491 k0_hw95 => k0_hw95

def k0_chk96 (v339 : IVec S16 32) (v496 : IVec S16 32) : Prop :=
  (∀ a x, ((![v339, v496] : Fin 2 → IVec S16 32) a x).toNat < S8x1024.size a)
instance k0_chk96.dec : ∀ (v339 : IVec S16 32) (v496 : IVec S16 32), Decidable (k0_chk96 v339 v496) := fun v339 v496 => decidable_of_iff' _ (Iff.of_eq (k0_chk96.eq_1 v339 v496))
theorem k0_idx96_inb : ∀ (v339 : IVec S16 32) (v496 : IVec S16 32) (k0_hw96 : k0_chk96 v339 v496), ∀ a x, ((![v339, v496] : Fin 2 → IVec S16 32) a x).toNat < S8x1024.size a := fun v339 v496 k0_hw96 => k0_hw96

def k0_chk97 (v339 : IVec S16 32) (v501 : IVec S16 32) : Prop :=
  (∀ a x, ((![v339, v501] : Fin 2 → IVec S16 32) a x).toNat < S8x1024.size a)
instance k0_chk97.dec : ∀ (v339 : IVec S16 32) (v501 : IVec S16 32), Decidable (k0_chk97 v339 v501) := fun v339 v501 => decidable_of_iff' _ (Iff.of_eq (k0_chk97.eq_1 v339 v501))
theorem k0_idx97_inb : ∀ (v339 : IVec S16 32) (v501 : IVec S16 32) (k0_hw97 : k0_chk97 v339 v501), ∀ a x, ((![v339, v501] : Fin 2 → IVec S16 32) a x).toNat < S8x1024.size a := fun v339 v501 k0_hw97 => k0_hw97

def k0_chk98 (v339 : IVec S16 32) (v506 : IVec S16 32) : Prop :=
  (∀ a x, ((![v339, v506] : Fin 2 → IVec S16 32) a x).toNat < S8x1024.size a)
instance k0_chk98.dec : ∀ (v339 : IVec S16 32) (v506 : IVec S16 32), Decidable (k0_chk98 v339 v506) := fun v339 v506 => decidable_of_iff' _ (Iff.of_eq (k0_chk98.eq_1 v339 v506))
theorem k0_idx98_inb : ∀ (v339 : IVec S16 32) (v506 : IVec S16 32) (k0_hw98 : k0_chk98 v339 v506), ∀ a x, ((![v339, v506] : Fin 2 → IVec S16 32) a x).toNat < S8x1024.size a := fun v339 v506 k0_hw98 => k0_hw98

def k0_chk99 (v339 : IVec S16 32) (v511 : IVec S16 32) : Prop :=
  (∀ a x, ((![v339, v511] : Fin 2 → IVec S16 32) a x).toNat < S8x1024.size a)
instance k0_chk99.dec : ∀ (v339 : IVec S16 32) (v511 : IVec S16 32), Decidable (k0_chk99 v339 v511) := fun v339 v511 => decidable_of_iff' _ (Iff.of_eq (k0_chk99.eq_1 v339 v511))
theorem k0_idx99_inb : ∀ (v339 : IVec S16 32) (v511 : IVec S16 32) (k0_hw99 : k0_chk99 v339 v511), ∀ a x, ((![v339, v511] : Fin 2 → IVec S16 32) a x).toNat < S8x1024.size a := fun v339 v511 k0_hw99 => k0_hw99

def k0_chk100 (v339 : IVec S16 32) (v516 : IVec S16 32) : Prop :=
  (∀ a x, ((![v339, v516] : Fin 2 → IVec S16 32) a x).toNat < S8x1024.size a)
instance k0_chk100.dec : ∀ (v339 : IVec S16 32) (v516 : IVec S16 32), Decidable (k0_chk100 v339 v516) := fun v339 v516 => decidable_of_iff' _ (Iff.of_eq (k0_chk100.eq_1 v339 v516))
theorem k0_idx100_inb : ∀ (v339 : IVec S16 32) (v516 : IVec S16 32) (k0_hw100 : k0_chk100 v339 v516), ∀ a x, ((![v339, v516] : Fin 2 → IVec S16 32) a x).toNat < S8x1024.size a := fun v339 v516 k0_hw100 => k0_hw100

def k0_chk101 (v339 : IVec S16 32) (v521 : IVec S16 32) : Prop :=
  (∀ a x, ((![v339, v521] : Fin 2 → IVec S16 32) a x).toNat < S8x1024.size a)
instance k0_chk101.dec : ∀ (v339 : IVec S16 32) (v521 : IVec S16 32), Decidable (k0_chk101 v339 v521) := fun v339 v521 => decidable_of_iff' _ (Iff.of_eq (k0_chk101.eq_1 v339 v521))
theorem k0_idx101_inb : ∀ (v339 : IVec S16 32) (v521 : IVec S16 32) (k0_hw101 : k0_chk101 v339 v521), ∀ a x, ((![v339, v521] : Fin 2 → IVec S16 32) a x).toNat < S8x1024.size a := fun v339 v521 k0_hw101 => k0_hw101

def k0_chk102 (v339 : IVec S16 32) (v526 : IVec S16 32) : Prop :=
  (∀ a x, ((![v339, v526] : Fin 2 → IVec S16 32) a x).toNat < S8x1024.size a)
instance k0_chk102.dec : ∀ (v339 : IVec S16 32) (v526 : IVec S16 32), Decidable (k0_chk102 v339 v526) := fun v339 v526 => decidable_of_iff' _ (Iff.of_eq (k0_chk102.eq_1 v339 v526))
theorem k0_idx102_inb : ∀ (v339 : IVec S16 32) (v526 : IVec S16 32) (k0_hw102 : k0_chk102 v339 v526), ∀ a x, ((![v339, v526] : Fin 2 → IVec S16 32) a x).toNat < S8x1024.size a := fun v339 v526 k0_hw102 => k0_hw102

def k0_chk103 (v339 : IVec S16 32) (v531 : IVec S16 32) : Prop :=
  (∀ a x, ((![v339, v531] : Fin 2 → IVec S16 32) a x).toNat < S8x1024.size a)
instance k0_chk103.dec : ∀ (v339 : IVec S16 32) (v531 : IVec S16 32), Decidable (k0_chk103 v339 v531) := fun v339 v531 => decidable_of_iff' _ (Iff.of_eq (k0_chk103.eq_1 v339 v531))
theorem k0_idx103_inb : ∀ (v339 : IVec S16 32) (v531 : IVec S16 32) (k0_hw103 : k0_chk103 v339 v531), ∀ a x, ((![v339, v531] : Fin 2 → IVec S16 32) a x).toNat < S8x1024.size a := fun v339 v531 k0_hw103 => k0_hw103

def k0_chk104 (v339 : IVec S16 32) (v536 : IVec S16 32) : Prop :=
  (∀ a x, ((![v339, v536] : Fin 2 → IVec S16 32) a x).toNat < S8x1024.size a)
instance k0_chk104.dec : ∀ (v339 : IVec S16 32) (v536 : IVec S16 32), Decidable (k0_chk104 v339 v536) := fun v339 v536 => decidable_of_iff' _ (Iff.of_eq (k0_chk104.eq_1 v339 v536))
theorem k0_idx104_inb : ∀ (v339 : IVec S16 32) (v536 : IVec S16 32) (k0_hw104 : k0_chk104 v339 v536), ∀ a x, ((![v339, v536] : Fin 2 → IVec S16 32) a x).toNat < S8x1024.size a := fun v339 v536 k0_hw104 => k0_hw104

def k0_chk105 (v339 : IVec S16 32) (v541 : IVec S16 32) : Prop :=
  (∀ a x, ((![v339, v541] : Fin 2 → IVec S16 32) a x).toNat < S8x1024.size a)
instance k0_chk105.dec : ∀ (v339 : IVec S16 32) (v541 : IVec S16 32), Decidable (k0_chk105 v339 v541) := fun v339 v541 => decidable_of_iff' _ (Iff.of_eq (k0_chk105.eq_1 v339 v541))
theorem k0_idx105_inb : ∀ (v339 : IVec S16 32) (v541 : IVec S16 32) (k0_hw105 : k0_chk105 v339 v541), ∀ a x, ((![v339, v541] : Fin 2 → IVec S16 32) a x).toNat < S8x1024.size a := fun v339 v541 k0_hw105 => k0_hw105

def k0_chk106 (v339 : IVec S16 32) (v546 : IVec S16 32) : Prop :=
  (∀ a x, ((![v339, v546] : Fin 2 → IVec S16 32) a x).toNat < S8x1024.size a)
instance k0_chk106.dec : ∀ (v339 : IVec S16 32) (v546 : IVec S16 32), Decidable (k0_chk106 v339 v546) := fun v339 v546 => decidable_of_iff' _ (Iff.of_eq (k0_chk106.eq_1 v339 v546))
theorem k0_idx106_inb : ∀ (v339 : IVec S16 32) (v546 : IVec S16 32) (k0_hw106 : k0_chk106 v339 v546), ∀ a x, ((![v339, v546] : Fin 2 → IVec S16 32) a x).toNat < S8x1024.size a := fun v339 v546 k0_hw106 => k0_hw106

def k0_chk107 (v339 : IVec S16 32) (v551 : IVec S16 32) : Prop :=
  (∀ a x, ((![v339, v551] : Fin 2 → IVec S16 32) a x).toNat < S8x1024.size a)
instance k0_chk107.dec : ∀ (v339 : IVec S16 32) (v551 : IVec S16 32), Decidable (k0_chk107 v339 v551) := fun v339 v551 => decidable_of_iff' _ (Iff.of_eq (k0_chk107.eq_1 v339 v551))
theorem k0_idx107_inb : ∀ (v339 : IVec S16 32) (v551 : IVec S16 32) (k0_hw107 : k0_chk107 v339 v551), ∀ a x, ((![v339, v551] : Fin 2 → IVec S16 32) a x).toNat < S8x1024.size a := fun v339 v551 k0_hw107 => k0_hw107

def k0_chk108 (v339 : IVec S16 32) (v556 : IVec S16 32) : Prop :=
  (∀ a x, ((![v339, v556] : Fin 2 → IVec S16 32) a x).toNat < S8x1024.size a)
instance k0_chk108.dec : ∀ (v339 : IVec S16 32) (v556 : IVec S16 32), Decidable (k0_chk108 v339 v556) := fun v339 v556 => decidable_of_iff' _ (Iff.of_eq (k0_chk108.eq_1 v339 v556))
theorem k0_idx108_inb : ∀ (v339 : IVec S16 32) (v556 : IVec S16 32) (k0_hw108 : k0_chk108 v339 v556), ∀ a x, ((![v339, v556] : Fin 2 → IVec S16 32) a x).toNat < S8x1024.size a := fun v339 v556 k0_hw108 => k0_hw108

def k0_chk109 (v339 : IVec S16 32) (v561 : IVec S16 32) : Prop :=
  (∀ a x, ((![v339, v561] : Fin 2 → IVec S16 32) a x).toNat < S8x1024.size a)
instance k0_chk109.dec : ∀ (v339 : IVec S16 32) (v561 : IVec S16 32), Decidable (k0_chk109 v339 v561) := fun v339 v561 => decidable_of_iff' _ (Iff.of_eq (k0_chk109.eq_1 v339 v561))
theorem k0_idx109_inb : ∀ (v339 : IVec S16 32) (v561 : IVec S16 32) (k0_hw109 : k0_chk109 v339 v561), ∀ a x, ((![v339, v561] : Fin 2 → IVec S16 32) a x).toNat < S8x1024.size a := fun v339 v561 k0_hw109 => k0_hw109

def k0_chk110 (v339 : IVec S16 32) (v566 : IVec S16 32) : Prop :=
  (∀ a x, ((![v339, v566] : Fin 2 → IVec S16 32) a x).toNat < S8x1024.size a)
instance k0_chk110.dec : ∀ (v339 : IVec S16 32) (v566 : IVec S16 32), Decidable (k0_chk110 v339 v566) := fun v339 v566 => decidable_of_iff' _ (Iff.of_eq (k0_chk110.eq_1 v339 v566))
theorem k0_idx110_inb : ∀ (v339 : IVec S16 32) (v566 : IVec S16 32) (k0_hw110 : k0_chk110 v339 v566), ∀ a x, ((![v339, v566] : Fin 2 → IVec S16 32) a x).toNat < S8x1024.size a := fun v339 v566 k0_hw110 => k0_hw110

def k0_chk111 (v339 : IVec S16 32) (v571 : IVec S16 32) : Prop :=
  (∀ a x, ((![v339, v571] : Fin 2 → IVec S16 32) a x).toNat < S8x1024.size a)
instance k0_chk111.dec : ∀ (v339 : IVec S16 32) (v571 : IVec S16 32), Decidable (k0_chk111 v339 v571) := fun v339 v571 => decidable_of_iff' _ (Iff.of_eq (k0_chk111.eq_1 v339 v571))
theorem k0_idx111_inb : ∀ (v339 : IVec S16 32) (v571 : IVec S16 32) (k0_hw111 : k0_chk111 v339 v571), ∀ a x, ((![v339, v571] : Fin 2 → IVec S16 32) a x).toNat < S8x1024.size a := fun v339 v571 k0_hw111 => k0_hw111

def k0_chk112 (v339 : IVec S16 32) (v576 : IVec S16 32) : Prop :=
  (∀ a x, ((![v339, v576] : Fin 2 → IVec S16 32) a x).toNat < S8x1024.size a)
instance k0_chk112.dec : ∀ (v339 : IVec S16 32) (v576 : IVec S16 32), Decidable (k0_chk112 v339 v576) := fun v339 v576 => decidable_of_iff' _ (Iff.of_eq (k0_chk112.eq_1 v339 v576))
theorem k0_idx112_inb : ∀ (v339 : IVec S16 32) (v576 : IVec S16 32) (k0_hw112 : k0_chk112 v339 v576), ∀ a x, ((![v339, v576] : Fin 2 → IVec S16 32) a x).toNat < S8x1024.size a := fun v339 v576 k0_hw112 => k0_hw112

def k0_chk113 (v339 : IVec S16 32) (v581 : IVec S16 32) : Prop :=
  (∀ a x, ((![v339, v581] : Fin 2 → IVec S16 32) a x).toNat < S8x1024.size a)
instance k0_chk113.dec : ∀ (v339 : IVec S16 32) (v581 : IVec S16 32), Decidable (k0_chk113 v339 v581) := fun v339 v581 => decidable_of_iff' _ (Iff.of_eq (k0_chk113.eq_1 v339 v581))
theorem k0_idx113_inb : ∀ (v339 : IVec S16 32) (v581 : IVec S16 32) (k0_hw113 : k0_chk113 v339 v581), ∀ a x, ((![v339, v581] : Fin 2 → IVec S16 32) a x).toNat < S8x1024.size a := fun v339 v581 k0_hw113 => k0_hw113

def k0_chk114 (v339 : IVec S16 32) (v586 : IVec S16 32) : Prop :=
  (∀ a x, ((![v339, v586] : Fin 2 → IVec S16 32) a x).toNat < S8x1024.size a)
instance k0_chk114.dec : ∀ (v339 : IVec S16 32) (v586 : IVec S16 32), Decidable (k0_chk114 v339 v586) := fun v339 v586 => decidable_of_iff' _ (Iff.of_eq (k0_chk114.eq_1 v339 v586))
theorem k0_idx114_inb : ∀ (v339 : IVec S16 32) (v586 : IVec S16 32) (k0_hw114 : k0_chk114 v339 v586), ∀ a x, ((![v339, v586] : Fin 2 → IVec S16 32) a x).toNat < S8x1024.size a := fun v339 v586 k0_hw114 => k0_hw114

def k0_chk115 (v339 : IVec S16 32) (v591 : IVec S16 32) : Prop :=
  (∀ a x, ((![v339, v591] : Fin 2 → IVec S16 32) a x).toNat < S8x1024.size a)
instance k0_chk115.dec : ∀ (v339 : IVec S16 32) (v591 : IVec S16 32), Decidable (k0_chk115 v339 v591) := fun v339 v591 => decidable_of_iff' _ (Iff.of_eq (k0_chk115.eq_1 v339 v591))
theorem k0_idx115_inb : ∀ (v339 : IVec S16 32) (v591 : IVec S16 32) (k0_hw115 : k0_chk115 v339 v591), ∀ a x, ((![v339, v591] : Fin 2 → IVec S16 32) a x).toNat < S8x1024.size a := fun v339 v591 k0_hw115 => k0_hw115

def k0_chk116 (v339 : IVec S16 32) (v596 : IVec S16 32) : Prop :=
  (∀ a x, ((![v339, v596] : Fin 2 → IVec S16 32) a x).toNat < S8x1024.size a)
instance k0_chk116.dec : ∀ (v339 : IVec S16 32) (v596 : IVec S16 32), Decidable (k0_chk116 v339 v596) := fun v339 v596 => decidable_of_iff' _ (Iff.of_eq (k0_chk116.eq_1 v339 v596))
theorem k0_idx116_inb : ∀ (v339 : IVec S16 32) (v596 : IVec S16 32) (k0_hw116 : k0_chk116 v339 v596), ∀ a x, ((![v339, v596] : Fin 2 → IVec S16 32) a x).toNat < S8x1024.size a := fun v339 v596 k0_hw116 => k0_hw116

def k0_chk117 (v339 : IVec S16 32) (v601 : IVec S16 32) : Prop :=
  (∀ a x, ((![v339, v601] : Fin 2 → IVec S16 32) a x).toNat < S8x1024.size a)
instance k0_chk117.dec : ∀ (v339 : IVec S16 32) (v601 : IVec S16 32), Decidable (k0_chk117 v339 v601) := fun v339 v601 => decidable_of_iff' _ (Iff.of_eq (k0_chk117.eq_1 v339 v601))
theorem k0_idx117_inb : ∀ (v339 : IVec S16 32) (v601 : IVec S16 32) (k0_hw117 : k0_chk117 v339 v601), ∀ a x, ((![v339, v601] : Fin 2 → IVec S16 32) a x).toNat < S8x1024.size a := fun v339 v601 k0_hw117 => k0_hw117

def k0_chk118 (v339 : IVec S16 32) (v606 : IVec S16 32) : Prop :=
  (∀ a x, ((![v339, v606] : Fin 2 → IVec S16 32) a x).toNat < S8x1024.size a)
instance k0_chk118.dec : ∀ (v339 : IVec S16 32) (v606 : IVec S16 32), Decidable (k0_chk118 v339 v606) := fun v339 v606 => decidable_of_iff' _ (Iff.of_eq (k0_chk118.eq_1 v339 v606))
theorem k0_idx118_inb : ∀ (v339 : IVec S16 32) (v606 : IVec S16 32) (k0_hw118 : k0_chk118 v339 v606), ∀ a x, ((![v339, v606] : Fin 2 → IVec S16 32) a x).toNat < S8x1024.size a := fun v339 v606 k0_hw118 => k0_hw118

def k0_chk119 (v339 : IVec S16 32) (v611 : IVec S16 32) : Prop :=
  (∀ a x, ((![v339, v611] : Fin 2 → IVec S16 32) a x).toNat < S8x1024.size a)
instance k0_chk119.dec : ∀ (v339 : IVec S16 32) (v611 : IVec S16 32), Decidable (k0_chk119 v339 v611) := fun v339 v611 => decidable_of_iff' _ (Iff.of_eq (k0_chk119.eq_1 v339 v611))
theorem k0_idx119_inb : ∀ (v339 : IVec S16 32) (v611 : IVec S16 32) (k0_hw119 : k0_chk119 v339 v611), ∀ a x, ((![v339, v611] : Fin 2 → IVec S16 32) a x).toNat < S8x1024.size a := fun v339 v611 k0_hw119 => k0_hw119

def k0_chk120 (v339 : IVec S16 32) (v616 : IVec S16 32) : Prop :=
  (∀ a x, ((![v339, v616] : Fin 2 → IVec S16 32) a x).toNat < S8x1024.size a)
instance k0_chk120.dec : ∀ (v339 : IVec S16 32) (v616 : IVec S16 32), Decidable (k0_chk120 v339 v616) := fun v339 v616 => decidable_of_iff' _ (Iff.of_eq (k0_chk120.eq_1 v339 v616))
theorem k0_idx120_inb : ∀ (v339 : IVec S16 32) (v616 : IVec S16 32) (k0_hw120 : k0_chk120 v339 v616), ∀ a x, ((![v339, v616] : Fin 2 → IVec S16 32) a x).toNat < S8x1024.size a := fun v339 v616 k0_hw120 => k0_hw120

def k0_chk121 (v339 : IVec S16 32) (v621 : IVec S16 32) : Prop :=
  (∀ a x, ((![v339, v621] : Fin 2 → IVec S16 32) a x).toNat < S8x1024.size a)
instance k0_chk121.dec : ∀ (v339 : IVec S16 32) (v621 : IVec S16 32), Decidable (k0_chk121 v339 v621) := fun v339 v621 => decidable_of_iff' _ (Iff.of_eq (k0_chk121.eq_1 v339 v621))
theorem k0_idx121_inb : ∀ (v339 : IVec S16 32) (v621 : IVec S16 32) (k0_hw121 : k0_chk121 v339 v621), ∀ a x, ((![v339, v621] : Fin 2 → IVec S16 32) a x).toNat < S8x1024.size a := fun v339 v621 k0_hw121 => k0_hw121

def k0_chk122 (v339 : IVec S16 32) (v626 : IVec S16 32) : Prop :=
  (∀ a x, ((![v339, v626] : Fin 2 → IVec S16 32) a x).toNat < S8x1024.size a)
instance k0_chk122.dec : ∀ (v339 : IVec S16 32) (v626 : IVec S16 32), Decidable (k0_chk122 v339 v626) := fun v339 v626 => decidable_of_iff' _ (Iff.of_eq (k0_chk122.eq_1 v339 v626))
theorem k0_idx122_inb : ∀ (v339 : IVec S16 32) (v626 : IVec S16 32) (k0_hw122 : k0_chk122 v339 v626), ∀ a x, ((![v339, v626] : Fin 2 → IVec S16 32) a x).toNat < S8x1024.size a := fun v339 v626 k0_hw122 => k0_hw122

def k0_chk123 (v339 : IVec S16 32) (v631 : IVec S16 32) : Prop :=
  (∀ a x, ((![v339, v631] : Fin 2 → IVec S16 32) a x).toNat < S8x1024.size a)
instance k0_chk123.dec : ∀ (v339 : IVec S16 32) (v631 : IVec S16 32), Decidable (k0_chk123 v339 v631) := fun v339 v631 => decidable_of_iff' _ (Iff.of_eq (k0_chk123.eq_1 v339 v631))
theorem k0_idx123_inb : ∀ (v339 : IVec S16 32) (v631 : IVec S16 32) (k0_hw123 : k0_chk123 v339 v631), ∀ a x, ((![v339, v631] : Fin 2 → IVec S16 32) a x).toNat < S8x1024.size a := fun v339 v631 k0_hw123 => k0_hw123

def k0_chk124 (v339 : IVec S16 32) (v636 : IVec S16 32) : Prop :=
  (∀ a x, ((![v339, v636] : Fin 2 → IVec S16 32) a x).toNat < S8x1024.size a)
instance k0_chk124.dec : ∀ (v339 : IVec S16 32) (v636 : IVec S16 32), Decidable (k0_chk124 v339 v636) := fun v339 v636 => decidable_of_iff' _ (Iff.of_eq (k0_chk124.eq_1 v339 v636))
theorem k0_idx124_inb : ∀ (v339 : IVec S16 32) (v636 : IVec S16 32) (k0_hw124 : k0_chk124 v339 v636), ∀ a x, ((![v339, v636] : Fin 2 → IVec S16 32) a x).toNat < S8x1024.size a := fun v339 v636 k0_hw124 => k0_hw124

def k0_chk125 (v339 : IVec S16 32) (v641 : IVec S16 32) : Prop :=
  (∀ a x, ((![v339, v641] : Fin 2 → IVec S16 32) a x).toNat < S8x1024.size a)
instance k0_chk125.dec : ∀ (v339 : IVec S16 32) (v641 : IVec S16 32), Decidable (k0_chk125 v339 v641) := fun v339 v641 => decidable_of_iff' _ (Iff.of_eq (k0_chk125.eq_1 v339 v641))
theorem k0_idx125_inb : ∀ (v339 : IVec S16 32) (v641 : IVec S16 32) (k0_hw125 : k0_chk125 v339 v641), ∀ a x, ((![v339, v641] : Fin 2 → IVec S16 32) a x).toNat < S8x1024.size a := fun v339 v641 k0_hw125 => k0_hw125

def k0_chk126 (v339 : IVec S16 32) (v646 : IVec S16 32) : Prop :=
  (∀ a x, ((![v339, v646] : Fin 2 → IVec S16 32) a x).toNat < S8x1024.size a)
instance k0_chk126.dec : ∀ (v339 : IVec S16 32) (v646 : IVec S16 32), Decidable (k0_chk126 v339 v646) := fun v339 v646 => decidable_of_iff' _ (Iff.of_eq (k0_chk126.eq_1 v339 v646))
theorem k0_idx126_inb : ∀ (v339 : IVec S16 32) (v646 : IVec S16 32) (k0_hw126 : k0_chk126 v339 v646), ∀ a x, ((![v339, v646] : Fin 2 → IVec S16 32) a x).toNat < S8x1024.size a := fun v339 v646 k0_hw126 => k0_hw126

def k0_chk127 (v339 : IVec S16 32) (v651 : IVec S16 32) : Prop :=
  (∀ a x, ((![v339, v651] : Fin 2 → IVec S16 32) a x).toNat < S8x1024.size a)
instance k0_chk127.dec : ∀ (v339 : IVec S16 32) (v651 : IVec S16 32), Decidable (k0_chk127 v339 v651) := fun v339 v651 => decidable_of_iff' _ (Iff.of_eq (k0_chk127.eq_1 v339 v651))
theorem k0_idx127_inb : ∀ (v339 : IVec S16 32) (v651 : IVec S16 32) (k0_hw127 : k0_chk127 v339 v651), ∀ a x, ((![v339, v651] : Fin 2 → IVec S16 32) a x).toNat < S8x1024.size a := fun v339 v651 k0_hw127 => k0_hw127

def k0_chk128 (v339 : IVec S16 32) (v656 : IVec S16 32) : Prop :=
  (∀ a x, ((![v339, v656] : Fin 2 → IVec S16 32) a x).toNat < S8x1024.size a)
instance k0_chk128.dec : ∀ (v339 : IVec S16 32) (v656 : IVec S16 32), Decidable (k0_chk128 v339 v656) := fun v339 v656 => decidable_of_iff' _ (Iff.of_eq (k0_chk128.eq_1 v339 v656))
theorem k0_idx128_inb : ∀ (v339 : IVec S16 32) (v656 : IVec S16 32) (k0_hw128 : k0_chk128 v339 v656), ∀ a x, ((![v339, v656] : Fin 2 → IVec S16 32) a x).toNat < S8x1024.size a := fun v339 v656 k0_hw128 => k0_hw128

def k0_chk129 (v661 : IVec S16 32) (v663 : IVec S16 32) : Prop :=
  (∀ a x, ((![v661, v663] : Fin 2 → IVec S16 32) a x).toNat < S8x1024.size a)
instance k0_chk129.dec : ∀ (v661 : IVec S16 32) (v663 : IVec S16 32), Decidable (k0_chk129 v661 v663) := fun v661 v663 => decidable_of_iff' _ (Iff.of_eq (k0_chk129.eq_1 v661 v663))
theorem k0_idx129_inb : ∀ (v661 : IVec S16 32) (v663 : IVec S16 32) (k0_hw129 : k0_chk129 v661 v663), ∀ a x, ((![v661, v663] : Fin 2 → IVec S16 32) a x).toNat < S8x1024.size a := fun v661 v663 k0_hw129 => k0_hw129

def k0_chk130 (v661 : IVec S16 32) (v668 : IVec S16 32) : Prop :=
  (∀ a x, ((![v661, v668] : Fin 2 → IVec S16 32) a x).toNat < S8x1024.size a)
instance k0_chk130.dec : ∀ (v661 : IVec S16 32) (v668 : IVec S16 32), Decidable (k0_chk130 v661 v668) := fun v661 v668 => decidable_of_iff' _ (Iff.of_eq (k0_chk130.eq_1 v661 v668))
theorem k0_idx130_inb : ∀ (v661 : IVec S16 32) (v668 : IVec S16 32) (k0_hw130 : k0_chk130 v661 v668), ∀ a x, ((![v661, v668] : Fin 2 → IVec S16 32) a x).toNat < S8x1024.size a := fun v661 v668 k0_hw130 => k0_hw130

def k0_chk131 (v661 : IVec S16 32) (v673 : IVec S16 32) : Prop :=
  (∀ a x, ((![v661, v673] : Fin 2 → IVec S16 32) a x).toNat < S8x1024.size a)
instance k0_chk131.dec : ∀ (v661 : IVec S16 32) (v673 : IVec S16 32), Decidable (k0_chk131 v661 v673) := fun v661 v673 => decidable_of_iff' _ (Iff.of_eq (k0_chk131.eq_1 v661 v673))
theorem k0_idx131_inb : ∀ (v661 : IVec S16 32) (v673 : IVec S16 32) (k0_hw131 : k0_chk131 v661 v673), ∀ a x, ((![v661, v673] : Fin 2 → IVec S16 32) a x).toNat < S8x1024.size a := fun v661 v673 k0_hw131 => k0_hw131

def k0_chk132 (v661 : IVec S16 32) (v678 : IVec S16 32) : Prop :=
  (∀ a x, ((![v661, v678] : Fin 2 → IVec S16 32) a x).toNat < S8x1024.size a)
instance k0_chk132.dec : ∀ (v661 : IVec S16 32) (v678 : IVec S16 32), Decidable (k0_chk132 v661 v678) := fun v661 v678 => decidable_of_iff' _ (Iff.of_eq (k0_chk132.eq_1 v661 v678))
theorem k0_idx132_inb : ∀ (v661 : IVec S16 32) (v678 : IVec S16 32) (k0_hw132 : k0_chk132 v661 v678), ∀ a x, ((![v661, v678] : Fin 2 → IVec S16 32) a x).toNat < S8x1024.size a := fun v661 v678 k0_hw132 => k0_hw132

def k0_chk133 (v661 : IVec S16 32) (v683 : IVec S16 32) : Prop :=
  (∀ a x, ((![v661, v683] : Fin 2 → IVec S16 32) a x).toNat < S8x1024.size a)
instance k0_chk133.dec : ∀ (v661 : IVec S16 32) (v683 : IVec S16 32), Decidable (k0_chk133 v661 v683) := fun v661 v683 => decidable_of_iff' _ (Iff.of_eq (k0_chk133.eq_1 v661 v683))
theorem k0_idx133_inb : ∀ (v661 : IVec S16 32) (v683 : IVec S16 32) (k0_hw133 : k0_chk133 v661 v683), ∀ a x, ((![v661, v683] : Fin 2 → IVec S16 32) a x).toNat < S8x1024.size a := fun v661 v683 k0_hw133 => k0_hw133

def k0_chk134 (v661 : IVec S16 32) (v688 : IVec S16 32) : Prop :=
  (∀ a x, ((![v661, v688] : Fin 2 → IVec S16 32) a x).toNat < S8x1024.size a)
instance k0_chk134.dec : ∀ (v661 : IVec S16 32) (v688 : IVec S16 32), Decidable (k0_chk134 v661 v688) := fun v661 v688 => decidable_of_iff' _ (Iff.of_eq (k0_chk134.eq_1 v661 v688))
theorem k0_idx134_inb : ∀ (v661 : IVec S16 32) (v688 : IVec S16 32) (k0_hw134 : k0_chk134 v661 v688), ∀ a x, ((![v661, v688] : Fin 2 → IVec S16 32) a x).toNat < S8x1024.size a := fun v661 v688 k0_hw134 => k0_hw134

def k0_chk135 (v661 : IVec S16 32) (v693 : IVec S16 32) : Prop :=
  (∀ a x, ((![v661, v693] : Fin 2 → IVec S16 32) a x).toNat < S8x1024.size a)
instance k0_chk135.dec : ∀ (v661 : IVec S16 32) (v693 : IVec S16 32), Decidable (k0_chk135 v661 v693) := fun v661 v693 => decidable_of_iff' _ (Iff.of_eq (k0_chk135.eq_1 v661 v693))
theorem k0_idx135_inb : ∀ (v661 : IVec S16 32) (v693 : IVec S16 32) (k0_hw135 : k0_chk135 v661 v693), ∀ a x, ((![v661, v693] : Fin 2 → IVec S16 32) a x).toNat < S8x1024.size a := fun v661 v693 k0_hw135 => k0_hw135

def k0_chk136 (v661 : IVec S16 32) (v698 : IVec S16 32) : Prop :=
  (∀ a x, ((![v661, v698] : Fin 2 → IVec S16 32) a x).toNat < S8x1024.size a)
instance k0_chk136.dec : ∀ (v661 : IVec S16 32) (v698 : IVec S16 32), Decidable (k0_chk136 v661 v698) := fun v661 v698 => decidable_of_iff' _ (Iff.of_eq (k0_chk136.eq_1 v661 v698))
theorem k0_idx136_inb : ∀ (v661 : IVec S16 32) (v698 : IVec S16 32) (k0_hw136 : k0_chk136 v661 v698), ∀ a x, ((![v661, v698] : Fin 2 → IVec S16 32) a x).toNat < S8x1024.size a := fun v661 v698 k0_hw136 => k0_hw136

def k0_chk137 (v661 : IVec S16 32) (v703 : IVec S16 32) : Prop :=
  (∀ a x, ((![v661, v703] : Fin 2 → IVec S16 32) a x).toNat < S8x1024.size a)
instance k0_chk137.dec : ∀ (v661 : IVec S16 32) (v703 : IVec S16 32), Decidable (k0_chk137 v661 v703) := fun v661 v703 => decidable_of_iff' _ (Iff.of_eq (k0_chk137.eq_1 v661 v703))
theorem k0_idx137_inb : ∀ (v661 : IVec S16 32) (v703 : IVec S16 32) (k0_hw137 : k0_chk137 v661 v703), ∀ a x, ((![v661, v703] : Fin 2 → IVec S16 32) a x).toNat < S8x1024.size a := fun v661 v703 k0_hw137 => k0_hw137

def k0_chk138 (v661 : IVec S16 32) (v708 : IVec S16 32) : Prop :=
  (∀ a x, ((![v661, v708] : Fin 2 → IVec S16 32) a x).toNat < S8x1024.size a)
instance k0_chk138.dec : ∀ (v661 : IVec S16 32) (v708 : IVec S16 32), Decidable (k0_chk138 v661 v708) := fun v661 v708 => decidable_of_iff' _ (Iff.of_eq (k0_chk138.eq_1 v661 v708))
theorem k0_idx138_inb : ∀ (v661 : IVec S16 32) (v708 : IVec S16 32) (k0_hw138 : k0_chk138 v661 v708), ∀ a x, ((![v661, v708] : Fin 2 → IVec S16 32) a x).toNat < S8x1024.size a := fun v661 v708 k0_hw138 => k0_hw138

def k0_chk139 (v661 : IVec S16 32) (v713 : IVec S16 32) : Prop :=
  (∀ a x, ((![v661, v713] : Fin 2 → IVec S16 32) a x).toNat < S8x1024.size a)
instance k0_chk139.dec : ∀ (v661 : IVec S16 32) (v713 : IVec S16 32), Decidable (k0_chk139 v661 v713) := fun v661 v713 => decidable_of_iff' _ (Iff.of_eq (k0_chk139.eq_1 v661 v713))
theorem k0_idx139_inb : ∀ (v661 : IVec S16 32) (v713 : IVec S16 32) (k0_hw139 : k0_chk139 v661 v713), ∀ a x, ((![v661, v713] : Fin 2 → IVec S16 32) a x).toNat < S8x1024.size a := fun v661 v713 k0_hw139 => k0_hw139

def k0_chk140 (v661 : IVec S16 32) (v718 : IVec S16 32) : Prop :=
  (∀ a x, ((![v661, v718] : Fin 2 → IVec S16 32) a x).toNat < S8x1024.size a)
instance k0_chk140.dec : ∀ (v661 : IVec S16 32) (v718 : IVec S16 32), Decidable (k0_chk140 v661 v718) := fun v661 v718 => decidable_of_iff' _ (Iff.of_eq (k0_chk140.eq_1 v661 v718))
theorem k0_idx140_inb : ∀ (v661 : IVec S16 32) (v718 : IVec S16 32) (k0_hw140 : k0_chk140 v661 v718), ∀ a x, ((![v661, v718] : Fin 2 → IVec S16 32) a x).toNat < S8x1024.size a := fun v661 v718 k0_hw140 => k0_hw140

def k0_chk141 (v661 : IVec S16 32) (v723 : IVec S16 32) : Prop :=
  (∀ a x, ((![v661, v723] : Fin 2 → IVec S16 32) a x).toNat < S8x1024.size a)
instance k0_chk141.dec : ∀ (v661 : IVec S16 32) (v723 : IVec S16 32), Decidable (k0_chk141 v661 v723) := fun v661 v723 => decidable_of_iff' _ (Iff.of_eq (k0_chk141.eq_1 v661 v723))
theorem k0_idx141_inb : ∀ (v661 : IVec S16 32) (v723 : IVec S16 32) (k0_hw141 : k0_chk141 v661 v723), ∀ a x, ((![v661, v723] : Fin 2 → IVec S16 32) a x).toNat < S8x1024.size a := fun v661 v723 k0_hw141 => k0_hw141

def k0_chk142 (v661 : IVec S16 32) (v728 : IVec S16 32) : Prop :=
  (∀ a x, ((![v661, v728] : Fin 2 → IVec S16 32) a x).toNat < S8x1024.size a)
instance k0_chk142.dec : ∀ (v661 : IVec S16 32) (v728 : IVec S16 32), Decidable (k0_chk142 v661 v728) := fun v661 v728 => decidable_of_iff' _ (Iff.of_eq (k0_chk142.eq_1 v661 v728))
theorem k0_idx142_inb : ∀ (v661 : IVec S16 32) (v728 : IVec S16 32) (k0_hw142 : k0_chk142 v661 v728), ∀ a x, ((![v661, v728] : Fin 2 → IVec S16 32) a x).toNat < S8x1024.size a := fun v661 v728 k0_hw142 => k0_hw142

def k0_chk143 (v661 : IVec S16 32) (v733 : IVec S16 32) : Prop :=
  (∀ a x, ((![v661, v733] : Fin 2 → IVec S16 32) a x).toNat < S8x1024.size a)
instance k0_chk143.dec : ∀ (v661 : IVec S16 32) (v733 : IVec S16 32), Decidable (k0_chk143 v661 v733) := fun v661 v733 => decidable_of_iff' _ (Iff.of_eq (k0_chk143.eq_1 v661 v733))
theorem k0_idx143_inb : ∀ (v661 : IVec S16 32) (v733 : IVec S16 32) (k0_hw143 : k0_chk143 v661 v733), ∀ a x, ((![v661, v733] : Fin 2 → IVec S16 32) a x).toNat < S8x1024.size a := fun v661 v733 k0_hw143 => k0_hw143

def k0_chk144 (v661 : IVec S16 32) (v738 : IVec S16 32) : Prop :=
  (∀ a x, ((![v661, v738] : Fin 2 → IVec S16 32) a x).toNat < S8x1024.size a)
instance k0_chk144.dec : ∀ (v661 : IVec S16 32) (v738 : IVec S16 32), Decidable (k0_chk144 v661 v738) := fun v661 v738 => decidable_of_iff' _ (Iff.of_eq (k0_chk144.eq_1 v661 v738))
theorem k0_idx144_inb : ∀ (v661 : IVec S16 32) (v738 : IVec S16 32) (k0_hw144 : k0_chk144 v661 v738), ∀ a x, ((![v661, v738] : Fin 2 → IVec S16 32) a x).toNat < S8x1024.size a := fun v661 v738 k0_hw144 => k0_hw144

def k0_chk145 (v661 : IVec S16 32) (v743 : IVec S16 32) : Prop :=
  (∀ a x, ((![v661, v743] : Fin 2 → IVec S16 32) a x).toNat < S8x1024.size a)
instance k0_chk145.dec : ∀ (v661 : IVec S16 32) (v743 : IVec S16 32), Decidable (k0_chk145 v661 v743) := fun v661 v743 => decidable_of_iff' _ (Iff.of_eq (k0_chk145.eq_1 v661 v743))
theorem k0_idx145_inb : ∀ (v661 : IVec S16 32) (v743 : IVec S16 32) (k0_hw145 : k0_chk145 v661 v743), ∀ a x, ((![v661, v743] : Fin 2 → IVec S16 32) a x).toNat < S8x1024.size a := fun v661 v743 k0_hw145 => k0_hw145

def k0_chk146 (v661 : IVec S16 32) (v748 : IVec S16 32) : Prop :=
  (∀ a x, ((![v661, v748] : Fin 2 → IVec S16 32) a x).toNat < S8x1024.size a)
instance k0_chk146.dec : ∀ (v661 : IVec S16 32) (v748 : IVec S16 32), Decidable (k0_chk146 v661 v748) := fun v661 v748 => decidable_of_iff' _ (Iff.of_eq (k0_chk146.eq_1 v661 v748))
theorem k0_idx146_inb : ∀ (v661 : IVec S16 32) (v748 : IVec S16 32) (k0_hw146 : k0_chk146 v661 v748), ∀ a x, ((![v661, v748] : Fin 2 → IVec S16 32) a x).toNat < S8x1024.size a := fun v661 v748 k0_hw146 => k0_hw146

def k0_chk147 (v661 : IVec S16 32) (v753 : IVec S16 32) : Prop :=
  (∀ a x, ((![v661, v753] : Fin 2 → IVec S16 32) a x).toNat < S8x1024.size a)
instance k0_chk147.dec : ∀ (v661 : IVec S16 32) (v753 : IVec S16 32), Decidable (k0_chk147 v661 v753) := fun v661 v753 => decidable_of_iff' _ (Iff.of_eq (k0_chk147.eq_1 v661 v753))
theorem k0_idx147_inb : ∀ (v661 : IVec S16 32) (v753 : IVec S16 32) (k0_hw147 : k0_chk147 v661 v753), ∀ a x, ((![v661, v753] : Fin 2 → IVec S16 32) a x).toNat < S8x1024.size a := fun v661 v753 k0_hw147 => k0_hw147

def k0_chk148 (v661 : IVec S16 32) (v758 : IVec S16 32) : Prop :=
  (∀ a x, ((![v661, v758] : Fin 2 → IVec S16 32) a x).toNat < S8x1024.size a)
instance k0_chk148.dec : ∀ (v661 : IVec S16 32) (v758 : IVec S16 32), Decidable (k0_chk148 v661 v758) := fun v661 v758 => decidable_of_iff' _ (Iff.of_eq (k0_chk148.eq_1 v661 v758))
theorem k0_idx148_inb : ∀ (v661 : IVec S16 32) (v758 : IVec S16 32) (k0_hw148 : k0_chk148 v661 v758), ∀ a x, ((![v661, v758] : Fin 2 → IVec S16 32) a x).toNat < S8x1024.size a := fun v661 v758 k0_hw148 => k0_hw148

def k0_chk149 (v661 : IVec S16 32) (v763 : IVec S16 32) : Prop :=
  (∀ a x, ((![v661, v763] : Fin 2 → IVec S16 32) a x).toNat < S8x1024.size a)
instance k0_chk149.dec : ∀ (v661 : IVec S16 32) (v763 : IVec S16 32), Decidable (k0_chk149 v661 v763) := fun v661 v763 => decidable_of_iff' _ (Iff.of_eq (k0_chk149.eq_1 v661 v763))
theorem k0_idx149_inb : ∀ (v661 : IVec S16 32) (v763 : IVec S16 32) (k0_hw149 : k0_chk149 v661 v763), ∀ a x, ((![v661, v763] : Fin 2 → IVec S16 32) a x).toNat < S8x1024.size a := fun v661 v763 k0_hw149 => k0_hw149

def k0_chk150 (v661 : IVec S16 32) (v768 : IVec S16 32) : Prop :=
  (∀ a x, ((![v661, v768] : Fin 2 → IVec S16 32) a x).toNat < S8x1024.size a)
instance k0_chk150.dec : ∀ (v661 : IVec S16 32) (v768 : IVec S16 32), Decidable (k0_chk150 v661 v768) := fun v661 v768 => decidable_of_iff' _ (Iff.of_eq (k0_chk150.eq_1 v661 v768))
theorem k0_idx150_inb : ∀ (v661 : IVec S16 32) (v768 : IVec S16 32) (k0_hw150 : k0_chk150 v661 v768), ∀ a x, ((![v661, v768] : Fin 2 → IVec S16 32) a x).toNat < S8x1024.size a := fun v661 v768 k0_hw150 => k0_hw150

def k0_chk151 (v661 : IVec S16 32) (v773 : IVec S16 32) : Prop :=
  (∀ a x, ((![v661, v773] : Fin 2 → IVec S16 32) a x).toNat < S8x1024.size a)
instance k0_chk151.dec : ∀ (v661 : IVec S16 32) (v773 : IVec S16 32), Decidable (k0_chk151 v661 v773) := fun v661 v773 => decidable_of_iff' _ (Iff.of_eq (k0_chk151.eq_1 v661 v773))
theorem k0_idx151_inb : ∀ (v661 : IVec S16 32) (v773 : IVec S16 32) (k0_hw151 : k0_chk151 v661 v773), ∀ a x, ((![v661, v773] : Fin 2 → IVec S16 32) a x).toNat < S8x1024.size a := fun v661 v773 k0_hw151 => k0_hw151

def k0_chk152 (v661 : IVec S16 32) (v778 : IVec S16 32) : Prop :=
  (∀ a x, ((![v661, v778] : Fin 2 → IVec S16 32) a x).toNat < S8x1024.size a)
instance k0_chk152.dec : ∀ (v661 : IVec S16 32) (v778 : IVec S16 32), Decidable (k0_chk152 v661 v778) := fun v661 v778 => decidable_of_iff' _ (Iff.of_eq (k0_chk152.eq_1 v661 v778))
theorem k0_idx152_inb : ∀ (v661 : IVec S16 32) (v778 : IVec S16 32) (k0_hw152 : k0_chk152 v661 v778), ∀ a x, ((![v661, v778] : Fin 2 → IVec S16 32) a x).toNat < S8x1024.size a := fun v661 v778 k0_hw152 => k0_hw152

def k0_chk153 (v661 : IVec S16 32) (v783 : IVec S16 32) : Prop :=
  (∀ a x, ((![v661, v783] : Fin 2 → IVec S16 32) a x).toNat < S8x1024.size a)
instance k0_chk153.dec : ∀ (v661 : IVec S16 32) (v783 : IVec S16 32), Decidable (k0_chk153 v661 v783) := fun v661 v783 => decidable_of_iff' _ (Iff.of_eq (k0_chk153.eq_1 v661 v783))
theorem k0_idx153_inb : ∀ (v661 : IVec S16 32) (v783 : IVec S16 32) (k0_hw153 : k0_chk153 v661 v783), ∀ a x, ((![v661, v783] : Fin 2 → IVec S16 32) a x).toNat < S8x1024.size a := fun v661 v783 k0_hw153 => k0_hw153

def k0_chk154 (v661 : IVec S16 32) (v788 : IVec S16 32) : Prop :=
  (∀ a x, ((![v661, v788] : Fin 2 → IVec S16 32) a x).toNat < S8x1024.size a)
instance k0_chk154.dec : ∀ (v661 : IVec S16 32) (v788 : IVec S16 32), Decidable (k0_chk154 v661 v788) := fun v661 v788 => decidable_of_iff' _ (Iff.of_eq (k0_chk154.eq_1 v661 v788))
theorem k0_idx154_inb : ∀ (v661 : IVec S16 32) (v788 : IVec S16 32) (k0_hw154 : k0_chk154 v661 v788), ∀ a x, ((![v661, v788] : Fin 2 → IVec S16 32) a x).toNat < S8x1024.size a := fun v661 v788 k0_hw154 => k0_hw154

def k0_chk155 (v661 : IVec S16 32) (v793 : IVec S16 32) : Prop :=
  (∀ a x, ((![v661, v793] : Fin 2 → IVec S16 32) a x).toNat < S8x1024.size a)
instance k0_chk155.dec : ∀ (v661 : IVec S16 32) (v793 : IVec S16 32), Decidable (k0_chk155 v661 v793) := fun v661 v793 => decidable_of_iff' _ (Iff.of_eq (k0_chk155.eq_1 v661 v793))
theorem k0_idx155_inb : ∀ (v661 : IVec S16 32) (v793 : IVec S16 32) (k0_hw155 : k0_chk155 v661 v793), ∀ a x, ((![v661, v793] : Fin 2 → IVec S16 32) a x).toNat < S8x1024.size a := fun v661 v793 k0_hw155 => k0_hw155

def k0_chk156 (v661 : IVec S16 32) (v798 : IVec S16 32) : Prop :=
  (∀ a x, ((![v661, v798] : Fin 2 → IVec S16 32) a x).toNat < S8x1024.size a)
instance k0_chk156.dec : ∀ (v661 : IVec S16 32) (v798 : IVec S16 32), Decidable (k0_chk156 v661 v798) := fun v661 v798 => decidable_of_iff' _ (Iff.of_eq (k0_chk156.eq_1 v661 v798))
theorem k0_idx156_inb : ∀ (v661 : IVec S16 32) (v798 : IVec S16 32) (k0_hw156 : k0_chk156 v661 v798), ∀ a x, ((![v661, v798] : Fin 2 → IVec S16 32) a x).toNat < S8x1024.size a := fun v661 v798 k0_hw156 => k0_hw156

def k0_chk157 (v661 : IVec S16 32) (v803 : IVec S16 32) : Prop :=
  (∀ a x, ((![v661, v803] : Fin 2 → IVec S16 32) a x).toNat < S8x1024.size a)
instance k0_chk157.dec : ∀ (v661 : IVec S16 32) (v803 : IVec S16 32), Decidable (k0_chk157 v661 v803) := fun v661 v803 => decidable_of_iff' _ (Iff.of_eq (k0_chk157.eq_1 v661 v803))
theorem k0_idx157_inb : ∀ (v661 : IVec S16 32) (v803 : IVec S16 32) (k0_hw157 : k0_chk157 v661 v803), ∀ a x, ((![v661, v803] : Fin 2 → IVec S16 32) a x).toNat < S8x1024.size a := fun v661 v803 k0_hw157 => k0_hw157

def k0_chk158 (v661 : IVec S16 32) (v808 : IVec S16 32) : Prop :=
  (∀ a x, ((![v661, v808] : Fin 2 → IVec S16 32) a x).toNat < S8x1024.size a)
instance k0_chk158.dec : ∀ (v661 : IVec S16 32) (v808 : IVec S16 32), Decidable (k0_chk158 v661 v808) := fun v661 v808 => decidable_of_iff' _ (Iff.of_eq (k0_chk158.eq_1 v661 v808))
theorem k0_idx158_inb : ∀ (v661 : IVec S16 32) (v808 : IVec S16 32) (k0_hw158 : k0_chk158 v661 v808), ∀ a x, ((![v661, v808] : Fin 2 → IVec S16 32) a x).toNat < S8x1024.size a := fun v661 v808 k0_hw158 => k0_hw158

def k0_chk159 (v661 : IVec S16 32) (v813 : IVec S16 32) : Prop :=
  (∀ a x, ((![v661, v813] : Fin 2 → IVec S16 32) a x).toNat < S8x1024.size a)
instance k0_chk159.dec : ∀ (v661 : IVec S16 32) (v813 : IVec S16 32), Decidable (k0_chk159 v661 v813) := fun v661 v813 => decidable_of_iff' _ (Iff.of_eq (k0_chk159.eq_1 v661 v813))
theorem k0_idx159_inb : ∀ (v661 : IVec S16 32) (v813 : IVec S16 32) (k0_hw159 : k0_chk159 v661 v813), ∀ a x, ((![v661, v813] : Fin 2 → IVec S16 32) a x).toNat < S8x1024.size a := fun v661 v813 k0_hw159 => k0_hw159

def k0_chk160 (v661 : IVec S16 32) (v818 : IVec S16 32) : Prop :=
  (∀ a x, ((![v661, v818] : Fin 2 → IVec S16 32) a x).toNat < S8x1024.size a)
instance k0_chk160.dec : ∀ (v661 : IVec S16 32) (v818 : IVec S16 32), Decidable (k0_chk160 v661 v818) := fun v661 v818 => decidable_of_iff' _ (Iff.of_eq (k0_chk160.eq_1 v661 v818))
theorem k0_idx160_inb : ∀ (v661 : IVec S16 32) (v818 : IVec S16 32) (k0_hw160 : k0_chk160 v661 v818), ∀ a x, ((![v661, v818] : Fin 2 → IVec S16 32) a x).toNat < S8x1024.size a := fun v661 v818 k0_hw160 => k0_hw160

def k0_chk161 (v661 : IVec S16 32) (v823 : IVec S16 32) : Prop :=
  (∀ a x, ((![v661, v823] : Fin 2 → IVec S16 32) a x).toNat < S8x1024.size a)
instance k0_chk161.dec : ∀ (v661 : IVec S16 32) (v823 : IVec S16 32), Decidable (k0_chk161 v661 v823) := fun v661 v823 => decidable_of_iff' _ (Iff.of_eq (k0_chk161.eq_1 v661 v823))
theorem k0_idx161_inb : ∀ (v661 : IVec S16 32) (v823 : IVec S16 32) (k0_hw161 : k0_chk161 v661 v823), ∀ a x, ((![v661, v823] : Fin 2 → IVec S16 32) a x).toNat < S8x1024.size a := fun v661 v823 k0_hw161 => k0_hw161

def k0_chk162 (v661 : IVec S16 32) (v828 : IVec S16 32) : Prop :=
  (∀ a x, ((![v661, v828] : Fin 2 → IVec S16 32) a x).toNat < S8x1024.size a)
instance k0_chk162.dec : ∀ (v661 : IVec S16 32) (v828 : IVec S16 32), Decidable (k0_chk162 v661 v828) := fun v661 v828 => decidable_of_iff' _ (Iff.of_eq (k0_chk162.eq_1 v661 v828))
theorem k0_idx162_inb : ∀ (v661 : IVec S16 32) (v828 : IVec S16 32) (k0_hw162 : k0_chk162 v661 v828), ∀ a x, ((![v661, v828] : Fin 2 → IVec S16 32) a x).toNat < S8x1024.size a := fun v661 v828 k0_hw162 => k0_hw162

def k0_chk163 (v661 : IVec S16 32) (v833 : IVec S16 32) : Prop :=
  (∀ a x, ((![v661, v833] : Fin 2 → IVec S16 32) a x).toNat < S8x1024.size a)
instance k0_chk163.dec : ∀ (v661 : IVec S16 32) (v833 : IVec S16 32), Decidable (k0_chk163 v661 v833) := fun v661 v833 => decidable_of_iff' _ (Iff.of_eq (k0_chk163.eq_1 v661 v833))
theorem k0_idx163_inb : ∀ (v661 : IVec S16 32) (v833 : IVec S16 32) (k0_hw163 : k0_chk163 v661 v833), ∀ a x, ((![v661, v833] : Fin 2 → IVec S16 32) a x).toNat < S8x1024.size a := fun v661 v833 k0_hw163 => k0_hw163

def k0_chk164 (v661 : IVec S16 32) (v838 : IVec S16 32) : Prop :=
  (∀ a x, ((![v661, v838] : Fin 2 → IVec S16 32) a x).toNat < S8x1024.size a)
instance k0_chk164.dec : ∀ (v661 : IVec S16 32) (v838 : IVec S16 32), Decidable (k0_chk164 v661 v838) := fun v661 v838 => decidable_of_iff' _ (Iff.of_eq (k0_chk164.eq_1 v661 v838))
theorem k0_idx164_inb : ∀ (v661 : IVec S16 32) (v838 : IVec S16 32) (k0_hw164 : k0_chk164 v661 v838), ∀ a x, ((![v661, v838] : Fin 2 → IVec S16 32) a x).toNat < S8x1024.size a := fun v661 v838 k0_hw164 => k0_hw164

def k0_chk165 (v661 : IVec S16 32) (v843 : IVec S16 32) : Prop :=
  (∀ a x, ((![v661, v843] : Fin 2 → IVec S16 32) a x).toNat < S8x1024.size a)
instance k0_chk165.dec : ∀ (v661 : IVec S16 32) (v843 : IVec S16 32), Decidable (k0_chk165 v661 v843) := fun v661 v843 => decidable_of_iff' _ (Iff.of_eq (k0_chk165.eq_1 v661 v843))
theorem k0_idx165_inb : ∀ (v661 : IVec S16 32) (v843 : IVec S16 32) (k0_hw165 : k0_chk165 v661 v843), ∀ a x, ((![v661, v843] : Fin 2 → IVec S16 32) a x).toNat < S8x1024.size a := fun v661 v843 k0_hw165 => k0_hw165

def k0_chk166 (v661 : IVec S16 32) (v848 : IVec S16 32) : Prop :=
  (∀ a x, ((![v661, v848] : Fin 2 → IVec S16 32) a x).toNat < S8x1024.size a)
instance k0_chk166.dec : ∀ (v661 : IVec S16 32) (v848 : IVec S16 32), Decidable (k0_chk166 v661 v848) := fun v661 v848 => decidable_of_iff' _ (Iff.of_eq (k0_chk166.eq_1 v661 v848))
theorem k0_idx166_inb : ∀ (v661 : IVec S16 32) (v848 : IVec S16 32) (k0_hw166 : k0_chk166 v661 v848), ∀ a x, ((![v661, v848] : Fin 2 → IVec S16 32) a x).toNat < S8x1024.size a := fun v661 v848 k0_hw166 => k0_hw166

def k0_chk167 (v661 : IVec S16 32) (v853 : IVec S16 32) : Prop :=
  (∀ a x, ((![v661, v853] : Fin 2 → IVec S16 32) a x).toNat < S8x1024.size a)
instance k0_chk167.dec : ∀ (v661 : IVec S16 32) (v853 : IVec S16 32), Decidable (k0_chk167 v661 v853) := fun v661 v853 => decidable_of_iff' _ (Iff.of_eq (k0_chk167.eq_1 v661 v853))
theorem k0_idx167_inb : ∀ (v661 : IVec S16 32) (v853 : IVec S16 32) (k0_hw167 : k0_chk167 v661 v853), ∀ a x, ((![v661, v853] : Fin 2 → IVec S16 32) a x).toNat < S8x1024.size a := fun v661 v853 k0_hw167 => k0_hw167

def k0_chk168 (v661 : IVec S16 32) (v858 : IVec S16 32) : Prop :=
  (∀ a x, ((![v661, v858] : Fin 2 → IVec S16 32) a x).toNat < S8x1024.size a)
instance k0_chk168.dec : ∀ (v661 : IVec S16 32) (v858 : IVec S16 32), Decidable (k0_chk168 v661 v858) := fun v661 v858 => decidable_of_iff' _ (Iff.of_eq (k0_chk168.eq_1 v661 v858))
theorem k0_idx168_inb : ∀ (v661 : IVec S16 32) (v858 : IVec S16 32) (k0_hw168 : k0_chk168 v661 v858), ∀ a x, ((![v661, v858] : Fin 2 → IVec S16 32) a x).toNat < S8x1024.size a := fun v661 v858 k0_hw168 => k0_hw168

def k0_chk169 (v661 : IVec S16 32) (v863 : IVec S16 32) : Prop :=
  (∀ a x, ((![v661, v863] : Fin 2 → IVec S16 32) a x).toNat < S8x1024.size a)
instance k0_chk169.dec : ∀ (v661 : IVec S16 32) (v863 : IVec S16 32), Decidable (k0_chk169 v661 v863) := fun v661 v863 => decidable_of_iff' _ (Iff.of_eq (k0_chk169.eq_1 v661 v863))
theorem k0_idx169_inb : ∀ (v661 : IVec S16 32) (v863 : IVec S16 32) (k0_hw169 : k0_chk169 v661 v863), ∀ a x, ((![v661, v863] : Fin 2 → IVec S16 32) a x).toNat < S8x1024.size a := fun v661 v863 k0_hw169 => k0_hw169

def k0_chk170 (v661 : IVec S16 32) (v868 : IVec S16 32) : Prop :=
  (∀ a x, ((![v661, v868] : Fin 2 → IVec S16 32) a x).toNat < S8x1024.size a)
instance k0_chk170.dec : ∀ (v661 : IVec S16 32) (v868 : IVec S16 32), Decidable (k0_chk170 v661 v868) := fun v661 v868 => decidable_of_iff' _ (Iff.of_eq (k0_chk170.eq_1 v661 v868))
theorem k0_idx170_inb : ∀ (v661 : IVec S16 32) (v868 : IVec S16 32) (k0_hw170 : k0_chk170 v661 v868), ∀ a x, ((![v661, v868] : Fin 2 → IVec S16 32) a x).toNat < S8x1024.size a := fun v661 v868 k0_hw170 => k0_hw170

def k0_chk171 (v661 : IVec S16 32) (v873 : IVec S16 32) : Prop :=
  (∀ a x, ((![v661, v873] : Fin 2 → IVec S16 32) a x).toNat < S8x1024.size a)
instance k0_chk171.dec : ∀ (v661 : IVec S16 32) (v873 : IVec S16 32), Decidable (k0_chk171 v661 v873) := fun v661 v873 => decidable_of_iff' _ (Iff.of_eq (k0_chk171.eq_1 v661 v873))
theorem k0_idx171_inb : ∀ (v661 : IVec S16 32) (v873 : IVec S16 32) (k0_hw171 : k0_chk171 v661 v873), ∀ a x, ((![v661, v873] : Fin 2 → IVec S16 32) a x).toNat < S8x1024.size a := fun v661 v873 k0_hw171 => k0_hw171

def k0_chk172 (v661 : IVec S16 32) (v878 : IVec S16 32) : Prop :=
  (∀ a x, ((![v661, v878] : Fin 2 → IVec S16 32) a x).toNat < S8x1024.size a)
instance k0_chk172.dec : ∀ (v661 : IVec S16 32) (v878 : IVec S16 32), Decidable (k0_chk172 v661 v878) := fun v661 v878 => decidable_of_iff' _ (Iff.of_eq (k0_chk172.eq_1 v661 v878))
theorem k0_idx172_inb : ∀ (v661 : IVec S16 32) (v878 : IVec S16 32) (k0_hw172 : k0_chk172 v661 v878), ∀ a x, ((![v661, v878] : Fin 2 → IVec S16 32) a x).toNat < S8x1024.size a := fun v661 v878 k0_hw172 => k0_hw172

def k0_chk173 (v661 : IVec S16 32) (v883 : IVec S16 32) : Prop :=
  (∀ a x, ((![v661, v883] : Fin 2 → IVec S16 32) a x).toNat < S8x1024.size a)
instance k0_chk173.dec : ∀ (v661 : IVec S16 32) (v883 : IVec S16 32), Decidable (k0_chk173 v661 v883) := fun v661 v883 => decidable_of_iff' _ (Iff.of_eq (k0_chk173.eq_1 v661 v883))
theorem k0_idx173_inb : ∀ (v661 : IVec S16 32) (v883 : IVec S16 32) (k0_hw173 : k0_chk173 v661 v883), ∀ a x, ((![v661, v883] : Fin 2 → IVec S16 32) a x).toNat < S8x1024.size a := fun v661 v883 k0_hw173 => k0_hw173

def k0_chk174 (v661 : IVec S16 32) (v888 : IVec S16 32) : Prop :=
  (∀ a x, ((![v661, v888] : Fin 2 → IVec S16 32) a x).toNat < S8x1024.size a)
instance k0_chk174.dec : ∀ (v661 : IVec S16 32) (v888 : IVec S16 32), Decidable (k0_chk174 v661 v888) := fun v661 v888 => decidable_of_iff' _ (Iff.of_eq (k0_chk174.eq_1 v661 v888))
theorem k0_idx174_inb : ∀ (v661 : IVec S16 32) (v888 : IVec S16 32) (k0_hw174 : k0_chk174 v661 v888), ∀ a x, ((![v661, v888] : Fin 2 → IVec S16 32) a x).toNat < S8x1024.size a := fun v661 v888 k0_hw174 => k0_hw174

def k0_chk175 (v661 : IVec S16 32) (v893 : IVec S16 32) : Prop :=
  (∀ a x, ((![v661, v893] : Fin 2 → IVec S16 32) a x).toNat < S8x1024.size a)
instance k0_chk175.dec : ∀ (v661 : IVec S16 32) (v893 : IVec S16 32), Decidable (k0_chk175 v661 v893) := fun v661 v893 => decidable_of_iff' _ (Iff.of_eq (k0_chk175.eq_1 v661 v893))
theorem k0_idx175_inb : ∀ (v661 : IVec S16 32) (v893 : IVec S16 32) (k0_hw175 : k0_chk175 v661 v893), ∀ a x, ((![v661, v893] : Fin 2 → IVec S16 32) a x).toNat < S8x1024.size a := fun v661 v893 k0_hw175 => k0_hw175

def k0_chk176 (v661 : IVec S16 32) (v898 : IVec S16 32) : Prop :=
  (∀ a x, ((![v661, v898] : Fin 2 → IVec S16 32) a x).toNat < S8x1024.size a)
instance k0_chk176.dec : ∀ (v661 : IVec S16 32) (v898 : IVec S16 32), Decidable (k0_chk176 v661 v898) := fun v661 v898 => decidable_of_iff' _ (Iff.of_eq (k0_chk176.eq_1 v661 v898))
theorem k0_idx176_inb : ∀ (v661 : IVec S16 32) (v898 : IVec S16 32) (k0_hw176 : k0_chk176 v661 v898), ∀ a x, ((![v661, v898] : Fin 2 → IVec S16 32) a x).toNat < S8x1024.size a := fun v661 v898 k0_hw176 => k0_hw176

def k0_chk177 (v661 : IVec S16 32) (v903 : IVec S16 32) : Prop :=
  (∀ a x, ((![v661, v903] : Fin 2 → IVec S16 32) a x).toNat < S8x1024.size a)
instance k0_chk177.dec : ∀ (v661 : IVec S16 32) (v903 : IVec S16 32), Decidable (k0_chk177 v661 v903) := fun v661 v903 => decidable_of_iff' _ (Iff.of_eq (k0_chk177.eq_1 v661 v903))
theorem k0_idx177_inb : ∀ (v661 : IVec S16 32) (v903 : IVec S16 32) (k0_hw177 : k0_chk177 v661 v903), ∀ a x, ((![v661, v903] : Fin 2 → IVec S16 32) a x).toNat < S8x1024.size a := fun v661 v903 k0_hw177 => k0_hw177

def k0_chk178 (v661 : IVec S16 32) (v908 : IVec S16 32) : Prop :=
  (∀ a x, ((![v661, v908] : Fin 2 → IVec S16 32) a x).toNat < S8x1024.size a)
instance k0_chk178.dec : ∀ (v661 : IVec S16 32) (v908 : IVec S16 32), Decidable (k0_chk178 v661 v908) := fun v661 v908 => decidable_of_iff' _ (Iff.of_eq (k0_chk178.eq_1 v661 v908))
theorem k0_idx178_inb : ∀ (v661 : IVec S16 32) (v908 : IVec S16 32) (k0_hw178 : k0_chk178 v661 v908), ∀ a x, ((![v661, v908] : Fin 2 → IVec S16 32) a x).toNat < S8x1024.size a := fun v661 v908 k0_hw178 => k0_hw178

def k0_chk179 (v661 : IVec S16 32) (v913 : IVec S16 32) : Prop :=
  (∀ a x, ((![v661, v913] : Fin 2 → IVec S16 32) a x).toNat < S8x1024.size a)
instance k0_chk179.dec : ∀ (v661 : IVec S16 32) (v913 : IVec S16 32), Decidable (k0_chk179 v661 v913) := fun v661 v913 => decidable_of_iff' _ (Iff.of_eq (k0_chk179.eq_1 v661 v913))
theorem k0_idx179_inb : ∀ (v661 : IVec S16 32) (v913 : IVec S16 32) (k0_hw179 : k0_chk179 v661 v913), ∀ a x, ((![v661, v913] : Fin 2 → IVec S16 32) a x).toNat < S8x1024.size a := fun v661 v913 k0_hw179 => k0_hw179

def k0_chk180 (v661 : IVec S16 32) (v918 : IVec S16 32) : Prop :=
  (∀ a x, ((![v661, v918] : Fin 2 → IVec S16 32) a x).toNat < S8x1024.size a)
instance k0_chk180.dec : ∀ (v661 : IVec S16 32) (v918 : IVec S16 32), Decidable (k0_chk180 v661 v918) := fun v661 v918 => decidable_of_iff' _ (Iff.of_eq (k0_chk180.eq_1 v661 v918))
theorem k0_idx180_inb : ∀ (v661 : IVec S16 32) (v918 : IVec S16 32) (k0_hw180 : k0_chk180 v661 v918), ∀ a x, ((![v661, v918] : Fin 2 → IVec S16 32) a x).toNat < S8x1024.size a := fun v661 v918 k0_hw180 => k0_hw180

def k0_chk181 (v661 : IVec S16 32) (v923 : IVec S16 32) : Prop :=
  (∀ a x, ((![v661, v923] : Fin 2 → IVec S16 32) a x).toNat < S8x1024.size a)
instance k0_chk181.dec : ∀ (v661 : IVec S16 32) (v923 : IVec S16 32), Decidable (k0_chk181 v661 v923) := fun v661 v923 => decidable_of_iff' _ (Iff.of_eq (k0_chk181.eq_1 v661 v923))
theorem k0_idx181_inb : ∀ (v661 : IVec S16 32) (v923 : IVec S16 32) (k0_hw181 : k0_chk181 v661 v923), ∀ a x, ((![v661, v923] : Fin 2 → IVec S16 32) a x).toNat < S8x1024.size a := fun v661 v923 k0_hw181 => k0_hw181

def k0_chk182 (v661 : IVec S16 32) (v928 : IVec S16 32) : Prop :=
  (∀ a x, ((![v661, v928] : Fin 2 → IVec S16 32) a x).toNat < S8x1024.size a)
instance k0_chk182.dec : ∀ (v661 : IVec S16 32) (v928 : IVec S16 32), Decidable (k0_chk182 v661 v928) := fun v661 v928 => decidable_of_iff' _ (Iff.of_eq (k0_chk182.eq_1 v661 v928))
theorem k0_idx182_inb : ∀ (v661 : IVec S16 32) (v928 : IVec S16 32) (k0_hw182 : k0_chk182 v661 v928), ∀ a x, ((![v661, v928] : Fin 2 → IVec S16 32) a x).toNat < S8x1024.size a := fun v661 v928 k0_hw182 => k0_hw182

def k0_chk183 (v661 : IVec S16 32) (v933 : IVec S16 32) : Prop :=
  (∀ a x, ((![v661, v933] : Fin 2 → IVec S16 32) a x).toNat < S8x1024.size a)
instance k0_chk183.dec : ∀ (v661 : IVec S16 32) (v933 : IVec S16 32), Decidable (k0_chk183 v661 v933) := fun v661 v933 => decidable_of_iff' _ (Iff.of_eq (k0_chk183.eq_1 v661 v933))
theorem k0_idx183_inb : ∀ (v661 : IVec S16 32) (v933 : IVec S16 32) (k0_hw183 : k0_chk183 v661 v933), ∀ a x, ((![v661, v933] : Fin 2 → IVec S16 32) a x).toNat < S8x1024.size a := fun v661 v933 k0_hw183 => k0_hw183

def k0_chk184 (v661 : IVec S16 32) (v938 : IVec S16 32) : Prop :=
  (∀ a x, ((![v661, v938] : Fin 2 → IVec S16 32) a x).toNat < S8x1024.size a)
instance k0_chk184.dec : ∀ (v661 : IVec S16 32) (v938 : IVec S16 32), Decidable (k0_chk184 v661 v938) := fun v661 v938 => decidable_of_iff' _ (Iff.of_eq (k0_chk184.eq_1 v661 v938))
theorem k0_idx184_inb : ∀ (v661 : IVec S16 32) (v938 : IVec S16 32) (k0_hw184 : k0_chk184 v661 v938), ∀ a x, ((![v661, v938] : Fin 2 → IVec S16 32) a x).toNat < S8x1024.size a := fun v661 v938 k0_hw184 => k0_hw184

def k0_chk185 (v661 : IVec S16 32) (v943 : IVec S16 32) : Prop :=
  (∀ a x, ((![v661, v943] : Fin 2 → IVec S16 32) a x).toNat < S8x1024.size a)
instance k0_chk185.dec : ∀ (v661 : IVec S16 32) (v943 : IVec S16 32), Decidable (k0_chk185 v661 v943) := fun v661 v943 => decidable_of_iff' _ (Iff.of_eq (k0_chk185.eq_1 v661 v943))
theorem k0_idx185_inb : ∀ (v661 : IVec S16 32) (v943 : IVec S16 32) (k0_hw185 : k0_chk185 v661 v943), ∀ a x, ((![v661, v943] : Fin 2 → IVec S16 32) a x).toNat < S8x1024.size a := fun v661 v943 k0_hw185 => k0_hw185

def k0_chk186 (v661 : IVec S16 32) (v948 : IVec S16 32) : Prop :=
  (∀ a x, ((![v661, v948] : Fin 2 → IVec S16 32) a x).toNat < S8x1024.size a)
instance k0_chk186.dec : ∀ (v661 : IVec S16 32) (v948 : IVec S16 32), Decidable (k0_chk186 v661 v948) := fun v661 v948 => decidable_of_iff' _ (Iff.of_eq (k0_chk186.eq_1 v661 v948))
theorem k0_idx186_inb : ∀ (v661 : IVec S16 32) (v948 : IVec S16 32) (k0_hw186 : k0_chk186 v661 v948), ∀ a x, ((![v661, v948] : Fin 2 → IVec S16 32) a x).toNat < S8x1024.size a := fun v661 v948 k0_hw186 => k0_hw186

def k0_chk187 (v661 : IVec S16 32) (v953 : IVec S16 32) : Prop :=
  (∀ a x, ((![v661, v953] : Fin 2 → IVec S16 32) a x).toNat < S8x1024.size a)
instance k0_chk187.dec : ∀ (v661 : IVec S16 32) (v953 : IVec S16 32), Decidable (k0_chk187 v661 v953) := fun v661 v953 => decidable_of_iff' _ (Iff.of_eq (k0_chk187.eq_1 v661 v953))
theorem k0_idx187_inb : ∀ (v661 : IVec S16 32) (v953 : IVec S16 32) (k0_hw187 : k0_chk187 v661 v953), ∀ a x, ((![v661, v953] : Fin 2 → IVec S16 32) a x).toNat < S8x1024.size a := fun v661 v953 k0_hw187 => k0_hw187

def k0_chk188 (v661 : IVec S16 32) (v958 : IVec S16 32) : Prop :=
  (∀ a x, ((![v661, v958] : Fin 2 → IVec S16 32) a x).toNat < S8x1024.size a)
instance k0_chk188.dec : ∀ (v661 : IVec S16 32) (v958 : IVec S16 32), Decidable (k0_chk188 v661 v958) := fun v661 v958 => decidable_of_iff' _ (Iff.of_eq (k0_chk188.eq_1 v661 v958))
theorem k0_idx188_inb : ∀ (v661 : IVec S16 32) (v958 : IVec S16 32) (k0_hw188 : k0_chk188 v661 v958), ∀ a x, ((![v661, v958] : Fin 2 → IVec S16 32) a x).toNat < S8x1024.size a := fun v661 v958 k0_hw188 => k0_hw188

def k0_chk189 (v661 : IVec S16 32) (v963 : IVec S16 32) : Prop :=
  (∀ a x, ((![v661, v963] : Fin 2 → IVec S16 32) a x).toNat < S8x1024.size a)
instance k0_chk189.dec : ∀ (v661 : IVec S16 32) (v963 : IVec S16 32), Decidable (k0_chk189 v661 v963) := fun v661 v963 => decidable_of_iff' _ (Iff.of_eq (k0_chk189.eq_1 v661 v963))
theorem k0_idx189_inb : ∀ (v661 : IVec S16 32) (v963 : IVec S16 32) (k0_hw189 : k0_chk189 v661 v963), ∀ a x, ((![v661, v963] : Fin 2 → IVec S16 32) a x).toNat < S8x1024.size a := fun v661 v963 k0_hw189 => k0_hw189

def k0_chk190 (v661 : IVec S16 32) (v968 : IVec S16 32) : Prop :=
  (∀ a x, ((![v661, v968] : Fin 2 → IVec S16 32) a x).toNat < S8x1024.size a)
instance k0_chk190.dec : ∀ (v661 : IVec S16 32) (v968 : IVec S16 32), Decidable (k0_chk190 v661 v968) := fun v661 v968 => decidable_of_iff' _ (Iff.of_eq (k0_chk190.eq_1 v661 v968))
theorem k0_idx190_inb : ∀ (v661 : IVec S16 32) (v968 : IVec S16 32) (k0_hw190 : k0_chk190 v661 v968), ∀ a x, ((![v661, v968] : Fin 2 → IVec S16 32) a x).toNat < S8x1024.size a := fun v661 v968 k0_hw190 => k0_hw190

def k0_chk191 (v661 : IVec S16 32) (v973 : IVec S16 32) : Prop :=
  (∀ a x, ((![v661, v973] : Fin 2 → IVec S16 32) a x).toNat < S8x1024.size a)
instance k0_chk191.dec : ∀ (v661 : IVec S16 32) (v973 : IVec S16 32), Decidable (k0_chk191 v661 v973) := fun v661 v973 => decidable_of_iff' _ (Iff.of_eq (k0_chk191.eq_1 v661 v973))
theorem k0_idx191_inb : ∀ (v661 : IVec S16 32) (v973 : IVec S16 32) (k0_hw191 : k0_chk191 v661 v973), ∀ a x, ((![v661, v973] : Fin 2 → IVec S16 32) a x).toNat < S8x1024.size a := fun v661 v973 k0_hw191 => k0_hw191

def k0_chk192 (v661 : IVec S16 32) (v978 : IVec S16 32) : Prop :=
  (∀ a x, ((![v661, v978] : Fin 2 → IVec S16 32) a x).toNat < S8x1024.size a)
instance k0_chk192.dec : ∀ (v661 : IVec S16 32) (v978 : IVec S16 32), Decidable (k0_chk192 v661 v978) := fun v661 v978 => decidable_of_iff' _ (Iff.of_eq (k0_chk192.eq_1 v661 v978))
theorem k0_idx192_inb : ∀ (v661 : IVec S16 32) (v978 : IVec S16 32) (k0_hw192 : k0_chk192 v661 v978), ∀ a x, ((![v661, v978] : Fin 2 → IVec S16 32) a x).toNat < S8x1024.size a := fun v661 v978 k0_hw192 => k0_hw192

def k0_chk193 (v983 : IVec S16 32) (v985 : IVec S16 32) : Prop :=
  (∀ a x, ((![v983, v985] : Fin 2 → IVec S16 32) a x).toNat < S8x1024.size a)
instance k0_chk193.dec : ∀ (v983 : IVec S16 32) (v985 : IVec S16 32), Decidable (k0_chk193 v983 v985) := fun v983 v985 => decidable_of_iff' _ (Iff.of_eq (k0_chk193.eq_1 v983 v985))
theorem k0_idx193_inb : ∀ (v983 : IVec S16 32) (v985 : IVec S16 32) (k0_hw193 : k0_chk193 v983 v985), ∀ a x, ((![v983, v985] : Fin 2 → IVec S16 32) a x).toNat < S8x1024.size a := fun v983 v985 k0_hw193 => k0_hw193

def k0_chk194 (v983 : IVec S16 32) (v990 : IVec S16 32) : Prop :=
  (∀ a x, ((![v983, v990] : Fin 2 → IVec S16 32) a x).toNat < S8x1024.size a)
instance k0_chk194.dec : ∀ (v983 : IVec S16 32) (v990 : IVec S16 32), Decidable (k0_chk194 v983 v990) := fun v983 v990 => decidable_of_iff' _ (Iff.of_eq (k0_chk194.eq_1 v983 v990))
theorem k0_idx194_inb : ∀ (v983 : IVec S16 32) (v990 : IVec S16 32) (k0_hw194 : k0_chk194 v983 v990), ∀ a x, ((![v983, v990] : Fin 2 → IVec S16 32) a x).toNat < S8x1024.size a := fun v983 v990 k0_hw194 => k0_hw194

def k0_chk195 (v983 : IVec S16 32) (v995 : IVec S16 32) : Prop :=
  (∀ a x, ((![v983, v995] : Fin 2 → IVec S16 32) a x).toNat < S8x1024.size a)
instance k0_chk195.dec : ∀ (v983 : IVec S16 32) (v995 : IVec S16 32), Decidable (k0_chk195 v983 v995) := fun v983 v995 => decidable_of_iff' _ (Iff.of_eq (k0_chk195.eq_1 v983 v995))
theorem k0_idx195_inb : ∀ (v983 : IVec S16 32) (v995 : IVec S16 32) (k0_hw195 : k0_chk195 v983 v995), ∀ a x, ((![v983, v995] : Fin 2 → IVec S16 32) a x).toNat < S8x1024.size a := fun v983 v995 k0_hw195 => k0_hw195

def k0_chk196 (v983 : IVec S16 32) (v1000 : IVec S16 32) : Prop :=
  (∀ a x, ((![v983, v1000] : Fin 2 → IVec S16 32) a x).toNat < S8x1024.size a)
instance k0_chk196.dec : ∀ (v983 : IVec S16 32) (v1000 : IVec S16 32), Decidable (k0_chk196 v983 v1000) := fun v983 v1000 => decidable_of_iff' _ (Iff.of_eq (k0_chk196.eq_1 v983 v1000))
theorem k0_idx196_inb : ∀ (v983 : IVec S16 32) (v1000 : IVec S16 32) (k0_hw196 : k0_chk196 v983 v1000), ∀ a x, ((![v983, v1000] : Fin 2 → IVec S16 32) a x).toNat < S8x1024.size a := fun v983 v1000 k0_hw196 => k0_hw196

def k0_chk197 (v983 : IVec S16 32) (v1005 : IVec S16 32) : Prop :=
  (∀ a x, ((![v983, v1005] : Fin 2 → IVec S16 32) a x).toNat < S8x1024.size a)
instance k0_chk197.dec : ∀ (v983 : IVec S16 32) (v1005 : IVec S16 32), Decidable (k0_chk197 v983 v1005) := fun v983 v1005 => decidable_of_iff' _ (Iff.of_eq (k0_chk197.eq_1 v983 v1005))
theorem k0_idx197_inb : ∀ (v983 : IVec S16 32) (v1005 : IVec S16 32) (k0_hw197 : k0_chk197 v983 v1005), ∀ a x, ((![v983, v1005] : Fin 2 → IVec S16 32) a x).toNat < S8x1024.size a := fun v983 v1005 k0_hw197 => k0_hw197

def k0_chk198 (v983 : IVec S16 32) (v1010 : IVec S16 32) : Prop :=
  (∀ a x, ((![v983, v1010] : Fin 2 → IVec S16 32) a x).toNat < S8x1024.size a)
instance k0_chk198.dec : ∀ (v983 : IVec S16 32) (v1010 : IVec S16 32), Decidable (k0_chk198 v983 v1010) := fun v983 v1010 => decidable_of_iff' _ (Iff.of_eq (k0_chk198.eq_1 v983 v1010))
theorem k0_idx198_inb : ∀ (v983 : IVec S16 32) (v1010 : IVec S16 32) (k0_hw198 : k0_chk198 v983 v1010), ∀ a x, ((![v983, v1010] : Fin 2 → IVec S16 32) a x).toNat < S8x1024.size a := fun v983 v1010 k0_hw198 => k0_hw198

def k0_chk199 (v983 : IVec S16 32) (v1015 : IVec S16 32) : Prop :=
  (∀ a x, ((![v983, v1015] : Fin 2 → IVec S16 32) a x).toNat < S8x1024.size a)
instance k0_chk199.dec : ∀ (v983 : IVec S16 32) (v1015 : IVec S16 32), Decidable (k0_chk199 v983 v1015) := fun v983 v1015 => decidable_of_iff' _ (Iff.of_eq (k0_chk199.eq_1 v983 v1015))
theorem k0_idx199_inb : ∀ (v983 : IVec S16 32) (v1015 : IVec S16 32) (k0_hw199 : k0_chk199 v983 v1015), ∀ a x, ((![v983, v1015] : Fin 2 → IVec S16 32) a x).toNat < S8x1024.size a := fun v983 v1015 k0_hw199 => k0_hw199

def k0_chk200 (v983 : IVec S16 32) (v1020 : IVec S16 32) : Prop :=
  (∀ a x, ((![v983, v1020] : Fin 2 → IVec S16 32) a x).toNat < S8x1024.size a)
instance k0_chk200.dec : ∀ (v983 : IVec S16 32) (v1020 : IVec S16 32), Decidable (k0_chk200 v983 v1020) := fun v983 v1020 => decidable_of_iff' _ (Iff.of_eq (k0_chk200.eq_1 v983 v1020))
theorem k0_idx200_inb : ∀ (v983 : IVec S16 32) (v1020 : IVec S16 32) (k0_hw200 : k0_chk200 v983 v1020), ∀ a x, ((![v983, v1020] : Fin 2 → IVec S16 32) a x).toNat < S8x1024.size a := fun v983 v1020 k0_hw200 => k0_hw200

def k0_chk201 (v983 : IVec S16 32) (v1025 : IVec S16 32) : Prop :=
  (∀ a x, ((![v983, v1025] : Fin 2 → IVec S16 32) a x).toNat < S8x1024.size a)
instance k0_chk201.dec : ∀ (v983 : IVec S16 32) (v1025 : IVec S16 32), Decidable (k0_chk201 v983 v1025) := fun v983 v1025 => decidable_of_iff' _ (Iff.of_eq (k0_chk201.eq_1 v983 v1025))
theorem k0_idx201_inb : ∀ (v983 : IVec S16 32) (v1025 : IVec S16 32) (k0_hw201 : k0_chk201 v983 v1025), ∀ a x, ((![v983, v1025] : Fin 2 → IVec S16 32) a x).toNat < S8x1024.size a := fun v983 v1025 k0_hw201 => k0_hw201

def k0_chk202 (v983 : IVec S16 32) (v1030 : IVec S16 32) : Prop :=
  (∀ a x, ((![v983, v1030] : Fin 2 → IVec S16 32) a x).toNat < S8x1024.size a)
instance k0_chk202.dec : ∀ (v983 : IVec S16 32) (v1030 : IVec S16 32), Decidable (k0_chk202 v983 v1030) := fun v983 v1030 => decidable_of_iff' _ (Iff.of_eq (k0_chk202.eq_1 v983 v1030))
theorem k0_idx202_inb : ∀ (v983 : IVec S16 32) (v1030 : IVec S16 32) (k0_hw202 : k0_chk202 v983 v1030), ∀ a x, ((![v983, v1030] : Fin 2 → IVec S16 32) a x).toNat < S8x1024.size a := fun v983 v1030 k0_hw202 => k0_hw202

def k0_chk203 (v983 : IVec S16 32) (v1035 : IVec S16 32) : Prop :=
  (∀ a x, ((![v983, v1035] : Fin 2 → IVec S16 32) a x).toNat < S8x1024.size a)
instance k0_chk203.dec : ∀ (v983 : IVec S16 32) (v1035 : IVec S16 32), Decidable (k0_chk203 v983 v1035) := fun v983 v1035 => decidable_of_iff' _ (Iff.of_eq (k0_chk203.eq_1 v983 v1035))
theorem k0_idx203_inb : ∀ (v983 : IVec S16 32) (v1035 : IVec S16 32) (k0_hw203 : k0_chk203 v983 v1035), ∀ a x, ((![v983, v1035] : Fin 2 → IVec S16 32) a x).toNat < S8x1024.size a := fun v983 v1035 k0_hw203 => k0_hw203

def k0_chk204 (v983 : IVec S16 32) (v1040 : IVec S16 32) : Prop :=
  (∀ a x, ((![v983, v1040] : Fin 2 → IVec S16 32) a x).toNat < S8x1024.size a)
instance k0_chk204.dec : ∀ (v983 : IVec S16 32) (v1040 : IVec S16 32), Decidable (k0_chk204 v983 v1040) := fun v983 v1040 => decidable_of_iff' _ (Iff.of_eq (k0_chk204.eq_1 v983 v1040))
theorem k0_idx204_inb : ∀ (v983 : IVec S16 32) (v1040 : IVec S16 32) (k0_hw204 : k0_chk204 v983 v1040), ∀ a x, ((![v983, v1040] : Fin 2 → IVec S16 32) a x).toNat < S8x1024.size a := fun v983 v1040 k0_hw204 => k0_hw204

def k0_chk205 (v983 : IVec S16 32) (v1045 : IVec S16 32) : Prop :=
  (∀ a x, ((![v983, v1045] : Fin 2 → IVec S16 32) a x).toNat < S8x1024.size a)
instance k0_chk205.dec : ∀ (v983 : IVec S16 32) (v1045 : IVec S16 32), Decidable (k0_chk205 v983 v1045) := fun v983 v1045 => decidable_of_iff' _ (Iff.of_eq (k0_chk205.eq_1 v983 v1045))
theorem k0_idx205_inb : ∀ (v983 : IVec S16 32) (v1045 : IVec S16 32) (k0_hw205 : k0_chk205 v983 v1045), ∀ a x, ((![v983, v1045] : Fin 2 → IVec S16 32) a x).toNat < S8x1024.size a := fun v983 v1045 k0_hw205 => k0_hw205

def k0_chk206 (v983 : IVec S16 32) (v1050 : IVec S16 32) : Prop :=
  (∀ a x, ((![v983, v1050] : Fin 2 → IVec S16 32) a x).toNat < S8x1024.size a)
instance k0_chk206.dec : ∀ (v983 : IVec S16 32) (v1050 : IVec S16 32), Decidable (k0_chk206 v983 v1050) := fun v983 v1050 => decidable_of_iff' _ (Iff.of_eq (k0_chk206.eq_1 v983 v1050))
theorem k0_idx206_inb : ∀ (v983 : IVec S16 32) (v1050 : IVec S16 32) (k0_hw206 : k0_chk206 v983 v1050), ∀ a x, ((![v983, v1050] : Fin 2 → IVec S16 32) a x).toNat < S8x1024.size a := fun v983 v1050 k0_hw206 => k0_hw206

def k0_chk207 (v983 : IVec S16 32) (v1055 : IVec S16 32) : Prop :=
  (∀ a x, ((![v983, v1055] : Fin 2 → IVec S16 32) a x).toNat < S8x1024.size a)
instance k0_chk207.dec : ∀ (v983 : IVec S16 32) (v1055 : IVec S16 32), Decidable (k0_chk207 v983 v1055) := fun v983 v1055 => decidable_of_iff' _ (Iff.of_eq (k0_chk207.eq_1 v983 v1055))
theorem k0_idx207_inb : ∀ (v983 : IVec S16 32) (v1055 : IVec S16 32) (k0_hw207 : k0_chk207 v983 v1055), ∀ a x, ((![v983, v1055] : Fin 2 → IVec S16 32) a x).toNat < S8x1024.size a := fun v983 v1055 k0_hw207 => k0_hw207

def k0_chk208 (v983 : IVec S16 32) (v1060 : IVec S16 32) : Prop :=
  (∀ a x, ((![v983, v1060] : Fin 2 → IVec S16 32) a x).toNat < S8x1024.size a)
instance k0_chk208.dec : ∀ (v983 : IVec S16 32) (v1060 : IVec S16 32), Decidable (k0_chk208 v983 v1060) := fun v983 v1060 => decidable_of_iff' _ (Iff.of_eq (k0_chk208.eq_1 v983 v1060))
theorem k0_idx208_inb : ∀ (v983 : IVec S16 32) (v1060 : IVec S16 32) (k0_hw208 : k0_chk208 v983 v1060), ∀ a x, ((![v983, v1060] : Fin 2 → IVec S16 32) a x).toNat < S8x1024.size a := fun v983 v1060 k0_hw208 => k0_hw208

def k0_chk209 (v983 : IVec S16 32) (v1065 : IVec S16 32) : Prop :=
  (∀ a x, ((![v983, v1065] : Fin 2 → IVec S16 32) a x).toNat < S8x1024.size a)
instance k0_chk209.dec : ∀ (v983 : IVec S16 32) (v1065 : IVec S16 32), Decidable (k0_chk209 v983 v1065) := fun v983 v1065 => decidable_of_iff' _ (Iff.of_eq (k0_chk209.eq_1 v983 v1065))
theorem k0_idx209_inb : ∀ (v983 : IVec S16 32) (v1065 : IVec S16 32) (k0_hw209 : k0_chk209 v983 v1065), ∀ a x, ((![v983, v1065] : Fin 2 → IVec S16 32) a x).toNat < S8x1024.size a := fun v983 v1065 k0_hw209 => k0_hw209

def k0_chk210 (v983 : IVec S16 32) (v1070 : IVec S16 32) : Prop :=
  (∀ a x, ((![v983, v1070] : Fin 2 → IVec S16 32) a x).toNat < S8x1024.size a)
instance k0_chk210.dec : ∀ (v983 : IVec S16 32) (v1070 : IVec S16 32), Decidable (k0_chk210 v983 v1070) := fun v983 v1070 => decidable_of_iff' _ (Iff.of_eq (k0_chk210.eq_1 v983 v1070))
theorem k0_idx210_inb : ∀ (v983 : IVec S16 32) (v1070 : IVec S16 32) (k0_hw210 : k0_chk210 v983 v1070), ∀ a x, ((![v983, v1070] : Fin 2 → IVec S16 32) a x).toNat < S8x1024.size a := fun v983 v1070 k0_hw210 => k0_hw210

def k0_chk211 (v983 : IVec S16 32) (v1075 : IVec S16 32) : Prop :=
  (∀ a x, ((![v983, v1075] : Fin 2 → IVec S16 32) a x).toNat < S8x1024.size a)
instance k0_chk211.dec : ∀ (v983 : IVec S16 32) (v1075 : IVec S16 32), Decidable (k0_chk211 v983 v1075) := fun v983 v1075 => decidable_of_iff' _ (Iff.of_eq (k0_chk211.eq_1 v983 v1075))
theorem k0_idx211_inb : ∀ (v983 : IVec S16 32) (v1075 : IVec S16 32) (k0_hw211 : k0_chk211 v983 v1075), ∀ a x, ((![v983, v1075] : Fin 2 → IVec S16 32) a x).toNat < S8x1024.size a := fun v983 v1075 k0_hw211 => k0_hw211

def k0_chk212 (v983 : IVec S16 32) (v1080 : IVec S16 32) : Prop :=
  (∀ a x, ((![v983, v1080] : Fin 2 → IVec S16 32) a x).toNat < S8x1024.size a)
instance k0_chk212.dec : ∀ (v983 : IVec S16 32) (v1080 : IVec S16 32), Decidable (k0_chk212 v983 v1080) := fun v983 v1080 => decidable_of_iff' _ (Iff.of_eq (k0_chk212.eq_1 v983 v1080))
theorem k0_idx212_inb : ∀ (v983 : IVec S16 32) (v1080 : IVec S16 32) (k0_hw212 : k0_chk212 v983 v1080), ∀ a x, ((![v983, v1080] : Fin 2 → IVec S16 32) a x).toNat < S8x1024.size a := fun v983 v1080 k0_hw212 => k0_hw212

def k0_chk213 (v983 : IVec S16 32) (v1085 : IVec S16 32) : Prop :=
  (∀ a x, ((![v983, v1085] : Fin 2 → IVec S16 32) a x).toNat < S8x1024.size a)
instance k0_chk213.dec : ∀ (v983 : IVec S16 32) (v1085 : IVec S16 32), Decidable (k0_chk213 v983 v1085) := fun v983 v1085 => decidable_of_iff' _ (Iff.of_eq (k0_chk213.eq_1 v983 v1085))
theorem k0_idx213_inb : ∀ (v983 : IVec S16 32) (v1085 : IVec S16 32) (k0_hw213 : k0_chk213 v983 v1085), ∀ a x, ((![v983, v1085] : Fin 2 → IVec S16 32) a x).toNat < S8x1024.size a := fun v983 v1085 k0_hw213 => k0_hw213

def k0_chk214 (v983 : IVec S16 32) (v1090 : IVec S16 32) : Prop :=
  (∀ a x, ((![v983, v1090] : Fin 2 → IVec S16 32) a x).toNat < S8x1024.size a)
instance k0_chk214.dec : ∀ (v983 : IVec S16 32) (v1090 : IVec S16 32), Decidable (k0_chk214 v983 v1090) := fun v983 v1090 => decidable_of_iff' _ (Iff.of_eq (k0_chk214.eq_1 v983 v1090))
theorem k0_idx214_inb : ∀ (v983 : IVec S16 32) (v1090 : IVec S16 32) (k0_hw214 : k0_chk214 v983 v1090), ∀ a x, ((![v983, v1090] : Fin 2 → IVec S16 32) a x).toNat < S8x1024.size a := fun v983 v1090 k0_hw214 => k0_hw214

def k0_chk215 (v983 : IVec S16 32) (v1095 : IVec S16 32) : Prop :=
  (∀ a x, ((![v983, v1095] : Fin 2 → IVec S16 32) a x).toNat < S8x1024.size a)
instance k0_chk215.dec : ∀ (v983 : IVec S16 32) (v1095 : IVec S16 32), Decidable (k0_chk215 v983 v1095) := fun v983 v1095 => decidable_of_iff' _ (Iff.of_eq (k0_chk215.eq_1 v983 v1095))
theorem k0_idx215_inb : ∀ (v983 : IVec S16 32) (v1095 : IVec S16 32) (k0_hw215 : k0_chk215 v983 v1095), ∀ a x, ((![v983, v1095] : Fin 2 → IVec S16 32) a x).toNat < S8x1024.size a := fun v983 v1095 k0_hw215 => k0_hw215

def k0_chk216 (v983 : IVec S16 32) (v1100 : IVec S16 32) : Prop :=
  (∀ a x, ((![v983, v1100] : Fin 2 → IVec S16 32) a x).toNat < S8x1024.size a)
instance k0_chk216.dec : ∀ (v983 : IVec S16 32) (v1100 : IVec S16 32), Decidable (k0_chk216 v983 v1100) := fun v983 v1100 => decidable_of_iff' _ (Iff.of_eq (k0_chk216.eq_1 v983 v1100))
theorem k0_idx216_inb : ∀ (v983 : IVec S16 32) (v1100 : IVec S16 32) (k0_hw216 : k0_chk216 v983 v1100), ∀ a x, ((![v983, v1100] : Fin 2 → IVec S16 32) a x).toNat < S8x1024.size a := fun v983 v1100 k0_hw216 => k0_hw216

def k0_chk217 (v983 : IVec S16 32) (v1105 : IVec S16 32) : Prop :=
  (∀ a x, ((![v983, v1105] : Fin 2 → IVec S16 32) a x).toNat < S8x1024.size a)
instance k0_chk217.dec : ∀ (v983 : IVec S16 32) (v1105 : IVec S16 32), Decidable (k0_chk217 v983 v1105) := fun v983 v1105 => decidable_of_iff' _ (Iff.of_eq (k0_chk217.eq_1 v983 v1105))
theorem k0_idx217_inb : ∀ (v983 : IVec S16 32) (v1105 : IVec S16 32) (k0_hw217 : k0_chk217 v983 v1105), ∀ a x, ((![v983, v1105] : Fin 2 → IVec S16 32) a x).toNat < S8x1024.size a := fun v983 v1105 k0_hw217 => k0_hw217

def k0_chk218 (v983 : IVec S16 32) (v1110 : IVec S16 32) : Prop :=
  (∀ a x, ((![v983, v1110] : Fin 2 → IVec S16 32) a x).toNat < S8x1024.size a)
instance k0_chk218.dec : ∀ (v983 : IVec S16 32) (v1110 : IVec S16 32), Decidable (k0_chk218 v983 v1110) := fun v983 v1110 => decidable_of_iff' _ (Iff.of_eq (k0_chk218.eq_1 v983 v1110))
theorem k0_idx218_inb : ∀ (v983 : IVec S16 32) (v1110 : IVec S16 32) (k0_hw218 : k0_chk218 v983 v1110), ∀ a x, ((![v983, v1110] : Fin 2 → IVec S16 32) a x).toNat < S8x1024.size a := fun v983 v1110 k0_hw218 => k0_hw218

def k0_chk219 (v983 : IVec S16 32) (v1115 : IVec S16 32) : Prop :=
  (∀ a x, ((![v983, v1115] : Fin 2 → IVec S16 32) a x).toNat < S8x1024.size a)
instance k0_chk219.dec : ∀ (v983 : IVec S16 32) (v1115 : IVec S16 32), Decidable (k0_chk219 v983 v1115) := fun v983 v1115 => decidable_of_iff' _ (Iff.of_eq (k0_chk219.eq_1 v983 v1115))
theorem k0_idx219_inb : ∀ (v983 : IVec S16 32) (v1115 : IVec S16 32) (k0_hw219 : k0_chk219 v983 v1115), ∀ a x, ((![v983, v1115] : Fin 2 → IVec S16 32) a x).toNat < S8x1024.size a := fun v983 v1115 k0_hw219 => k0_hw219

def k0_chk220 (v983 : IVec S16 32) (v1120 : IVec S16 32) : Prop :=
  (∀ a x, ((![v983, v1120] : Fin 2 → IVec S16 32) a x).toNat < S8x1024.size a)
instance k0_chk220.dec : ∀ (v983 : IVec S16 32) (v1120 : IVec S16 32), Decidable (k0_chk220 v983 v1120) := fun v983 v1120 => decidable_of_iff' _ (Iff.of_eq (k0_chk220.eq_1 v983 v1120))
theorem k0_idx220_inb : ∀ (v983 : IVec S16 32) (v1120 : IVec S16 32) (k0_hw220 : k0_chk220 v983 v1120), ∀ a x, ((![v983, v1120] : Fin 2 → IVec S16 32) a x).toNat < S8x1024.size a := fun v983 v1120 k0_hw220 => k0_hw220

def k0_chk221 (v983 : IVec S16 32) (v1125 : IVec S16 32) : Prop :=
  (∀ a x, ((![v983, v1125] : Fin 2 → IVec S16 32) a x).toNat < S8x1024.size a)
instance k0_chk221.dec : ∀ (v983 : IVec S16 32) (v1125 : IVec S16 32), Decidable (k0_chk221 v983 v1125) := fun v983 v1125 => decidable_of_iff' _ (Iff.of_eq (k0_chk221.eq_1 v983 v1125))
theorem k0_idx221_inb : ∀ (v983 : IVec S16 32) (v1125 : IVec S16 32) (k0_hw221 : k0_chk221 v983 v1125), ∀ a x, ((![v983, v1125] : Fin 2 → IVec S16 32) a x).toNat < S8x1024.size a := fun v983 v1125 k0_hw221 => k0_hw221

def k0_chk222 (v983 : IVec S16 32) (v1130 : IVec S16 32) : Prop :=
  (∀ a x, ((![v983, v1130] : Fin 2 → IVec S16 32) a x).toNat < S8x1024.size a)
instance k0_chk222.dec : ∀ (v983 : IVec S16 32) (v1130 : IVec S16 32), Decidable (k0_chk222 v983 v1130) := fun v983 v1130 => decidable_of_iff' _ (Iff.of_eq (k0_chk222.eq_1 v983 v1130))
theorem k0_idx222_inb : ∀ (v983 : IVec S16 32) (v1130 : IVec S16 32) (k0_hw222 : k0_chk222 v983 v1130), ∀ a x, ((![v983, v1130] : Fin 2 → IVec S16 32) a x).toNat < S8x1024.size a := fun v983 v1130 k0_hw222 => k0_hw222

def k0_chk223 (v983 : IVec S16 32) (v1135 : IVec S16 32) : Prop :=
  (∀ a x, ((![v983, v1135] : Fin 2 → IVec S16 32) a x).toNat < S8x1024.size a)
instance k0_chk223.dec : ∀ (v983 : IVec S16 32) (v1135 : IVec S16 32), Decidable (k0_chk223 v983 v1135) := fun v983 v1135 => decidable_of_iff' _ (Iff.of_eq (k0_chk223.eq_1 v983 v1135))
theorem k0_idx223_inb : ∀ (v983 : IVec S16 32) (v1135 : IVec S16 32) (k0_hw223 : k0_chk223 v983 v1135), ∀ a x, ((![v983, v1135] : Fin 2 → IVec S16 32) a x).toNat < S8x1024.size a := fun v983 v1135 k0_hw223 => k0_hw223

def k0_chk224 (v983 : IVec S16 32) (v1140 : IVec S16 32) : Prop :=
  (∀ a x, ((![v983, v1140] : Fin 2 → IVec S16 32) a x).toNat < S8x1024.size a)
instance k0_chk224.dec : ∀ (v983 : IVec S16 32) (v1140 : IVec S16 32), Decidable (k0_chk224 v983 v1140) := fun v983 v1140 => decidable_of_iff' _ (Iff.of_eq (k0_chk224.eq_1 v983 v1140))
theorem k0_idx224_inb : ∀ (v983 : IVec S16 32) (v1140 : IVec S16 32) (k0_hw224 : k0_chk224 v983 v1140), ∀ a x, ((![v983, v1140] : Fin 2 → IVec S16 32) a x).toNat < S8x1024.size a := fun v983 v1140 k0_hw224 => k0_hw224

def k0_chk225 (v983 : IVec S16 32) (v1145 : IVec S16 32) : Prop :=
  (∀ a x, ((![v983, v1145] : Fin 2 → IVec S16 32) a x).toNat < S8x1024.size a)
instance k0_chk225.dec : ∀ (v983 : IVec S16 32) (v1145 : IVec S16 32), Decidable (k0_chk225 v983 v1145) := fun v983 v1145 => decidable_of_iff' _ (Iff.of_eq (k0_chk225.eq_1 v983 v1145))
theorem k0_idx225_inb : ∀ (v983 : IVec S16 32) (v1145 : IVec S16 32) (k0_hw225 : k0_chk225 v983 v1145), ∀ a x, ((![v983, v1145] : Fin 2 → IVec S16 32) a x).toNat < S8x1024.size a := fun v983 v1145 k0_hw225 => k0_hw225

def k0_chk226 (v983 : IVec S16 32) (v1150 : IVec S16 32) : Prop :=
  (∀ a x, ((![v983, v1150] : Fin 2 → IVec S16 32) a x).toNat < S8x1024.size a)
instance k0_chk226.dec : ∀ (v983 : IVec S16 32) (v1150 : IVec S16 32), Decidable (k0_chk226 v983 v1150) := fun v983 v1150 => decidable_of_iff' _ (Iff.of_eq (k0_chk226.eq_1 v983 v1150))
theorem k0_idx226_inb : ∀ (v983 : IVec S16 32) (v1150 : IVec S16 32) (k0_hw226 : k0_chk226 v983 v1150), ∀ a x, ((![v983, v1150] : Fin 2 → IVec S16 32) a x).toNat < S8x1024.size a := fun v983 v1150 k0_hw226 => k0_hw226

def k0_chk227 (v983 : IVec S16 32) (v1155 : IVec S16 32) : Prop :=
  (∀ a x, ((![v983, v1155] : Fin 2 → IVec S16 32) a x).toNat < S8x1024.size a)
instance k0_chk227.dec : ∀ (v983 : IVec S16 32) (v1155 : IVec S16 32), Decidable (k0_chk227 v983 v1155) := fun v983 v1155 => decidable_of_iff' _ (Iff.of_eq (k0_chk227.eq_1 v983 v1155))
theorem k0_idx227_inb : ∀ (v983 : IVec S16 32) (v1155 : IVec S16 32) (k0_hw227 : k0_chk227 v983 v1155), ∀ a x, ((![v983, v1155] : Fin 2 → IVec S16 32) a x).toNat < S8x1024.size a := fun v983 v1155 k0_hw227 => k0_hw227

def k0_chk228 (v983 : IVec S16 32) (v1160 : IVec S16 32) : Prop :=
  (∀ a x, ((![v983, v1160] : Fin 2 → IVec S16 32) a x).toNat < S8x1024.size a)
instance k0_chk228.dec : ∀ (v983 : IVec S16 32) (v1160 : IVec S16 32), Decidable (k0_chk228 v983 v1160) := fun v983 v1160 => decidable_of_iff' _ (Iff.of_eq (k0_chk228.eq_1 v983 v1160))
theorem k0_idx228_inb : ∀ (v983 : IVec S16 32) (v1160 : IVec S16 32) (k0_hw228 : k0_chk228 v983 v1160), ∀ a x, ((![v983, v1160] : Fin 2 → IVec S16 32) a x).toNat < S8x1024.size a := fun v983 v1160 k0_hw228 => k0_hw228

def k0_chk229 (v983 : IVec S16 32) (v1165 : IVec S16 32) : Prop :=
  (∀ a x, ((![v983, v1165] : Fin 2 → IVec S16 32) a x).toNat < S8x1024.size a)
instance k0_chk229.dec : ∀ (v983 : IVec S16 32) (v1165 : IVec S16 32), Decidable (k0_chk229 v983 v1165) := fun v983 v1165 => decidable_of_iff' _ (Iff.of_eq (k0_chk229.eq_1 v983 v1165))
theorem k0_idx229_inb : ∀ (v983 : IVec S16 32) (v1165 : IVec S16 32) (k0_hw229 : k0_chk229 v983 v1165), ∀ a x, ((![v983, v1165] : Fin 2 → IVec S16 32) a x).toNat < S8x1024.size a := fun v983 v1165 k0_hw229 => k0_hw229

def k0_chk230 (v983 : IVec S16 32) (v1170 : IVec S16 32) : Prop :=
  (∀ a x, ((![v983, v1170] : Fin 2 → IVec S16 32) a x).toNat < S8x1024.size a)
instance k0_chk230.dec : ∀ (v983 : IVec S16 32) (v1170 : IVec S16 32), Decidable (k0_chk230 v983 v1170) := fun v983 v1170 => decidable_of_iff' _ (Iff.of_eq (k0_chk230.eq_1 v983 v1170))
theorem k0_idx230_inb : ∀ (v983 : IVec S16 32) (v1170 : IVec S16 32) (k0_hw230 : k0_chk230 v983 v1170), ∀ a x, ((![v983, v1170] : Fin 2 → IVec S16 32) a x).toNat < S8x1024.size a := fun v983 v1170 k0_hw230 => k0_hw230

def k0_chk231 (v983 : IVec S16 32) (v1175 : IVec S16 32) : Prop :=
  (∀ a x, ((![v983, v1175] : Fin 2 → IVec S16 32) a x).toNat < S8x1024.size a)
instance k0_chk231.dec : ∀ (v983 : IVec S16 32) (v1175 : IVec S16 32), Decidable (k0_chk231 v983 v1175) := fun v983 v1175 => decidable_of_iff' _ (Iff.of_eq (k0_chk231.eq_1 v983 v1175))
theorem k0_idx231_inb : ∀ (v983 : IVec S16 32) (v1175 : IVec S16 32) (k0_hw231 : k0_chk231 v983 v1175), ∀ a x, ((![v983, v1175] : Fin 2 → IVec S16 32) a x).toNat < S8x1024.size a := fun v983 v1175 k0_hw231 => k0_hw231

def k0_chk232 (v983 : IVec S16 32) (v1180 : IVec S16 32) : Prop :=
  (∀ a x, ((![v983, v1180] : Fin 2 → IVec S16 32) a x).toNat < S8x1024.size a)
instance k0_chk232.dec : ∀ (v983 : IVec S16 32) (v1180 : IVec S16 32), Decidable (k0_chk232 v983 v1180) := fun v983 v1180 => decidable_of_iff' _ (Iff.of_eq (k0_chk232.eq_1 v983 v1180))
theorem k0_idx232_inb : ∀ (v983 : IVec S16 32) (v1180 : IVec S16 32) (k0_hw232 : k0_chk232 v983 v1180), ∀ a x, ((![v983, v1180] : Fin 2 → IVec S16 32) a x).toNat < S8x1024.size a := fun v983 v1180 k0_hw232 => k0_hw232

def k0_chk233 (v983 : IVec S16 32) (v1185 : IVec S16 32) : Prop :=
  (∀ a x, ((![v983, v1185] : Fin 2 → IVec S16 32) a x).toNat < S8x1024.size a)
instance k0_chk233.dec : ∀ (v983 : IVec S16 32) (v1185 : IVec S16 32), Decidable (k0_chk233 v983 v1185) := fun v983 v1185 => decidable_of_iff' _ (Iff.of_eq (k0_chk233.eq_1 v983 v1185))
theorem k0_idx233_inb : ∀ (v983 : IVec S16 32) (v1185 : IVec S16 32) (k0_hw233 : k0_chk233 v983 v1185), ∀ a x, ((![v983, v1185] : Fin 2 → IVec S16 32) a x).toNat < S8x1024.size a := fun v983 v1185 k0_hw233 => k0_hw233

def k0_chk234 (v983 : IVec S16 32) (v1190 : IVec S16 32) : Prop :=
  (∀ a x, ((![v983, v1190] : Fin 2 → IVec S16 32) a x).toNat < S8x1024.size a)
instance k0_chk234.dec : ∀ (v983 : IVec S16 32) (v1190 : IVec S16 32), Decidable (k0_chk234 v983 v1190) := fun v983 v1190 => decidable_of_iff' _ (Iff.of_eq (k0_chk234.eq_1 v983 v1190))
theorem k0_idx234_inb : ∀ (v983 : IVec S16 32) (v1190 : IVec S16 32) (k0_hw234 : k0_chk234 v983 v1190), ∀ a x, ((![v983, v1190] : Fin 2 → IVec S16 32) a x).toNat < S8x1024.size a := fun v983 v1190 k0_hw234 => k0_hw234

def k0_chk235 (v983 : IVec S16 32) (v1195 : IVec S16 32) : Prop :=
  (∀ a x, ((![v983, v1195] : Fin 2 → IVec S16 32) a x).toNat < S8x1024.size a)
instance k0_chk235.dec : ∀ (v983 : IVec S16 32) (v1195 : IVec S16 32), Decidable (k0_chk235 v983 v1195) := fun v983 v1195 => decidable_of_iff' _ (Iff.of_eq (k0_chk235.eq_1 v983 v1195))
theorem k0_idx235_inb : ∀ (v983 : IVec S16 32) (v1195 : IVec S16 32) (k0_hw235 : k0_chk235 v983 v1195), ∀ a x, ((![v983, v1195] : Fin 2 → IVec S16 32) a x).toNat < S8x1024.size a := fun v983 v1195 k0_hw235 => k0_hw235

def k0_chk236 (v983 : IVec S16 32) (v1200 : IVec S16 32) : Prop :=
  (∀ a x, ((![v983, v1200] : Fin 2 → IVec S16 32) a x).toNat < S8x1024.size a)
instance k0_chk236.dec : ∀ (v983 : IVec S16 32) (v1200 : IVec S16 32), Decidable (k0_chk236 v983 v1200) := fun v983 v1200 => decidable_of_iff' _ (Iff.of_eq (k0_chk236.eq_1 v983 v1200))
theorem k0_idx236_inb : ∀ (v983 : IVec S16 32) (v1200 : IVec S16 32) (k0_hw236 : k0_chk236 v983 v1200), ∀ a x, ((![v983, v1200] : Fin 2 → IVec S16 32) a x).toNat < S8x1024.size a := fun v983 v1200 k0_hw236 => k0_hw236

def k0_chk237 (v983 : IVec S16 32) (v1205 : IVec S16 32) : Prop :=
  (∀ a x, ((![v983, v1205] : Fin 2 → IVec S16 32) a x).toNat < S8x1024.size a)
instance k0_chk237.dec : ∀ (v983 : IVec S16 32) (v1205 : IVec S16 32), Decidable (k0_chk237 v983 v1205) := fun v983 v1205 => decidable_of_iff' _ (Iff.of_eq (k0_chk237.eq_1 v983 v1205))
theorem k0_idx237_inb : ∀ (v983 : IVec S16 32) (v1205 : IVec S16 32) (k0_hw237 : k0_chk237 v983 v1205), ∀ a x, ((![v983, v1205] : Fin 2 → IVec S16 32) a x).toNat < S8x1024.size a := fun v983 v1205 k0_hw237 => k0_hw237

def k0_chk238 (v983 : IVec S16 32) (v1210 : IVec S16 32) : Prop :=
  (∀ a x, ((![v983, v1210] : Fin 2 → IVec S16 32) a x).toNat < S8x1024.size a)
instance k0_chk238.dec : ∀ (v983 : IVec S16 32) (v1210 : IVec S16 32), Decidable (k0_chk238 v983 v1210) := fun v983 v1210 => decidable_of_iff' _ (Iff.of_eq (k0_chk238.eq_1 v983 v1210))
theorem k0_idx238_inb : ∀ (v983 : IVec S16 32) (v1210 : IVec S16 32) (k0_hw238 : k0_chk238 v983 v1210), ∀ a x, ((![v983, v1210] : Fin 2 → IVec S16 32) a x).toNat < S8x1024.size a := fun v983 v1210 k0_hw238 => k0_hw238

def k0_chk239 (v983 : IVec S16 32) (v1215 : IVec S16 32) : Prop :=
  (∀ a x, ((![v983, v1215] : Fin 2 → IVec S16 32) a x).toNat < S8x1024.size a)
instance k0_chk239.dec : ∀ (v983 : IVec S16 32) (v1215 : IVec S16 32), Decidable (k0_chk239 v983 v1215) := fun v983 v1215 => decidable_of_iff' _ (Iff.of_eq (k0_chk239.eq_1 v983 v1215))
theorem k0_idx239_inb : ∀ (v983 : IVec S16 32) (v1215 : IVec S16 32) (k0_hw239 : k0_chk239 v983 v1215), ∀ a x, ((![v983, v1215] : Fin 2 → IVec S16 32) a x).toNat < S8x1024.size a := fun v983 v1215 k0_hw239 => k0_hw239

def k0_chk240 (v983 : IVec S16 32) (v1220 : IVec S16 32) : Prop :=
  (∀ a x, ((![v983, v1220] : Fin 2 → IVec S16 32) a x).toNat < S8x1024.size a)
instance k0_chk240.dec : ∀ (v983 : IVec S16 32) (v1220 : IVec S16 32), Decidable (k0_chk240 v983 v1220) := fun v983 v1220 => decidable_of_iff' _ (Iff.of_eq (k0_chk240.eq_1 v983 v1220))
theorem k0_idx240_inb : ∀ (v983 : IVec S16 32) (v1220 : IVec S16 32) (k0_hw240 : k0_chk240 v983 v1220), ∀ a x, ((![v983, v1220] : Fin 2 → IVec S16 32) a x).toNat < S8x1024.size a := fun v983 v1220 k0_hw240 => k0_hw240

def k0_chk241 (v983 : IVec S16 32) (v1225 : IVec S16 32) : Prop :=
  (∀ a x, ((![v983, v1225] : Fin 2 → IVec S16 32) a x).toNat < S8x1024.size a)
instance k0_chk241.dec : ∀ (v983 : IVec S16 32) (v1225 : IVec S16 32), Decidable (k0_chk241 v983 v1225) := fun v983 v1225 => decidable_of_iff' _ (Iff.of_eq (k0_chk241.eq_1 v983 v1225))
theorem k0_idx241_inb : ∀ (v983 : IVec S16 32) (v1225 : IVec S16 32) (k0_hw241 : k0_chk241 v983 v1225), ∀ a x, ((![v983, v1225] : Fin 2 → IVec S16 32) a x).toNat < S8x1024.size a := fun v983 v1225 k0_hw241 => k0_hw241

def k0_chk242 (v983 : IVec S16 32) (v1230 : IVec S16 32) : Prop :=
  (∀ a x, ((![v983, v1230] : Fin 2 → IVec S16 32) a x).toNat < S8x1024.size a)
instance k0_chk242.dec : ∀ (v983 : IVec S16 32) (v1230 : IVec S16 32), Decidable (k0_chk242 v983 v1230) := fun v983 v1230 => decidable_of_iff' _ (Iff.of_eq (k0_chk242.eq_1 v983 v1230))
theorem k0_idx242_inb : ∀ (v983 : IVec S16 32) (v1230 : IVec S16 32) (k0_hw242 : k0_chk242 v983 v1230), ∀ a x, ((![v983, v1230] : Fin 2 → IVec S16 32) a x).toNat < S8x1024.size a := fun v983 v1230 k0_hw242 => k0_hw242

def k0_chk243 (v983 : IVec S16 32) (v1235 : IVec S16 32) : Prop :=
  (∀ a x, ((![v983, v1235] : Fin 2 → IVec S16 32) a x).toNat < S8x1024.size a)
instance k0_chk243.dec : ∀ (v983 : IVec S16 32) (v1235 : IVec S16 32), Decidable (k0_chk243 v983 v1235) := fun v983 v1235 => decidable_of_iff' _ (Iff.of_eq (k0_chk243.eq_1 v983 v1235))
theorem k0_idx243_inb : ∀ (v983 : IVec S16 32) (v1235 : IVec S16 32) (k0_hw243 : k0_chk243 v983 v1235), ∀ a x, ((![v983, v1235] : Fin 2 → IVec S16 32) a x).toNat < S8x1024.size a := fun v983 v1235 k0_hw243 => k0_hw243

def k0_chk244 (v983 : IVec S16 32) (v1240 : IVec S16 32) : Prop :=
  (∀ a x, ((![v983, v1240] : Fin 2 → IVec S16 32) a x).toNat < S8x1024.size a)
instance k0_chk244.dec : ∀ (v983 : IVec S16 32) (v1240 : IVec S16 32), Decidable (k0_chk244 v983 v1240) := fun v983 v1240 => decidable_of_iff' _ (Iff.of_eq (k0_chk244.eq_1 v983 v1240))
theorem k0_idx244_inb : ∀ (v983 : IVec S16 32) (v1240 : IVec S16 32) (k0_hw244 : k0_chk244 v983 v1240), ∀ a x, ((![v983, v1240] : Fin 2 → IVec S16 32) a x).toNat < S8x1024.size a := fun v983 v1240 k0_hw244 => k0_hw244

def k0_chk245 (v983 : IVec S16 32) (v1245 : IVec S16 32) : Prop :=
  (∀ a x, ((![v983, v1245] : Fin 2 → IVec S16 32) a x).toNat < S8x1024.size a)
instance k0_chk245.dec : ∀ (v983 : IVec S16 32) (v1245 : IVec S16 32), Decidable (k0_chk245 v983 v1245) := fun v983 v1245 => decidable_of_iff' _ (Iff.of_eq (k0_chk245.eq_1 v983 v1245))
theorem k0_idx245_inb : ∀ (v983 : IVec S16 32) (v1245 : IVec S16 32) (k0_hw245 : k0_chk245 v983 v1245), ∀ a x, ((![v983, v1245] : Fin 2 → IVec S16 32) a x).toNat < S8x1024.size a := fun v983 v1245 k0_hw245 => k0_hw245

def k0_chk246 (v983 : IVec S16 32) (v1250 : IVec S16 32) : Prop :=
  (∀ a x, ((![v983, v1250] : Fin 2 → IVec S16 32) a x).toNat < S8x1024.size a)
instance k0_chk246.dec : ∀ (v983 : IVec S16 32) (v1250 : IVec S16 32), Decidable (k0_chk246 v983 v1250) := fun v983 v1250 => decidable_of_iff' _ (Iff.of_eq (k0_chk246.eq_1 v983 v1250))
theorem k0_idx246_inb : ∀ (v983 : IVec S16 32) (v1250 : IVec S16 32) (k0_hw246 : k0_chk246 v983 v1250), ∀ a x, ((![v983, v1250] : Fin 2 → IVec S16 32) a x).toNat < S8x1024.size a := fun v983 v1250 k0_hw246 => k0_hw246

def k0_chk247 (v983 : IVec S16 32) (v1255 : IVec S16 32) : Prop :=
  (∀ a x, ((![v983, v1255] : Fin 2 → IVec S16 32) a x).toNat < S8x1024.size a)
instance k0_chk247.dec : ∀ (v983 : IVec S16 32) (v1255 : IVec S16 32), Decidable (k0_chk247 v983 v1255) := fun v983 v1255 => decidable_of_iff' _ (Iff.of_eq (k0_chk247.eq_1 v983 v1255))
theorem k0_idx247_inb : ∀ (v983 : IVec S16 32) (v1255 : IVec S16 32) (k0_hw247 : k0_chk247 v983 v1255), ∀ a x, ((![v983, v1255] : Fin 2 → IVec S16 32) a x).toNat < S8x1024.size a := fun v983 v1255 k0_hw247 => k0_hw247

def k0_chk248 (v983 : IVec S16 32) (v1260 : IVec S16 32) : Prop :=
  (∀ a x, ((![v983, v1260] : Fin 2 → IVec S16 32) a x).toNat < S8x1024.size a)
instance k0_chk248.dec : ∀ (v983 : IVec S16 32) (v1260 : IVec S16 32), Decidable (k0_chk248 v983 v1260) := fun v983 v1260 => decidable_of_iff' _ (Iff.of_eq (k0_chk248.eq_1 v983 v1260))
theorem k0_idx248_inb : ∀ (v983 : IVec S16 32) (v1260 : IVec S16 32) (k0_hw248 : k0_chk248 v983 v1260), ∀ a x, ((![v983, v1260] : Fin 2 → IVec S16 32) a x).toNat < S8x1024.size a := fun v983 v1260 k0_hw248 => k0_hw248

def k0_chk249 (v983 : IVec S16 32) (v1265 : IVec S16 32) : Prop :=
  (∀ a x, ((![v983, v1265] : Fin 2 → IVec S16 32) a x).toNat < S8x1024.size a)
instance k0_chk249.dec : ∀ (v983 : IVec S16 32) (v1265 : IVec S16 32), Decidable (k0_chk249 v983 v1265) := fun v983 v1265 => decidable_of_iff' _ (Iff.of_eq (k0_chk249.eq_1 v983 v1265))
theorem k0_idx249_inb : ∀ (v983 : IVec S16 32) (v1265 : IVec S16 32) (k0_hw249 : k0_chk249 v983 v1265), ∀ a x, ((![v983, v1265] : Fin 2 → IVec S16 32) a x).toNat < S8x1024.size a := fun v983 v1265 k0_hw249 => k0_hw249

def k0_chk250 (v983 : IVec S16 32) (v1270 : IVec S16 32) : Prop :=
  (∀ a x, ((![v983, v1270] : Fin 2 → IVec S16 32) a x).toNat < S8x1024.size a)
instance k0_chk250.dec : ∀ (v983 : IVec S16 32) (v1270 : IVec S16 32), Decidable (k0_chk250 v983 v1270) := fun v983 v1270 => decidable_of_iff' _ (Iff.of_eq (k0_chk250.eq_1 v983 v1270))
theorem k0_idx250_inb : ∀ (v983 : IVec S16 32) (v1270 : IVec S16 32) (k0_hw250 : k0_chk250 v983 v1270), ∀ a x, ((![v983, v1270] : Fin 2 → IVec S16 32) a x).toNat < S8x1024.size a := fun v983 v1270 k0_hw250 => k0_hw250

def k0_chk251 (v983 : IVec S16 32) (v1275 : IVec S16 32) : Prop :=
  (∀ a x, ((![v983, v1275] : Fin 2 → IVec S16 32) a x).toNat < S8x1024.size a)
instance k0_chk251.dec : ∀ (v983 : IVec S16 32) (v1275 : IVec S16 32), Decidable (k0_chk251 v983 v1275) := fun v983 v1275 => decidable_of_iff' _ (Iff.of_eq (k0_chk251.eq_1 v983 v1275))
theorem k0_idx251_inb : ∀ (v983 : IVec S16 32) (v1275 : IVec S16 32) (k0_hw251 : k0_chk251 v983 v1275), ∀ a x, ((![v983, v1275] : Fin 2 → IVec S16 32) a x).toNat < S8x1024.size a := fun v983 v1275 k0_hw251 => k0_hw251

def k0_chk252 (v983 : IVec S16 32) (v1280 : IVec S16 32) : Prop :=
  (∀ a x, ((![v983, v1280] : Fin 2 → IVec S16 32) a x).toNat < S8x1024.size a)
instance k0_chk252.dec : ∀ (v983 : IVec S16 32) (v1280 : IVec S16 32), Decidable (k0_chk252 v983 v1280) := fun v983 v1280 => decidable_of_iff' _ (Iff.of_eq (k0_chk252.eq_1 v983 v1280))
theorem k0_idx252_inb : ∀ (v983 : IVec S16 32) (v1280 : IVec S16 32) (k0_hw252 : k0_chk252 v983 v1280), ∀ a x, ((![v983, v1280] : Fin 2 → IVec S16 32) a x).toNat < S8x1024.size a := fun v983 v1280 k0_hw252 => k0_hw252

def k0_chk253 (v983 : IVec S16 32) (v1285 : IVec S16 32) : Prop :=
  (∀ a x, ((![v983, v1285] : Fin 2 → IVec S16 32) a x).toNat < S8x1024.size a)
instance k0_chk253.dec : ∀ (v983 : IVec S16 32) (v1285 : IVec S16 32), Decidable (k0_chk253 v983 v1285) := fun v983 v1285 => decidable_of_iff' _ (Iff.of_eq (k0_chk253.eq_1 v983 v1285))
theorem k0_idx253_inb : ∀ (v983 : IVec S16 32) (v1285 : IVec S16 32) (k0_hw253 : k0_chk253 v983 v1285), ∀ a x, ((![v983, v1285] : Fin 2 → IVec S16 32) a x).toNat < S8x1024.size a := fun v983 v1285 k0_hw253 => k0_hw253

def k0_chk254 (v983 : IVec S16 32) (v1290 : IVec S16 32) : Prop :=
  (∀ a x, ((![v983, v1290] : Fin 2 → IVec S16 32) a x).toNat < S8x1024.size a)
instance k0_chk254.dec : ∀ (v983 : IVec S16 32) (v1290 : IVec S16 32), Decidable (k0_chk254 v983 v1290) := fun v983 v1290 => decidable_of_iff' _ (Iff.of_eq (k0_chk254.eq_1 v983 v1290))
theorem k0_idx254_inb : ∀ (v983 : IVec S16 32) (v1290 : IVec S16 32) (k0_hw254 : k0_chk254 v983 v1290), ∀ a x, ((![v983, v1290] : Fin 2 → IVec S16 32) a x).toNat < S8x1024.size a := fun v983 v1290 k0_hw254 => k0_hw254

def k0_chk255 (v983 : IVec S16 32) (v1295 : IVec S16 32) : Prop :=
  (∀ a x, ((![v983, v1295] : Fin 2 → IVec S16 32) a x).toNat < S8x1024.size a)
instance k0_chk255.dec : ∀ (v983 : IVec S16 32) (v1295 : IVec S16 32), Decidable (k0_chk255 v983 v1295) := fun v983 v1295 => decidable_of_iff' _ (Iff.of_eq (k0_chk255.eq_1 v983 v1295))
theorem k0_idx255_inb : ∀ (v983 : IVec S16 32) (v1295 : IVec S16 32) (k0_hw255 : k0_chk255 v983 v1295), ∀ a x, ((![v983, v1295] : Fin 2 → IVec S16 32) a x).toNat < S8x1024.size a := fun v983 v1295 k0_hw255 => k0_hw255

def k0_chk256 (v983 : IVec S16 32) (v1300 : IVec S16 32) : Prop :=
  (∀ a x, ((![v983, v1300] : Fin 2 → IVec S16 32) a x).toNat < S8x1024.size a)
instance k0_chk256.dec : ∀ (v983 : IVec S16 32) (v1300 : IVec S16 32), Decidable (k0_chk256 v983 v1300) := fun v983 v1300 => decidable_of_iff' _ (Iff.of_eq (k0_chk256.eq_1 v983 v1300))
theorem k0_idx256_inb : ∀ (v983 : IVec S16 32) (v1300 : IVec S16 32) (k0_hw256 : k0_chk256 v983 v1300), ∀ a x, ((![v983, v1300] : Fin 2 → IVec S16 32) a x).toNat < S8x1024.size a := fun v983 v1300 k0_hw256 => k0_hw256

def k0_chk257 (v1305 : IVec S16 32) (v1307 : IVec S16 32) : Prop :=
  (∀ a x, ((![v1305, v1307] : Fin 2 → IVec S16 32) a x).toNat < S8x1024.size a)
instance k0_chk257.dec : ∀ (v1305 : IVec S16 32) (v1307 : IVec S16 32), Decidable (k0_chk257 v1305 v1307) := fun v1305 v1307 => decidable_of_iff' _ (Iff.of_eq (k0_chk257.eq_1 v1305 v1307))
theorem k0_idx257_inb : ∀ (v1305 : IVec S16 32) (v1307 : IVec S16 32) (k0_hw257 : k0_chk257 v1305 v1307), ∀ a x, ((![v1305, v1307] : Fin 2 → IVec S16 32) a x).toNat < S8x1024.size a := fun v1305 v1307 k0_hw257 => k0_hw257

def k0_chk258 (v1305 : IVec S16 32) (v1312 : IVec S16 32) : Prop :=
  (∀ a x, ((![v1305, v1312] : Fin 2 → IVec S16 32) a x).toNat < S8x1024.size a)
instance k0_chk258.dec : ∀ (v1305 : IVec S16 32) (v1312 : IVec S16 32), Decidable (k0_chk258 v1305 v1312) := fun v1305 v1312 => decidable_of_iff' _ (Iff.of_eq (k0_chk258.eq_1 v1305 v1312))
theorem k0_idx258_inb : ∀ (v1305 : IVec S16 32) (v1312 : IVec S16 32) (k0_hw258 : k0_chk258 v1305 v1312), ∀ a x, ((![v1305, v1312] : Fin 2 → IVec S16 32) a x).toNat < S8x1024.size a := fun v1305 v1312 k0_hw258 => k0_hw258

def k0_chk259 (v1305 : IVec S16 32) (v1317 : IVec S16 32) : Prop :=
  (∀ a x, ((![v1305, v1317] : Fin 2 → IVec S16 32) a x).toNat < S8x1024.size a)
instance k0_chk259.dec : ∀ (v1305 : IVec S16 32) (v1317 : IVec S16 32), Decidable (k0_chk259 v1305 v1317) := fun v1305 v1317 => decidable_of_iff' _ (Iff.of_eq (k0_chk259.eq_1 v1305 v1317))
theorem k0_idx259_inb : ∀ (v1305 : IVec S16 32) (v1317 : IVec S16 32) (k0_hw259 : k0_chk259 v1305 v1317), ∀ a x, ((![v1305, v1317] : Fin 2 → IVec S16 32) a x).toNat < S8x1024.size a := fun v1305 v1317 k0_hw259 => k0_hw259

def k0_chk260 (v1305 : IVec S16 32) (v1322 : IVec S16 32) : Prop :=
  (∀ a x, ((![v1305, v1322] : Fin 2 → IVec S16 32) a x).toNat < S8x1024.size a)
instance k0_chk260.dec : ∀ (v1305 : IVec S16 32) (v1322 : IVec S16 32), Decidable (k0_chk260 v1305 v1322) := fun v1305 v1322 => decidable_of_iff' _ (Iff.of_eq (k0_chk260.eq_1 v1305 v1322))
theorem k0_idx260_inb : ∀ (v1305 : IVec S16 32) (v1322 : IVec S16 32) (k0_hw260 : k0_chk260 v1305 v1322), ∀ a x, ((![v1305, v1322] : Fin 2 → IVec S16 32) a x).toNat < S8x1024.size a := fun v1305 v1322 k0_hw260 => k0_hw260

def k0_chk261 (v1305 : IVec S16 32) (v1327 : IVec S16 32) : Prop :=
  (∀ a x, ((![v1305, v1327] : Fin 2 → IVec S16 32) a x).toNat < S8x1024.size a)
instance k0_chk261.dec : ∀ (v1305 : IVec S16 32) (v1327 : IVec S16 32), Decidable (k0_chk261 v1305 v1327) := fun v1305 v1327 => decidable_of_iff' _ (Iff.of_eq (k0_chk261.eq_1 v1305 v1327))
theorem k0_idx261_inb : ∀ (v1305 : IVec S16 32) (v1327 : IVec S16 32) (k0_hw261 : k0_chk261 v1305 v1327), ∀ a x, ((![v1305, v1327] : Fin 2 → IVec S16 32) a x).toNat < S8x1024.size a := fun v1305 v1327 k0_hw261 => k0_hw261

def k0_chk262 (v1305 : IVec S16 32) (v1332 : IVec S16 32) : Prop :=
  (∀ a x, ((![v1305, v1332] : Fin 2 → IVec S16 32) a x).toNat < S8x1024.size a)
instance k0_chk262.dec : ∀ (v1305 : IVec S16 32) (v1332 : IVec S16 32), Decidable (k0_chk262 v1305 v1332) := fun v1305 v1332 => decidable_of_iff' _ (Iff.of_eq (k0_chk262.eq_1 v1305 v1332))
theorem k0_idx262_inb : ∀ (v1305 : IVec S16 32) (v1332 : IVec S16 32) (k0_hw262 : k0_chk262 v1305 v1332), ∀ a x, ((![v1305, v1332] : Fin 2 → IVec S16 32) a x).toNat < S8x1024.size a := fun v1305 v1332 k0_hw262 => k0_hw262

def k0_chk263 (v1305 : IVec S16 32) (v1337 : IVec S16 32) : Prop :=
  (∀ a x, ((![v1305, v1337] : Fin 2 → IVec S16 32) a x).toNat < S8x1024.size a)
instance k0_chk263.dec : ∀ (v1305 : IVec S16 32) (v1337 : IVec S16 32), Decidable (k0_chk263 v1305 v1337) := fun v1305 v1337 => decidable_of_iff' _ (Iff.of_eq (k0_chk263.eq_1 v1305 v1337))
theorem k0_idx263_inb : ∀ (v1305 : IVec S16 32) (v1337 : IVec S16 32) (k0_hw263 : k0_chk263 v1305 v1337), ∀ a x, ((![v1305, v1337] : Fin 2 → IVec S16 32) a x).toNat < S8x1024.size a := fun v1305 v1337 k0_hw263 => k0_hw263

def k0_chk264 (v1305 : IVec S16 32) (v1342 : IVec S16 32) : Prop :=
  (∀ a x, ((![v1305, v1342] : Fin 2 → IVec S16 32) a x).toNat < S8x1024.size a)
instance k0_chk264.dec : ∀ (v1305 : IVec S16 32) (v1342 : IVec S16 32), Decidable (k0_chk264 v1305 v1342) := fun v1305 v1342 => decidable_of_iff' _ (Iff.of_eq (k0_chk264.eq_1 v1305 v1342))
theorem k0_idx264_inb : ∀ (v1305 : IVec S16 32) (v1342 : IVec S16 32) (k0_hw264 : k0_chk264 v1305 v1342), ∀ a x, ((![v1305, v1342] : Fin 2 → IVec S16 32) a x).toNat < S8x1024.size a := fun v1305 v1342 k0_hw264 => k0_hw264

def k0_chk265 (v1305 : IVec S16 32) (v1347 : IVec S16 32) : Prop :=
  (∀ a x, ((![v1305, v1347] : Fin 2 → IVec S16 32) a x).toNat < S8x1024.size a)
instance k0_chk265.dec : ∀ (v1305 : IVec S16 32) (v1347 : IVec S16 32), Decidable (k0_chk265 v1305 v1347) := fun v1305 v1347 => decidable_of_iff' _ (Iff.of_eq (k0_chk265.eq_1 v1305 v1347))
theorem k0_idx265_inb : ∀ (v1305 : IVec S16 32) (v1347 : IVec S16 32) (k0_hw265 : k0_chk265 v1305 v1347), ∀ a x, ((![v1305, v1347] : Fin 2 → IVec S16 32) a x).toNat < S8x1024.size a := fun v1305 v1347 k0_hw265 => k0_hw265

def k0_chk266 (v1305 : IVec S16 32) (v1352 : IVec S16 32) : Prop :=
  (∀ a x, ((![v1305, v1352] : Fin 2 → IVec S16 32) a x).toNat < S8x1024.size a)
instance k0_chk266.dec : ∀ (v1305 : IVec S16 32) (v1352 : IVec S16 32), Decidable (k0_chk266 v1305 v1352) := fun v1305 v1352 => decidable_of_iff' _ (Iff.of_eq (k0_chk266.eq_1 v1305 v1352))
theorem k0_idx266_inb : ∀ (v1305 : IVec S16 32) (v1352 : IVec S16 32) (k0_hw266 : k0_chk266 v1305 v1352), ∀ a x, ((![v1305, v1352] : Fin 2 → IVec S16 32) a x).toNat < S8x1024.size a := fun v1305 v1352 k0_hw266 => k0_hw266

def k0_chk267 (v1305 : IVec S16 32) (v1357 : IVec S16 32) : Prop :=
  (∀ a x, ((![v1305, v1357] : Fin 2 → IVec S16 32) a x).toNat < S8x1024.size a)
instance k0_chk267.dec : ∀ (v1305 : IVec S16 32) (v1357 : IVec S16 32), Decidable (k0_chk267 v1305 v1357) := fun v1305 v1357 => decidable_of_iff' _ (Iff.of_eq (k0_chk267.eq_1 v1305 v1357))
theorem k0_idx267_inb : ∀ (v1305 : IVec S16 32) (v1357 : IVec S16 32) (k0_hw267 : k0_chk267 v1305 v1357), ∀ a x, ((![v1305, v1357] : Fin 2 → IVec S16 32) a x).toNat < S8x1024.size a := fun v1305 v1357 k0_hw267 => k0_hw267

def k0_chk268 (v1305 : IVec S16 32) (v1362 : IVec S16 32) : Prop :=
  (∀ a x, ((![v1305, v1362] : Fin 2 → IVec S16 32) a x).toNat < S8x1024.size a)
instance k0_chk268.dec : ∀ (v1305 : IVec S16 32) (v1362 : IVec S16 32), Decidable (k0_chk268 v1305 v1362) := fun v1305 v1362 => decidable_of_iff' _ (Iff.of_eq (k0_chk268.eq_1 v1305 v1362))
theorem k0_idx268_inb : ∀ (v1305 : IVec S16 32) (v1362 : IVec S16 32) (k0_hw268 : k0_chk268 v1305 v1362), ∀ a x, ((![v1305, v1362] : Fin 2 → IVec S16 32) a x).toNat < S8x1024.size a := fun v1305 v1362 k0_hw268 => k0_hw268

def k0_chk269 (v1305 : IVec S16 32) (v1367 : IVec S16 32) : Prop :=
  (∀ a x, ((![v1305, v1367] : Fin 2 → IVec S16 32) a x).toNat < S8x1024.size a)
instance k0_chk269.dec : ∀ (v1305 : IVec S16 32) (v1367 : IVec S16 32), Decidable (k0_chk269 v1305 v1367) := fun v1305 v1367 => decidable_of_iff' _ (Iff.of_eq (k0_chk269.eq_1 v1305 v1367))
theorem k0_idx269_inb : ∀ (v1305 : IVec S16 32) (v1367 : IVec S16 32) (k0_hw269 : k0_chk269 v1305 v1367), ∀ a x, ((![v1305, v1367] : Fin 2 → IVec S16 32) a x).toNat < S8x1024.size a := fun v1305 v1367 k0_hw269 => k0_hw269

def k0_chk270 (v1305 : IVec S16 32) (v1372 : IVec S16 32) : Prop :=
  (∀ a x, ((![v1305, v1372] : Fin 2 → IVec S16 32) a x).toNat < S8x1024.size a)
instance k0_chk270.dec : ∀ (v1305 : IVec S16 32) (v1372 : IVec S16 32), Decidable (k0_chk270 v1305 v1372) := fun v1305 v1372 => decidable_of_iff' _ (Iff.of_eq (k0_chk270.eq_1 v1305 v1372))
theorem k0_idx270_inb : ∀ (v1305 : IVec S16 32) (v1372 : IVec S16 32) (k0_hw270 : k0_chk270 v1305 v1372), ∀ a x, ((![v1305, v1372] : Fin 2 → IVec S16 32) a x).toNat < S8x1024.size a := fun v1305 v1372 k0_hw270 => k0_hw270

def k0_chk271 (v1305 : IVec S16 32) (v1377 : IVec S16 32) : Prop :=
  (∀ a x, ((![v1305, v1377] : Fin 2 → IVec S16 32) a x).toNat < S8x1024.size a)
instance k0_chk271.dec : ∀ (v1305 : IVec S16 32) (v1377 : IVec S16 32), Decidable (k0_chk271 v1305 v1377) := fun v1305 v1377 => decidable_of_iff' _ (Iff.of_eq (k0_chk271.eq_1 v1305 v1377))
theorem k0_idx271_inb : ∀ (v1305 : IVec S16 32) (v1377 : IVec S16 32) (k0_hw271 : k0_chk271 v1305 v1377), ∀ a x, ((![v1305, v1377] : Fin 2 → IVec S16 32) a x).toNat < S8x1024.size a := fun v1305 v1377 k0_hw271 => k0_hw271

def k0_chk272 (v1305 : IVec S16 32) (v1382 : IVec S16 32) : Prop :=
  (∀ a x, ((![v1305, v1382] : Fin 2 → IVec S16 32) a x).toNat < S8x1024.size a)
instance k0_chk272.dec : ∀ (v1305 : IVec S16 32) (v1382 : IVec S16 32), Decidable (k0_chk272 v1305 v1382) := fun v1305 v1382 => decidable_of_iff' _ (Iff.of_eq (k0_chk272.eq_1 v1305 v1382))
theorem k0_idx272_inb : ∀ (v1305 : IVec S16 32) (v1382 : IVec S16 32) (k0_hw272 : k0_chk272 v1305 v1382), ∀ a x, ((![v1305, v1382] : Fin 2 → IVec S16 32) a x).toNat < S8x1024.size a := fun v1305 v1382 k0_hw272 => k0_hw272

def k0_chk273 (v1305 : IVec S16 32) (v1387 : IVec S16 32) : Prop :=
  (∀ a x, ((![v1305, v1387] : Fin 2 → IVec S16 32) a x).toNat < S8x1024.size a)
instance k0_chk273.dec : ∀ (v1305 : IVec S16 32) (v1387 : IVec S16 32), Decidable (k0_chk273 v1305 v1387) := fun v1305 v1387 => decidable_of_iff' _ (Iff.of_eq (k0_chk273.eq_1 v1305 v1387))
theorem k0_idx273_inb : ∀ (v1305 : IVec S16 32) (v1387 : IVec S16 32) (k0_hw273 : k0_chk273 v1305 v1387), ∀ a x, ((![v1305, v1387] : Fin 2 → IVec S16 32) a x).toNat < S8x1024.size a := fun v1305 v1387 k0_hw273 => k0_hw273

def k0_chk274 (v1305 : IVec S16 32) (v1392 : IVec S16 32) : Prop :=
  (∀ a x, ((![v1305, v1392] : Fin 2 → IVec S16 32) a x).toNat < S8x1024.size a)
instance k0_chk274.dec : ∀ (v1305 : IVec S16 32) (v1392 : IVec S16 32), Decidable (k0_chk274 v1305 v1392) := fun v1305 v1392 => decidable_of_iff' _ (Iff.of_eq (k0_chk274.eq_1 v1305 v1392))
theorem k0_idx274_inb : ∀ (v1305 : IVec S16 32) (v1392 : IVec S16 32) (k0_hw274 : k0_chk274 v1305 v1392), ∀ a x, ((![v1305, v1392] : Fin 2 → IVec S16 32) a x).toNat < S8x1024.size a := fun v1305 v1392 k0_hw274 => k0_hw274

def k0_chk275 (v1305 : IVec S16 32) (v1397 : IVec S16 32) : Prop :=
  (∀ a x, ((![v1305, v1397] : Fin 2 → IVec S16 32) a x).toNat < S8x1024.size a)
instance k0_chk275.dec : ∀ (v1305 : IVec S16 32) (v1397 : IVec S16 32), Decidable (k0_chk275 v1305 v1397) := fun v1305 v1397 => decidable_of_iff' _ (Iff.of_eq (k0_chk275.eq_1 v1305 v1397))
theorem k0_idx275_inb : ∀ (v1305 : IVec S16 32) (v1397 : IVec S16 32) (k0_hw275 : k0_chk275 v1305 v1397), ∀ a x, ((![v1305, v1397] : Fin 2 → IVec S16 32) a x).toNat < S8x1024.size a := fun v1305 v1397 k0_hw275 => k0_hw275

def k0_chk276 (v1305 : IVec S16 32) (v1402 : IVec S16 32) : Prop :=
  (∀ a x, ((![v1305, v1402] : Fin 2 → IVec S16 32) a x).toNat < S8x1024.size a)
instance k0_chk276.dec : ∀ (v1305 : IVec S16 32) (v1402 : IVec S16 32), Decidable (k0_chk276 v1305 v1402) := fun v1305 v1402 => decidable_of_iff' _ (Iff.of_eq (k0_chk276.eq_1 v1305 v1402))
theorem k0_idx276_inb : ∀ (v1305 : IVec S16 32) (v1402 : IVec S16 32) (k0_hw276 : k0_chk276 v1305 v1402), ∀ a x, ((![v1305, v1402] : Fin 2 → IVec S16 32) a x).toNat < S8x1024.size a := fun v1305 v1402 k0_hw276 => k0_hw276

def k0_chk277 (v1305 : IVec S16 32) (v1407 : IVec S16 32) : Prop :=
  (∀ a x, ((![v1305, v1407] : Fin 2 → IVec S16 32) a x).toNat < S8x1024.size a)
instance k0_chk277.dec : ∀ (v1305 : IVec S16 32) (v1407 : IVec S16 32), Decidable (k0_chk277 v1305 v1407) := fun v1305 v1407 => decidable_of_iff' _ (Iff.of_eq (k0_chk277.eq_1 v1305 v1407))
theorem k0_idx277_inb : ∀ (v1305 : IVec S16 32) (v1407 : IVec S16 32) (k0_hw277 : k0_chk277 v1305 v1407), ∀ a x, ((![v1305, v1407] : Fin 2 → IVec S16 32) a x).toNat < S8x1024.size a := fun v1305 v1407 k0_hw277 => k0_hw277

def k0_chk278 (v1305 : IVec S16 32) (v1412 : IVec S16 32) : Prop :=
  (∀ a x, ((![v1305, v1412] : Fin 2 → IVec S16 32) a x).toNat < S8x1024.size a)
instance k0_chk278.dec : ∀ (v1305 : IVec S16 32) (v1412 : IVec S16 32), Decidable (k0_chk278 v1305 v1412) := fun v1305 v1412 => decidable_of_iff' _ (Iff.of_eq (k0_chk278.eq_1 v1305 v1412))
theorem k0_idx278_inb : ∀ (v1305 : IVec S16 32) (v1412 : IVec S16 32) (k0_hw278 : k0_chk278 v1305 v1412), ∀ a x, ((![v1305, v1412] : Fin 2 → IVec S16 32) a x).toNat < S8x1024.size a := fun v1305 v1412 k0_hw278 => k0_hw278

def k0_chk279 (v1305 : IVec S16 32) (v1417 : IVec S16 32) : Prop :=
  (∀ a x, ((![v1305, v1417] : Fin 2 → IVec S16 32) a x).toNat < S8x1024.size a)
instance k0_chk279.dec : ∀ (v1305 : IVec S16 32) (v1417 : IVec S16 32), Decidable (k0_chk279 v1305 v1417) := fun v1305 v1417 => decidable_of_iff' _ (Iff.of_eq (k0_chk279.eq_1 v1305 v1417))
theorem k0_idx279_inb : ∀ (v1305 : IVec S16 32) (v1417 : IVec S16 32) (k0_hw279 : k0_chk279 v1305 v1417), ∀ a x, ((![v1305, v1417] : Fin 2 → IVec S16 32) a x).toNat < S8x1024.size a := fun v1305 v1417 k0_hw279 => k0_hw279

def k0_chk280 (v1305 : IVec S16 32) (v1422 : IVec S16 32) : Prop :=
  (∀ a x, ((![v1305, v1422] : Fin 2 → IVec S16 32) a x).toNat < S8x1024.size a)
instance k0_chk280.dec : ∀ (v1305 : IVec S16 32) (v1422 : IVec S16 32), Decidable (k0_chk280 v1305 v1422) := fun v1305 v1422 => decidable_of_iff' _ (Iff.of_eq (k0_chk280.eq_1 v1305 v1422))
theorem k0_idx280_inb : ∀ (v1305 : IVec S16 32) (v1422 : IVec S16 32) (k0_hw280 : k0_chk280 v1305 v1422), ∀ a x, ((![v1305, v1422] : Fin 2 → IVec S16 32) a x).toNat < S8x1024.size a := fun v1305 v1422 k0_hw280 => k0_hw280

def k0_chk281 (v1305 : IVec S16 32) (v1427 : IVec S16 32) : Prop :=
  (∀ a x, ((![v1305, v1427] : Fin 2 → IVec S16 32) a x).toNat < S8x1024.size a)
instance k0_chk281.dec : ∀ (v1305 : IVec S16 32) (v1427 : IVec S16 32), Decidable (k0_chk281 v1305 v1427) := fun v1305 v1427 => decidable_of_iff' _ (Iff.of_eq (k0_chk281.eq_1 v1305 v1427))
theorem k0_idx281_inb : ∀ (v1305 : IVec S16 32) (v1427 : IVec S16 32) (k0_hw281 : k0_chk281 v1305 v1427), ∀ a x, ((![v1305, v1427] : Fin 2 → IVec S16 32) a x).toNat < S8x1024.size a := fun v1305 v1427 k0_hw281 => k0_hw281

def k0_chk282 (v1305 : IVec S16 32) (v1432 : IVec S16 32) : Prop :=
  (∀ a x, ((![v1305, v1432] : Fin 2 → IVec S16 32) a x).toNat < S8x1024.size a)
instance k0_chk282.dec : ∀ (v1305 : IVec S16 32) (v1432 : IVec S16 32), Decidable (k0_chk282 v1305 v1432) := fun v1305 v1432 => decidable_of_iff' _ (Iff.of_eq (k0_chk282.eq_1 v1305 v1432))
theorem k0_idx282_inb : ∀ (v1305 : IVec S16 32) (v1432 : IVec S16 32) (k0_hw282 : k0_chk282 v1305 v1432), ∀ a x, ((![v1305, v1432] : Fin 2 → IVec S16 32) a x).toNat < S8x1024.size a := fun v1305 v1432 k0_hw282 => k0_hw282

def k0_chk283 (v1305 : IVec S16 32) (v1437 : IVec S16 32) : Prop :=
  (∀ a x, ((![v1305, v1437] : Fin 2 → IVec S16 32) a x).toNat < S8x1024.size a)
instance k0_chk283.dec : ∀ (v1305 : IVec S16 32) (v1437 : IVec S16 32), Decidable (k0_chk283 v1305 v1437) := fun v1305 v1437 => decidable_of_iff' _ (Iff.of_eq (k0_chk283.eq_1 v1305 v1437))
theorem k0_idx283_inb : ∀ (v1305 : IVec S16 32) (v1437 : IVec S16 32) (k0_hw283 : k0_chk283 v1305 v1437), ∀ a x, ((![v1305, v1437] : Fin 2 → IVec S16 32) a x).toNat < S8x1024.size a := fun v1305 v1437 k0_hw283 => k0_hw283

def k0_chk284 (v1305 : IVec S16 32) (v1442 : IVec S16 32) : Prop :=
  (∀ a x, ((![v1305, v1442] : Fin 2 → IVec S16 32) a x).toNat < S8x1024.size a)
instance k0_chk284.dec : ∀ (v1305 : IVec S16 32) (v1442 : IVec S16 32), Decidable (k0_chk284 v1305 v1442) := fun v1305 v1442 => decidable_of_iff' _ (Iff.of_eq (k0_chk284.eq_1 v1305 v1442))
theorem k0_idx284_inb : ∀ (v1305 : IVec S16 32) (v1442 : IVec S16 32) (k0_hw284 : k0_chk284 v1305 v1442), ∀ a x, ((![v1305, v1442] : Fin 2 → IVec S16 32) a x).toNat < S8x1024.size a := fun v1305 v1442 k0_hw284 => k0_hw284

def k0_chk285 (v1305 : IVec S16 32) (v1447 : IVec S16 32) : Prop :=
  (∀ a x, ((![v1305, v1447] : Fin 2 → IVec S16 32) a x).toNat < S8x1024.size a)
instance k0_chk285.dec : ∀ (v1305 : IVec S16 32) (v1447 : IVec S16 32), Decidable (k0_chk285 v1305 v1447) := fun v1305 v1447 => decidable_of_iff' _ (Iff.of_eq (k0_chk285.eq_1 v1305 v1447))
theorem k0_idx285_inb : ∀ (v1305 : IVec S16 32) (v1447 : IVec S16 32) (k0_hw285 : k0_chk285 v1305 v1447), ∀ a x, ((![v1305, v1447] : Fin 2 → IVec S16 32) a x).toNat < S8x1024.size a := fun v1305 v1447 k0_hw285 => k0_hw285

def k0_chk286 (v1305 : IVec S16 32) (v1452 : IVec S16 32) : Prop :=
  (∀ a x, ((![v1305, v1452] : Fin 2 → IVec S16 32) a x).toNat < S8x1024.size a)
instance k0_chk286.dec : ∀ (v1305 : IVec S16 32) (v1452 : IVec S16 32), Decidable (k0_chk286 v1305 v1452) := fun v1305 v1452 => decidable_of_iff' _ (Iff.of_eq (k0_chk286.eq_1 v1305 v1452))
theorem k0_idx286_inb : ∀ (v1305 : IVec S16 32) (v1452 : IVec S16 32) (k0_hw286 : k0_chk286 v1305 v1452), ∀ a x, ((![v1305, v1452] : Fin 2 → IVec S16 32) a x).toNat < S8x1024.size a := fun v1305 v1452 k0_hw286 => k0_hw286

def k0_chk287 (v1305 : IVec S16 32) (v1457 : IVec S16 32) : Prop :=
  (∀ a x, ((![v1305, v1457] : Fin 2 → IVec S16 32) a x).toNat < S8x1024.size a)
instance k0_chk287.dec : ∀ (v1305 : IVec S16 32) (v1457 : IVec S16 32), Decidable (k0_chk287 v1305 v1457) := fun v1305 v1457 => decidable_of_iff' _ (Iff.of_eq (k0_chk287.eq_1 v1305 v1457))
theorem k0_idx287_inb : ∀ (v1305 : IVec S16 32) (v1457 : IVec S16 32) (k0_hw287 : k0_chk287 v1305 v1457), ∀ a x, ((![v1305, v1457] : Fin 2 → IVec S16 32) a x).toNat < S8x1024.size a := fun v1305 v1457 k0_hw287 => k0_hw287

def k0_chk288 (v1305 : IVec S16 32) (v1462 : IVec S16 32) : Prop :=
  (∀ a x, ((![v1305, v1462] : Fin 2 → IVec S16 32) a x).toNat < S8x1024.size a)
instance k0_chk288.dec : ∀ (v1305 : IVec S16 32) (v1462 : IVec S16 32), Decidable (k0_chk288 v1305 v1462) := fun v1305 v1462 => decidable_of_iff' _ (Iff.of_eq (k0_chk288.eq_1 v1305 v1462))
theorem k0_idx288_inb : ∀ (v1305 : IVec S16 32) (v1462 : IVec S16 32) (k0_hw288 : k0_chk288 v1305 v1462), ∀ a x, ((![v1305, v1462] : Fin 2 → IVec S16 32) a x).toNat < S8x1024.size a := fun v1305 v1462 k0_hw288 => k0_hw288

def k0_chk289 (v1305 : IVec S16 32) (v1467 : IVec S16 32) : Prop :=
  (∀ a x, ((![v1305, v1467] : Fin 2 → IVec S16 32) a x).toNat < S8x1024.size a)
instance k0_chk289.dec : ∀ (v1305 : IVec S16 32) (v1467 : IVec S16 32), Decidable (k0_chk289 v1305 v1467) := fun v1305 v1467 => decidable_of_iff' _ (Iff.of_eq (k0_chk289.eq_1 v1305 v1467))
theorem k0_idx289_inb : ∀ (v1305 : IVec S16 32) (v1467 : IVec S16 32) (k0_hw289 : k0_chk289 v1305 v1467), ∀ a x, ((![v1305, v1467] : Fin 2 → IVec S16 32) a x).toNat < S8x1024.size a := fun v1305 v1467 k0_hw289 => k0_hw289

def k0_chk290 (v1305 : IVec S16 32) (v1472 : IVec S16 32) : Prop :=
  (∀ a x, ((![v1305, v1472] : Fin 2 → IVec S16 32) a x).toNat < S8x1024.size a)
instance k0_chk290.dec : ∀ (v1305 : IVec S16 32) (v1472 : IVec S16 32), Decidable (k0_chk290 v1305 v1472) := fun v1305 v1472 => decidable_of_iff' _ (Iff.of_eq (k0_chk290.eq_1 v1305 v1472))
theorem k0_idx290_inb : ∀ (v1305 : IVec S16 32) (v1472 : IVec S16 32) (k0_hw290 : k0_chk290 v1305 v1472), ∀ a x, ((![v1305, v1472] : Fin 2 → IVec S16 32) a x).toNat < S8x1024.size a := fun v1305 v1472 k0_hw290 => k0_hw290

def k0_chk291 (v1305 : IVec S16 32) (v1477 : IVec S16 32) : Prop :=
  (∀ a x, ((![v1305, v1477] : Fin 2 → IVec S16 32) a x).toNat < S8x1024.size a)
instance k0_chk291.dec : ∀ (v1305 : IVec S16 32) (v1477 : IVec S16 32), Decidable (k0_chk291 v1305 v1477) := fun v1305 v1477 => decidable_of_iff' _ (Iff.of_eq (k0_chk291.eq_1 v1305 v1477))
theorem k0_idx291_inb : ∀ (v1305 : IVec S16 32) (v1477 : IVec S16 32) (k0_hw291 : k0_chk291 v1305 v1477), ∀ a x, ((![v1305, v1477] : Fin 2 → IVec S16 32) a x).toNat < S8x1024.size a := fun v1305 v1477 k0_hw291 => k0_hw291

def k0_chk292 (v1305 : IVec S16 32) (v1482 : IVec S16 32) : Prop :=
  (∀ a x, ((![v1305, v1482] : Fin 2 → IVec S16 32) a x).toNat < S8x1024.size a)
instance k0_chk292.dec : ∀ (v1305 : IVec S16 32) (v1482 : IVec S16 32), Decidable (k0_chk292 v1305 v1482) := fun v1305 v1482 => decidable_of_iff' _ (Iff.of_eq (k0_chk292.eq_1 v1305 v1482))
theorem k0_idx292_inb : ∀ (v1305 : IVec S16 32) (v1482 : IVec S16 32) (k0_hw292 : k0_chk292 v1305 v1482), ∀ a x, ((![v1305, v1482] : Fin 2 → IVec S16 32) a x).toNat < S8x1024.size a := fun v1305 v1482 k0_hw292 => k0_hw292

def k0_chk293 (v1305 : IVec S16 32) (v1487 : IVec S16 32) : Prop :=
  (∀ a x, ((![v1305, v1487] : Fin 2 → IVec S16 32) a x).toNat < S8x1024.size a)
instance k0_chk293.dec : ∀ (v1305 : IVec S16 32) (v1487 : IVec S16 32), Decidable (k0_chk293 v1305 v1487) := fun v1305 v1487 => decidable_of_iff' _ (Iff.of_eq (k0_chk293.eq_1 v1305 v1487))
theorem k0_idx293_inb : ∀ (v1305 : IVec S16 32) (v1487 : IVec S16 32) (k0_hw293 : k0_chk293 v1305 v1487), ∀ a x, ((![v1305, v1487] : Fin 2 → IVec S16 32) a x).toNat < S8x1024.size a := fun v1305 v1487 k0_hw293 => k0_hw293

def k0_chk294 (v1305 : IVec S16 32) (v1492 : IVec S16 32) : Prop :=
  (∀ a x, ((![v1305, v1492] : Fin 2 → IVec S16 32) a x).toNat < S8x1024.size a)
instance k0_chk294.dec : ∀ (v1305 : IVec S16 32) (v1492 : IVec S16 32), Decidable (k0_chk294 v1305 v1492) := fun v1305 v1492 => decidable_of_iff' _ (Iff.of_eq (k0_chk294.eq_1 v1305 v1492))
theorem k0_idx294_inb : ∀ (v1305 : IVec S16 32) (v1492 : IVec S16 32) (k0_hw294 : k0_chk294 v1305 v1492), ∀ a x, ((![v1305, v1492] : Fin 2 → IVec S16 32) a x).toNat < S8x1024.size a := fun v1305 v1492 k0_hw294 => k0_hw294

def k0_chk295 (v1305 : IVec S16 32) (v1497 : IVec S16 32) : Prop :=
  (∀ a x, ((![v1305, v1497] : Fin 2 → IVec S16 32) a x).toNat < S8x1024.size a)
instance k0_chk295.dec : ∀ (v1305 : IVec S16 32) (v1497 : IVec S16 32), Decidable (k0_chk295 v1305 v1497) := fun v1305 v1497 => decidable_of_iff' _ (Iff.of_eq (k0_chk295.eq_1 v1305 v1497))
theorem k0_idx295_inb : ∀ (v1305 : IVec S16 32) (v1497 : IVec S16 32) (k0_hw295 : k0_chk295 v1305 v1497), ∀ a x, ((![v1305, v1497] : Fin 2 → IVec S16 32) a x).toNat < S8x1024.size a := fun v1305 v1497 k0_hw295 => k0_hw295

def k0_chk296 (v1305 : IVec S16 32) (v1502 : IVec S16 32) : Prop :=
  (∀ a x, ((![v1305, v1502] : Fin 2 → IVec S16 32) a x).toNat < S8x1024.size a)
instance k0_chk296.dec : ∀ (v1305 : IVec S16 32) (v1502 : IVec S16 32), Decidable (k0_chk296 v1305 v1502) := fun v1305 v1502 => decidable_of_iff' _ (Iff.of_eq (k0_chk296.eq_1 v1305 v1502))
theorem k0_idx296_inb : ∀ (v1305 : IVec S16 32) (v1502 : IVec S16 32) (k0_hw296 : k0_chk296 v1305 v1502), ∀ a x, ((![v1305, v1502] : Fin 2 → IVec S16 32) a x).toNat < S8x1024.size a := fun v1305 v1502 k0_hw296 => k0_hw296

def k0_chk297 (v1305 : IVec S16 32) (v1507 : IVec S16 32) : Prop :=
  (∀ a x, ((![v1305, v1507] : Fin 2 → IVec S16 32) a x).toNat < S8x1024.size a)
instance k0_chk297.dec : ∀ (v1305 : IVec S16 32) (v1507 : IVec S16 32), Decidable (k0_chk297 v1305 v1507) := fun v1305 v1507 => decidable_of_iff' _ (Iff.of_eq (k0_chk297.eq_1 v1305 v1507))
theorem k0_idx297_inb : ∀ (v1305 : IVec S16 32) (v1507 : IVec S16 32) (k0_hw297 : k0_chk297 v1305 v1507), ∀ a x, ((![v1305, v1507] : Fin 2 → IVec S16 32) a x).toNat < S8x1024.size a := fun v1305 v1507 k0_hw297 => k0_hw297

def k0_chk298 (v1305 : IVec S16 32) (v1512 : IVec S16 32) : Prop :=
  (∀ a x, ((![v1305, v1512] : Fin 2 → IVec S16 32) a x).toNat < S8x1024.size a)
instance k0_chk298.dec : ∀ (v1305 : IVec S16 32) (v1512 : IVec S16 32), Decidable (k0_chk298 v1305 v1512) := fun v1305 v1512 => decidable_of_iff' _ (Iff.of_eq (k0_chk298.eq_1 v1305 v1512))
theorem k0_idx298_inb : ∀ (v1305 : IVec S16 32) (v1512 : IVec S16 32) (k0_hw298 : k0_chk298 v1305 v1512), ∀ a x, ((![v1305, v1512] : Fin 2 → IVec S16 32) a x).toNat < S8x1024.size a := fun v1305 v1512 k0_hw298 => k0_hw298

def k0_chk299 (v1305 : IVec S16 32) (v1517 : IVec S16 32) : Prop :=
  (∀ a x, ((![v1305, v1517] : Fin 2 → IVec S16 32) a x).toNat < S8x1024.size a)
instance k0_chk299.dec : ∀ (v1305 : IVec S16 32) (v1517 : IVec S16 32), Decidable (k0_chk299 v1305 v1517) := fun v1305 v1517 => decidable_of_iff' _ (Iff.of_eq (k0_chk299.eq_1 v1305 v1517))
theorem k0_idx299_inb : ∀ (v1305 : IVec S16 32) (v1517 : IVec S16 32) (k0_hw299 : k0_chk299 v1305 v1517), ∀ a x, ((![v1305, v1517] : Fin 2 → IVec S16 32) a x).toNat < S8x1024.size a := fun v1305 v1517 k0_hw299 => k0_hw299

def k0_chk300 (v1305 : IVec S16 32) (v1522 : IVec S16 32) : Prop :=
  (∀ a x, ((![v1305, v1522] : Fin 2 → IVec S16 32) a x).toNat < S8x1024.size a)
instance k0_chk300.dec : ∀ (v1305 : IVec S16 32) (v1522 : IVec S16 32), Decidable (k0_chk300 v1305 v1522) := fun v1305 v1522 => decidable_of_iff' _ (Iff.of_eq (k0_chk300.eq_1 v1305 v1522))
theorem k0_idx300_inb : ∀ (v1305 : IVec S16 32) (v1522 : IVec S16 32) (k0_hw300 : k0_chk300 v1305 v1522), ∀ a x, ((![v1305, v1522] : Fin 2 → IVec S16 32) a x).toNat < S8x1024.size a := fun v1305 v1522 k0_hw300 => k0_hw300

def k0_chk301 (v1305 : IVec S16 32) (v1527 : IVec S16 32) : Prop :=
  (∀ a x, ((![v1305, v1527] : Fin 2 → IVec S16 32) a x).toNat < S8x1024.size a)
instance k0_chk301.dec : ∀ (v1305 : IVec S16 32) (v1527 : IVec S16 32), Decidable (k0_chk301 v1305 v1527) := fun v1305 v1527 => decidable_of_iff' _ (Iff.of_eq (k0_chk301.eq_1 v1305 v1527))
theorem k0_idx301_inb : ∀ (v1305 : IVec S16 32) (v1527 : IVec S16 32) (k0_hw301 : k0_chk301 v1305 v1527), ∀ a x, ((![v1305, v1527] : Fin 2 → IVec S16 32) a x).toNat < S8x1024.size a := fun v1305 v1527 k0_hw301 => k0_hw301

def k0_chk302 (v1305 : IVec S16 32) (v1532 : IVec S16 32) : Prop :=
  (∀ a x, ((![v1305, v1532] : Fin 2 → IVec S16 32) a x).toNat < S8x1024.size a)
instance k0_chk302.dec : ∀ (v1305 : IVec S16 32) (v1532 : IVec S16 32), Decidable (k0_chk302 v1305 v1532) := fun v1305 v1532 => decidable_of_iff' _ (Iff.of_eq (k0_chk302.eq_1 v1305 v1532))
theorem k0_idx302_inb : ∀ (v1305 : IVec S16 32) (v1532 : IVec S16 32) (k0_hw302 : k0_chk302 v1305 v1532), ∀ a x, ((![v1305, v1532] : Fin 2 → IVec S16 32) a x).toNat < S8x1024.size a := fun v1305 v1532 k0_hw302 => k0_hw302

def k0_chk303 (v1305 : IVec S16 32) (v1537 : IVec S16 32) : Prop :=
  (∀ a x, ((![v1305, v1537] : Fin 2 → IVec S16 32) a x).toNat < S8x1024.size a)
instance k0_chk303.dec : ∀ (v1305 : IVec S16 32) (v1537 : IVec S16 32), Decidable (k0_chk303 v1305 v1537) := fun v1305 v1537 => decidable_of_iff' _ (Iff.of_eq (k0_chk303.eq_1 v1305 v1537))
theorem k0_idx303_inb : ∀ (v1305 : IVec S16 32) (v1537 : IVec S16 32) (k0_hw303 : k0_chk303 v1305 v1537), ∀ a x, ((![v1305, v1537] : Fin 2 → IVec S16 32) a x).toNat < S8x1024.size a := fun v1305 v1537 k0_hw303 => k0_hw303

def k0_chk304 (v1305 : IVec S16 32) (v1542 : IVec S16 32) : Prop :=
  (∀ a x, ((![v1305, v1542] : Fin 2 → IVec S16 32) a x).toNat < S8x1024.size a)
instance k0_chk304.dec : ∀ (v1305 : IVec S16 32) (v1542 : IVec S16 32), Decidable (k0_chk304 v1305 v1542) := fun v1305 v1542 => decidable_of_iff' _ (Iff.of_eq (k0_chk304.eq_1 v1305 v1542))
theorem k0_idx304_inb : ∀ (v1305 : IVec S16 32) (v1542 : IVec S16 32) (k0_hw304 : k0_chk304 v1305 v1542), ∀ a x, ((![v1305, v1542] : Fin 2 → IVec S16 32) a x).toNat < S8x1024.size a := fun v1305 v1542 k0_hw304 => k0_hw304

def k0_chk305 (v1305 : IVec S16 32) (v1547 : IVec S16 32) : Prop :=
  (∀ a x, ((![v1305, v1547] : Fin 2 → IVec S16 32) a x).toNat < S8x1024.size a)
instance k0_chk305.dec : ∀ (v1305 : IVec S16 32) (v1547 : IVec S16 32), Decidable (k0_chk305 v1305 v1547) := fun v1305 v1547 => decidable_of_iff' _ (Iff.of_eq (k0_chk305.eq_1 v1305 v1547))
theorem k0_idx305_inb : ∀ (v1305 : IVec S16 32) (v1547 : IVec S16 32) (k0_hw305 : k0_chk305 v1305 v1547), ∀ a x, ((![v1305, v1547] : Fin 2 → IVec S16 32) a x).toNat < S8x1024.size a := fun v1305 v1547 k0_hw305 => k0_hw305

def k0_chk306 (v1305 : IVec S16 32) (v1552 : IVec S16 32) : Prop :=
  (∀ a x, ((![v1305, v1552] : Fin 2 → IVec S16 32) a x).toNat < S8x1024.size a)
instance k0_chk306.dec : ∀ (v1305 : IVec S16 32) (v1552 : IVec S16 32), Decidable (k0_chk306 v1305 v1552) := fun v1305 v1552 => decidable_of_iff' _ (Iff.of_eq (k0_chk306.eq_1 v1305 v1552))
theorem k0_idx306_inb : ∀ (v1305 : IVec S16 32) (v1552 : IVec S16 32) (k0_hw306 : k0_chk306 v1305 v1552), ∀ a x, ((![v1305, v1552] : Fin 2 → IVec S16 32) a x).toNat < S8x1024.size a := fun v1305 v1552 k0_hw306 => k0_hw306

def k0_chk307 (v1305 : IVec S16 32) (v1557 : IVec S16 32) : Prop :=
  (∀ a x, ((![v1305, v1557] : Fin 2 → IVec S16 32) a x).toNat < S8x1024.size a)
instance k0_chk307.dec : ∀ (v1305 : IVec S16 32) (v1557 : IVec S16 32), Decidable (k0_chk307 v1305 v1557) := fun v1305 v1557 => decidable_of_iff' _ (Iff.of_eq (k0_chk307.eq_1 v1305 v1557))
theorem k0_idx307_inb : ∀ (v1305 : IVec S16 32) (v1557 : IVec S16 32) (k0_hw307 : k0_chk307 v1305 v1557), ∀ a x, ((![v1305, v1557] : Fin 2 → IVec S16 32) a x).toNat < S8x1024.size a := fun v1305 v1557 k0_hw307 => k0_hw307

def k0_chk308 (v1305 : IVec S16 32) (v1562 : IVec S16 32) : Prop :=
  (∀ a x, ((![v1305, v1562] : Fin 2 → IVec S16 32) a x).toNat < S8x1024.size a)
instance k0_chk308.dec : ∀ (v1305 : IVec S16 32) (v1562 : IVec S16 32), Decidable (k0_chk308 v1305 v1562) := fun v1305 v1562 => decidable_of_iff' _ (Iff.of_eq (k0_chk308.eq_1 v1305 v1562))
theorem k0_idx308_inb : ∀ (v1305 : IVec S16 32) (v1562 : IVec S16 32) (k0_hw308 : k0_chk308 v1305 v1562), ∀ a x, ((![v1305, v1562] : Fin 2 → IVec S16 32) a x).toNat < S8x1024.size a := fun v1305 v1562 k0_hw308 => k0_hw308

def k0_chk309 (v1305 : IVec S16 32) (v1567 : IVec S16 32) : Prop :=
  (∀ a x, ((![v1305, v1567] : Fin 2 → IVec S16 32) a x).toNat < S8x1024.size a)
instance k0_chk309.dec : ∀ (v1305 : IVec S16 32) (v1567 : IVec S16 32), Decidable (k0_chk309 v1305 v1567) := fun v1305 v1567 => decidable_of_iff' _ (Iff.of_eq (k0_chk309.eq_1 v1305 v1567))
theorem k0_idx309_inb : ∀ (v1305 : IVec S16 32) (v1567 : IVec S16 32) (k0_hw309 : k0_chk309 v1305 v1567), ∀ a x, ((![v1305, v1567] : Fin 2 → IVec S16 32) a x).toNat < S8x1024.size a := fun v1305 v1567 k0_hw309 => k0_hw309

def k0_chk310 (v1305 : IVec S16 32) (v1572 : IVec S16 32) : Prop :=
  (∀ a x, ((![v1305, v1572] : Fin 2 → IVec S16 32) a x).toNat < S8x1024.size a)
instance k0_chk310.dec : ∀ (v1305 : IVec S16 32) (v1572 : IVec S16 32), Decidable (k0_chk310 v1305 v1572) := fun v1305 v1572 => decidable_of_iff' _ (Iff.of_eq (k0_chk310.eq_1 v1305 v1572))
theorem k0_idx310_inb : ∀ (v1305 : IVec S16 32) (v1572 : IVec S16 32) (k0_hw310 : k0_chk310 v1305 v1572), ∀ a x, ((![v1305, v1572] : Fin 2 → IVec S16 32) a x).toNat < S8x1024.size a := fun v1305 v1572 k0_hw310 => k0_hw310

def k0_chk311 (v1305 : IVec S16 32) (v1577 : IVec S16 32) : Prop :=
  (∀ a x, ((![v1305, v1577] : Fin 2 → IVec S16 32) a x).toNat < S8x1024.size a)
instance k0_chk311.dec : ∀ (v1305 : IVec S16 32) (v1577 : IVec S16 32), Decidable (k0_chk311 v1305 v1577) := fun v1305 v1577 => decidable_of_iff' _ (Iff.of_eq (k0_chk311.eq_1 v1305 v1577))
theorem k0_idx311_inb : ∀ (v1305 : IVec S16 32) (v1577 : IVec S16 32) (k0_hw311 : k0_chk311 v1305 v1577), ∀ a x, ((![v1305, v1577] : Fin 2 → IVec S16 32) a x).toNat < S8x1024.size a := fun v1305 v1577 k0_hw311 => k0_hw311

def k0_chk312 (v1305 : IVec S16 32) (v1582 : IVec S16 32) : Prop :=
  (∀ a x, ((![v1305, v1582] : Fin 2 → IVec S16 32) a x).toNat < S8x1024.size a)
instance k0_chk312.dec : ∀ (v1305 : IVec S16 32) (v1582 : IVec S16 32), Decidable (k0_chk312 v1305 v1582) := fun v1305 v1582 => decidable_of_iff' _ (Iff.of_eq (k0_chk312.eq_1 v1305 v1582))
theorem k0_idx312_inb : ∀ (v1305 : IVec S16 32) (v1582 : IVec S16 32) (k0_hw312 : k0_chk312 v1305 v1582), ∀ a x, ((![v1305, v1582] : Fin 2 → IVec S16 32) a x).toNat < S8x1024.size a := fun v1305 v1582 k0_hw312 => k0_hw312

def k0_chk313 (v1305 : IVec S16 32) (v1587 : IVec S16 32) : Prop :=
  (∀ a x, ((![v1305, v1587] : Fin 2 → IVec S16 32) a x).toNat < S8x1024.size a)
instance k0_chk313.dec : ∀ (v1305 : IVec S16 32) (v1587 : IVec S16 32), Decidable (k0_chk313 v1305 v1587) := fun v1305 v1587 => decidable_of_iff' _ (Iff.of_eq (k0_chk313.eq_1 v1305 v1587))
theorem k0_idx313_inb : ∀ (v1305 : IVec S16 32) (v1587 : IVec S16 32) (k0_hw313 : k0_chk313 v1305 v1587), ∀ a x, ((![v1305, v1587] : Fin 2 → IVec S16 32) a x).toNat < S8x1024.size a := fun v1305 v1587 k0_hw313 => k0_hw313

def k0_chk314 (v1305 : IVec S16 32) (v1592 : IVec S16 32) : Prop :=
  (∀ a x, ((![v1305, v1592] : Fin 2 → IVec S16 32) a x).toNat < S8x1024.size a)
instance k0_chk314.dec : ∀ (v1305 : IVec S16 32) (v1592 : IVec S16 32), Decidable (k0_chk314 v1305 v1592) := fun v1305 v1592 => decidable_of_iff' _ (Iff.of_eq (k0_chk314.eq_1 v1305 v1592))
theorem k0_idx314_inb : ∀ (v1305 : IVec S16 32) (v1592 : IVec S16 32) (k0_hw314 : k0_chk314 v1305 v1592), ∀ a x, ((![v1305, v1592] : Fin 2 → IVec S16 32) a x).toNat < S8x1024.size a := fun v1305 v1592 k0_hw314 => k0_hw314

def k0_chk315 (v1305 : IVec S16 32) (v1597 : IVec S16 32) : Prop :=
  (∀ a x, ((![v1305, v1597] : Fin 2 → IVec S16 32) a x).toNat < S8x1024.size a)
instance k0_chk315.dec : ∀ (v1305 : IVec S16 32) (v1597 : IVec S16 32), Decidable (k0_chk315 v1305 v1597) := fun v1305 v1597 => decidable_of_iff' _ (Iff.of_eq (k0_chk315.eq_1 v1305 v1597))
theorem k0_idx315_inb : ∀ (v1305 : IVec S16 32) (v1597 : IVec S16 32) (k0_hw315 : k0_chk315 v1305 v1597), ∀ a x, ((![v1305, v1597] : Fin 2 → IVec S16 32) a x).toNat < S8x1024.size a := fun v1305 v1597 k0_hw315 => k0_hw315

def k0_chk316 (v1305 : IVec S16 32) (v1602 : IVec S16 32) : Prop :=
  (∀ a x, ((![v1305, v1602] : Fin 2 → IVec S16 32) a x).toNat < S8x1024.size a)
instance k0_chk316.dec : ∀ (v1305 : IVec S16 32) (v1602 : IVec S16 32), Decidable (k0_chk316 v1305 v1602) := fun v1305 v1602 => decidable_of_iff' _ (Iff.of_eq (k0_chk316.eq_1 v1305 v1602))
theorem k0_idx316_inb : ∀ (v1305 : IVec S16 32) (v1602 : IVec S16 32) (k0_hw316 : k0_chk316 v1305 v1602), ∀ a x, ((![v1305, v1602] : Fin 2 → IVec S16 32) a x).toNat < S8x1024.size a := fun v1305 v1602 k0_hw316 => k0_hw316

def k0_chk317 (v1305 : IVec S16 32) (v1607 : IVec S16 32) : Prop :=
  (∀ a x, ((![v1305, v1607] : Fin 2 → IVec S16 32) a x).toNat < S8x1024.size a)
instance k0_chk317.dec : ∀ (v1305 : IVec S16 32) (v1607 : IVec S16 32), Decidable (k0_chk317 v1305 v1607) := fun v1305 v1607 => decidable_of_iff' _ (Iff.of_eq (k0_chk317.eq_1 v1305 v1607))
theorem k0_idx317_inb : ∀ (v1305 : IVec S16 32) (v1607 : IVec S16 32) (k0_hw317 : k0_chk317 v1305 v1607), ∀ a x, ((![v1305, v1607] : Fin 2 → IVec S16 32) a x).toNat < S8x1024.size a := fun v1305 v1607 k0_hw317 => k0_hw317

def k0_chk318 (v1305 : IVec S16 32) (v1612 : IVec S16 32) : Prop :=
  (∀ a x, ((![v1305, v1612] : Fin 2 → IVec S16 32) a x).toNat < S8x1024.size a)
instance k0_chk318.dec : ∀ (v1305 : IVec S16 32) (v1612 : IVec S16 32), Decidable (k0_chk318 v1305 v1612) := fun v1305 v1612 => decidable_of_iff' _ (Iff.of_eq (k0_chk318.eq_1 v1305 v1612))
theorem k0_idx318_inb : ∀ (v1305 : IVec S16 32) (v1612 : IVec S16 32) (k0_hw318 : k0_chk318 v1305 v1612), ∀ a x, ((![v1305, v1612] : Fin 2 → IVec S16 32) a x).toNat < S8x1024.size a := fun v1305 v1612 k0_hw318 => k0_hw318

def k0_chk319 (v1305 : IVec S16 32) (v1617 : IVec S16 32) : Prop :=
  (∀ a x, ((![v1305, v1617] : Fin 2 → IVec S16 32) a x).toNat < S8x1024.size a)
instance k0_chk319.dec : ∀ (v1305 : IVec S16 32) (v1617 : IVec S16 32), Decidable (k0_chk319 v1305 v1617) := fun v1305 v1617 => decidable_of_iff' _ (Iff.of_eq (k0_chk319.eq_1 v1305 v1617))
theorem k0_idx319_inb : ∀ (v1305 : IVec S16 32) (v1617 : IVec S16 32) (k0_hw319 : k0_chk319 v1305 v1617), ∀ a x, ((![v1305, v1617] : Fin 2 → IVec S16 32) a x).toNat < S8x1024.size a := fun v1305 v1617 k0_hw319 => k0_hw319

def k0_chk320 (v1305 : IVec S16 32) (v1622 : IVec S16 32) : Prop :=
  (∀ a x, ((![v1305, v1622] : Fin 2 → IVec S16 32) a x).toNat < S8x1024.size a)
instance k0_chk320.dec : ∀ (v1305 : IVec S16 32) (v1622 : IVec S16 32), Decidable (k0_chk320 v1305 v1622) := fun v1305 v1622 => decidable_of_iff' _ (Iff.of_eq (k0_chk320.eq_1 v1305 v1622))
theorem k0_idx320_inb : ∀ (v1305 : IVec S16 32) (v1622 : IVec S16 32) (k0_hw320 : k0_chk320 v1305 v1622), ∀ a x, ((![v1305, v1622] : Fin 2 → IVec S16 32) a x).toNat < S8x1024.size a := fun v1305 v1622 k0_hw320 => k0_hw320

def k0_chk321 (v1627 : IVec S16 32) (v1629 : IVec S16 32) : Prop :=
  (∀ a x, ((![v1627, v1629] : Fin 2 → IVec S16 32) a x).toNat < S8x1024.size a)
instance k0_chk321.dec : ∀ (v1627 : IVec S16 32) (v1629 : IVec S16 32), Decidable (k0_chk321 v1627 v1629) := fun v1627 v1629 => decidable_of_iff' _ (Iff.of_eq (k0_chk321.eq_1 v1627 v1629))
theorem k0_idx321_inb : ∀ (v1627 : IVec S16 32) (v1629 : IVec S16 32) (k0_hw321 : k0_chk321 v1627 v1629), ∀ a x, ((![v1627, v1629] : Fin 2 → IVec S16 32) a x).toNat < S8x1024.size a := fun v1627 v1629 k0_hw321 => k0_hw321

def k0_chk322 (v1627 : IVec S16 32) (v1634 : IVec S16 32) : Prop :=
  (∀ a x, ((![v1627, v1634] : Fin 2 → IVec S16 32) a x).toNat < S8x1024.size a)
instance k0_chk322.dec : ∀ (v1627 : IVec S16 32) (v1634 : IVec S16 32), Decidable (k0_chk322 v1627 v1634) := fun v1627 v1634 => decidable_of_iff' _ (Iff.of_eq (k0_chk322.eq_1 v1627 v1634))
theorem k0_idx322_inb : ∀ (v1627 : IVec S16 32) (v1634 : IVec S16 32) (k0_hw322 : k0_chk322 v1627 v1634), ∀ a x, ((![v1627, v1634] : Fin 2 → IVec S16 32) a x).toNat < S8x1024.size a := fun v1627 v1634 k0_hw322 => k0_hw322

def k0_chk323 (v1627 : IVec S16 32) (v1639 : IVec S16 32) : Prop :=
  (∀ a x, ((![v1627, v1639] : Fin 2 → IVec S16 32) a x).toNat < S8x1024.size a)
instance k0_chk323.dec : ∀ (v1627 : IVec S16 32) (v1639 : IVec S16 32), Decidable (k0_chk323 v1627 v1639) := fun v1627 v1639 => decidable_of_iff' _ (Iff.of_eq (k0_chk323.eq_1 v1627 v1639))
theorem k0_idx323_inb : ∀ (v1627 : IVec S16 32) (v1639 : IVec S16 32) (k0_hw323 : k0_chk323 v1627 v1639), ∀ a x, ((![v1627, v1639] : Fin 2 → IVec S16 32) a x).toNat < S8x1024.size a := fun v1627 v1639 k0_hw323 => k0_hw323

def k0_chk324 (v1627 : IVec S16 32) (v1644 : IVec S16 32) : Prop :=
  (∀ a x, ((![v1627, v1644] : Fin 2 → IVec S16 32) a x).toNat < S8x1024.size a)
instance k0_chk324.dec : ∀ (v1627 : IVec S16 32) (v1644 : IVec S16 32), Decidable (k0_chk324 v1627 v1644) := fun v1627 v1644 => decidable_of_iff' _ (Iff.of_eq (k0_chk324.eq_1 v1627 v1644))
theorem k0_idx324_inb : ∀ (v1627 : IVec S16 32) (v1644 : IVec S16 32) (k0_hw324 : k0_chk324 v1627 v1644), ∀ a x, ((![v1627, v1644] : Fin 2 → IVec S16 32) a x).toNat < S8x1024.size a := fun v1627 v1644 k0_hw324 => k0_hw324

def k0_chk325 (v1627 : IVec S16 32) (v1649 : IVec S16 32) : Prop :=
  (∀ a x, ((![v1627, v1649] : Fin 2 → IVec S16 32) a x).toNat < S8x1024.size a)
instance k0_chk325.dec : ∀ (v1627 : IVec S16 32) (v1649 : IVec S16 32), Decidable (k0_chk325 v1627 v1649) := fun v1627 v1649 => decidable_of_iff' _ (Iff.of_eq (k0_chk325.eq_1 v1627 v1649))
theorem k0_idx325_inb : ∀ (v1627 : IVec S16 32) (v1649 : IVec S16 32) (k0_hw325 : k0_chk325 v1627 v1649), ∀ a x, ((![v1627, v1649] : Fin 2 → IVec S16 32) a x).toNat < S8x1024.size a := fun v1627 v1649 k0_hw325 => k0_hw325

def k0_chk326 (v1627 : IVec S16 32) (v1654 : IVec S16 32) : Prop :=
  (∀ a x, ((![v1627, v1654] : Fin 2 → IVec S16 32) a x).toNat < S8x1024.size a)
instance k0_chk326.dec : ∀ (v1627 : IVec S16 32) (v1654 : IVec S16 32), Decidable (k0_chk326 v1627 v1654) := fun v1627 v1654 => decidable_of_iff' _ (Iff.of_eq (k0_chk326.eq_1 v1627 v1654))
theorem k0_idx326_inb : ∀ (v1627 : IVec S16 32) (v1654 : IVec S16 32) (k0_hw326 : k0_chk326 v1627 v1654), ∀ a x, ((![v1627, v1654] : Fin 2 → IVec S16 32) a x).toNat < S8x1024.size a := fun v1627 v1654 k0_hw326 => k0_hw326

def k0_chk327 (v1627 : IVec S16 32) (v1659 : IVec S16 32) : Prop :=
  (∀ a x, ((![v1627, v1659] : Fin 2 → IVec S16 32) a x).toNat < S8x1024.size a)
instance k0_chk327.dec : ∀ (v1627 : IVec S16 32) (v1659 : IVec S16 32), Decidable (k0_chk327 v1627 v1659) := fun v1627 v1659 => decidable_of_iff' _ (Iff.of_eq (k0_chk327.eq_1 v1627 v1659))
theorem k0_idx327_inb : ∀ (v1627 : IVec S16 32) (v1659 : IVec S16 32) (k0_hw327 : k0_chk327 v1627 v1659), ∀ a x, ((![v1627, v1659] : Fin 2 → IVec S16 32) a x).toNat < S8x1024.size a := fun v1627 v1659 k0_hw327 => k0_hw327

def k0_chk328 (v1627 : IVec S16 32) (v1664 : IVec S16 32) : Prop :=
  (∀ a x, ((![v1627, v1664] : Fin 2 → IVec S16 32) a x).toNat < S8x1024.size a)
instance k0_chk328.dec : ∀ (v1627 : IVec S16 32) (v1664 : IVec S16 32), Decidable (k0_chk328 v1627 v1664) := fun v1627 v1664 => decidable_of_iff' _ (Iff.of_eq (k0_chk328.eq_1 v1627 v1664))
theorem k0_idx328_inb : ∀ (v1627 : IVec S16 32) (v1664 : IVec S16 32) (k0_hw328 : k0_chk328 v1627 v1664), ∀ a x, ((![v1627, v1664] : Fin 2 → IVec S16 32) a x).toNat < S8x1024.size a := fun v1627 v1664 k0_hw328 => k0_hw328

def k0_chk329 (v1627 : IVec S16 32) (v1669 : IVec S16 32) : Prop :=
  (∀ a x, ((![v1627, v1669] : Fin 2 → IVec S16 32) a x).toNat < S8x1024.size a)
instance k0_chk329.dec : ∀ (v1627 : IVec S16 32) (v1669 : IVec S16 32), Decidable (k0_chk329 v1627 v1669) := fun v1627 v1669 => decidable_of_iff' _ (Iff.of_eq (k0_chk329.eq_1 v1627 v1669))
theorem k0_idx329_inb : ∀ (v1627 : IVec S16 32) (v1669 : IVec S16 32) (k0_hw329 : k0_chk329 v1627 v1669), ∀ a x, ((![v1627, v1669] : Fin 2 → IVec S16 32) a x).toNat < S8x1024.size a := fun v1627 v1669 k0_hw329 => k0_hw329

def k0_chk330 (v1627 : IVec S16 32) (v1674 : IVec S16 32) : Prop :=
  (∀ a x, ((![v1627, v1674] : Fin 2 → IVec S16 32) a x).toNat < S8x1024.size a)
instance k0_chk330.dec : ∀ (v1627 : IVec S16 32) (v1674 : IVec S16 32), Decidable (k0_chk330 v1627 v1674) := fun v1627 v1674 => decidable_of_iff' _ (Iff.of_eq (k0_chk330.eq_1 v1627 v1674))
theorem k0_idx330_inb : ∀ (v1627 : IVec S16 32) (v1674 : IVec S16 32) (k0_hw330 : k0_chk330 v1627 v1674), ∀ a x, ((![v1627, v1674] : Fin 2 → IVec S16 32) a x).toNat < S8x1024.size a := fun v1627 v1674 k0_hw330 => k0_hw330

def k0_chk331 (v1627 : IVec S16 32) (v1679 : IVec S16 32) : Prop :=
  (∀ a x, ((![v1627, v1679] : Fin 2 → IVec S16 32) a x).toNat < S8x1024.size a)
instance k0_chk331.dec : ∀ (v1627 : IVec S16 32) (v1679 : IVec S16 32), Decidable (k0_chk331 v1627 v1679) := fun v1627 v1679 => decidable_of_iff' _ (Iff.of_eq (k0_chk331.eq_1 v1627 v1679))
theorem k0_idx331_inb : ∀ (v1627 : IVec S16 32) (v1679 : IVec S16 32) (k0_hw331 : k0_chk331 v1627 v1679), ∀ a x, ((![v1627, v1679] : Fin 2 → IVec S16 32) a x).toNat < S8x1024.size a := fun v1627 v1679 k0_hw331 => k0_hw331

def k0_chk332 (v1627 : IVec S16 32) (v1684 : IVec S16 32) : Prop :=
  (∀ a x, ((![v1627, v1684] : Fin 2 → IVec S16 32) a x).toNat < S8x1024.size a)
instance k0_chk332.dec : ∀ (v1627 : IVec S16 32) (v1684 : IVec S16 32), Decidable (k0_chk332 v1627 v1684) := fun v1627 v1684 => decidable_of_iff' _ (Iff.of_eq (k0_chk332.eq_1 v1627 v1684))
theorem k0_idx332_inb : ∀ (v1627 : IVec S16 32) (v1684 : IVec S16 32) (k0_hw332 : k0_chk332 v1627 v1684), ∀ a x, ((![v1627, v1684] : Fin 2 → IVec S16 32) a x).toNat < S8x1024.size a := fun v1627 v1684 k0_hw332 => k0_hw332

def k0_chk333 (v1627 : IVec S16 32) (v1689 : IVec S16 32) : Prop :=
  (∀ a x, ((![v1627, v1689] : Fin 2 → IVec S16 32) a x).toNat < S8x1024.size a)
instance k0_chk333.dec : ∀ (v1627 : IVec S16 32) (v1689 : IVec S16 32), Decidable (k0_chk333 v1627 v1689) := fun v1627 v1689 => decidable_of_iff' _ (Iff.of_eq (k0_chk333.eq_1 v1627 v1689))
theorem k0_idx333_inb : ∀ (v1627 : IVec S16 32) (v1689 : IVec S16 32) (k0_hw333 : k0_chk333 v1627 v1689), ∀ a x, ((![v1627, v1689] : Fin 2 → IVec S16 32) a x).toNat < S8x1024.size a := fun v1627 v1689 k0_hw333 => k0_hw333

def k0_chk334 (v1627 : IVec S16 32) (v1694 : IVec S16 32) : Prop :=
  (∀ a x, ((![v1627, v1694] : Fin 2 → IVec S16 32) a x).toNat < S8x1024.size a)
instance k0_chk334.dec : ∀ (v1627 : IVec S16 32) (v1694 : IVec S16 32), Decidable (k0_chk334 v1627 v1694) := fun v1627 v1694 => decidable_of_iff' _ (Iff.of_eq (k0_chk334.eq_1 v1627 v1694))
theorem k0_idx334_inb : ∀ (v1627 : IVec S16 32) (v1694 : IVec S16 32) (k0_hw334 : k0_chk334 v1627 v1694), ∀ a x, ((![v1627, v1694] : Fin 2 → IVec S16 32) a x).toNat < S8x1024.size a := fun v1627 v1694 k0_hw334 => k0_hw334

def k0_chk335 (v1627 : IVec S16 32) (v1699 : IVec S16 32) : Prop :=
  (∀ a x, ((![v1627, v1699] : Fin 2 → IVec S16 32) a x).toNat < S8x1024.size a)
instance k0_chk335.dec : ∀ (v1627 : IVec S16 32) (v1699 : IVec S16 32), Decidable (k0_chk335 v1627 v1699) := fun v1627 v1699 => decidable_of_iff' _ (Iff.of_eq (k0_chk335.eq_1 v1627 v1699))
theorem k0_idx335_inb : ∀ (v1627 : IVec S16 32) (v1699 : IVec S16 32) (k0_hw335 : k0_chk335 v1627 v1699), ∀ a x, ((![v1627, v1699] : Fin 2 → IVec S16 32) a x).toNat < S8x1024.size a := fun v1627 v1699 k0_hw335 => k0_hw335

def k0_chk336 (v1627 : IVec S16 32) (v1704 : IVec S16 32) : Prop :=
  (∀ a x, ((![v1627, v1704] : Fin 2 → IVec S16 32) a x).toNat < S8x1024.size a)
instance k0_chk336.dec : ∀ (v1627 : IVec S16 32) (v1704 : IVec S16 32), Decidable (k0_chk336 v1627 v1704) := fun v1627 v1704 => decidable_of_iff' _ (Iff.of_eq (k0_chk336.eq_1 v1627 v1704))
theorem k0_idx336_inb : ∀ (v1627 : IVec S16 32) (v1704 : IVec S16 32) (k0_hw336 : k0_chk336 v1627 v1704), ∀ a x, ((![v1627, v1704] : Fin 2 → IVec S16 32) a x).toNat < S8x1024.size a := fun v1627 v1704 k0_hw336 => k0_hw336

def k0_chk337 (v1627 : IVec S16 32) (v1709 : IVec S16 32) : Prop :=
  (∀ a x, ((![v1627, v1709] : Fin 2 → IVec S16 32) a x).toNat < S8x1024.size a)
instance k0_chk337.dec : ∀ (v1627 : IVec S16 32) (v1709 : IVec S16 32), Decidable (k0_chk337 v1627 v1709) := fun v1627 v1709 => decidable_of_iff' _ (Iff.of_eq (k0_chk337.eq_1 v1627 v1709))
theorem k0_idx337_inb : ∀ (v1627 : IVec S16 32) (v1709 : IVec S16 32) (k0_hw337 : k0_chk337 v1627 v1709), ∀ a x, ((![v1627, v1709] : Fin 2 → IVec S16 32) a x).toNat < S8x1024.size a := fun v1627 v1709 k0_hw337 => k0_hw337

def k0_chk338 (v1627 : IVec S16 32) (v1714 : IVec S16 32) : Prop :=
  (∀ a x, ((![v1627, v1714] : Fin 2 → IVec S16 32) a x).toNat < S8x1024.size a)
instance k0_chk338.dec : ∀ (v1627 : IVec S16 32) (v1714 : IVec S16 32), Decidable (k0_chk338 v1627 v1714) := fun v1627 v1714 => decidable_of_iff' _ (Iff.of_eq (k0_chk338.eq_1 v1627 v1714))
theorem k0_idx338_inb : ∀ (v1627 : IVec S16 32) (v1714 : IVec S16 32) (k0_hw338 : k0_chk338 v1627 v1714), ∀ a x, ((![v1627, v1714] : Fin 2 → IVec S16 32) a x).toNat < S8x1024.size a := fun v1627 v1714 k0_hw338 => k0_hw338

def k0_chk339 (v1627 : IVec S16 32) (v1719 : IVec S16 32) : Prop :=
  (∀ a x, ((![v1627, v1719] : Fin 2 → IVec S16 32) a x).toNat < S8x1024.size a)
instance k0_chk339.dec : ∀ (v1627 : IVec S16 32) (v1719 : IVec S16 32), Decidable (k0_chk339 v1627 v1719) := fun v1627 v1719 => decidable_of_iff' _ (Iff.of_eq (k0_chk339.eq_1 v1627 v1719))
theorem k0_idx339_inb : ∀ (v1627 : IVec S16 32) (v1719 : IVec S16 32) (k0_hw339 : k0_chk339 v1627 v1719), ∀ a x, ((![v1627, v1719] : Fin 2 → IVec S16 32) a x).toNat < S8x1024.size a := fun v1627 v1719 k0_hw339 => k0_hw339

def k0_chk340 (v1627 : IVec S16 32) (v1724 : IVec S16 32) : Prop :=
  (∀ a x, ((![v1627, v1724] : Fin 2 → IVec S16 32) a x).toNat < S8x1024.size a)
instance k0_chk340.dec : ∀ (v1627 : IVec S16 32) (v1724 : IVec S16 32), Decidable (k0_chk340 v1627 v1724) := fun v1627 v1724 => decidable_of_iff' _ (Iff.of_eq (k0_chk340.eq_1 v1627 v1724))
theorem k0_idx340_inb : ∀ (v1627 : IVec S16 32) (v1724 : IVec S16 32) (k0_hw340 : k0_chk340 v1627 v1724), ∀ a x, ((![v1627, v1724] : Fin 2 → IVec S16 32) a x).toNat < S8x1024.size a := fun v1627 v1724 k0_hw340 => k0_hw340

def k0_chk341 (v1627 : IVec S16 32) (v1729 : IVec S16 32) : Prop :=
  (∀ a x, ((![v1627, v1729] : Fin 2 → IVec S16 32) a x).toNat < S8x1024.size a)
instance k0_chk341.dec : ∀ (v1627 : IVec S16 32) (v1729 : IVec S16 32), Decidable (k0_chk341 v1627 v1729) := fun v1627 v1729 => decidable_of_iff' _ (Iff.of_eq (k0_chk341.eq_1 v1627 v1729))
theorem k0_idx341_inb : ∀ (v1627 : IVec S16 32) (v1729 : IVec S16 32) (k0_hw341 : k0_chk341 v1627 v1729), ∀ a x, ((![v1627, v1729] : Fin 2 → IVec S16 32) a x).toNat < S8x1024.size a := fun v1627 v1729 k0_hw341 => k0_hw341

def k0_chk342 (v1627 : IVec S16 32) (v1734 : IVec S16 32) : Prop :=
  (∀ a x, ((![v1627, v1734] : Fin 2 → IVec S16 32) a x).toNat < S8x1024.size a)
instance k0_chk342.dec : ∀ (v1627 : IVec S16 32) (v1734 : IVec S16 32), Decidable (k0_chk342 v1627 v1734) := fun v1627 v1734 => decidable_of_iff' _ (Iff.of_eq (k0_chk342.eq_1 v1627 v1734))
theorem k0_idx342_inb : ∀ (v1627 : IVec S16 32) (v1734 : IVec S16 32) (k0_hw342 : k0_chk342 v1627 v1734), ∀ a x, ((![v1627, v1734] : Fin 2 → IVec S16 32) a x).toNat < S8x1024.size a := fun v1627 v1734 k0_hw342 => k0_hw342

def k0_chk343 (v1627 : IVec S16 32) (v1739 : IVec S16 32) : Prop :=
  (∀ a x, ((![v1627, v1739] : Fin 2 → IVec S16 32) a x).toNat < S8x1024.size a)
instance k0_chk343.dec : ∀ (v1627 : IVec S16 32) (v1739 : IVec S16 32), Decidable (k0_chk343 v1627 v1739) := fun v1627 v1739 => decidable_of_iff' _ (Iff.of_eq (k0_chk343.eq_1 v1627 v1739))
theorem k0_idx343_inb : ∀ (v1627 : IVec S16 32) (v1739 : IVec S16 32) (k0_hw343 : k0_chk343 v1627 v1739), ∀ a x, ((![v1627, v1739] : Fin 2 → IVec S16 32) a x).toNat < S8x1024.size a := fun v1627 v1739 k0_hw343 => k0_hw343

def k0_chk344 (v1627 : IVec S16 32) (v1744 : IVec S16 32) : Prop :=
  (∀ a x, ((![v1627, v1744] : Fin 2 → IVec S16 32) a x).toNat < S8x1024.size a)
instance k0_chk344.dec : ∀ (v1627 : IVec S16 32) (v1744 : IVec S16 32), Decidable (k0_chk344 v1627 v1744) := fun v1627 v1744 => decidable_of_iff' _ (Iff.of_eq (k0_chk344.eq_1 v1627 v1744))
theorem k0_idx344_inb : ∀ (v1627 : IVec S16 32) (v1744 : IVec S16 32) (k0_hw344 : k0_chk344 v1627 v1744), ∀ a x, ((![v1627, v1744] : Fin 2 → IVec S16 32) a x).toNat < S8x1024.size a := fun v1627 v1744 k0_hw344 => k0_hw344

def k0_chk345 (v1627 : IVec S16 32) (v1749 : IVec S16 32) : Prop :=
  (∀ a x, ((![v1627, v1749] : Fin 2 → IVec S16 32) a x).toNat < S8x1024.size a)
instance k0_chk345.dec : ∀ (v1627 : IVec S16 32) (v1749 : IVec S16 32), Decidable (k0_chk345 v1627 v1749) := fun v1627 v1749 => decidable_of_iff' _ (Iff.of_eq (k0_chk345.eq_1 v1627 v1749))
theorem k0_idx345_inb : ∀ (v1627 : IVec S16 32) (v1749 : IVec S16 32) (k0_hw345 : k0_chk345 v1627 v1749), ∀ a x, ((![v1627, v1749] : Fin 2 → IVec S16 32) a x).toNat < S8x1024.size a := fun v1627 v1749 k0_hw345 => k0_hw345

def k0_chk346 (v1627 : IVec S16 32) (v1754 : IVec S16 32) : Prop :=
  (∀ a x, ((![v1627, v1754] : Fin 2 → IVec S16 32) a x).toNat < S8x1024.size a)
instance k0_chk346.dec : ∀ (v1627 : IVec S16 32) (v1754 : IVec S16 32), Decidable (k0_chk346 v1627 v1754) := fun v1627 v1754 => decidable_of_iff' _ (Iff.of_eq (k0_chk346.eq_1 v1627 v1754))
theorem k0_idx346_inb : ∀ (v1627 : IVec S16 32) (v1754 : IVec S16 32) (k0_hw346 : k0_chk346 v1627 v1754), ∀ a x, ((![v1627, v1754] : Fin 2 → IVec S16 32) a x).toNat < S8x1024.size a := fun v1627 v1754 k0_hw346 => k0_hw346

def k0_chk347 (v1627 : IVec S16 32) (v1759 : IVec S16 32) : Prop :=
  (∀ a x, ((![v1627, v1759] : Fin 2 → IVec S16 32) a x).toNat < S8x1024.size a)
instance k0_chk347.dec : ∀ (v1627 : IVec S16 32) (v1759 : IVec S16 32), Decidable (k0_chk347 v1627 v1759) := fun v1627 v1759 => decidable_of_iff' _ (Iff.of_eq (k0_chk347.eq_1 v1627 v1759))
theorem k0_idx347_inb : ∀ (v1627 : IVec S16 32) (v1759 : IVec S16 32) (k0_hw347 : k0_chk347 v1627 v1759), ∀ a x, ((![v1627, v1759] : Fin 2 → IVec S16 32) a x).toNat < S8x1024.size a := fun v1627 v1759 k0_hw347 => k0_hw347

def k0_chk348 (v1627 : IVec S16 32) (v1764 : IVec S16 32) : Prop :=
  (∀ a x, ((![v1627, v1764] : Fin 2 → IVec S16 32) a x).toNat < S8x1024.size a)
instance k0_chk348.dec : ∀ (v1627 : IVec S16 32) (v1764 : IVec S16 32), Decidable (k0_chk348 v1627 v1764) := fun v1627 v1764 => decidable_of_iff' _ (Iff.of_eq (k0_chk348.eq_1 v1627 v1764))
theorem k0_idx348_inb : ∀ (v1627 : IVec S16 32) (v1764 : IVec S16 32) (k0_hw348 : k0_chk348 v1627 v1764), ∀ a x, ((![v1627, v1764] : Fin 2 → IVec S16 32) a x).toNat < S8x1024.size a := fun v1627 v1764 k0_hw348 => k0_hw348

def k0_chk349 (v1627 : IVec S16 32) (v1769 : IVec S16 32) : Prop :=
  (∀ a x, ((![v1627, v1769] : Fin 2 → IVec S16 32) a x).toNat < S8x1024.size a)
instance k0_chk349.dec : ∀ (v1627 : IVec S16 32) (v1769 : IVec S16 32), Decidable (k0_chk349 v1627 v1769) := fun v1627 v1769 => decidable_of_iff' _ (Iff.of_eq (k0_chk349.eq_1 v1627 v1769))
theorem k0_idx349_inb : ∀ (v1627 : IVec S16 32) (v1769 : IVec S16 32) (k0_hw349 : k0_chk349 v1627 v1769), ∀ a x, ((![v1627, v1769] : Fin 2 → IVec S16 32) a x).toNat < S8x1024.size a := fun v1627 v1769 k0_hw349 => k0_hw349

def k0_chk350 (v1627 : IVec S16 32) (v1774 : IVec S16 32) : Prop :=
  (∀ a x, ((![v1627, v1774] : Fin 2 → IVec S16 32) a x).toNat < S8x1024.size a)
instance k0_chk350.dec : ∀ (v1627 : IVec S16 32) (v1774 : IVec S16 32), Decidable (k0_chk350 v1627 v1774) := fun v1627 v1774 => decidable_of_iff' _ (Iff.of_eq (k0_chk350.eq_1 v1627 v1774))
theorem k0_idx350_inb : ∀ (v1627 : IVec S16 32) (v1774 : IVec S16 32) (k0_hw350 : k0_chk350 v1627 v1774), ∀ a x, ((![v1627, v1774] : Fin 2 → IVec S16 32) a x).toNat < S8x1024.size a := fun v1627 v1774 k0_hw350 => k0_hw350

def k0_chk351 (v1627 : IVec S16 32) (v1779 : IVec S16 32) : Prop :=
  (∀ a x, ((![v1627, v1779] : Fin 2 → IVec S16 32) a x).toNat < S8x1024.size a)
instance k0_chk351.dec : ∀ (v1627 : IVec S16 32) (v1779 : IVec S16 32), Decidable (k0_chk351 v1627 v1779) := fun v1627 v1779 => decidable_of_iff' _ (Iff.of_eq (k0_chk351.eq_1 v1627 v1779))
theorem k0_idx351_inb : ∀ (v1627 : IVec S16 32) (v1779 : IVec S16 32) (k0_hw351 : k0_chk351 v1627 v1779), ∀ a x, ((![v1627, v1779] : Fin 2 → IVec S16 32) a x).toNat < S8x1024.size a := fun v1627 v1779 k0_hw351 => k0_hw351

def k0_chk352 (v1627 : IVec S16 32) (v1784 : IVec S16 32) : Prop :=
  (∀ a x, ((![v1627, v1784] : Fin 2 → IVec S16 32) a x).toNat < S8x1024.size a)
instance k0_chk352.dec : ∀ (v1627 : IVec S16 32) (v1784 : IVec S16 32), Decidable (k0_chk352 v1627 v1784) := fun v1627 v1784 => decidable_of_iff' _ (Iff.of_eq (k0_chk352.eq_1 v1627 v1784))
theorem k0_idx352_inb : ∀ (v1627 : IVec S16 32) (v1784 : IVec S16 32) (k0_hw352 : k0_chk352 v1627 v1784), ∀ a x, ((![v1627, v1784] : Fin 2 → IVec S16 32) a x).toNat < S8x1024.size a := fun v1627 v1784 k0_hw352 => k0_hw352

def k0_chk353 (v1627 : IVec S16 32) (v1789 : IVec S16 32) : Prop :=
  (∀ a x, ((![v1627, v1789] : Fin 2 → IVec S16 32) a x).toNat < S8x1024.size a)
instance k0_chk353.dec : ∀ (v1627 : IVec S16 32) (v1789 : IVec S16 32), Decidable (k0_chk353 v1627 v1789) := fun v1627 v1789 => decidable_of_iff' _ (Iff.of_eq (k0_chk353.eq_1 v1627 v1789))
theorem k0_idx353_inb : ∀ (v1627 : IVec S16 32) (v1789 : IVec S16 32) (k0_hw353 : k0_chk353 v1627 v1789), ∀ a x, ((![v1627, v1789] : Fin 2 → IVec S16 32) a x).toNat < S8x1024.size a := fun v1627 v1789 k0_hw353 => k0_hw353

def k0_chk354 (v1627 : IVec S16 32) (v1794 : IVec S16 32) : Prop :=
  (∀ a x, ((![v1627, v1794] : Fin 2 → IVec S16 32) a x).toNat < S8x1024.size a)
instance k0_chk354.dec : ∀ (v1627 : IVec S16 32) (v1794 : IVec S16 32), Decidable (k0_chk354 v1627 v1794) := fun v1627 v1794 => decidable_of_iff' _ (Iff.of_eq (k0_chk354.eq_1 v1627 v1794))
theorem k0_idx354_inb : ∀ (v1627 : IVec S16 32) (v1794 : IVec S16 32) (k0_hw354 : k0_chk354 v1627 v1794), ∀ a x, ((![v1627, v1794] : Fin 2 → IVec S16 32) a x).toNat < S8x1024.size a := fun v1627 v1794 k0_hw354 => k0_hw354

def k0_chk355 (v1627 : IVec S16 32) (v1799 : IVec S16 32) : Prop :=
  (∀ a x, ((![v1627, v1799] : Fin 2 → IVec S16 32) a x).toNat < S8x1024.size a)
instance k0_chk355.dec : ∀ (v1627 : IVec S16 32) (v1799 : IVec S16 32), Decidable (k0_chk355 v1627 v1799) := fun v1627 v1799 => decidable_of_iff' _ (Iff.of_eq (k0_chk355.eq_1 v1627 v1799))
theorem k0_idx355_inb : ∀ (v1627 : IVec S16 32) (v1799 : IVec S16 32) (k0_hw355 : k0_chk355 v1627 v1799), ∀ a x, ((![v1627, v1799] : Fin 2 → IVec S16 32) a x).toNat < S8x1024.size a := fun v1627 v1799 k0_hw355 => k0_hw355

def k0_chk356 (v1627 : IVec S16 32) (v1804 : IVec S16 32) : Prop :=
  (∀ a x, ((![v1627, v1804] : Fin 2 → IVec S16 32) a x).toNat < S8x1024.size a)
instance k0_chk356.dec : ∀ (v1627 : IVec S16 32) (v1804 : IVec S16 32), Decidable (k0_chk356 v1627 v1804) := fun v1627 v1804 => decidable_of_iff' _ (Iff.of_eq (k0_chk356.eq_1 v1627 v1804))
theorem k0_idx356_inb : ∀ (v1627 : IVec S16 32) (v1804 : IVec S16 32) (k0_hw356 : k0_chk356 v1627 v1804), ∀ a x, ((![v1627, v1804] : Fin 2 → IVec S16 32) a x).toNat < S8x1024.size a := fun v1627 v1804 k0_hw356 => k0_hw356

def k0_chk357 (v1627 : IVec S16 32) (v1809 : IVec S16 32) : Prop :=
  (∀ a x, ((![v1627, v1809] : Fin 2 → IVec S16 32) a x).toNat < S8x1024.size a)
instance k0_chk357.dec : ∀ (v1627 : IVec S16 32) (v1809 : IVec S16 32), Decidable (k0_chk357 v1627 v1809) := fun v1627 v1809 => decidable_of_iff' _ (Iff.of_eq (k0_chk357.eq_1 v1627 v1809))
theorem k0_idx357_inb : ∀ (v1627 : IVec S16 32) (v1809 : IVec S16 32) (k0_hw357 : k0_chk357 v1627 v1809), ∀ a x, ((![v1627, v1809] : Fin 2 → IVec S16 32) a x).toNat < S8x1024.size a := fun v1627 v1809 k0_hw357 => k0_hw357

def k0_chk358 (v1627 : IVec S16 32) (v1814 : IVec S16 32) : Prop :=
  (∀ a x, ((![v1627, v1814] : Fin 2 → IVec S16 32) a x).toNat < S8x1024.size a)
instance k0_chk358.dec : ∀ (v1627 : IVec S16 32) (v1814 : IVec S16 32), Decidable (k0_chk358 v1627 v1814) := fun v1627 v1814 => decidable_of_iff' _ (Iff.of_eq (k0_chk358.eq_1 v1627 v1814))
theorem k0_idx358_inb : ∀ (v1627 : IVec S16 32) (v1814 : IVec S16 32) (k0_hw358 : k0_chk358 v1627 v1814), ∀ a x, ((![v1627, v1814] : Fin 2 → IVec S16 32) a x).toNat < S8x1024.size a := fun v1627 v1814 k0_hw358 => k0_hw358

def k0_chk359 (v1627 : IVec S16 32) (v1819 : IVec S16 32) : Prop :=
  (∀ a x, ((![v1627, v1819] : Fin 2 → IVec S16 32) a x).toNat < S8x1024.size a)
instance k0_chk359.dec : ∀ (v1627 : IVec S16 32) (v1819 : IVec S16 32), Decidable (k0_chk359 v1627 v1819) := fun v1627 v1819 => decidable_of_iff' _ (Iff.of_eq (k0_chk359.eq_1 v1627 v1819))
theorem k0_idx359_inb : ∀ (v1627 : IVec S16 32) (v1819 : IVec S16 32) (k0_hw359 : k0_chk359 v1627 v1819), ∀ a x, ((![v1627, v1819] : Fin 2 → IVec S16 32) a x).toNat < S8x1024.size a := fun v1627 v1819 k0_hw359 => k0_hw359

def k0_chk360 (v1627 : IVec S16 32) (v1824 : IVec S16 32) : Prop :=
  (∀ a x, ((![v1627, v1824] : Fin 2 → IVec S16 32) a x).toNat < S8x1024.size a)
instance k0_chk360.dec : ∀ (v1627 : IVec S16 32) (v1824 : IVec S16 32), Decidable (k0_chk360 v1627 v1824) := fun v1627 v1824 => decidable_of_iff' _ (Iff.of_eq (k0_chk360.eq_1 v1627 v1824))
theorem k0_idx360_inb : ∀ (v1627 : IVec S16 32) (v1824 : IVec S16 32) (k0_hw360 : k0_chk360 v1627 v1824), ∀ a x, ((![v1627, v1824] : Fin 2 → IVec S16 32) a x).toNat < S8x1024.size a := fun v1627 v1824 k0_hw360 => k0_hw360

def k0_chk361 (v1627 : IVec S16 32) (v1829 : IVec S16 32) : Prop :=
  (∀ a x, ((![v1627, v1829] : Fin 2 → IVec S16 32) a x).toNat < S8x1024.size a)
instance k0_chk361.dec : ∀ (v1627 : IVec S16 32) (v1829 : IVec S16 32), Decidable (k0_chk361 v1627 v1829) := fun v1627 v1829 => decidable_of_iff' _ (Iff.of_eq (k0_chk361.eq_1 v1627 v1829))
theorem k0_idx361_inb : ∀ (v1627 : IVec S16 32) (v1829 : IVec S16 32) (k0_hw361 : k0_chk361 v1627 v1829), ∀ a x, ((![v1627, v1829] : Fin 2 → IVec S16 32) a x).toNat < S8x1024.size a := fun v1627 v1829 k0_hw361 => k0_hw361

def k0_chk362 (v1627 : IVec S16 32) (v1834 : IVec S16 32) : Prop :=
  (∀ a x, ((![v1627, v1834] : Fin 2 → IVec S16 32) a x).toNat < S8x1024.size a)
instance k0_chk362.dec : ∀ (v1627 : IVec S16 32) (v1834 : IVec S16 32), Decidable (k0_chk362 v1627 v1834) := fun v1627 v1834 => decidable_of_iff' _ (Iff.of_eq (k0_chk362.eq_1 v1627 v1834))
theorem k0_idx362_inb : ∀ (v1627 : IVec S16 32) (v1834 : IVec S16 32) (k0_hw362 : k0_chk362 v1627 v1834), ∀ a x, ((![v1627, v1834] : Fin 2 → IVec S16 32) a x).toNat < S8x1024.size a := fun v1627 v1834 k0_hw362 => k0_hw362

def k0_chk363 (v1627 : IVec S16 32) (v1839 : IVec S16 32) : Prop :=
  (∀ a x, ((![v1627, v1839] : Fin 2 → IVec S16 32) a x).toNat < S8x1024.size a)
instance k0_chk363.dec : ∀ (v1627 : IVec S16 32) (v1839 : IVec S16 32), Decidable (k0_chk363 v1627 v1839) := fun v1627 v1839 => decidable_of_iff' _ (Iff.of_eq (k0_chk363.eq_1 v1627 v1839))
theorem k0_idx363_inb : ∀ (v1627 : IVec S16 32) (v1839 : IVec S16 32) (k0_hw363 : k0_chk363 v1627 v1839), ∀ a x, ((![v1627, v1839] : Fin 2 → IVec S16 32) a x).toNat < S8x1024.size a := fun v1627 v1839 k0_hw363 => k0_hw363

def k0_chk364 (v1627 : IVec S16 32) (v1844 : IVec S16 32) : Prop :=
  (∀ a x, ((![v1627, v1844] : Fin 2 → IVec S16 32) a x).toNat < S8x1024.size a)
instance k0_chk364.dec : ∀ (v1627 : IVec S16 32) (v1844 : IVec S16 32), Decidable (k0_chk364 v1627 v1844) := fun v1627 v1844 => decidable_of_iff' _ (Iff.of_eq (k0_chk364.eq_1 v1627 v1844))
theorem k0_idx364_inb : ∀ (v1627 : IVec S16 32) (v1844 : IVec S16 32) (k0_hw364 : k0_chk364 v1627 v1844), ∀ a x, ((![v1627, v1844] : Fin 2 → IVec S16 32) a x).toNat < S8x1024.size a := fun v1627 v1844 k0_hw364 => k0_hw364

def k0_chk365 (v1627 : IVec S16 32) (v1849 : IVec S16 32) : Prop :=
  (∀ a x, ((![v1627, v1849] : Fin 2 → IVec S16 32) a x).toNat < S8x1024.size a)
instance k0_chk365.dec : ∀ (v1627 : IVec S16 32) (v1849 : IVec S16 32), Decidable (k0_chk365 v1627 v1849) := fun v1627 v1849 => decidable_of_iff' _ (Iff.of_eq (k0_chk365.eq_1 v1627 v1849))
theorem k0_idx365_inb : ∀ (v1627 : IVec S16 32) (v1849 : IVec S16 32) (k0_hw365 : k0_chk365 v1627 v1849), ∀ a x, ((![v1627, v1849] : Fin 2 → IVec S16 32) a x).toNat < S8x1024.size a := fun v1627 v1849 k0_hw365 => k0_hw365

def k0_chk366 (v1627 : IVec S16 32) (v1854 : IVec S16 32) : Prop :=
  (∀ a x, ((![v1627, v1854] : Fin 2 → IVec S16 32) a x).toNat < S8x1024.size a)
instance k0_chk366.dec : ∀ (v1627 : IVec S16 32) (v1854 : IVec S16 32), Decidable (k0_chk366 v1627 v1854) := fun v1627 v1854 => decidable_of_iff' _ (Iff.of_eq (k0_chk366.eq_1 v1627 v1854))
theorem k0_idx366_inb : ∀ (v1627 : IVec S16 32) (v1854 : IVec S16 32) (k0_hw366 : k0_chk366 v1627 v1854), ∀ a x, ((![v1627, v1854] : Fin 2 → IVec S16 32) a x).toNat < S8x1024.size a := fun v1627 v1854 k0_hw366 => k0_hw366

def k0_chk367 (v1627 : IVec S16 32) (v1859 : IVec S16 32) : Prop :=
  (∀ a x, ((![v1627, v1859] : Fin 2 → IVec S16 32) a x).toNat < S8x1024.size a)
instance k0_chk367.dec : ∀ (v1627 : IVec S16 32) (v1859 : IVec S16 32), Decidable (k0_chk367 v1627 v1859) := fun v1627 v1859 => decidable_of_iff' _ (Iff.of_eq (k0_chk367.eq_1 v1627 v1859))
theorem k0_idx367_inb : ∀ (v1627 : IVec S16 32) (v1859 : IVec S16 32) (k0_hw367 : k0_chk367 v1627 v1859), ∀ a x, ((![v1627, v1859] : Fin 2 → IVec S16 32) a x).toNat < S8x1024.size a := fun v1627 v1859 k0_hw367 => k0_hw367

def k0_chk368 (v1627 : IVec S16 32) (v1864 : IVec S16 32) : Prop :=
  (∀ a x, ((![v1627, v1864] : Fin 2 → IVec S16 32) a x).toNat < S8x1024.size a)
instance k0_chk368.dec : ∀ (v1627 : IVec S16 32) (v1864 : IVec S16 32), Decidable (k0_chk368 v1627 v1864) := fun v1627 v1864 => decidable_of_iff' _ (Iff.of_eq (k0_chk368.eq_1 v1627 v1864))
theorem k0_idx368_inb : ∀ (v1627 : IVec S16 32) (v1864 : IVec S16 32) (k0_hw368 : k0_chk368 v1627 v1864), ∀ a x, ((![v1627, v1864] : Fin 2 → IVec S16 32) a x).toNat < S8x1024.size a := fun v1627 v1864 k0_hw368 => k0_hw368

def k0_chk369 (v1627 : IVec S16 32) (v1869 : IVec S16 32) : Prop :=
  (∀ a x, ((![v1627, v1869] : Fin 2 → IVec S16 32) a x).toNat < S8x1024.size a)
instance k0_chk369.dec : ∀ (v1627 : IVec S16 32) (v1869 : IVec S16 32), Decidable (k0_chk369 v1627 v1869) := fun v1627 v1869 => decidable_of_iff' _ (Iff.of_eq (k0_chk369.eq_1 v1627 v1869))
theorem k0_idx369_inb : ∀ (v1627 : IVec S16 32) (v1869 : IVec S16 32) (k0_hw369 : k0_chk369 v1627 v1869), ∀ a x, ((![v1627, v1869] : Fin 2 → IVec S16 32) a x).toNat < S8x1024.size a := fun v1627 v1869 k0_hw369 => k0_hw369

def k0_chk370 (v1627 : IVec S16 32) (v1874 : IVec S16 32) : Prop :=
  (∀ a x, ((![v1627, v1874] : Fin 2 → IVec S16 32) a x).toNat < S8x1024.size a)
instance k0_chk370.dec : ∀ (v1627 : IVec S16 32) (v1874 : IVec S16 32), Decidable (k0_chk370 v1627 v1874) := fun v1627 v1874 => decidable_of_iff' _ (Iff.of_eq (k0_chk370.eq_1 v1627 v1874))
theorem k0_idx370_inb : ∀ (v1627 : IVec S16 32) (v1874 : IVec S16 32) (k0_hw370 : k0_chk370 v1627 v1874), ∀ a x, ((![v1627, v1874] : Fin 2 → IVec S16 32) a x).toNat < S8x1024.size a := fun v1627 v1874 k0_hw370 => k0_hw370

def k0_chk371 (v1627 : IVec S16 32) (v1879 : IVec S16 32) : Prop :=
  (∀ a x, ((![v1627, v1879] : Fin 2 → IVec S16 32) a x).toNat < S8x1024.size a)
instance k0_chk371.dec : ∀ (v1627 : IVec S16 32) (v1879 : IVec S16 32), Decidable (k0_chk371 v1627 v1879) := fun v1627 v1879 => decidable_of_iff' _ (Iff.of_eq (k0_chk371.eq_1 v1627 v1879))
theorem k0_idx371_inb : ∀ (v1627 : IVec S16 32) (v1879 : IVec S16 32) (k0_hw371 : k0_chk371 v1627 v1879), ∀ a x, ((![v1627, v1879] : Fin 2 → IVec S16 32) a x).toNat < S8x1024.size a := fun v1627 v1879 k0_hw371 => k0_hw371

def k0_chk372 (v1627 : IVec S16 32) (v1884 : IVec S16 32) : Prop :=
  (∀ a x, ((![v1627, v1884] : Fin 2 → IVec S16 32) a x).toNat < S8x1024.size a)
instance k0_chk372.dec : ∀ (v1627 : IVec S16 32) (v1884 : IVec S16 32), Decidable (k0_chk372 v1627 v1884) := fun v1627 v1884 => decidable_of_iff' _ (Iff.of_eq (k0_chk372.eq_1 v1627 v1884))
theorem k0_idx372_inb : ∀ (v1627 : IVec S16 32) (v1884 : IVec S16 32) (k0_hw372 : k0_chk372 v1627 v1884), ∀ a x, ((![v1627, v1884] : Fin 2 → IVec S16 32) a x).toNat < S8x1024.size a := fun v1627 v1884 k0_hw372 => k0_hw372

def k0_chk373 (v1627 : IVec S16 32) (v1889 : IVec S16 32) : Prop :=
  (∀ a x, ((![v1627, v1889] : Fin 2 → IVec S16 32) a x).toNat < S8x1024.size a)
instance k0_chk373.dec : ∀ (v1627 : IVec S16 32) (v1889 : IVec S16 32), Decidable (k0_chk373 v1627 v1889) := fun v1627 v1889 => decidable_of_iff' _ (Iff.of_eq (k0_chk373.eq_1 v1627 v1889))
theorem k0_idx373_inb : ∀ (v1627 : IVec S16 32) (v1889 : IVec S16 32) (k0_hw373 : k0_chk373 v1627 v1889), ∀ a x, ((![v1627, v1889] : Fin 2 → IVec S16 32) a x).toNat < S8x1024.size a := fun v1627 v1889 k0_hw373 => k0_hw373

def k0_chk374 (v1627 : IVec S16 32) (v1894 : IVec S16 32) : Prop :=
  (∀ a x, ((![v1627, v1894] : Fin 2 → IVec S16 32) a x).toNat < S8x1024.size a)
instance k0_chk374.dec : ∀ (v1627 : IVec S16 32) (v1894 : IVec S16 32), Decidable (k0_chk374 v1627 v1894) := fun v1627 v1894 => decidable_of_iff' _ (Iff.of_eq (k0_chk374.eq_1 v1627 v1894))
theorem k0_idx374_inb : ∀ (v1627 : IVec S16 32) (v1894 : IVec S16 32) (k0_hw374 : k0_chk374 v1627 v1894), ∀ a x, ((![v1627, v1894] : Fin 2 → IVec S16 32) a x).toNat < S8x1024.size a := fun v1627 v1894 k0_hw374 => k0_hw374

def k0_chk375 (v1627 : IVec S16 32) (v1899 : IVec S16 32) : Prop :=
  (∀ a x, ((![v1627, v1899] : Fin 2 → IVec S16 32) a x).toNat < S8x1024.size a)
instance k0_chk375.dec : ∀ (v1627 : IVec S16 32) (v1899 : IVec S16 32), Decidable (k0_chk375 v1627 v1899) := fun v1627 v1899 => decidable_of_iff' _ (Iff.of_eq (k0_chk375.eq_1 v1627 v1899))
theorem k0_idx375_inb : ∀ (v1627 : IVec S16 32) (v1899 : IVec S16 32) (k0_hw375 : k0_chk375 v1627 v1899), ∀ a x, ((![v1627, v1899] : Fin 2 → IVec S16 32) a x).toNat < S8x1024.size a := fun v1627 v1899 k0_hw375 => k0_hw375

def k0_chk376 (v1627 : IVec S16 32) (v1904 : IVec S16 32) : Prop :=
  (∀ a x, ((![v1627, v1904] : Fin 2 → IVec S16 32) a x).toNat < S8x1024.size a)
instance k0_chk376.dec : ∀ (v1627 : IVec S16 32) (v1904 : IVec S16 32), Decidable (k0_chk376 v1627 v1904) := fun v1627 v1904 => decidable_of_iff' _ (Iff.of_eq (k0_chk376.eq_1 v1627 v1904))
theorem k0_idx376_inb : ∀ (v1627 : IVec S16 32) (v1904 : IVec S16 32) (k0_hw376 : k0_chk376 v1627 v1904), ∀ a x, ((![v1627, v1904] : Fin 2 → IVec S16 32) a x).toNat < S8x1024.size a := fun v1627 v1904 k0_hw376 => k0_hw376

def k0_chk377 (v1627 : IVec S16 32) (v1909 : IVec S16 32) : Prop :=
  (∀ a x, ((![v1627, v1909] : Fin 2 → IVec S16 32) a x).toNat < S8x1024.size a)
instance k0_chk377.dec : ∀ (v1627 : IVec S16 32) (v1909 : IVec S16 32), Decidable (k0_chk377 v1627 v1909) := fun v1627 v1909 => decidable_of_iff' _ (Iff.of_eq (k0_chk377.eq_1 v1627 v1909))
theorem k0_idx377_inb : ∀ (v1627 : IVec S16 32) (v1909 : IVec S16 32) (k0_hw377 : k0_chk377 v1627 v1909), ∀ a x, ((![v1627, v1909] : Fin 2 → IVec S16 32) a x).toNat < S8x1024.size a := fun v1627 v1909 k0_hw377 => k0_hw377

def k0_chk378 (v1627 : IVec S16 32) (v1914 : IVec S16 32) : Prop :=
  (∀ a x, ((![v1627, v1914] : Fin 2 → IVec S16 32) a x).toNat < S8x1024.size a)
instance k0_chk378.dec : ∀ (v1627 : IVec S16 32) (v1914 : IVec S16 32), Decidable (k0_chk378 v1627 v1914) := fun v1627 v1914 => decidable_of_iff' _ (Iff.of_eq (k0_chk378.eq_1 v1627 v1914))
theorem k0_idx378_inb : ∀ (v1627 : IVec S16 32) (v1914 : IVec S16 32) (k0_hw378 : k0_chk378 v1627 v1914), ∀ a x, ((![v1627, v1914] : Fin 2 → IVec S16 32) a x).toNat < S8x1024.size a := fun v1627 v1914 k0_hw378 => k0_hw378

def k0_chk379 (v1627 : IVec S16 32) (v1919 : IVec S16 32) : Prop :=
  (∀ a x, ((![v1627, v1919] : Fin 2 → IVec S16 32) a x).toNat < S8x1024.size a)
instance k0_chk379.dec : ∀ (v1627 : IVec S16 32) (v1919 : IVec S16 32), Decidable (k0_chk379 v1627 v1919) := fun v1627 v1919 => decidable_of_iff' _ (Iff.of_eq (k0_chk379.eq_1 v1627 v1919))
theorem k0_idx379_inb : ∀ (v1627 : IVec S16 32) (v1919 : IVec S16 32) (k0_hw379 : k0_chk379 v1627 v1919), ∀ a x, ((![v1627, v1919] : Fin 2 → IVec S16 32) a x).toNat < S8x1024.size a := fun v1627 v1919 k0_hw379 => k0_hw379

def k0_chk380 (v1627 : IVec S16 32) (v1924 : IVec S16 32) : Prop :=
  (∀ a x, ((![v1627, v1924] : Fin 2 → IVec S16 32) a x).toNat < S8x1024.size a)
instance k0_chk380.dec : ∀ (v1627 : IVec S16 32) (v1924 : IVec S16 32), Decidable (k0_chk380 v1627 v1924) := fun v1627 v1924 => decidable_of_iff' _ (Iff.of_eq (k0_chk380.eq_1 v1627 v1924))
theorem k0_idx380_inb : ∀ (v1627 : IVec S16 32) (v1924 : IVec S16 32) (k0_hw380 : k0_chk380 v1627 v1924), ∀ a x, ((![v1627, v1924] : Fin 2 → IVec S16 32) a x).toNat < S8x1024.size a := fun v1627 v1924 k0_hw380 => k0_hw380

def k0_chk381 (v1627 : IVec S16 32) (v1929 : IVec S16 32) : Prop :=
  (∀ a x, ((![v1627, v1929] : Fin 2 → IVec S16 32) a x).toNat < S8x1024.size a)
instance k0_chk381.dec : ∀ (v1627 : IVec S16 32) (v1929 : IVec S16 32), Decidable (k0_chk381 v1627 v1929) := fun v1627 v1929 => decidable_of_iff' _ (Iff.of_eq (k0_chk381.eq_1 v1627 v1929))
theorem k0_idx381_inb : ∀ (v1627 : IVec S16 32) (v1929 : IVec S16 32) (k0_hw381 : k0_chk381 v1627 v1929), ∀ a x, ((![v1627, v1929] : Fin 2 → IVec S16 32) a x).toNat < S8x1024.size a := fun v1627 v1929 k0_hw381 => k0_hw381

def k0_chk382 (v1627 : IVec S16 32) (v1934 : IVec S16 32) : Prop :=
  (∀ a x, ((![v1627, v1934] : Fin 2 → IVec S16 32) a x).toNat < S8x1024.size a)
instance k0_chk382.dec : ∀ (v1627 : IVec S16 32) (v1934 : IVec S16 32), Decidable (k0_chk382 v1627 v1934) := fun v1627 v1934 => decidable_of_iff' _ (Iff.of_eq (k0_chk382.eq_1 v1627 v1934))
theorem k0_idx382_inb : ∀ (v1627 : IVec S16 32) (v1934 : IVec S16 32) (k0_hw382 : k0_chk382 v1627 v1934), ∀ a x, ((![v1627, v1934] : Fin 2 → IVec S16 32) a x).toNat < S8x1024.size a := fun v1627 v1934 k0_hw382 => k0_hw382

def k0_chk383 (v1627 : IVec S16 32) (v1939 : IVec S16 32) : Prop :=
  (∀ a x, ((![v1627, v1939] : Fin 2 → IVec S16 32) a x).toNat < S8x1024.size a)
instance k0_chk383.dec : ∀ (v1627 : IVec S16 32) (v1939 : IVec S16 32), Decidable (k0_chk383 v1627 v1939) := fun v1627 v1939 => decidable_of_iff' _ (Iff.of_eq (k0_chk383.eq_1 v1627 v1939))
theorem k0_idx383_inb : ∀ (v1627 : IVec S16 32) (v1939 : IVec S16 32) (k0_hw383 : k0_chk383 v1627 v1939), ∀ a x, ((![v1627, v1939] : Fin 2 → IVec S16 32) a x).toNat < S8x1024.size a := fun v1627 v1939 k0_hw383 => k0_hw383

def k0_chk384 (v1627 : IVec S16 32) (v1944 : IVec S16 32) : Prop :=
  (∀ a x, ((![v1627, v1944] : Fin 2 → IVec S16 32) a x).toNat < S8x1024.size a)
instance k0_chk384.dec : ∀ (v1627 : IVec S16 32) (v1944 : IVec S16 32), Decidable (k0_chk384 v1627 v1944) := fun v1627 v1944 => decidable_of_iff' _ (Iff.of_eq (k0_chk384.eq_1 v1627 v1944))
theorem k0_idx384_inb : ∀ (v1627 : IVec S16 32) (v1944 : IVec S16 32) (k0_hw384 : k0_chk384 v1627 v1944), ∀ a x, ((![v1627, v1944] : Fin 2 → IVec S16 32) a x).toNat < S8x1024.size a := fun v1627 v1944 k0_hw384 => k0_hw384

def k0_chk385 (v1949 : IVec S16 32) (v1951 : IVec S16 32) : Prop :=
  (∀ a x, ((![v1949, v1951] : Fin 2 → IVec S16 32) a x).toNat < S8x1024.size a)
instance k0_chk385.dec : ∀ (v1949 : IVec S16 32) (v1951 : IVec S16 32), Decidable (k0_chk385 v1949 v1951) := fun v1949 v1951 => decidable_of_iff' _ (Iff.of_eq (k0_chk385.eq_1 v1949 v1951))
theorem k0_idx385_inb : ∀ (v1949 : IVec S16 32) (v1951 : IVec S16 32) (k0_hw385 : k0_chk385 v1949 v1951), ∀ a x, ((![v1949, v1951] : Fin 2 → IVec S16 32) a x).toNat < S8x1024.size a := fun v1949 v1951 k0_hw385 => k0_hw385

def k0_chk386 (v1949 : IVec S16 32) (v1956 : IVec S16 32) : Prop :=
  (∀ a x, ((![v1949, v1956] : Fin 2 → IVec S16 32) a x).toNat < S8x1024.size a)
instance k0_chk386.dec : ∀ (v1949 : IVec S16 32) (v1956 : IVec S16 32), Decidable (k0_chk386 v1949 v1956) := fun v1949 v1956 => decidable_of_iff' _ (Iff.of_eq (k0_chk386.eq_1 v1949 v1956))
theorem k0_idx386_inb : ∀ (v1949 : IVec S16 32) (v1956 : IVec S16 32) (k0_hw386 : k0_chk386 v1949 v1956), ∀ a x, ((![v1949, v1956] : Fin 2 → IVec S16 32) a x).toNat < S8x1024.size a := fun v1949 v1956 k0_hw386 => k0_hw386

def k0_chk387 (v1949 : IVec S16 32) (v1961 : IVec S16 32) : Prop :=
  (∀ a x, ((![v1949, v1961] : Fin 2 → IVec S16 32) a x).toNat < S8x1024.size a)
instance k0_chk387.dec : ∀ (v1949 : IVec S16 32) (v1961 : IVec S16 32), Decidable (k0_chk387 v1949 v1961) := fun v1949 v1961 => decidable_of_iff' _ (Iff.of_eq (k0_chk387.eq_1 v1949 v1961))
theorem k0_idx387_inb : ∀ (v1949 : IVec S16 32) (v1961 : IVec S16 32) (k0_hw387 : k0_chk387 v1949 v1961), ∀ a x, ((![v1949, v1961] : Fin 2 → IVec S16 32) a x).toNat < S8x1024.size a := fun v1949 v1961 k0_hw387 => k0_hw387

def k0_chk388 (v1949 : IVec S16 32) (v1966 : IVec S16 32) : Prop :=
  (∀ a x, ((![v1949, v1966] : Fin 2 → IVec S16 32) a x).toNat < S8x1024.size a)
instance k0_chk388.dec : ∀ (v1949 : IVec S16 32) (v1966 : IVec S16 32), Decidable (k0_chk388 v1949 v1966) := fun v1949 v1966 => decidable_of_iff' _ (Iff.of_eq (k0_chk388.eq_1 v1949 v1966))
theorem k0_idx388_inb : ∀ (v1949 : IVec S16 32) (v1966 : IVec S16 32) (k0_hw388 : k0_chk388 v1949 v1966), ∀ a x, ((![v1949, v1966] : Fin 2 → IVec S16 32) a x).toNat < S8x1024.size a := fun v1949 v1966 k0_hw388 => k0_hw388

def k0_chk389 (v1949 : IVec S16 32) (v1971 : IVec S16 32) : Prop :=
  (∀ a x, ((![v1949, v1971] : Fin 2 → IVec S16 32) a x).toNat < S8x1024.size a)
instance k0_chk389.dec : ∀ (v1949 : IVec S16 32) (v1971 : IVec S16 32), Decidable (k0_chk389 v1949 v1971) := fun v1949 v1971 => decidable_of_iff' _ (Iff.of_eq (k0_chk389.eq_1 v1949 v1971))
theorem k0_idx389_inb : ∀ (v1949 : IVec S16 32) (v1971 : IVec S16 32) (k0_hw389 : k0_chk389 v1949 v1971), ∀ a x, ((![v1949, v1971] : Fin 2 → IVec S16 32) a x).toNat < S8x1024.size a := fun v1949 v1971 k0_hw389 => k0_hw389

def k0_chk390 (v1949 : IVec S16 32) (v1976 : IVec S16 32) : Prop :=
  (∀ a x, ((![v1949, v1976] : Fin 2 → IVec S16 32) a x).toNat < S8x1024.size a)
instance k0_chk390.dec : ∀ (v1949 : IVec S16 32) (v1976 : IVec S16 32), Decidable (k0_chk390 v1949 v1976) := fun v1949 v1976 => decidable_of_iff' _ (Iff.of_eq (k0_chk390.eq_1 v1949 v1976))
theorem k0_idx390_inb : ∀ (v1949 : IVec S16 32) (v1976 : IVec S16 32) (k0_hw390 : k0_chk390 v1949 v1976), ∀ a x, ((![v1949, v1976] : Fin 2 → IVec S16 32) a x).toNat < S8x1024.size a := fun v1949 v1976 k0_hw390 => k0_hw390

def k0_chk391 (v1949 : IVec S16 32) (v1981 : IVec S16 32) : Prop :=
  (∀ a x, ((![v1949, v1981] : Fin 2 → IVec S16 32) a x).toNat < S8x1024.size a)
instance k0_chk391.dec : ∀ (v1949 : IVec S16 32) (v1981 : IVec S16 32), Decidable (k0_chk391 v1949 v1981) := fun v1949 v1981 => decidable_of_iff' _ (Iff.of_eq (k0_chk391.eq_1 v1949 v1981))
theorem k0_idx391_inb : ∀ (v1949 : IVec S16 32) (v1981 : IVec S16 32) (k0_hw391 : k0_chk391 v1949 v1981), ∀ a x, ((![v1949, v1981] : Fin 2 → IVec S16 32) a x).toNat < S8x1024.size a := fun v1949 v1981 k0_hw391 => k0_hw391

def k0_chk392 (v1949 : IVec S16 32) (v1986 : IVec S16 32) : Prop :=
  (∀ a x, ((![v1949, v1986] : Fin 2 → IVec S16 32) a x).toNat < S8x1024.size a)
instance k0_chk392.dec : ∀ (v1949 : IVec S16 32) (v1986 : IVec S16 32), Decidable (k0_chk392 v1949 v1986) := fun v1949 v1986 => decidable_of_iff' _ (Iff.of_eq (k0_chk392.eq_1 v1949 v1986))
theorem k0_idx392_inb : ∀ (v1949 : IVec S16 32) (v1986 : IVec S16 32) (k0_hw392 : k0_chk392 v1949 v1986), ∀ a x, ((![v1949, v1986] : Fin 2 → IVec S16 32) a x).toNat < S8x1024.size a := fun v1949 v1986 k0_hw392 => k0_hw392

def k0_chk393 (v1949 : IVec S16 32) (v1991 : IVec S16 32) : Prop :=
  (∀ a x, ((![v1949, v1991] : Fin 2 → IVec S16 32) a x).toNat < S8x1024.size a)
instance k0_chk393.dec : ∀ (v1949 : IVec S16 32) (v1991 : IVec S16 32), Decidable (k0_chk393 v1949 v1991) := fun v1949 v1991 => decidable_of_iff' _ (Iff.of_eq (k0_chk393.eq_1 v1949 v1991))
theorem k0_idx393_inb : ∀ (v1949 : IVec S16 32) (v1991 : IVec S16 32) (k0_hw393 : k0_chk393 v1949 v1991), ∀ a x, ((![v1949, v1991] : Fin 2 → IVec S16 32) a x).toNat < S8x1024.size a := fun v1949 v1991 k0_hw393 => k0_hw393

def k0_chk394 (v1949 : IVec S16 32) (v1996 : IVec S16 32) : Prop :=
  (∀ a x, ((![v1949, v1996] : Fin 2 → IVec S16 32) a x).toNat < S8x1024.size a)
instance k0_chk394.dec : ∀ (v1949 : IVec S16 32) (v1996 : IVec S16 32), Decidable (k0_chk394 v1949 v1996) := fun v1949 v1996 => decidable_of_iff' _ (Iff.of_eq (k0_chk394.eq_1 v1949 v1996))
theorem k0_idx394_inb : ∀ (v1949 : IVec S16 32) (v1996 : IVec S16 32) (k0_hw394 : k0_chk394 v1949 v1996), ∀ a x, ((![v1949, v1996] : Fin 2 → IVec S16 32) a x).toNat < S8x1024.size a := fun v1949 v1996 k0_hw394 => k0_hw394

def k0_chk395 (v1949 : IVec S16 32) (v2001 : IVec S16 32) : Prop :=
  (∀ a x, ((![v1949, v2001] : Fin 2 → IVec S16 32) a x).toNat < S8x1024.size a)
instance k0_chk395.dec : ∀ (v1949 : IVec S16 32) (v2001 : IVec S16 32), Decidable (k0_chk395 v1949 v2001) := fun v1949 v2001 => decidable_of_iff' _ (Iff.of_eq (k0_chk395.eq_1 v1949 v2001))
theorem k0_idx395_inb : ∀ (v1949 : IVec S16 32) (v2001 : IVec S16 32) (k0_hw395 : k0_chk395 v1949 v2001), ∀ a x, ((![v1949, v2001] : Fin 2 → IVec S16 32) a x).toNat < S8x1024.size a := fun v1949 v2001 k0_hw395 => k0_hw395

def k0_chk396 (v1949 : IVec S16 32) (v2006 : IVec S16 32) : Prop :=
  (∀ a x, ((![v1949, v2006] : Fin 2 → IVec S16 32) a x).toNat < S8x1024.size a)
instance k0_chk396.dec : ∀ (v1949 : IVec S16 32) (v2006 : IVec S16 32), Decidable (k0_chk396 v1949 v2006) := fun v1949 v2006 => decidable_of_iff' _ (Iff.of_eq (k0_chk396.eq_1 v1949 v2006))
theorem k0_idx396_inb : ∀ (v1949 : IVec S16 32) (v2006 : IVec S16 32) (k0_hw396 : k0_chk396 v1949 v2006), ∀ a x, ((![v1949, v2006] : Fin 2 → IVec S16 32) a x).toNat < S8x1024.size a := fun v1949 v2006 k0_hw396 => k0_hw396

def k0_chk397 (v1949 : IVec S16 32) (v2011 : IVec S16 32) : Prop :=
  (∀ a x, ((![v1949, v2011] : Fin 2 → IVec S16 32) a x).toNat < S8x1024.size a)
instance k0_chk397.dec : ∀ (v1949 : IVec S16 32) (v2011 : IVec S16 32), Decidable (k0_chk397 v1949 v2011) := fun v1949 v2011 => decidable_of_iff' _ (Iff.of_eq (k0_chk397.eq_1 v1949 v2011))
theorem k0_idx397_inb : ∀ (v1949 : IVec S16 32) (v2011 : IVec S16 32) (k0_hw397 : k0_chk397 v1949 v2011), ∀ a x, ((![v1949, v2011] : Fin 2 → IVec S16 32) a x).toNat < S8x1024.size a := fun v1949 v2011 k0_hw397 => k0_hw397

def k0_chk398 (v1949 : IVec S16 32) (v2016 : IVec S16 32) : Prop :=
  (∀ a x, ((![v1949, v2016] : Fin 2 → IVec S16 32) a x).toNat < S8x1024.size a)
instance k0_chk398.dec : ∀ (v1949 : IVec S16 32) (v2016 : IVec S16 32), Decidable (k0_chk398 v1949 v2016) := fun v1949 v2016 => decidable_of_iff' _ (Iff.of_eq (k0_chk398.eq_1 v1949 v2016))
theorem k0_idx398_inb : ∀ (v1949 : IVec S16 32) (v2016 : IVec S16 32) (k0_hw398 : k0_chk398 v1949 v2016), ∀ a x, ((![v1949, v2016] : Fin 2 → IVec S16 32) a x).toNat < S8x1024.size a := fun v1949 v2016 k0_hw398 => k0_hw398

def k0_chk399 (v1949 : IVec S16 32) (v2021 : IVec S16 32) : Prop :=
  (∀ a x, ((![v1949, v2021] : Fin 2 → IVec S16 32) a x).toNat < S8x1024.size a)
instance k0_chk399.dec : ∀ (v1949 : IVec S16 32) (v2021 : IVec S16 32), Decidable (k0_chk399 v1949 v2021) := fun v1949 v2021 => decidable_of_iff' _ (Iff.of_eq (k0_chk399.eq_1 v1949 v2021))
theorem k0_idx399_inb : ∀ (v1949 : IVec S16 32) (v2021 : IVec S16 32) (k0_hw399 : k0_chk399 v1949 v2021), ∀ a x, ((![v1949, v2021] : Fin 2 → IVec S16 32) a x).toNat < S8x1024.size a := fun v1949 v2021 k0_hw399 => k0_hw399

def k0_chk400 (v1949 : IVec S16 32) (v2026 : IVec S16 32) : Prop :=
  (∀ a x, ((![v1949, v2026] : Fin 2 → IVec S16 32) a x).toNat < S8x1024.size a)
instance k0_chk400.dec : ∀ (v1949 : IVec S16 32) (v2026 : IVec S16 32), Decidable (k0_chk400 v1949 v2026) := fun v1949 v2026 => decidable_of_iff' _ (Iff.of_eq (k0_chk400.eq_1 v1949 v2026))
theorem k0_idx400_inb : ∀ (v1949 : IVec S16 32) (v2026 : IVec S16 32) (k0_hw400 : k0_chk400 v1949 v2026), ∀ a x, ((![v1949, v2026] : Fin 2 → IVec S16 32) a x).toNat < S8x1024.size a := fun v1949 v2026 k0_hw400 => k0_hw400

def k0_chk401 (v1949 : IVec S16 32) (v2031 : IVec S16 32) : Prop :=
  (∀ a x, ((![v1949, v2031] : Fin 2 → IVec S16 32) a x).toNat < S8x1024.size a)
instance k0_chk401.dec : ∀ (v1949 : IVec S16 32) (v2031 : IVec S16 32), Decidable (k0_chk401 v1949 v2031) := fun v1949 v2031 => decidable_of_iff' _ (Iff.of_eq (k0_chk401.eq_1 v1949 v2031))
theorem k0_idx401_inb : ∀ (v1949 : IVec S16 32) (v2031 : IVec S16 32) (k0_hw401 : k0_chk401 v1949 v2031), ∀ a x, ((![v1949, v2031] : Fin 2 → IVec S16 32) a x).toNat < S8x1024.size a := fun v1949 v2031 k0_hw401 => k0_hw401

def k0_chk402 (v1949 : IVec S16 32) (v2036 : IVec S16 32) : Prop :=
  (∀ a x, ((![v1949, v2036] : Fin 2 → IVec S16 32) a x).toNat < S8x1024.size a)
instance k0_chk402.dec : ∀ (v1949 : IVec S16 32) (v2036 : IVec S16 32), Decidable (k0_chk402 v1949 v2036) := fun v1949 v2036 => decidable_of_iff' _ (Iff.of_eq (k0_chk402.eq_1 v1949 v2036))
theorem k0_idx402_inb : ∀ (v1949 : IVec S16 32) (v2036 : IVec S16 32) (k0_hw402 : k0_chk402 v1949 v2036), ∀ a x, ((![v1949, v2036] : Fin 2 → IVec S16 32) a x).toNat < S8x1024.size a := fun v1949 v2036 k0_hw402 => k0_hw402

def k0_chk403 (v1949 : IVec S16 32) (v2041 : IVec S16 32) : Prop :=
  (∀ a x, ((![v1949, v2041] : Fin 2 → IVec S16 32) a x).toNat < S8x1024.size a)
instance k0_chk403.dec : ∀ (v1949 : IVec S16 32) (v2041 : IVec S16 32), Decidable (k0_chk403 v1949 v2041) := fun v1949 v2041 => decidable_of_iff' _ (Iff.of_eq (k0_chk403.eq_1 v1949 v2041))
theorem k0_idx403_inb : ∀ (v1949 : IVec S16 32) (v2041 : IVec S16 32) (k0_hw403 : k0_chk403 v1949 v2041), ∀ a x, ((![v1949, v2041] : Fin 2 → IVec S16 32) a x).toNat < S8x1024.size a := fun v1949 v2041 k0_hw403 => k0_hw403

def k0_chk404 (v1949 : IVec S16 32) (v2046 : IVec S16 32) : Prop :=
  (∀ a x, ((![v1949, v2046] : Fin 2 → IVec S16 32) a x).toNat < S8x1024.size a)
instance k0_chk404.dec : ∀ (v1949 : IVec S16 32) (v2046 : IVec S16 32), Decidable (k0_chk404 v1949 v2046) := fun v1949 v2046 => decidable_of_iff' _ (Iff.of_eq (k0_chk404.eq_1 v1949 v2046))
theorem k0_idx404_inb : ∀ (v1949 : IVec S16 32) (v2046 : IVec S16 32) (k0_hw404 : k0_chk404 v1949 v2046), ∀ a x, ((![v1949, v2046] : Fin 2 → IVec S16 32) a x).toNat < S8x1024.size a := fun v1949 v2046 k0_hw404 => k0_hw404

def k0_chk405 (v1949 : IVec S16 32) (v2051 : IVec S16 32) : Prop :=
  (∀ a x, ((![v1949, v2051] : Fin 2 → IVec S16 32) a x).toNat < S8x1024.size a)
instance k0_chk405.dec : ∀ (v1949 : IVec S16 32) (v2051 : IVec S16 32), Decidable (k0_chk405 v1949 v2051) := fun v1949 v2051 => decidable_of_iff' _ (Iff.of_eq (k0_chk405.eq_1 v1949 v2051))
theorem k0_idx405_inb : ∀ (v1949 : IVec S16 32) (v2051 : IVec S16 32) (k0_hw405 : k0_chk405 v1949 v2051), ∀ a x, ((![v1949, v2051] : Fin 2 → IVec S16 32) a x).toNat < S8x1024.size a := fun v1949 v2051 k0_hw405 => k0_hw405

def k0_chk406 (v1949 : IVec S16 32) (v2056 : IVec S16 32) : Prop :=
  (∀ a x, ((![v1949, v2056] : Fin 2 → IVec S16 32) a x).toNat < S8x1024.size a)
instance k0_chk406.dec : ∀ (v1949 : IVec S16 32) (v2056 : IVec S16 32), Decidable (k0_chk406 v1949 v2056) := fun v1949 v2056 => decidable_of_iff' _ (Iff.of_eq (k0_chk406.eq_1 v1949 v2056))
theorem k0_idx406_inb : ∀ (v1949 : IVec S16 32) (v2056 : IVec S16 32) (k0_hw406 : k0_chk406 v1949 v2056), ∀ a x, ((![v1949, v2056] : Fin 2 → IVec S16 32) a x).toNat < S8x1024.size a := fun v1949 v2056 k0_hw406 => k0_hw406

def k0_chk407 (v1949 : IVec S16 32) (v2061 : IVec S16 32) : Prop :=
  (∀ a x, ((![v1949, v2061] : Fin 2 → IVec S16 32) a x).toNat < S8x1024.size a)
instance k0_chk407.dec : ∀ (v1949 : IVec S16 32) (v2061 : IVec S16 32), Decidable (k0_chk407 v1949 v2061) := fun v1949 v2061 => decidable_of_iff' _ (Iff.of_eq (k0_chk407.eq_1 v1949 v2061))
theorem k0_idx407_inb : ∀ (v1949 : IVec S16 32) (v2061 : IVec S16 32) (k0_hw407 : k0_chk407 v1949 v2061), ∀ a x, ((![v1949, v2061] : Fin 2 → IVec S16 32) a x).toNat < S8x1024.size a := fun v1949 v2061 k0_hw407 => k0_hw407

def k0_chk408 (v1949 : IVec S16 32) (v2066 : IVec S16 32) : Prop :=
  (∀ a x, ((![v1949, v2066] : Fin 2 → IVec S16 32) a x).toNat < S8x1024.size a)
instance k0_chk408.dec : ∀ (v1949 : IVec S16 32) (v2066 : IVec S16 32), Decidable (k0_chk408 v1949 v2066) := fun v1949 v2066 => decidable_of_iff' _ (Iff.of_eq (k0_chk408.eq_1 v1949 v2066))
theorem k0_idx408_inb : ∀ (v1949 : IVec S16 32) (v2066 : IVec S16 32) (k0_hw408 : k0_chk408 v1949 v2066), ∀ a x, ((![v1949, v2066] : Fin 2 → IVec S16 32) a x).toNat < S8x1024.size a := fun v1949 v2066 k0_hw408 => k0_hw408

def k0_chk409 (v1949 : IVec S16 32) (v2071 : IVec S16 32) : Prop :=
  (∀ a x, ((![v1949, v2071] : Fin 2 → IVec S16 32) a x).toNat < S8x1024.size a)
instance k0_chk409.dec : ∀ (v1949 : IVec S16 32) (v2071 : IVec S16 32), Decidable (k0_chk409 v1949 v2071) := fun v1949 v2071 => decidable_of_iff' _ (Iff.of_eq (k0_chk409.eq_1 v1949 v2071))
theorem k0_idx409_inb : ∀ (v1949 : IVec S16 32) (v2071 : IVec S16 32) (k0_hw409 : k0_chk409 v1949 v2071), ∀ a x, ((![v1949, v2071] : Fin 2 → IVec S16 32) a x).toNat < S8x1024.size a := fun v1949 v2071 k0_hw409 => k0_hw409

def k0_chk410 (v1949 : IVec S16 32) (v2076 : IVec S16 32) : Prop :=
  (∀ a x, ((![v1949, v2076] : Fin 2 → IVec S16 32) a x).toNat < S8x1024.size a)
instance k0_chk410.dec : ∀ (v1949 : IVec S16 32) (v2076 : IVec S16 32), Decidable (k0_chk410 v1949 v2076) := fun v1949 v2076 => decidable_of_iff' _ (Iff.of_eq (k0_chk410.eq_1 v1949 v2076))
theorem k0_idx410_inb : ∀ (v1949 : IVec S16 32) (v2076 : IVec S16 32) (k0_hw410 : k0_chk410 v1949 v2076), ∀ a x, ((![v1949, v2076] : Fin 2 → IVec S16 32) a x).toNat < S8x1024.size a := fun v1949 v2076 k0_hw410 => k0_hw410

def k0_chk411 (v1949 : IVec S16 32) (v2081 : IVec S16 32) : Prop :=
  (∀ a x, ((![v1949, v2081] : Fin 2 → IVec S16 32) a x).toNat < S8x1024.size a)
instance k0_chk411.dec : ∀ (v1949 : IVec S16 32) (v2081 : IVec S16 32), Decidable (k0_chk411 v1949 v2081) := fun v1949 v2081 => decidable_of_iff' _ (Iff.of_eq (k0_chk411.eq_1 v1949 v2081))
theorem k0_idx411_inb : ∀ (v1949 : IVec S16 32) (v2081 : IVec S16 32) (k0_hw411 : k0_chk411 v1949 v2081), ∀ a x, ((![v1949, v2081] : Fin 2 → IVec S16 32) a x).toNat < S8x1024.size a := fun v1949 v2081 k0_hw411 => k0_hw411

def k0_chk412 (v1949 : IVec S16 32) (v2086 : IVec S16 32) : Prop :=
  (∀ a x, ((![v1949, v2086] : Fin 2 → IVec S16 32) a x).toNat < S8x1024.size a)
instance k0_chk412.dec : ∀ (v1949 : IVec S16 32) (v2086 : IVec S16 32), Decidable (k0_chk412 v1949 v2086) := fun v1949 v2086 => decidable_of_iff' _ (Iff.of_eq (k0_chk412.eq_1 v1949 v2086))
theorem k0_idx412_inb : ∀ (v1949 : IVec S16 32) (v2086 : IVec S16 32) (k0_hw412 : k0_chk412 v1949 v2086), ∀ a x, ((![v1949, v2086] : Fin 2 → IVec S16 32) a x).toNat < S8x1024.size a := fun v1949 v2086 k0_hw412 => k0_hw412

def k0_chk413 (v1949 : IVec S16 32) (v2091 : IVec S16 32) : Prop :=
  (∀ a x, ((![v1949, v2091] : Fin 2 → IVec S16 32) a x).toNat < S8x1024.size a)
instance k0_chk413.dec : ∀ (v1949 : IVec S16 32) (v2091 : IVec S16 32), Decidable (k0_chk413 v1949 v2091) := fun v1949 v2091 => decidable_of_iff' _ (Iff.of_eq (k0_chk413.eq_1 v1949 v2091))
theorem k0_idx413_inb : ∀ (v1949 : IVec S16 32) (v2091 : IVec S16 32) (k0_hw413 : k0_chk413 v1949 v2091), ∀ a x, ((![v1949, v2091] : Fin 2 → IVec S16 32) a x).toNat < S8x1024.size a := fun v1949 v2091 k0_hw413 => k0_hw413

def k0_chk414 (v1949 : IVec S16 32) (v2096 : IVec S16 32) : Prop :=
  (∀ a x, ((![v1949, v2096] : Fin 2 → IVec S16 32) a x).toNat < S8x1024.size a)
instance k0_chk414.dec : ∀ (v1949 : IVec S16 32) (v2096 : IVec S16 32), Decidable (k0_chk414 v1949 v2096) := fun v1949 v2096 => decidable_of_iff' _ (Iff.of_eq (k0_chk414.eq_1 v1949 v2096))
theorem k0_idx414_inb : ∀ (v1949 : IVec S16 32) (v2096 : IVec S16 32) (k0_hw414 : k0_chk414 v1949 v2096), ∀ a x, ((![v1949, v2096] : Fin 2 → IVec S16 32) a x).toNat < S8x1024.size a := fun v1949 v2096 k0_hw414 => k0_hw414

def k0_chk415 (v1949 : IVec S16 32) (v2101 : IVec S16 32) : Prop :=
  (∀ a x, ((![v1949, v2101] : Fin 2 → IVec S16 32) a x).toNat < S8x1024.size a)
instance k0_chk415.dec : ∀ (v1949 : IVec S16 32) (v2101 : IVec S16 32), Decidable (k0_chk415 v1949 v2101) := fun v1949 v2101 => decidable_of_iff' _ (Iff.of_eq (k0_chk415.eq_1 v1949 v2101))
theorem k0_idx415_inb : ∀ (v1949 : IVec S16 32) (v2101 : IVec S16 32) (k0_hw415 : k0_chk415 v1949 v2101), ∀ a x, ((![v1949, v2101] : Fin 2 → IVec S16 32) a x).toNat < S8x1024.size a := fun v1949 v2101 k0_hw415 => k0_hw415

def k0_chk416 (v1949 : IVec S16 32) (v2106 : IVec S16 32) : Prop :=
  (∀ a x, ((![v1949, v2106] : Fin 2 → IVec S16 32) a x).toNat < S8x1024.size a)
instance k0_chk416.dec : ∀ (v1949 : IVec S16 32) (v2106 : IVec S16 32), Decidable (k0_chk416 v1949 v2106) := fun v1949 v2106 => decidable_of_iff' _ (Iff.of_eq (k0_chk416.eq_1 v1949 v2106))
theorem k0_idx416_inb : ∀ (v1949 : IVec S16 32) (v2106 : IVec S16 32) (k0_hw416 : k0_chk416 v1949 v2106), ∀ a x, ((![v1949, v2106] : Fin 2 → IVec S16 32) a x).toNat < S8x1024.size a := fun v1949 v2106 k0_hw416 => k0_hw416

def k0_chk417 (v1949 : IVec S16 32) (v2111 : IVec S16 32) : Prop :=
  (∀ a x, ((![v1949, v2111] : Fin 2 → IVec S16 32) a x).toNat < S8x1024.size a)
instance k0_chk417.dec : ∀ (v1949 : IVec S16 32) (v2111 : IVec S16 32), Decidable (k0_chk417 v1949 v2111) := fun v1949 v2111 => decidable_of_iff' _ (Iff.of_eq (k0_chk417.eq_1 v1949 v2111))
theorem k0_idx417_inb : ∀ (v1949 : IVec S16 32) (v2111 : IVec S16 32) (k0_hw417 : k0_chk417 v1949 v2111), ∀ a x, ((![v1949, v2111] : Fin 2 → IVec S16 32) a x).toNat < S8x1024.size a := fun v1949 v2111 k0_hw417 => k0_hw417

def k0_chk418 (v1949 : IVec S16 32) (v2116 : IVec S16 32) : Prop :=
  (∀ a x, ((![v1949, v2116] : Fin 2 → IVec S16 32) a x).toNat < S8x1024.size a)
instance k0_chk418.dec : ∀ (v1949 : IVec S16 32) (v2116 : IVec S16 32), Decidable (k0_chk418 v1949 v2116) := fun v1949 v2116 => decidable_of_iff' _ (Iff.of_eq (k0_chk418.eq_1 v1949 v2116))
theorem k0_idx418_inb : ∀ (v1949 : IVec S16 32) (v2116 : IVec S16 32) (k0_hw418 : k0_chk418 v1949 v2116), ∀ a x, ((![v1949, v2116] : Fin 2 → IVec S16 32) a x).toNat < S8x1024.size a := fun v1949 v2116 k0_hw418 => k0_hw418

def k0_chk419 (v1949 : IVec S16 32) (v2121 : IVec S16 32) : Prop :=
  (∀ a x, ((![v1949, v2121] : Fin 2 → IVec S16 32) a x).toNat < S8x1024.size a)
instance k0_chk419.dec : ∀ (v1949 : IVec S16 32) (v2121 : IVec S16 32), Decidable (k0_chk419 v1949 v2121) := fun v1949 v2121 => decidable_of_iff' _ (Iff.of_eq (k0_chk419.eq_1 v1949 v2121))
theorem k0_idx419_inb : ∀ (v1949 : IVec S16 32) (v2121 : IVec S16 32) (k0_hw419 : k0_chk419 v1949 v2121), ∀ a x, ((![v1949, v2121] : Fin 2 → IVec S16 32) a x).toNat < S8x1024.size a := fun v1949 v2121 k0_hw419 => k0_hw419

def k0_chk420 (v1949 : IVec S16 32) (v2126 : IVec S16 32) : Prop :=
  (∀ a x, ((![v1949, v2126] : Fin 2 → IVec S16 32) a x).toNat < S8x1024.size a)
instance k0_chk420.dec : ∀ (v1949 : IVec S16 32) (v2126 : IVec S16 32), Decidable (k0_chk420 v1949 v2126) := fun v1949 v2126 => decidable_of_iff' _ (Iff.of_eq (k0_chk420.eq_1 v1949 v2126))
theorem k0_idx420_inb : ∀ (v1949 : IVec S16 32) (v2126 : IVec S16 32) (k0_hw420 : k0_chk420 v1949 v2126), ∀ a x, ((![v1949, v2126] : Fin 2 → IVec S16 32) a x).toNat < S8x1024.size a := fun v1949 v2126 k0_hw420 => k0_hw420

def k0_chk421 (v1949 : IVec S16 32) (v2131 : IVec S16 32) : Prop :=
  (∀ a x, ((![v1949, v2131] : Fin 2 → IVec S16 32) a x).toNat < S8x1024.size a)
instance k0_chk421.dec : ∀ (v1949 : IVec S16 32) (v2131 : IVec S16 32), Decidable (k0_chk421 v1949 v2131) := fun v1949 v2131 => decidable_of_iff' _ (Iff.of_eq (k0_chk421.eq_1 v1949 v2131))
theorem k0_idx421_inb : ∀ (v1949 : IVec S16 32) (v2131 : IVec S16 32) (k0_hw421 : k0_chk421 v1949 v2131), ∀ a x, ((![v1949, v2131] : Fin 2 → IVec S16 32) a x).toNat < S8x1024.size a := fun v1949 v2131 k0_hw421 => k0_hw421

def k0_chk422 (v1949 : IVec S16 32) (v2136 : IVec S16 32) : Prop :=
  (∀ a x, ((![v1949, v2136] : Fin 2 → IVec S16 32) a x).toNat < S8x1024.size a)
instance k0_chk422.dec : ∀ (v1949 : IVec S16 32) (v2136 : IVec S16 32), Decidable (k0_chk422 v1949 v2136) := fun v1949 v2136 => decidable_of_iff' _ (Iff.of_eq (k0_chk422.eq_1 v1949 v2136))
theorem k0_idx422_inb : ∀ (v1949 : IVec S16 32) (v2136 : IVec S16 32) (k0_hw422 : k0_chk422 v1949 v2136), ∀ a x, ((![v1949, v2136] : Fin 2 → IVec S16 32) a x).toNat < S8x1024.size a := fun v1949 v2136 k0_hw422 => k0_hw422

def k0_chk423 (v1949 : IVec S16 32) (v2141 : IVec S16 32) : Prop :=
  (∀ a x, ((![v1949, v2141] : Fin 2 → IVec S16 32) a x).toNat < S8x1024.size a)
instance k0_chk423.dec : ∀ (v1949 : IVec S16 32) (v2141 : IVec S16 32), Decidable (k0_chk423 v1949 v2141) := fun v1949 v2141 => decidable_of_iff' _ (Iff.of_eq (k0_chk423.eq_1 v1949 v2141))
theorem k0_idx423_inb : ∀ (v1949 : IVec S16 32) (v2141 : IVec S16 32) (k0_hw423 : k0_chk423 v1949 v2141), ∀ a x, ((![v1949, v2141] : Fin 2 → IVec S16 32) a x).toNat < S8x1024.size a := fun v1949 v2141 k0_hw423 => k0_hw423

def k0_chk424 (v1949 : IVec S16 32) (v2146 : IVec S16 32) : Prop :=
  (∀ a x, ((![v1949, v2146] : Fin 2 → IVec S16 32) a x).toNat < S8x1024.size a)
instance k0_chk424.dec : ∀ (v1949 : IVec S16 32) (v2146 : IVec S16 32), Decidable (k0_chk424 v1949 v2146) := fun v1949 v2146 => decidable_of_iff' _ (Iff.of_eq (k0_chk424.eq_1 v1949 v2146))
theorem k0_idx424_inb : ∀ (v1949 : IVec S16 32) (v2146 : IVec S16 32) (k0_hw424 : k0_chk424 v1949 v2146), ∀ a x, ((![v1949, v2146] : Fin 2 → IVec S16 32) a x).toNat < S8x1024.size a := fun v1949 v2146 k0_hw424 => k0_hw424

def k0_chk425 (v1949 : IVec S16 32) (v2151 : IVec S16 32) : Prop :=
  (∀ a x, ((![v1949, v2151] : Fin 2 → IVec S16 32) a x).toNat < S8x1024.size a)
instance k0_chk425.dec : ∀ (v1949 : IVec S16 32) (v2151 : IVec S16 32), Decidable (k0_chk425 v1949 v2151) := fun v1949 v2151 => decidable_of_iff' _ (Iff.of_eq (k0_chk425.eq_1 v1949 v2151))
theorem k0_idx425_inb : ∀ (v1949 : IVec S16 32) (v2151 : IVec S16 32) (k0_hw425 : k0_chk425 v1949 v2151), ∀ a x, ((![v1949, v2151] : Fin 2 → IVec S16 32) a x).toNat < S8x1024.size a := fun v1949 v2151 k0_hw425 => k0_hw425

def k0_chk426 (v1949 : IVec S16 32) (v2156 : IVec S16 32) : Prop :=
  (∀ a x, ((![v1949, v2156] : Fin 2 → IVec S16 32) a x).toNat < S8x1024.size a)
instance k0_chk426.dec : ∀ (v1949 : IVec S16 32) (v2156 : IVec S16 32), Decidable (k0_chk426 v1949 v2156) := fun v1949 v2156 => decidable_of_iff' _ (Iff.of_eq (k0_chk426.eq_1 v1949 v2156))
theorem k0_idx426_inb : ∀ (v1949 : IVec S16 32) (v2156 : IVec S16 32) (k0_hw426 : k0_chk426 v1949 v2156), ∀ a x, ((![v1949, v2156] : Fin 2 → IVec S16 32) a x).toNat < S8x1024.size a := fun v1949 v2156 k0_hw426 => k0_hw426

def k0_chk427 (v1949 : IVec S16 32) (v2161 : IVec S16 32) : Prop :=
  (∀ a x, ((![v1949, v2161] : Fin 2 → IVec S16 32) a x).toNat < S8x1024.size a)
instance k0_chk427.dec : ∀ (v1949 : IVec S16 32) (v2161 : IVec S16 32), Decidable (k0_chk427 v1949 v2161) := fun v1949 v2161 => decidable_of_iff' _ (Iff.of_eq (k0_chk427.eq_1 v1949 v2161))
theorem k0_idx427_inb : ∀ (v1949 : IVec S16 32) (v2161 : IVec S16 32) (k0_hw427 : k0_chk427 v1949 v2161), ∀ a x, ((![v1949, v2161] : Fin 2 → IVec S16 32) a x).toNat < S8x1024.size a := fun v1949 v2161 k0_hw427 => k0_hw427

def k0_chk428 (v1949 : IVec S16 32) (v2166 : IVec S16 32) : Prop :=
  (∀ a x, ((![v1949, v2166] : Fin 2 → IVec S16 32) a x).toNat < S8x1024.size a)
instance k0_chk428.dec : ∀ (v1949 : IVec S16 32) (v2166 : IVec S16 32), Decidable (k0_chk428 v1949 v2166) := fun v1949 v2166 => decidable_of_iff' _ (Iff.of_eq (k0_chk428.eq_1 v1949 v2166))
theorem k0_idx428_inb : ∀ (v1949 : IVec S16 32) (v2166 : IVec S16 32) (k0_hw428 : k0_chk428 v1949 v2166), ∀ a x, ((![v1949, v2166] : Fin 2 → IVec S16 32) a x).toNat < S8x1024.size a := fun v1949 v2166 k0_hw428 => k0_hw428

def k0_chk429 (v1949 : IVec S16 32) (v2171 : IVec S16 32) : Prop :=
  (∀ a x, ((![v1949, v2171] : Fin 2 → IVec S16 32) a x).toNat < S8x1024.size a)
instance k0_chk429.dec : ∀ (v1949 : IVec S16 32) (v2171 : IVec S16 32), Decidable (k0_chk429 v1949 v2171) := fun v1949 v2171 => decidable_of_iff' _ (Iff.of_eq (k0_chk429.eq_1 v1949 v2171))
theorem k0_idx429_inb : ∀ (v1949 : IVec S16 32) (v2171 : IVec S16 32) (k0_hw429 : k0_chk429 v1949 v2171), ∀ a x, ((![v1949, v2171] : Fin 2 → IVec S16 32) a x).toNat < S8x1024.size a := fun v1949 v2171 k0_hw429 => k0_hw429

def k0_chk430 (v1949 : IVec S16 32) (v2176 : IVec S16 32) : Prop :=
  (∀ a x, ((![v1949, v2176] : Fin 2 → IVec S16 32) a x).toNat < S8x1024.size a)
instance k0_chk430.dec : ∀ (v1949 : IVec S16 32) (v2176 : IVec S16 32), Decidable (k0_chk430 v1949 v2176) := fun v1949 v2176 => decidable_of_iff' _ (Iff.of_eq (k0_chk430.eq_1 v1949 v2176))
theorem k0_idx430_inb : ∀ (v1949 : IVec S16 32) (v2176 : IVec S16 32) (k0_hw430 : k0_chk430 v1949 v2176), ∀ a x, ((![v1949, v2176] : Fin 2 → IVec S16 32) a x).toNat < S8x1024.size a := fun v1949 v2176 k0_hw430 => k0_hw430

def k0_chk431 (v1949 : IVec S16 32) (v2181 : IVec S16 32) : Prop :=
  (∀ a x, ((![v1949, v2181] : Fin 2 → IVec S16 32) a x).toNat < S8x1024.size a)
instance k0_chk431.dec : ∀ (v1949 : IVec S16 32) (v2181 : IVec S16 32), Decidable (k0_chk431 v1949 v2181) := fun v1949 v2181 => decidable_of_iff' _ (Iff.of_eq (k0_chk431.eq_1 v1949 v2181))
theorem k0_idx431_inb : ∀ (v1949 : IVec S16 32) (v2181 : IVec S16 32) (k0_hw431 : k0_chk431 v1949 v2181), ∀ a x, ((![v1949, v2181] : Fin 2 → IVec S16 32) a x).toNat < S8x1024.size a := fun v1949 v2181 k0_hw431 => k0_hw431

def k0_chk432 (v1949 : IVec S16 32) (v2186 : IVec S16 32) : Prop :=
  (∀ a x, ((![v1949, v2186] : Fin 2 → IVec S16 32) a x).toNat < S8x1024.size a)
instance k0_chk432.dec : ∀ (v1949 : IVec S16 32) (v2186 : IVec S16 32), Decidable (k0_chk432 v1949 v2186) := fun v1949 v2186 => decidable_of_iff' _ (Iff.of_eq (k0_chk432.eq_1 v1949 v2186))
theorem k0_idx432_inb : ∀ (v1949 : IVec S16 32) (v2186 : IVec S16 32) (k0_hw432 : k0_chk432 v1949 v2186), ∀ a x, ((![v1949, v2186] : Fin 2 → IVec S16 32) a x).toNat < S8x1024.size a := fun v1949 v2186 k0_hw432 => k0_hw432

def k0_chk433 (v1949 : IVec S16 32) (v2191 : IVec S16 32) : Prop :=
  (∀ a x, ((![v1949, v2191] : Fin 2 → IVec S16 32) a x).toNat < S8x1024.size a)
instance k0_chk433.dec : ∀ (v1949 : IVec S16 32) (v2191 : IVec S16 32), Decidable (k0_chk433 v1949 v2191) := fun v1949 v2191 => decidable_of_iff' _ (Iff.of_eq (k0_chk433.eq_1 v1949 v2191))
theorem k0_idx433_inb : ∀ (v1949 : IVec S16 32) (v2191 : IVec S16 32) (k0_hw433 : k0_chk433 v1949 v2191), ∀ a x, ((![v1949, v2191] : Fin 2 → IVec S16 32) a x).toNat < S8x1024.size a := fun v1949 v2191 k0_hw433 => k0_hw433

def k0_chk434 (v1949 : IVec S16 32) (v2196 : IVec S16 32) : Prop :=
  (∀ a x, ((![v1949, v2196] : Fin 2 → IVec S16 32) a x).toNat < S8x1024.size a)
instance k0_chk434.dec : ∀ (v1949 : IVec S16 32) (v2196 : IVec S16 32), Decidable (k0_chk434 v1949 v2196) := fun v1949 v2196 => decidable_of_iff' _ (Iff.of_eq (k0_chk434.eq_1 v1949 v2196))
theorem k0_idx434_inb : ∀ (v1949 : IVec S16 32) (v2196 : IVec S16 32) (k0_hw434 : k0_chk434 v1949 v2196), ∀ a x, ((![v1949, v2196] : Fin 2 → IVec S16 32) a x).toNat < S8x1024.size a := fun v1949 v2196 k0_hw434 => k0_hw434

def k0_chk435 (v1949 : IVec S16 32) (v2201 : IVec S16 32) : Prop :=
  (∀ a x, ((![v1949, v2201] : Fin 2 → IVec S16 32) a x).toNat < S8x1024.size a)
instance k0_chk435.dec : ∀ (v1949 : IVec S16 32) (v2201 : IVec S16 32), Decidable (k0_chk435 v1949 v2201) := fun v1949 v2201 => decidable_of_iff' _ (Iff.of_eq (k0_chk435.eq_1 v1949 v2201))
theorem k0_idx435_inb : ∀ (v1949 : IVec S16 32) (v2201 : IVec S16 32) (k0_hw435 : k0_chk435 v1949 v2201), ∀ a x, ((![v1949, v2201] : Fin 2 → IVec S16 32) a x).toNat < S8x1024.size a := fun v1949 v2201 k0_hw435 => k0_hw435

def k0_chk436 (v1949 : IVec S16 32) (v2206 : IVec S16 32) : Prop :=
  (∀ a x, ((![v1949, v2206] : Fin 2 → IVec S16 32) a x).toNat < S8x1024.size a)
instance k0_chk436.dec : ∀ (v1949 : IVec S16 32) (v2206 : IVec S16 32), Decidable (k0_chk436 v1949 v2206) := fun v1949 v2206 => decidable_of_iff' _ (Iff.of_eq (k0_chk436.eq_1 v1949 v2206))
theorem k0_idx436_inb : ∀ (v1949 : IVec S16 32) (v2206 : IVec S16 32) (k0_hw436 : k0_chk436 v1949 v2206), ∀ a x, ((![v1949, v2206] : Fin 2 → IVec S16 32) a x).toNat < S8x1024.size a := fun v1949 v2206 k0_hw436 => k0_hw436

def k0_chk437 (v1949 : IVec S16 32) (v2211 : IVec S16 32) : Prop :=
  (∀ a x, ((![v1949, v2211] : Fin 2 → IVec S16 32) a x).toNat < S8x1024.size a)
instance k0_chk437.dec : ∀ (v1949 : IVec S16 32) (v2211 : IVec S16 32), Decidable (k0_chk437 v1949 v2211) := fun v1949 v2211 => decidable_of_iff' _ (Iff.of_eq (k0_chk437.eq_1 v1949 v2211))
theorem k0_idx437_inb : ∀ (v1949 : IVec S16 32) (v2211 : IVec S16 32) (k0_hw437 : k0_chk437 v1949 v2211), ∀ a x, ((![v1949, v2211] : Fin 2 → IVec S16 32) a x).toNat < S8x1024.size a := fun v1949 v2211 k0_hw437 => k0_hw437

def k0_chk438 (v1949 : IVec S16 32) (v2216 : IVec S16 32) : Prop :=
  (∀ a x, ((![v1949, v2216] : Fin 2 → IVec S16 32) a x).toNat < S8x1024.size a)
instance k0_chk438.dec : ∀ (v1949 : IVec S16 32) (v2216 : IVec S16 32), Decidable (k0_chk438 v1949 v2216) := fun v1949 v2216 => decidable_of_iff' _ (Iff.of_eq (k0_chk438.eq_1 v1949 v2216))
theorem k0_idx438_inb : ∀ (v1949 : IVec S16 32) (v2216 : IVec S16 32) (k0_hw438 : k0_chk438 v1949 v2216), ∀ a x, ((![v1949, v2216] : Fin 2 → IVec S16 32) a x).toNat < S8x1024.size a := fun v1949 v2216 k0_hw438 => k0_hw438

def k0_chk439 (v1949 : IVec S16 32) (v2221 : IVec S16 32) : Prop :=
  (∀ a x, ((![v1949, v2221] : Fin 2 → IVec S16 32) a x).toNat < S8x1024.size a)
instance k0_chk439.dec : ∀ (v1949 : IVec S16 32) (v2221 : IVec S16 32), Decidable (k0_chk439 v1949 v2221) := fun v1949 v2221 => decidable_of_iff' _ (Iff.of_eq (k0_chk439.eq_1 v1949 v2221))
theorem k0_idx439_inb : ∀ (v1949 : IVec S16 32) (v2221 : IVec S16 32) (k0_hw439 : k0_chk439 v1949 v2221), ∀ a x, ((![v1949, v2221] : Fin 2 → IVec S16 32) a x).toNat < S8x1024.size a := fun v1949 v2221 k0_hw439 => k0_hw439

def k0_chk440 (v1949 : IVec S16 32) (v2226 : IVec S16 32) : Prop :=
  (∀ a x, ((![v1949, v2226] : Fin 2 → IVec S16 32) a x).toNat < S8x1024.size a)
instance k0_chk440.dec : ∀ (v1949 : IVec S16 32) (v2226 : IVec S16 32), Decidable (k0_chk440 v1949 v2226) := fun v1949 v2226 => decidable_of_iff' _ (Iff.of_eq (k0_chk440.eq_1 v1949 v2226))
theorem k0_idx440_inb : ∀ (v1949 : IVec S16 32) (v2226 : IVec S16 32) (k0_hw440 : k0_chk440 v1949 v2226), ∀ a x, ((![v1949, v2226] : Fin 2 → IVec S16 32) a x).toNat < S8x1024.size a := fun v1949 v2226 k0_hw440 => k0_hw440

def k0_chk441 (v1949 : IVec S16 32) (v2231 : IVec S16 32) : Prop :=
  (∀ a x, ((![v1949, v2231] : Fin 2 → IVec S16 32) a x).toNat < S8x1024.size a)
instance k0_chk441.dec : ∀ (v1949 : IVec S16 32) (v2231 : IVec S16 32), Decidable (k0_chk441 v1949 v2231) := fun v1949 v2231 => decidable_of_iff' _ (Iff.of_eq (k0_chk441.eq_1 v1949 v2231))
theorem k0_idx441_inb : ∀ (v1949 : IVec S16 32) (v2231 : IVec S16 32) (k0_hw441 : k0_chk441 v1949 v2231), ∀ a x, ((![v1949, v2231] : Fin 2 → IVec S16 32) a x).toNat < S8x1024.size a := fun v1949 v2231 k0_hw441 => k0_hw441

def k0_chk442 (v1949 : IVec S16 32) (v2236 : IVec S16 32) : Prop :=
  (∀ a x, ((![v1949, v2236] : Fin 2 → IVec S16 32) a x).toNat < S8x1024.size a)
instance k0_chk442.dec : ∀ (v1949 : IVec S16 32) (v2236 : IVec S16 32), Decidable (k0_chk442 v1949 v2236) := fun v1949 v2236 => decidable_of_iff' _ (Iff.of_eq (k0_chk442.eq_1 v1949 v2236))
theorem k0_idx442_inb : ∀ (v1949 : IVec S16 32) (v2236 : IVec S16 32) (k0_hw442 : k0_chk442 v1949 v2236), ∀ a x, ((![v1949, v2236] : Fin 2 → IVec S16 32) a x).toNat < S8x1024.size a := fun v1949 v2236 k0_hw442 => k0_hw442

def k0_chk443 (v1949 : IVec S16 32) (v2241 : IVec S16 32) : Prop :=
  (∀ a x, ((![v1949, v2241] : Fin 2 → IVec S16 32) a x).toNat < S8x1024.size a)
instance k0_chk443.dec : ∀ (v1949 : IVec S16 32) (v2241 : IVec S16 32), Decidable (k0_chk443 v1949 v2241) := fun v1949 v2241 => decidable_of_iff' _ (Iff.of_eq (k0_chk443.eq_1 v1949 v2241))
theorem k0_idx443_inb : ∀ (v1949 : IVec S16 32) (v2241 : IVec S16 32) (k0_hw443 : k0_chk443 v1949 v2241), ∀ a x, ((![v1949, v2241] : Fin 2 → IVec S16 32) a x).toNat < S8x1024.size a := fun v1949 v2241 k0_hw443 => k0_hw443

def k0_chk444 (v1949 : IVec S16 32) (v2246 : IVec S16 32) : Prop :=
  (∀ a x, ((![v1949, v2246] : Fin 2 → IVec S16 32) a x).toNat < S8x1024.size a)
instance k0_chk444.dec : ∀ (v1949 : IVec S16 32) (v2246 : IVec S16 32), Decidable (k0_chk444 v1949 v2246) := fun v1949 v2246 => decidable_of_iff' _ (Iff.of_eq (k0_chk444.eq_1 v1949 v2246))
theorem k0_idx444_inb : ∀ (v1949 : IVec S16 32) (v2246 : IVec S16 32) (k0_hw444 : k0_chk444 v1949 v2246), ∀ a x, ((![v1949, v2246] : Fin 2 → IVec S16 32) a x).toNat < S8x1024.size a := fun v1949 v2246 k0_hw444 => k0_hw444

def k0_chk445 (v1949 : IVec S16 32) (v2251 : IVec S16 32) : Prop :=
  (∀ a x, ((![v1949, v2251] : Fin 2 → IVec S16 32) a x).toNat < S8x1024.size a)
instance k0_chk445.dec : ∀ (v1949 : IVec S16 32) (v2251 : IVec S16 32), Decidable (k0_chk445 v1949 v2251) := fun v1949 v2251 => decidable_of_iff' _ (Iff.of_eq (k0_chk445.eq_1 v1949 v2251))
theorem k0_idx445_inb : ∀ (v1949 : IVec S16 32) (v2251 : IVec S16 32) (k0_hw445 : k0_chk445 v1949 v2251), ∀ a x, ((![v1949, v2251] : Fin 2 → IVec S16 32) a x).toNat < S8x1024.size a := fun v1949 v2251 k0_hw445 => k0_hw445

def k0_chk446 (v1949 : IVec S16 32) (v2256 : IVec S16 32) : Prop :=
  (∀ a x, ((![v1949, v2256] : Fin 2 → IVec S16 32) a x).toNat < S8x1024.size a)
instance k0_chk446.dec : ∀ (v1949 : IVec S16 32) (v2256 : IVec S16 32), Decidable (k0_chk446 v1949 v2256) := fun v1949 v2256 => decidable_of_iff' _ (Iff.of_eq (k0_chk446.eq_1 v1949 v2256))
theorem k0_idx446_inb : ∀ (v1949 : IVec S16 32) (v2256 : IVec S16 32) (k0_hw446 : k0_chk446 v1949 v2256), ∀ a x, ((![v1949, v2256] : Fin 2 → IVec S16 32) a x).toNat < S8x1024.size a := fun v1949 v2256 k0_hw446 => k0_hw446

def k0_chk447 (v1949 : IVec S16 32) (v2261 : IVec S16 32) : Prop :=
  (∀ a x, ((![v1949, v2261] : Fin 2 → IVec S16 32) a x).toNat < S8x1024.size a)
instance k0_chk447.dec : ∀ (v1949 : IVec S16 32) (v2261 : IVec S16 32), Decidable (k0_chk447 v1949 v2261) := fun v1949 v2261 => decidable_of_iff' _ (Iff.of_eq (k0_chk447.eq_1 v1949 v2261))
theorem k0_idx447_inb : ∀ (v1949 : IVec S16 32) (v2261 : IVec S16 32) (k0_hw447 : k0_chk447 v1949 v2261), ∀ a x, ((![v1949, v2261] : Fin 2 → IVec S16 32) a x).toNat < S8x1024.size a := fun v1949 v2261 k0_hw447 => k0_hw447

def k0_chk448 (v1949 : IVec S16 32) (v2266 : IVec S16 32) : Prop :=
  (∀ a x, ((![v1949, v2266] : Fin 2 → IVec S16 32) a x).toNat < S8x1024.size a)
instance k0_chk448.dec : ∀ (v1949 : IVec S16 32) (v2266 : IVec S16 32), Decidable (k0_chk448 v1949 v2266) := fun v1949 v2266 => decidable_of_iff' _ (Iff.of_eq (k0_chk448.eq_1 v1949 v2266))
theorem k0_idx448_inb : ∀ (v1949 : IVec S16 32) (v2266 : IVec S16 32) (k0_hw448 : k0_chk448 v1949 v2266), ∀ a x, ((![v1949, v2266] : Fin 2 → IVec S16 32) a x).toNat < S8x1024.size a := fun v1949 v2266 k0_hw448 => k0_hw448

def k0_chk449 (v2271 : IVec S16 32) (v2273 : IVec S16 32) : Prop :=
  (∀ a x, ((![v2271, v2273] : Fin 2 → IVec S16 32) a x).toNat < S8x1024.size a)
instance k0_chk449.dec : ∀ (v2271 : IVec S16 32) (v2273 : IVec S16 32), Decidable (k0_chk449 v2271 v2273) := fun v2271 v2273 => decidable_of_iff' _ (Iff.of_eq (k0_chk449.eq_1 v2271 v2273))
theorem k0_idx449_inb : ∀ (v2271 : IVec S16 32) (v2273 : IVec S16 32) (k0_hw449 : k0_chk449 v2271 v2273), ∀ a x, ((![v2271, v2273] : Fin 2 → IVec S16 32) a x).toNat < S8x1024.size a := fun v2271 v2273 k0_hw449 => k0_hw449

def k0_chk450 (v2271 : IVec S16 32) (v2278 : IVec S16 32) : Prop :=
  (∀ a x, ((![v2271, v2278] : Fin 2 → IVec S16 32) a x).toNat < S8x1024.size a)
instance k0_chk450.dec : ∀ (v2271 : IVec S16 32) (v2278 : IVec S16 32), Decidable (k0_chk450 v2271 v2278) := fun v2271 v2278 => decidable_of_iff' _ (Iff.of_eq (k0_chk450.eq_1 v2271 v2278))
theorem k0_idx450_inb : ∀ (v2271 : IVec S16 32) (v2278 : IVec S16 32) (k0_hw450 : k0_chk450 v2271 v2278), ∀ a x, ((![v2271, v2278] : Fin 2 → IVec S16 32) a x).toNat < S8x1024.size a := fun v2271 v2278 k0_hw450 => k0_hw450

def k0_chk451 (v2271 : IVec S16 32) (v2283 : IVec S16 32) : Prop :=
  (∀ a x, ((![v2271, v2283] : Fin 2 → IVec S16 32) a x).toNat < S8x1024.size a)
instance k0_chk451.dec : ∀ (v2271 : IVec S16 32) (v2283 : IVec S16 32), Decidable (k0_chk451 v2271 v2283) := fun v2271 v2283 => decidable_of_iff' _ (Iff.of_eq (k0_chk451.eq_1 v2271 v2283))
theorem k0_idx451_inb : ∀ (v2271 : IVec S16 32) (v2283 : IVec S16 32) (k0_hw451 : k0_chk451 v2271 v2283), ∀ a x, ((![v2271, v2283] : Fin 2 → IVec S16 32) a x).toNat < S8x1024.size a := fun v2271 v2283 k0_hw451 => k0_hw451

def k0_chk452 (v2271 : IVec S16 32) (v2288 : IVec S16 32) : Prop :=
  (∀ a x, ((![v2271, v2288] : Fin 2 → IVec S16 32) a x).toNat < S8x1024.size a)
instance k0_chk452.dec : ∀ (v2271 : IVec S16 32) (v2288 : IVec S16 32), Decidable (k0_chk452 v2271 v2288) := fun v2271 v2288 => decidable_of_iff' _ (Iff.of_eq (k0_chk452.eq_1 v2271 v2288))
theorem k0_idx452_inb : ∀ (v2271 : IVec S16 32) (v2288 : IVec S16 32) (k0_hw452 : k0_chk452 v2271 v2288), ∀ a x, ((![v2271, v2288] : Fin 2 → IVec S16 32) a x).toNat < S8x1024.size a := fun v2271 v2288 k0_hw452 => k0_hw452

def k0_chk453 (v2271 : IVec S16 32) (v2293 : IVec S16 32) : Prop :=
  (∀ a x, ((![v2271, v2293] : Fin 2 → IVec S16 32) a x).toNat < S8x1024.size a)
instance k0_chk453.dec : ∀ (v2271 : IVec S16 32) (v2293 : IVec S16 32), Decidable (k0_chk453 v2271 v2293) := fun v2271 v2293 => decidable_of_iff' _ (Iff.of_eq (k0_chk453.eq_1 v2271 v2293))
theorem k0_idx453_inb : ∀ (v2271 : IVec S16 32) (v2293 : IVec S16 32) (k0_hw453 : k0_chk453 v2271 v2293), ∀ a x, ((![v2271, v2293] : Fin 2 → IVec S16 32) a x).toNat < S8x1024.size a := fun v2271 v2293 k0_hw453 => k0_hw453

def k0_chk454 (v2271 : IVec S16 32) (v2298 : IVec S16 32) : Prop :=
  (∀ a x, ((![v2271, v2298] : Fin 2 → IVec S16 32) a x).toNat < S8x1024.size a)
instance k0_chk454.dec : ∀ (v2271 : IVec S16 32) (v2298 : IVec S16 32), Decidable (k0_chk454 v2271 v2298) := fun v2271 v2298 => decidable_of_iff' _ (Iff.of_eq (k0_chk454.eq_1 v2271 v2298))
theorem k0_idx454_inb : ∀ (v2271 : IVec S16 32) (v2298 : IVec S16 32) (k0_hw454 : k0_chk454 v2271 v2298), ∀ a x, ((![v2271, v2298] : Fin 2 → IVec S16 32) a x).toNat < S8x1024.size a := fun v2271 v2298 k0_hw454 => k0_hw454

def k0_chk455 (v2271 : IVec S16 32) (v2303 : IVec S16 32) : Prop :=
  (∀ a x, ((![v2271, v2303] : Fin 2 → IVec S16 32) a x).toNat < S8x1024.size a)
instance k0_chk455.dec : ∀ (v2271 : IVec S16 32) (v2303 : IVec S16 32), Decidable (k0_chk455 v2271 v2303) := fun v2271 v2303 => decidable_of_iff' _ (Iff.of_eq (k0_chk455.eq_1 v2271 v2303))
theorem k0_idx455_inb : ∀ (v2271 : IVec S16 32) (v2303 : IVec S16 32) (k0_hw455 : k0_chk455 v2271 v2303), ∀ a x, ((![v2271, v2303] : Fin 2 → IVec S16 32) a x).toNat < S8x1024.size a := fun v2271 v2303 k0_hw455 => k0_hw455

def k0_chk456 (v2271 : IVec S16 32) (v2308 : IVec S16 32) : Prop :=
  (∀ a x, ((![v2271, v2308] : Fin 2 → IVec S16 32) a x).toNat < S8x1024.size a)
instance k0_chk456.dec : ∀ (v2271 : IVec S16 32) (v2308 : IVec S16 32), Decidable (k0_chk456 v2271 v2308) := fun v2271 v2308 => decidable_of_iff' _ (Iff.of_eq (k0_chk456.eq_1 v2271 v2308))
theorem k0_idx456_inb : ∀ (v2271 : IVec S16 32) (v2308 : IVec S16 32) (k0_hw456 : k0_chk456 v2271 v2308), ∀ a x, ((![v2271, v2308] : Fin 2 → IVec S16 32) a x).toNat < S8x1024.size a := fun v2271 v2308 k0_hw456 => k0_hw456

def k0_chk457 (v2271 : IVec S16 32) (v2313 : IVec S16 32) : Prop :=
  (∀ a x, ((![v2271, v2313] : Fin 2 → IVec S16 32) a x).toNat < S8x1024.size a)
instance k0_chk457.dec : ∀ (v2271 : IVec S16 32) (v2313 : IVec S16 32), Decidable (k0_chk457 v2271 v2313) := fun v2271 v2313 => decidable_of_iff' _ (Iff.of_eq (k0_chk457.eq_1 v2271 v2313))
theorem k0_idx457_inb : ∀ (v2271 : IVec S16 32) (v2313 : IVec S16 32) (k0_hw457 : k0_chk457 v2271 v2313), ∀ a x, ((![v2271, v2313] : Fin 2 → IVec S16 32) a x).toNat < S8x1024.size a := fun v2271 v2313 k0_hw457 => k0_hw457

def k0_chk458 (v2271 : IVec S16 32) (v2318 : IVec S16 32) : Prop :=
  (∀ a x, ((![v2271, v2318] : Fin 2 → IVec S16 32) a x).toNat < S8x1024.size a)
instance k0_chk458.dec : ∀ (v2271 : IVec S16 32) (v2318 : IVec S16 32), Decidable (k0_chk458 v2271 v2318) := fun v2271 v2318 => decidable_of_iff' _ (Iff.of_eq (k0_chk458.eq_1 v2271 v2318))
theorem k0_idx458_inb : ∀ (v2271 : IVec S16 32) (v2318 : IVec S16 32) (k0_hw458 : k0_chk458 v2271 v2318), ∀ a x, ((![v2271, v2318] : Fin 2 → IVec S16 32) a x).toNat < S8x1024.size a := fun v2271 v2318 k0_hw458 => k0_hw458

def k0_chk459 (v2271 : IVec S16 32) (v2323 : IVec S16 32) : Prop :=
  (∀ a x, ((![v2271, v2323] : Fin 2 → IVec S16 32) a x).toNat < S8x1024.size a)
instance k0_chk459.dec : ∀ (v2271 : IVec S16 32) (v2323 : IVec S16 32), Decidable (k0_chk459 v2271 v2323) := fun v2271 v2323 => decidable_of_iff' _ (Iff.of_eq (k0_chk459.eq_1 v2271 v2323))
theorem k0_idx459_inb : ∀ (v2271 : IVec S16 32) (v2323 : IVec S16 32) (k0_hw459 : k0_chk459 v2271 v2323), ∀ a x, ((![v2271, v2323] : Fin 2 → IVec S16 32) a x).toNat < S8x1024.size a := fun v2271 v2323 k0_hw459 => k0_hw459

def k0_chk460 (v2271 : IVec S16 32) (v2328 : IVec S16 32) : Prop :=
  (∀ a x, ((![v2271, v2328] : Fin 2 → IVec S16 32) a x).toNat < S8x1024.size a)
instance k0_chk460.dec : ∀ (v2271 : IVec S16 32) (v2328 : IVec S16 32), Decidable (k0_chk460 v2271 v2328) := fun v2271 v2328 => decidable_of_iff' _ (Iff.of_eq (k0_chk460.eq_1 v2271 v2328))
theorem k0_idx460_inb : ∀ (v2271 : IVec S16 32) (v2328 : IVec S16 32) (k0_hw460 : k0_chk460 v2271 v2328), ∀ a x, ((![v2271, v2328] : Fin 2 → IVec S16 32) a x).toNat < S8x1024.size a := fun v2271 v2328 k0_hw460 => k0_hw460

def k0_chk461 (v2271 : IVec S16 32) (v2333 : IVec S16 32) : Prop :=
  (∀ a x, ((![v2271, v2333] : Fin 2 → IVec S16 32) a x).toNat < S8x1024.size a)
instance k0_chk461.dec : ∀ (v2271 : IVec S16 32) (v2333 : IVec S16 32), Decidable (k0_chk461 v2271 v2333) := fun v2271 v2333 => decidable_of_iff' _ (Iff.of_eq (k0_chk461.eq_1 v2271 v2333))
theorem k0_idx461_inb : ∀ (v2271 : IVec S16 32) (v2333 : IVec S16 32) (k0_hw461 : k0_chk461 v2271 v2333), ∀ a x, ((![v2271, v2333] : Fin 2 → IVec S16 32) a x).toNat < S8x1024.size a := fun v2271 v2333 k0_hw461 => k0_hw461

def k0_chk462 (v2271 : IVec S16 32) (v2338 : IVec S16 32) : Prop :=
  (∀ a x, ((![v2271, v2338] : Fin 2 → IVec S16 32) a x).toNat < S8x1024.size a)
instance k0_chk462.dec : ∀ (v2271 : IVec S16 32) (v2338 : IVec S16 32), Decidable (k0_chk462 v2271 v2338) := fun v2271 v2338 => decidable_of_iff' _ (Iff.of_eq (k0_chk462.eq_1 v2271 v2338))
theorem k0_idx462_inb : ∀ (v2271 : IVec S16 32) (v2338 : IVec S16 32) (k0_hw462 : k0_chk462 v2271 v2338), ∀ a x, ((![v2271, v2338] : Fin 2 → IVec S16 32) a x).toNat < S8x1024.size a := fun v2271 v2338 k0_hw462 => k0_hw462

def k0_chk463 (v2271 : IVec S16 32) (v2343 : IVec S16 32) : Prop :=
  (∀ a x, ((![v2271, v2343] : Fin 2 → IVec S16 32) a x).toNat < S8x1024.size a)
instance k0_chk463.dec : ∀ (v2271 : IVec S16 32) (v2343 : IVec S16 32), Decidable (k0_chk463 v2271 v2343) := fun v2271 v2343 => decidable_of_iff' _ (Iff.of_eq (k0_chk463.eq_1 v2271 v2343))
theorem k0_idx463_inb : ∀ (v2271 : IVec S16 32) (v2343 : IVec S16 32) (k0_hw463 : k0_chk463 v2271 v2343), ∀ a x, ((![v2271, v2343] : Fin 2 → IVec S16 32) a x).toNat < S8x1024.size a := fun v2271 v2343 k0_hw463 => k0_hw463

def k0_chk464 (v2271 : IVec S16 32) (v2348 : IVec S16 32) : Prop :=
  (∀ a x, ((![v2271, v2348] : Fin 2 → IVec S16 32) a x).toNat < S8x1024.size a)
instance k0_chk464.dec : ∀ (v2271 : IVec S16 32) (v2348 : IVec S16 32), Decidable (k0_chk464 v2271 v2348) := fun v2271 v2348 => decidable_of_iff' _ (Iff.of_eq (k0_chk464.eq_1 v2271 v2348))
theorem k0_idx464_inb : ∀ (v2271 : IVec S16 32) (v2348 : IVec S16 32) (k0_hw464 : k0_chk464 v2271 v2348), ∀ a x, ((![v2271, v2348] : Fin 2 → IVec S16 32) a x).toNat < S8x1024.size a := fun v2271 v2348 k0_hw464 => k0_hw464

def k0_chk465 (v2271 : IVec S16 32) (v2353 : IVec S16 32) : Prop :=
  (∀ a x, ((![v2271, v2353] : Fin 2 → IVec S16 32) a x).toNat < S8x1024.size a)
instance k0_chk465.dec : ∀ (v2271 : IVec S16 32) (v2353 : IVec S16 32), Decidable (k0_chk465 v2271 v2353) := fun v2271 v2353 => decidable_of_iff' _ (Iff.of_eq (k0_chk465.eq_1 v2271 v2353))
theorem k0_idx465_inb : ∀ (v2271 : IVec S16 32) (v2353 : IVec S16 32) (k0_hw465 : k0_chk465 v2271 v2353), ∀ a x, ((![v2271, v2353] : Fin 2 → IVec S16 32) a x).toNat < S8x1024.size a := fun v2271 v2353 k0_hw465 => k0_hw465

def k0_chk466 (v2271 : IVec S16 32) (v2358 : IVec S16 32) : Prop :=
  (∀ a x, ((![v2271, v2358] : Fin 2 → IVec S16 32) a x).toNat < S8x1024.size a)
instance k0_chk466.dec : ∀ (v2271 : IVec S16 32) (v2358 : IVec S16 32), Decidable (k0_chk466 v2271 v2358) := fun v2271 v2358 => decidable_of_iff' _ (Iff.of_eq (k0_chk466.eq_1 v2271 v2358))
theorem k0_idx466_inb : ∀ (v2271 : IVec S16 32) (v2358 : IVec S16 32) (k0_hw466 : k0_chk466 v2271 v2358), ∀ a x, ((![v2271, v2358] : Fin 2 → IVec S16 32) a x).toNat < S8x1024.size a := fun v2271 v2358 k0_hw466 => k0_hw466

def k0_chk467 (v2271 : IVec S16 32) (v2363 : IVec S16 32) : Prop :=
  (∀ a x, ((![v2271, v2363] : Fin 2 → IVec S16 32) a x).toNat < S8x1024.size a)
instance k0_chk467.dec : ∀ (v2271 : IVec S16 32) (v2363 : IVec S16 32), Decidable (k0_chk467 v2271 v2363) := fun v2271 v2363 => decidable_of_iff' _ (Iff.of_eq (k0_chk467.eq_1 v2271 v2363))
theorem k0_idx467_inb : ∀ (v2271 : IVec S16 32) (v2363 : IVec S16 32) (k0_hw467 : k0_chk467 v2271 v2363), ∀ a x, ((![v2271, v2363] : Fin 2 → IVec S16 32) a x).toNat < S8x1024.size a := fun v2271 v2363 k0_hw467 => k0_hw467

def k0_chk468 (v2271 : IVec S16 32) (v2368 : IVec S16 32) : Prop :=
  (∀ a x, ((![v2271, v2368] : Fin 2 → IVec S16 32) a x).toNat < S8x1024.size a)
instance k0_chk468.dec : ∀ (v2271 : IVec S16 32) (v2368 : IVec S16 32), Decidable (k0_chk468 v2271 v2368) := fun v2271 v2368 => decidable_of_iff' _ (Iff.of_eq (k0_chk468.eq_1 v2271 v2368))
theorem k0_idx468_inb : ∀ (v2271 : IVec S16 32) (v2368 : IVec S16 32) (k0_hw468 : k0_chk468 v2271 v2368), ∀ a x, ((![v2271, v2368] : Fin 2 → IVec S16 32) a x).toNat < S8x1024.size a := fun v2271 v2368 k0_hw468 => k0_hw468

def k0_chk469 (v2271 : IVec S16 32) (v2373 : IVec S16 32) : Prop :=
  (∀ a x, ((![v2271, v2373] : Fin 2 → IVec S16 32) a x).toNat < S8x1024.size a)
instance k0_chk469.dec : ∀ (v2271 : IVec S16 32) (v2373 : IVec S16 32), Decidable (k0_chk469 v2271 v2373) := fun v2271 v2373 => decidable_of_iff' _ (Iff.of_eq (k0_chk469.eq_1 v2271 v2373))
theorem k0_idx469_inb : ∀ (v2271 : IVec S16 32) (v2373 : IVec S16 32) (k0_hw469 : k0_chk469 v2271 v2373), ∀ a x, ((![v2271, v2373] : Fin 2 → IVec S16 32) a x).toNat < S8x1024.size a := fun v2271 v2373 k0_hw469 => k0_hw469

def k0_chk470 (v2271 : IVec S16 32) (v2378 : IVec S16 32) : Prop :=
  (∀ a x, ((![v2271, v2378] : Fin 2 → IVec S16 32) a x).toNat < S8x1024.size a)
instance k0_chk470.dec : ∀ (v2271 : IVec S16 32) (v2378 : IVec S16 32), Decidable (k0_chk470 v2271 v2378) := fun v2271 v2378 => decidable_of_iff' _ (Iff.of_eq (k0_chk470.eq_1 v2271 v2378))
theorem k0_idx470_inb : ∀ (v2271 : IVec S16 32) (v2378 : IVec S16 32) (k0_hw470 : k0_chk470 v2271 v2378), ∀ a x, ((![v2271, v2378] : Fin 2 → IVec S16 32) a x).toNat < S8x1024.size a := fun v2271 v2378 k0_hw470 => k0_hw470

def k0_chk471 (v2271 : IVec S16 32) (v2383 : IVec S16 32) : Prop :=
  (∀ a x, ((![v2271, v2383] : Fin 2 → IVec S16 32) a x).toNat < S8x1024.size a)
instance k0_chk471.dec : ∀ (v2271 : IVec S16 32) (v2383 : IVec S16 32), Decidable (k0_chk471 v2271 v2383) := fun v2271 v2383 => decidable_of_iff' _ (Iff.of_eq (k0_chk471.eq_1 v2271 v2383))
theorem k0_idx471_inb : ∀ (v2271 : IVec S16 32) (v2383 : IVec S16 32) (k0_hw471 : k0_chk471 v2271 v2383), ∀ a x, ((![v2271, v2383] : Fin 2 → IVec S16 32) a x).toNat < S8x1024.size a := fun v2271 v2383 k0_hw471 => k0_hw471

def k0_chk472 (v2271 : IVec S16 32) (v2388 : IVec S16 32) : Prop :=
  (∀ a x, ((![v2271, v2388] : Fin 2 → IVec S16 32) a x).toNat < S8x1024.size a)
instance k0_chk472.dec : ∀ (v2271 : IVec S16 32) (v2388 : IVec S16 32), Decidable (k0_chk472 v2271 v2388) := fun v2271 v2388 => decidable_of_iff' _ (Iff.of_eq (k0_chk472.eq_1 v2271 v2388))
theorem k0_idx472_inb : ∀ (v2271 : IVec S16 32) (v2388 : IVec S16 32) (k0_hw472 : k0_chk472 v2271 v2388), ∀ a x, ((![v2271, v2388] : Fin 2 → IVec S16 32) a x).toNat < S8x1024.size a := fun v2271 v2388 k0_hw472 => k0_hw472

def k0_chk473 (v2271 : IVec S16 32) (v2393 : IVec S16 32) : Prop :=
  (∀ a x, ((![v2271, v2393] : Fin 2 → IVec S16 32) a x).toNat < S8x1024.size a)
instance k0_chk473.dec : ∀ (v2271 : IVec S16 32) (v2393 : IVec S16 32), Decidable (k0_chk473 v2271 v2393) := fun v2271 v2393 => decidable_of_iff' _ (Iff.of_eq (k0_chk473.eq_1 v2271 v2393))
theorem k0_idx473_inb : ∀ (v2271 : IVec S16 32) (v2393 : IVec S16 32) (k0_hw473 : k0_chk473 v2271 v2393), ∀ a x, ((![v2271, v2393] : Fin 2 → IVec S16 32) a x).toNat < S8x1024.size a := fun v2271 v2393 k0_hw473 => k0_hw473

def k0_chk474 (v2271 : IVec S16 32) (v2398 : IVec S16 32) : Prop :=
  (∀ a x, ((![v2271, v2398] : Fin 2 → IVec S16 32) a x).toNat < S8x1024.size a)
instance k0_chk474.dec : ∀ (v2271 : IVec S16 32) (v2398 : IVec S16 32), Decidable (k0_chk474 v2271 v2398) := fun v2271 v2398 => decidable_of_iff' _ (Iff.of_eq (k0_chk474.eq_1 v2271 v2398))
theorem k0_idx474_inb : ∀ (v2271 : IVec S16 32) (v2398 : IVec S16 32) (k0_hw474 : k0_chk474 v2271 v2398), ∀ a x, ((![v2271, v2398] : Fin 2 → IVec S16 32) a x).toNat < S8x1024.size a := fun v2271 v2398 k0_hw474 => k0_hw474

def k0_chk475 (v2271 : IVec S16 32) (v2403 : IVec S16 32) : Prop :=
  (∀ a x, ((![v2271, v2403] : Fin 2 → IVec S16 32) a x).toNat < S8x1024.size a)
instance k0_chk475.dec : ∀ (v2271 : IVec S16 32) (v2403 : IVec S16 32), Decidable (k0_chk475 v2271 v2403) := fun v2271 v2403 => decidable_of_iff' _ (Iff.of_eq (k0_chk475.eq_1 v2271 v2403))
theorem k0_idx475_inb : ∀ (v2271 : IVec S16 32) (v2403 : IVec S16 32) (k0_hw475 : k0_chk475 v2271 v2403), ∀ a x, ((![v2271, v2403] : Fin 2 → IVec S16 32) a x).toNat < S8x1024.size a := fun v2271 v2403 k0_hw475 => k0_hw475

def k0_chk476 (v2271 : IVec S16 32) (v2408 : IVec S16 32) : Prop :=
  (∀ a x, ((![v2271, v2408] : Fin 2 → IVec S16 32) a x).toNat < S8x1024.size a)
instance k0_chk476.dec : ∀ (v2271 : IVec S16 32) (v2408 : IVec S16 32), Decidable (k0_chk476 v2271 v2408) := fun v2271 v2408 => decidable_of_iff' _ (Iff.of_eq (k0_chk476.eq_1 v2271 v2408))
theorem k0_idx476_inb : ∀ (v2271 : IVec S16 32) (v2408 : IVec S16 32) (k0_hw476 : k0_chk476 v2271 v2408), ∀ a x, ((![v2271, v2408] : Fin 2 → IVec S16 32) a x).toNat < S8x1024.size a := fun v2271 v2408 k0_hw476 => k0_hw476

def k0_chk477 (v2271 : IVec S16 32) (v2413 : IVec S16 32) : Prop :=
  (∀ a x, ((![v2271, v2413] : Fin 2 → IVec S16 32) a x).toNat < S8x1024.size a)
instance k0_chk477.dec : ∀ (v2271 : IVec S16 32) (v2413 : IVec S16 32), Decidable (k0_chk477 v2271 v2413) := fun v2271 v2413 => decidable_of_iff' _ (Iff.of_eq (k0_chk477.eq_1 v2271 v2413))
theorem k0_idx477_inb : ∀ (v2271 : IVec S16 32) (v2413 : IVec S16 32) (k0_hw477 : k0_chk477 v2271 v2413), ∀ a x, ((![v2271, v2413] : Fin 2 → IVec S16 32) a x).toNat < S8x1024.size a := fun v2271 v2413 k0_hw477 => k0_hw477

def k0_chk478 (v2271 : IVec S16 32) (v2418 : IVec S16 32) : Prop :=
  (∀ a x, ((![v2271, v2418] : Fin 2 → IVec S16 32) a x).toNat < S8x1024.size a)
instance k0_chk478.dec : ∀ (v2271 : IVec S16 32) (v2418 : IVec S16 32), Decidable (k0_chk478 v2271 v2418) := fun v2271 v2418 => decidable_of_iff' _ (Iff.of_eq (k0_chk478.eq_1 v2271 v2418))
theorem k0_idx478_inb : ∀ (v2271 : IVec S16 32) (v2418 : IVec S16 32) (k0_hw478 : k0_chk478 v2271 v2418), ∀ a x, ((![v2271, v2418] : Fin 2 → IVec S16 32) a x).toNat < S8x1024.size a := fun v2271 v2418 k0_hw478 => k0_hw478

def k0_chk479 (v2271 : IVec S16 32) (v2423 : IVec S16 32) : Prop :=
  (∀ a x, ((![v2271, v2423] : Fin 2 → IVec S16 32) a x).toNat < S8x1024.size a)
instance k0_chk479.dec : ∀ (v2271 : IVec S16 32) (v2423 : IVec S16 32), Decidable (k0_chk479 v2271 v2423) := fun v2271 v2423 => decidable_of_iff' _ (Iff.of_eq (k0_chk479.eq_1 v2271 v2423))
theorem k0_idx479_inb : ∀ (v2271 : IVec S16 32) (v2423 : IVec S16 32) (k0_hw479 : k0_chk479 v2271 v2423), ∀ a x, ((![v2271, v2423] : Fin 2 → IVec S16 32) a x).toNat < S8x1024.size a := fun v2271 v2423 k0_hw479 => k0_hw479

def k0_chk480 (v2271 : IVec S16 32) (v2428 : IVec S16 32) : Prop :=
  (∀ a x, ((![v2271, v2428] : Fin 2 → IVec S16 32) a x).toNat < S8x1024.size a)
instance k0_chk480.dec : ∀ (v2271 : IVec S16 32) (v2428 : IVec S16 32), Decidable (k0_chk480 v2271 v2428) := fun v2271 v2428 => decidable_of_iff' _ (Iff.of_eq (k0_chk480.eq_1 v2271 v2428))
theorem k0_idx480_inb : ∀ (v2271 : IVec S16 32) (v2428 : IVec S16 32) (k0_hw480 : k0_chk480 v2271 v2428), ∀ a x, ((![v2271, v2428] : Fin 2 → IVec S16 32) a x).toNat < S8x1024.size a := fun v2271 v2428 k0_hw480 => k0_hw480

def k0_chk481 (v2271 : IVec S16 32) (v2433 : IVec S16 32) : Prop :=
  (∀ a x, ((![v2271, v2433] : Fin 2 → IVec S16 32) a x).toNat < S8x1024.size a)
instance k0_chk481.dec : ∀ (v2271 : IVec S16 32) (v2433 : IVec S16 32), Decidable (k0_chk481 v2271 v2433) := fun v2271 v2433 => decidable_of_iff' _ (Iff.of_eq (k0_chk481.eq_1 v2271 v2433))
theorem k0_idx481_inb : ∀ (v2271 : IVec S16 32) (v2433 : IVec S16 32) (k0_hw481 : k0_chk481 v2271 v2433), ∀ a x, ((![v2271, v2433] : Fin 2 → IVec S16 32) a x).toNat < S8x1024.size a := fun v2271 v2433 k0_hw481 => k0_hw481

def k0_chk482 (v2271 : IVec S16 32) (v2438 : IVec S16 32) : Prop :=
  (∀ a x, ((![v2271, v2438] : Fin 2 → IVec S16 32) a x).toNat < S8x1024.size a)
instance k0_chk482.dec : ∀ (v2271 : IVec S16 32) (v2438 : IVec S16 32), Decidable (k0_chk482 v2271 v2438) := fun v2271 v2438 => decidable_of_iff' _ (Iff.of_eq (k0_chk482.eq_1 v2271 v2438))
theorem k0_idx482_inb : ∀ (v2271 : IVec S16 32) (v2438 : IVec S16 32) (k0_hw482 : k0_chk482 v2271 v2438), ∀ a x, ((![v2271, v2438] : Fin 2 → IVec S16 32) a x).toNat < S8x1024.size a := fun v2271 v2438 k0_hw482 => k0_hw482

def k0_chk483 (v2271 : IVec S16 32) (v2443 : IVec S16 32) : Prop :=
  (∀ a x, ((![v2271, v2443] : Fin 2 → IVec S16 32) a x).toNat < S8x1024.size a)
instance k0_chk483.dec : ∀ (v2271 : IVec S16 32) (v2443 : IVec S16 32), Decidable (k0_chk483 v2271 v2443) := fun v2271 v2443 => decidable_of_iff' _ (Iff.of_eq (k0_chk483.eq_1 v2271 v2443))
theorem k0_idx483_inb : ∀ (v2271 : IVec S16 32) (v2443 : IVec S16 32) (k0_hw483 : k0_chk483 v2271 v2443), ∀ a x, ((![v2271, v2443] : Fin 2 → IVec S16 32) a x).toNat < S8x1024.size a := fun v2271 v2443 k0_hw483 => k0_hw483

def k0_chk484 (v2271 : IVec S16 32) (v2448 : IVec S16 32) : Prop :=
  (∀ a x, ((![v2271, v2448] : Fin 2 → IVec S16 32) a x).toNat < S8x1024.size a)
instance k0_chk484.dec : ∀ (v2271 : IVec S16 32) (v2448 : IVec S16 32), Decidable (k0_chk484 v2271 v2448) := fun v2271 v2448 => decidable_of_iff' _ (Iff.of_eq (k0_chk484.eq_1 v2271 v2448))
theorem k0_idx484_inb : ∀ (v2271 : IVec S16 32) (v2448 : IVec S16 32) (k0_hw484 : k0_chk484 v2271 v2448), ∀ a x, ((![v2271, v2448] : Fin 2 → IVec S16 32) a x).toNat < S8x1024.size a := fun v2271 v2448 k0_hw484 => k0_hw484

def k0_chk485 (v2271 : IVec S16 32) (v2453 : IVec S16 32) : Prop :=
  (∀ a x, ((![v2271, v2453] : Fin 2 → IVec S16 32) a x).toNat < S8x1024.size a)
instance k0_chk485.dec : ∀ (v2271 : IVec S16 32) (v2453 : IVec S16 32), Decidable (k0_chk485 v2271 v2453) := fun v2271 v2453 => decidable_of_iff' _ (Iff.of_eq (k0_chk485.eq_1 v2271 v2453))
theorem k0_idx485_inb : ∀ (v2271 : IVec S16 32) (v2453 : IVec S16 32) (k0_hw485 : k0_chk485 v2271 v2453), ∀ a x, ((![v2271, v2453] : Fin 2 → IVec S16 32) a x).toNat < S8x1024.size a := fun v2271 v2453 k0_hw485 => k0_hw485

def k0_chk486 (v2271 : IVec S16 32) (v2458 : IVec S16 32) : Prop :=
  (∀ a x, ((![v2271, v2458] : Fin 2 → IVec S16 32) a x).toNat < S8x1024.size a)
instance k0_chk486.dec : ∀ (v2271 : IVec S16 32) (v2458 : IVec S16 32), Decidable (k0_chk486 v2271 v2458) := fun v2271 v2458 => decidable_of_iff' _ (Iff.of_eq (k0_chk486.eq_1 v2271 v2458))
theorem k0_idx486_inb : ∀ (v2271 : IVec S16 32) (v2458 : IVec S16 32) (k0_hw486 : k0_chk486 v2271 v2458), ∀ a x, ((![v2271, v2458] : Fin 2 → IVec S16 32) a x).toNat < S8x1024.size a := fun v2271 v2458 k0_hw486 => k0_hw486

def k0_chk487 (v2271 : IVec S16 32) (v2463 : IVec S16 32) : Prop :=
  (∀ a x, ((![v2271, v2463] : Fin 2 → IVec S16 32) a x).toNat < S8x1024.size a)
instance k0_chk487.dec : ∀ (v2271 : IVec S16 32) (v2463 : IVec S16 32), Decidable (k0_chk487 v2271 v2463) := fun v2271 v2463 => decidable_of_iff' _ (Iff.of_eq (k0_chk487.eq_1 v2271 v2463))
theorem k0_idx487_inb : ∀ (v2271 : IVec S16 32) (v2463 : IVec S16 32) (k0_hw487 : k0_chk487 v2271 v2463), ∀ a x, ((![v2271, v2463] : Fin 2 → IVec S16 32) a x).toNat < S8x1024.size a := fun v2271 v2463 k0_hw487 => k0_hw487

def k0_chk488 (v2271 : IVec S16 32) (v2468 : IVec S16 32) : Prop :=
  (∀ a x, ((![v2271, v2468] : Fin 2 → IVec S16 32) a x).toNat < S8x1024.size a)
instance k0_chk488.dec : ∀ (v2271 : IVec S16 32) (v2468 : IVec S16 32), Decidable (k0_chk488 v2271 v2468) := fun v2271 v2468 => decidable_of_iff' _ (Iff.of_eq (k0_chk488.eq_1 v2271 v2468))
theorem k0_idx488_inb : ∀ (v2271 : IVec S16 32) (v2468 : IVec S16 32) (k0_hw488 : k0_chk488 v2271 v2468), ∀ a x, ((![v2271, v2468] : Fin 2 → IVec S16 32) a x).toNat < S8x1024.size a := fun v2271 v2468 k0_hw488 => k0_hw488

def k0_chk489 (v2271 : IVec S16 32) (v2473 : IVec S16 32) : Prop :=
  (∀ a x, ((![v2271, v2473] : Fin 2 → IVec S16 32) a x).toNat < S8x1024.size a)
instance k0_chk489.dec : ∀ (v2271 : IVec S16 32) (v2473 : IVec S16 32), Decidable (k0_chk489 v2271 v2473) := fun v2271 v2473 => decidable_of_iff' _ (Iff.of_eq (k0_chk489.eq_1 v2271 v2473))
theorem k0_idx489_inb : ∀ (v2271 : IVec S16 32) (v2473 : IVec S16 32) (k0_hw489 : k0_chk489 v2271 v2473), ∀ a x, ((![v2271, v2473] : Fin 2 → IVec S16 32) a x).toNat < S8x1024.size a := fun v2271 v2473 k0_hw489 => k0_hw489

def k0_chk490 (v2271 : IVec S16 32) (v2478 : IVec S16 32) : Prop :=
  (∀ a x, ((![v2271, v2478] : Fin 2 → IVec S16 32) a x).toNat < S8x1024.size a)
instance k0_chk490.dec : ∀ (v2271 : IVec S16 32) (v2478 : IVec S16 32), Decidable (k0_chk490 v2271 v2478) := fun v2271 v2478 => decidable_of_iff' _ (Iff.of_eq (k0_chk490.eq_1 v2271 v2478))
theorem k0_idx490_inb : ∀ (v2271 : IVec S16 32) (v2478 : IVec S16 32) (k0_hw490 : k0_chk490 v2271 v2478), ∀ a x, ((![v2271, v2478] : Fin 2 → IVec S16 32) a x).toNat < S8x1024.size a := fun v2271 v2478 k0_hw490 => k0_hw490

def k0_chk491 (v2271 : IVec S16 32) (v2483 : IVec S16 32) : Prop :=
  (∀ a x, ((![v2271, v2483] : Fin 2 → IVec S16 32) a x).toNat < S8x1024.size a)
instance k0_chk491.dec : ∀ (v2271 : IVec S16 32) (v2483 : IVec S16 32), Decidable (k0_chk491 v2271 v2483) := fun v2271 v2483 => decidable_of_iff' _ (Iff.of_eq (k0_chk491.eq_1 v2271 v2483))
theorem k0_idx491_inb : ∀ (v2271 : IVec S16 32) (v2483 : IVec S16 32) (k0_hw491 : k0_chk491 v2271 v2483), ∀ a x, ((![v2271, v2483] : Fin 2 → IVec S16 32) a x).toNat < S8x1024.size a := fun v2271 v2483 k0_hw491 => k0_hw491

def k0_chk492 (v2271 : IVec S16 32) (v2488 : IVec S16 32) : Prop :=
  (∀ a x, ((![v2271, v2488] : Fin 2 → IVec S16 32) a x).toNat < S8x1024.size a)
instance k0_chk492.dec : ∀ (v2271 : IVec S16 32) (v2488 : IVec S16 32), Decidable (k0_chk492 v2271 v2488) := fun v2271 v2488 => decidable_of_iff' _ (Iff.of_eq (k0_chk492.eq_1 v2271 v2488))
theorem k0_idx492_inb : ∀ (v2271 : IVec S16 32) (v2488 : IVec S16 32) (k0_hw492 : k0_chk492 v2271 v2488), ∀ a x, ((![v2271, v2488] : Fin 2 → IVec S16 32) a x).toNat < S8x1024.size a := fun v2271 v2488 k0_hw492 => k0_hw492

def k0_chk493 (v2271 : IVec S16 32) (v2493 : IVec S16 32) : Prop :=
  (∀ a x, ((![v2271, v2493] : Fin 2 → IVec S16 32) a x).toNat < S8x1024.size a)
instance k0_chk493.dec : ∀ (v2271 : IVec S16 32) (v2493 : IVec S16 32), Decidable (k0_chk493 v2271 v2493) := fun v2271 v2493 => decidable_of_iff' _ (Iff.of_eq (k0_chk493.eq_1 v2271 v2493))
theorem k0_idx493_inb : ∀ (v2271 : IVec S16 32) (v2493 : IVec S16 32) (k0_hw493 : k0_chk493 v2271 v2493), ∀ a x, ((![v2271, v2493] : Fin 2 → IVec S16 32) a x).toNat < S8x1024.size a := fun v2271 v2493 k0_hw493 => k0_hw493

def k0_chk494 (v2271 : IVec S16 32) (v2498 : IVec S16 32) : Prop :=
  (∀ a x, ((![v2271, v2498] : Fin 2 → IVec S16 32) a x).toNat < S8x1024.size a)
instance k0_chk494.dec : ∀ (v2271 : IVec S16 32) (v2498 : IVec S16 32), Decidable (k0_chk494 v2271 v2498) := fun v2271 v2498 => decidable_of_iff' _ (Iff.of_eq (k0_chk494.eq_1 v2271 v2498))
theorem k0_idx494_inb : ∀ (v2271 : IVec S16 32) (v2498 : IVec S16 32) (k0_hw494 : k0_chk494 v2271 v2498), ∀ a x, ((![v2271, v2498] : Fin 2 → IVec S16 32) a x).toNat < S8x1024.size a := fun v2271 v2498 k0_hw494 => k0_hw494

def k0_chk495 (v2271 : IVec S16 32) (v2503 : IVec S16 32) : Prop :=
  (∀ a x, ((![v2271, v2503] : Fin 2 → IVec S16 32) a x).toNat < S8x1024.size a)
instance k0_chk495.dec : ∀ (v2271 : IVec S16 32) (v2503 : IVec S16 32), Decidable (k0_chk495 v2271 v2503) := fun v2271 v2503 => decidable_of_iff' _ (Iff.of_eq (k0_chk495.eq_1 v2271 v2503))
theorem k0_idx495_inb : ∀ (v2271 : IVec S16 32) (v2503 : IVec S16 32) (k0_hw495 : k0_chk495 v2271 v2503), ∀ a x, ((![v2271, v2503] : Fin 2 → IVec S16 32) a x).toNat < S8x1024.size a := fun v2271 v2503 k0_hw495 => k0_hw495

def k0_chk496 (v2271 : IVec S16 32) (v2508 : IVec S16 32) : Prop :=
  (∀ a x, ((![v2271, v2508] : Fin 2 → IVec S16 32) a x).toNat < S8x1024.size a)
instance k0_chk496.dec : ∀ (v2271 : IVec S16 32) (v2508 : IVec S16 32), Decidable (k0_chk496 v2271 v2508) := fun v2271 v2508 => decidable_of_iff' _ (Iff.of_eq (k0_chk496.eq_1 v2271 v2508))
theorem k0_idx496_inb : ∀ (v2271 : IVec S16 32) (v2508 : IVec S16 32) (k0_hw496 : k0_chk496 v2271 v2508), ∀ a x, ((![v2271, v2508] : Fin 2 → IVec S16 32) a x).toNat < S8x1024.size a := fun v2271 v2508 k0_hw496 => k0_hw496

def k0_chk497 (v2271 : IVec S16 32) (v2513 : IVec S16 32) : Prop :=
  (∀ a x, ((![v2271, v2513] : Fin 2 → IVec S16 32) a x).toNat < S8x1024.size a)
instance k0_chk497.dec : ∀ (v2271 : IVec S16 32) (v2513 : IVec S16 32), Decidable (k0_chk497 v2271 v2513) := fun v2271 v2513 => decidable_of_iff' _ (Iff.of_eq (k0_chk497.eq_1 v2271 v2513))
theorem k0_idx497_inb : ∀ (v2271 : IVec S16 32) (v2513 : IVec S16 32) (k0_hw497 : k0_chk497 v2271 v2513), ∀ a x, ((![v2271, v2513] : Fin 2 → IVec S16 32) a x).toNat < S8x1024.size a := fun v2271 v2513 k0_hw497 => k0_hw497

def k0_chk498 (v2271 : IVec S16 32) (v2518 : IVec S16 32) : Prop :=
  (∀ a x, ((![v2271, v2518] : Fin 2 → IVec S16 32) a x).toNat < S8x1024.size a)
instance k0_chk498.dec : ∀ (v2271 : IVec S16 32) (v2518 : IVec S16 32), Decidable (k0_chk498 v2271 v2518) := fun v2271 v2518 => decidable_of_iff' _ (Iff.of_eq (k0_chk498.eq_1 v2271 v2518))
theorem k0_idx498_inb : ∀ (v2271 : IVec S16 32) (v2518 : IVec S16 32) (k0_hw498 : k0_chk498 v2271 v2518), ∀ a x, ((![v2271, v2518] : Fin 2 → IVec S16 32) a x).toNat < S8x1024.size a := fun v2271 v2518 k0_hw498 => k0_hw498

def k0_chk499 (v2271 : IVec S16 32) (v2523 : IVec S16 32) : Prop :=
  (∀ a x, ((![v2271, v2523] : Fin 2 → IVec S16 32) a x).toNat < S8x1024.size a)
instance k0_chk499.dec : ∀ (v2271 : IVec S16 32) (v2523 : IVec S16 32), Decidable (k0_chk499 v2271 v2523) := fun v2271 v2523 => decidable_of_iff' _ (Iff.of_eq (k0_chk499.eq_1 v2271 v2523))
theorem k0_idx499_inb : ∀ (v2271 : IVec S16 32) (v2523 : IVec S16 32) (k0_hw499 : k0_chk499 v2271 v2523), ∀ a x, ((![v2271, v2523] : Fin 2 → IVec S16 32) a x).toNat < S8x1024.size a := fun v2271 v2523 k0_hw499 => k0_hw499

def k0_chk500 (v2271 : IVec S16 32) (v2528 : IVec S16 32) : Prop :=
  (∀ a x, ((![v2271, v2528] : Fin 2 → IVec S16 32) a x).toNat < S8x1024.size a)
instance k0_chk500.dec : ∀ (v2271 : IVec S16 32) (v2528 : IVec S16 32), Decidable (k0_chk500 v2271 v2528) := fun v2271 v2528 => decidable_of_iff' _ (Iff.of_eq (k0_chk500.eq_1 v2271 v2528))
theorem k0_idx500_inb : ∀ (v2271 : IVec S16 32) (v2528 : IVec S16 32) (k0_hw500 : k0_chk500 v2271 v2528), ∀ a x, ((![v2271, v2528] : Fin 2 → IVec S16 32) a x).toNat < S8x1024.size a := fun v2271 v2528 k0_hw500 => k0_hw500

def k0_chk501 (v2271 : IVec S16 32) (v2533 : IVec S16 32) : Prop :=
  (∀ a x, ((![v2271, v2533] : Fin 2 → IVec S16 32) a x).toNat < S8x1024.size a)
instance k0_chk501.dec : ∀ (v2271 : IVec S16 32) (v2533 : IVec S16 32), Decidable (k0_chk501 v2271 v2533) := fun v2271 v2533 => decidable_of_iff' _ (Iff.of_eq (k0_chk501.eq_1 v2271 v2533))
theorem k0_idx501_inb : ∀ (v2271 : IVec S16 32) (v2533 : IVec S16 32) (k0_hw501 : k0_chk501 v2271 v2533), ∀ a x, ((![v2271, v2533] : Fin 2 → IVec S16 32) a x).toNat < S8x1024.size a := fun v2271 v2533 k0_hw501 => k0_hw501

def k0_chk502 (v2271 : IVec S16 32) (v2538 : IVec S16 32) : Prop :=
  (∀ a x, ((![v2271, v2538] : Fin 2 → IVec S16 32) a x).toNat < S8x1024.size a)
instance k0_chk502.dec : ∀ (v2271 : IVec S16 32) (v2538 : IVec S16 32), Decidable (k0_chk502 v2271 v2538) := fun v2271 v2538 => decidable_of_iff' _ (Iff.of_eq (k0_chk502.eq_1 v2271 v2538))
theorem k0_idx502_inb : ∀ (v2271 : IVec S16 32) (v2538 : IVec S16 32) (k0_hw502 : k0_chk502 v2271 v2538), ∀ a x, ((![v2271, v2538] : Fin 2 → IVec S16 32) a x).toNat < S8x1024.size a := fun v2271 v2538 k0_hw502 => k0_hw502

def k0_chk503 (v2271 : IVec S16 32) (v2543 : IVec S16 32) : Prop :=
  (∀ a x, ((![v2271, v2543] : Fin 2 → IVec S16 32) a x).toNat < S8x1024.size a)
instance k0_chk503.dec : ∀ (v2271 : IVec S16 32) (v2543 : IVec S16 32), Decidable (k0_chk503 v2271 v2543) := fun v2271 v2543 => decidable_of_iff' _ (Iff.of_eq (k0_chk503.eq_1 v2271 v2543))
theorem k0_idx503_inb : ∀ (v2271 : IVec S16 32) (v2543 : IVec S16 32) (k0_hw503 : k0_chk503 v2271 v2543), ∀ a x, ((![v2271, v2543] : Fin 2 → IVec S16 32) a x).toNat < S8x1024.size a := fun v2271 v2543 k0_hw503 => k0_hw503

def k0_chk504 (v2271 : IVec S16 32) (v2548 : IVec S16 32) : Prop :=
  (∀ a x, ((![v2271, v2548] : Fin 2 → IVec S16 32) a x).toNat < S8x1024.size a)
instance k0_chk504.dec : ∀ (v2271 : IVec S16 32) (v2548 : IVec S16 32), Decidable (k0_chk504 v2271 v2548) := fun v2271 v2548 => decidable_of_iff' _ (Iff.of_eq (k0_chk504.eq_1 v2271 v2548))
theorem k0_idx504_inb : ∀ (v2271 : IVec S16 32) (v2548 : IVec S16 32) (k0_hw504 : k0_chk504 v2271 v2548), ∀ a x, ((![v2271, v2548] : Fin 2 → IVec S16 32) a x).toNat < S8x1024.size a := fun v2271 v2548 k0_hw504 => k0_hw504

def k0_chk505 (v2271 : IVec S16 32) (v2553 : IVec S16 32) : Prop :=
  (∀ a x, ((![v2271, v2553] : Fin 2 → IVec S16 32) a x).toNat < S8x1024.size a)
instance k0_chk505.dec : ∀ (v2271 : IVec S16 32) (v2553 : IVec S16 32), Decidable (k0_chk505 v2271 v2553) := fun v2271 v2553 => decidable_of_iff' _ (Iff.of_eq (k0_chk505.eq_1 v2271 v2553))
theorem k0_idx505_inb : ∀ (v2271 : IVec S16 32) (v2553 : IVec S16 32) (k0_hw505 : k0_chk505 v2271 v2553), ∀ a x, ((![v2271, v2553] : Fin 2 → IVec S16 32) a x).toNat < S8x1024.size a := fun v2271 v2553 k0_hw505 => k0_hw505

def k0_chk506 (v2271 : IVec S16 32) (v2558 : IVec S16 32) : Prop :=
  (∀ a x, ((![v2271, v2558] : Fin 2 → IVec S16 32) a x).toNat < S8x1024.size a)
instance k0_chk506.dec : ∀ (v2271 : IVec S16 32) (v2558 : IVec S16 32), Decidable (k0_chk506 v2271 v2558) := fun v2271 v2558 => decidable_of_iff' _ (Iff.of_eq (k0_chk506.eq_1 v2271 v2558))
theorem k0_idx506_inb : ∀ (v2271 : IVec S16 32) (v2558 : IVec S16 32) (k0_hw506 : k0_chk506 v2271 v2558), ∀ a x, ((![v2271, v2558] : Fin 2 → IVec S16 32) a x).toNat < S8x1024.size a := fun v2271 v2558 k0_hw506 => k0_hw506

def k0_chk507 (v2271 : IVec S16 32) (v2563 : IVec S16 32) : Prop :=
  (∀ a x, ((![v2271, v2563] : Fin 2 → IVec S16 32) a x).toNat < S8x1024.size a)
instance k0_chk507.dec : ∀ (v2271 : IVec S16 32) (v2563 : IVec S16 32), Decidable (k0_chk507 v2271 v2563) := fun v2271 v2563 => decidable_of_iff' _ (Iff.of_eq (k0_chk507.eq_1 v2271 v2563))
theorem k0_idx507_inb : ∀ (v2271 : IVec S16 32) (v2563 : IVec S16 32) (k0_hw507 : k0_chk507 v2271 v2563), ∀ a x, ((![v2271, v2563] : Fin 2 → IVec S16 32) a x).toNat < S8x1024.size a := fun v2271 v2563 k0_hw507 => k0_hw507

def k0_chk508 (v2271 : IVec S16 32) (v2568 : IVec S16 32) : Prop :=
  (∀ a x, ((![v2271, v2568] : Fin 2 → IVec S16 32) a x).toNat < S8x1024.size a)
instance k0_chk508.dec : ∀ (v2271 : IVec S16 32) (v2568 : IVec S16 32), Decidable (k0_chk508 v2271 v2568) := fun v2271 v2568 => decidable_of_iff' _ (Iff.of_eq (k0_chk508.eq_1 v2271 v2568))
theorem k0_idx508_inb : ∀ (v2271 : IVec S16 32) (v2568 : IVec S16 32) (k0_hw508 : k0_chk508 v2271 v2568), ∀ a x, ((![v2271, v2568] : Fin 2 → IVec S16 32) a x).toNat < S8x1024.size a := fun v2271 v2568 k0_hw508 => k0_hw508

def k0_chk509 (v2271 : IVec S16 32) (v2573 : IVec S16 32) : Prop :=
  (∀ a x, ((![v2271, v2573] : Fin 2 → IVec S16 32) a x).toNat < S8x1024.size a)
instance k0_chk509.dec : ∀ (v2271 : IVec S16 32) (v2573 : IVec S16 32), Decidable (k0_chk509 v2271 v2573) := fun v2271 v2573 => decidable_of_iff' _ (Iff.of_eq (k0_chk509.eq_1 v2271 v2573))
theorem k0_idx509_inb : ∀ (v2271 : IVec S16 32) (v2573 : IVec S16 32) (k0_hw509 : k0_chk509 v2271 v2573), ∀ a x, ((![v2271, v2573] : Fin 2 → IVec S16 32) a x).toNat < S8x1024.size a := fun v2271 v2573 k0_hw509 => k0_hw509

def k0_chk510 (v2271 : IVec S16 32) (v2578 : IVec S16 32) : Prop :=
  (∀ a x, ((![v2271, v2578] : Fin 2 → IVec S16 32) a x).toNat < S8x1024.size a)
instance k0_chk510.dec : ∀ (v2271 : IVec S16 32) (v2578 : IVec S16 32), Decidable (k0_chk510 v2271 v2578) := fun v2271 v2578 => decidable_of_iff' _ (Iff.of_eq (k0_chk510.eq_1 v2271 v2578))
theorem k0_idx510_inb : ∀ (v2271 : IVec S16 32) (v2578 : IVec S16 32) (k0_hw510 : k0_chk510 v2271 v2578), ∀ a x, ((![v2271, v2578] : Fin 2 → IVec S16 32) a x).toNat < S8x1024.size a := fun v2271 v2578 k0_hw510 => k0_hw510

def k0_chk511 (v2271 : IVec S16 32) (v2583 : IVec S16 32) : Prop :=
  (∀ a x, ((![v2271, v2583] : Fin 2 → IVec S16 32) a x).toNat < S8x1024.size a)
instance k0_chk511.dec : ∀ (v2271 : IVec S16 32) (v2583 : IVec S16 32), Decidable (k0_chk511 v2271 v2583) := fun v2271 v2583 => decidable_of_iff' _ (Iff.of_eq (k0_chk511.eq_1 v2271 v2583))
theorem k0_idx511_inb : ∀ (v2271 : IVec S16 32) (v2583 : IVec S16 32) (k0_hw511 : k0_chk511 v2271 v2583), ∀ a x, ((![v2271, v2583] : Fin 2 → IVec S16 32) a x).toNat < S8x1024.size a := fun v2271 v2583 k0_hw511 => k0_hw511

def k0_chk512 (v2271 : IVec S16 32) (v2588 : IVec S16 32) : Prop :=
  (∀ a x, ((![v2271, v2588] : Fin 2 → IVec S16 32) a x).toNat < S8x1024.size a)
instance k0_chk512.dec : ∀ (v2271 : IVec S16 32) (v2588 : IVec S16 32), Decidable (k0_chk512 v2271 v2588) := fun v2271 v2588 => decidable_of_iff' _ (Iff.of_eq (k0_chk512.eq_1 v2271 v2588))
theorem k0_idx512_inb : ∀ (v2271 : IVec S16 32) (v2588 : IVec S16 32) (k0_hw512 : k0_chk512 v2271 v2588), ∀ a x, ((![v2271, v2588] : Fin 2 → IVec S16 32) a x).toNat < S8x1024.size a := fun v2271 v2588 k0_hw512 => k0_hw512
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_1 : BitVec 32 := 0#32
  let c1_i32_2 : BitVec 32 := 1#32
  let arg6 : BitVec 32 := Scf.iv c0_i32_1 c1_i32_2 k0_t1
  let c8_i32 : BitVec 32 := 8#32
  let v12 : BitVec 32 := Scalar.muli arg6 c8_i32
  let v13 : BitVec 32 := Scalar.addi v2 v12
  let c512_i32_r3 : BitVec 32 := 512#32
  ![v13.toNat, 512]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4x8192x2048_S32768x2048 : S4x8192x2048.ShapeCasts S32768x2048
  iota_S16_d0_w32_scVector : S16.Iotas .scVector 32 [0]
  h_S8x1024 : 0 < S8x1024.numel
  inb_S8x1024_S1x16_0_0 : ∀ a, (![0, 0] : Fin 2 → Nat) a + S1x16.size a ≤ S8x1024.size a
  h_S1x16 : 0 < S1x16.numel
  shapeCasts_S1x16_S16 : S1x16.ShapeCasts S16
  shapeCasts_S16_S1x16 : S16.ShapeCasts S1x16
  inb_S8x1024_S1x16_0_16 : ∀ a, (![0, 16] : Fin 2 → Nat) a + S1x16.size a ≤ S8x1024.size a
  inb_S8x1024_S1x16_0_32 : ∀ a, (![0, 32] : Fin 2 → Nat) a + S1x16.size a ≤ S8x1024.size a
  inb_S8x1024_S1x16_0_48 : ∀ a, (![0, 48] : Fin 2 → Nat) a + S1x16.size a ≤ S8x1024.size a
  inb_S8x1024_S1x16_0_64 : ∀ a, (![0, 64] : Fin 2 → Nat) a + S1x16.size a ≤ S8x1024.size a
  inb_S8x1024_S1x16_0_80 : ∀ a, (![0, 80] : Fin 2 → Nat) a + S1x16.size a ≤ S8x1024.size a
  inb_S8x1024_S1x16_0_96 : ∀ a, (![0, 96] : Fin 2 → Nat) a + S1x16.size a ≤ S8x1024.size a
  inb_S8x1024_S1x16_0_112 : ∀ a, (![0, 112] : Fin 2 → Nat) a + S1x16.size a ≤ S8x1024.size a
  inb_S8x1024_S1x16_0_128 : ∀ a, (![0, 128] : Fin 2 → Nat) a + S1x16.size a ≤ S8x1024.size a
  inb_S8x1024_S1x16_0_144 : ∀ a, (![0, 144] : Fin 2 → Nat) a + S1x16.size a ≤ S8x1024.size a
  inb_S8x1024_S1x16_0_160 : ∀ a, (![0, 160] : Fin 2 → Nat) a + S1x16.size a ≤ S8x1024.size a
  inb_S8x1024_S1x16_0_176 : ∀ a, (![0, 176] : Fin 2 → Nat) a + S1x16.size a ≤ S8x1024.size a
  inb_S8x1024_S1x16_0_192 : ∀ a, (![0, 192] : Fin 2 → Nat) a + S1x16.size a ≤ S8x1024.size a
  inb_S8x1024_S1x16_0_208 : ∀ a, (![0, 208] : Fin 2 → Nat) a + S1x16.size a ≤ S8x1024.size a
  inb_S8x1024_S1x16_0_224 : ∀ a, (![0, 224] : Fin 2 → Nat) a + S1x16.size a ≤ S8x1024.size a
  inb_S8x1024_S1x16_0_240 : ∀ a, (![0, 240] : Fin 2 → Nat) a + S1x16.size a ≤ S8x1024.size a
  inb_S8x1024_S1x16_0_256 : ∀ a, (![0, 256] : Fin 2 → Nat) a + S1x16.size a ≤ S8x1024.size a
  inb_S8x1024_S1x16_0_272 : ∀ a, (![0, 272] : Fin 2 → Nat) a + S1x16.size a ≤ S8x1024.size a
  inb_S8x1024_S1x16_0_288 : ∀ a, (![0, 288] : Fin 2 → Nat) a + S1x16.size a ≤ S8x1024.size a
  inb_S8x1024_S1x16_0_304 : ∀ a, (![0, 304] : Fin 2 → Nat) a + S1x16.size a ≤ S8x1024.size a
  inb_S8x1024_S1x16_0_320 : ∀ a, (![0, 320] : Fin 2 → Nat) a + S1x16.size a ≤ S8x1024.size a
  inb_S8x1024_S1x16_0_336 : ∀ a, (![0, 336] : Fin 2 → Nat) a + S1x16.size a ≤ S8x1024.size a
  inb_S8x1024_S1x16_0_352 : ∀ a, (![0, 352] : Fin 2 → Nat) a + S1x16.size a ≤ S8x1024.size a
  inb_S8x1024_S1x16_0_368 : ∀ a, (![0, 368] : Fin 2 → Nat) a + S1x16.size a ≤ S8x1024.size a
  inb_S8x1024_S1x16_0_384 : ∀ a, (![0, 384] : Fin 2 → Nat) a + S1x16.size a ≤ S8x1024.size a
  inb_S8x1024_S1x16_0_400 : ∀ a, (![0, 400] : Fin 2 → Nat) a + S1x16.size a ≤ S8x1024.size a
  inb_S8x1024_S1x16_0_416 : ∀ a, (![0, 416] : Fin 2 → Nat) a + S1x16.size a ≤ S8x1024.size a
  inb_S8x1024_S1x16_0_432 : ∀ a, (![0, 432] : Fin 2 → Nat) a + S1x16.size a ≤ S8x1024.size a
  inb_S8x1024_S1x16_0_448 : ∀ a, (![0, 448] : Fin 2 → Nat) a + S1x16.size a ≤ S8x1024.size a
  inb_S8x1024_S1x16_0_464 : ∀ a, (![0, 464] : Fin 2 → Nat) a + S1x16.size a ≤ S8x1024.size a
  inb_S8x1024_S1x16_0_480 : ∀ a, (![0, 480] : Fin 2 → Nat) a + S1x16.size a ≤ S8x1024.size a
  inb_S8x1024_S1x16_0_496 : ∀ a, (![0, 496] : Fin 2 → Nat) a + S1x16.size a ≤ S8x1024.size a
  inb_S8x1024_S1x16_0_512 : ∀ a, (![0, 512] : Fin 2 → Nat) a + S1x16.size a ≤ S8x1024.size a
  inb_S8x1024_S1x16_0_528 : ∀ a, (![0, 528] : Fin 2 → Nat) a + S1x16.size a ≤ S8x1024.size a
  inb_S8x1024_S1x16_0_544 : ∀ a, (![0, 544] : Fin 2 → Nat) a + S1x16.size a ≤ S8x1024.size a
  inb_S8x1024_S1x16_0_560 : ∀ a, (![0, 560] : Fin 2 → Nat) a + S1x16.size a ≤ S8x1024.size a
  inb_S8x1024_S1x16_0_576 : ∀ a, (![0, 576] : Fin 2 → Nat) a + S1x16.size a ≤ S8x1024.size a
  inb_S8x1024_S1x16_0_592 : ∀ a, (![0, 592] : Fin 2 → Nat) a + S1x16.size a ≤ S8x1024.size a
  inb_S8x1024_S1x16_0_608 : ∀ a, (![0, 608] : Fin 2 → Nat) a + S1x16.size a ≤ S8x1024.size a
  inb_S8x1024_S1x16_0_624 : ∀ a, (![0, 624] : Fin 2 → Nat) a + S1x16.size a ≤ S8x1024.size a
  inb_S8x1024_S1x16_0_640 : ∀ a, (![0, 640] : Fin 2 → Nat) a + S1x16.size a ≤ S8x1024.size a
  inb_S8x1024_S1x16_0_656 : ∀ a, (![0, 656] : Fin 2 → Nat) a + S1x16.size a ≤ S8x1024.size a
  inb_S8x1024_S1x16_0_672 : ∀ a, (![0, 672] : Fin 2 → Nat) a + S1x16.size a ≤ S8x1024.size a
  inb_S8x1024_S1x16_0_688 : ∀ a, (![0, 688] : Fin 2 → Nat) a + S1x16.size a ≤ S8x1024.size a
  inb_S8x1024_S1x16_0_704 : ∀ a, (![0, 704] : Fin 2 → Nat) a + S1x16.size a ≤ S8x1024.size a
  inb_S8x1024_S1x16_0_720 : ∀ a, (![0, 720] : Fin 2 → Nat) a + S1x16.size a ≤ S8x1024.size a
  inb_S8x1024_S1x16_0_736 : ∀ a, (![0, 736] : Fin 2 → Nat) a + S1x16.size a ≤ S8x1024.size a
  inb_S8x1024_S1x16_0_752 : ∀ a, (![0, 752] : Fin 2 → Nat) a + S1x16.size a ≤ S8x1024.size a
  inb_S8x1024_S1x16_0_768 : ∀ a, (![0, 768] : Fin 2 → Nat) a + S1x16.size a ≤ S8x1024.size a
  inb_S8x1024_S1x16_0_784 : ∀ a, (![0, 784] : Fin 2 → Nat) a + S1x16.size a ≤ S8x1024.size a
  inb_S8x1024_S1x16_0_800 : ∀ a, (![0, 800] : Fin 2 → Nat) a + S1x16.size a ≤ S8x1024.size a
  inb_S8x1024_S1x16_0_816 : ∀ a, (![0, 816] : Fin 2 → Nat) a + S1x16.size a ≤ S8x1024.size a
  inb_S8x1024_S1x16_0_832 : ∀ a, (![0, 832] : Fin 2 → Nat) a + S1x16.size a ≤ S8x1024.size a
  inb_S8x1024_S1x16_0_848 : ∀ a, (![0, 848] : Fin 2 → Nat) a + S1x16.size a ≤ S8x1024.size a
  inb_S8x1024_S1x16_0_864 : ∀ a, (![0, 864] : Fin 2 → Nat) a + S1x16.size a ≤ S8x1024.size a
  inb_S8x1024_S1x16_0_880 : ∀ a, (![0, 880] : Fin 2 → Nat) a + S1x16.size a ≤ S8x1024.size a
  inb_S8x1024_S1x16_0_896 : ∀ a, (![0, 896] : Fin 2 → Nat) a + S1x16.size a ≤ S8x1024.size a
  inb_S8x1024_S1x16_0_912 : ∀ a, (![0, 912] : Fin 2 → Nat) a + S1x16.size a ≤ S8x1024.size a
  inb_S8x1024_S1x16_0_928 : ∀ a, (![0, 928] : Fin 2 → Nat) a + S1x16.size a ≤ S8x1024.size a
  inb_S8x1024_S1x16_0_944 : ∀ a, (![0, 944] : Fin 2 → Nat) a + S1x16.size a ≤ S8x1024.size a
  inb_S8x1024_S1x16_0_960 : ∀ a, (![0, 960] : Fin 2 → Nat) a + S1x16.size a ≤ S8x1024.size a
  inb_S8x1024_S1x16_0_976 : ∀ a, (![0, 976] : Fin 2 → Nat) a + S1x16.size a ≤ S8x1024.size a
  inb_S8x1024_S1x16_0_992 : ∀ a, (![0, 992] : Fin 2 → Nat) a + S1x16.size a ≤ S8x1024.size a
  inb_S8x1024_S1x16_0_1008 : ∀ a, (![0, 1008] : Fin 2 → Nat) a + S1x16.size a ≤ S8x1024.size a
  inb_S8x1024_S1x16_1_0 : ∀ a, (![1, 0] : Fin 2 → Nat) a + S1x16.size a ≤ S8x1024.size a
  inb_S8x1024_S1x16_1_16 : ∀ a, (![1, 16] : Fin 2 → Nat) a + S1x16.size a ≤ S8x1024.size a
  inb_S8x1024_S1x16_1_32 : ∀ a, (![1, 32] : Fin 2 → Nat) a + S1x16.size a ≤ S8x1024.size a
  inb_S8x1024_S1x16_1_48 : ∀ a, (![1, 48] : Fin 2 → Nat) a + S1x16.size a ≤ S8x1024.size a
  inb_S8x1024_S1x16_1_64 : ∀ a, (![1, 64] : Fin 2 → Nat) a + S1x16.size a ≤ S8x1024.size a
  inb_S8x1024_S1x16_1_80 : ∀ a, (![1, 80] : Fin 2 → Nat) a + S1x16.size a ≤ S8x1024.size a
  inb_S8x1024_S1x16_1_96 : ∀ a, (![1, 96] : Fin 2 → Nat) a + S1x16.size a ≤ S8x1024.size a
  inb_S8x1024_S1x16_1_112 : ∀ a, (![1, 112] : Fin 2 → Nat) a + S1x16.size a ≤ S8x1024.size a
  inb_S8x1024_S1x16_1_128 : ∀ a, (![1, 128] : Fin 2 → Nat) a + S1x16.size a ≤ S8x1024.size a
  inb_S8x1024_S1x16_1_144 : ∀ a, (![1, 144] : Fin 2 → Nat) a + S1x16.size a ≤ S8x1024.size a
  inb_S8x1024_S1x16_1_160 : ∀ a, (![1, 160] : Fin 2 → Nat) a + S1x16.size a ≤ S8x1024.size a
  inb_S8x1024_S1x16_1_176 : ∀ a, (![1, 176] : Fin 2 → Nat) a + S1x16.size a ≤ S8x1024.size a
  inb_S8x1024_S1x16_1_192 : ∀ a, (![1, 192] : Fin 2 → Nat) a + S1x16.size a ≤ S8x1024.size a
  inb_S8x1024_S1x16_1_208 : ∀ a, (![1, 208] : Fin 2 → Nat) a + S1x16.size a ≤ S8x1024.size a
  inb_S8x1024_S1x16_1_224 : ∀ a, (![1, 224] : Fin 2 → Nat) a + S1x16.size a ≤ S8x1024.size a
  inb_S8x1024_S1x16_1_240 : ∀ a, (![1, 240] : Fin 2 → Nat) a + S1x16.size a ≤ S8x1024.size a
  inb_S8x1024_S1x16_1_256 : ∀ a, (![1, 256] : Fin 2 → Nat) a + S1x16.size a ≤ S8x1024.size a
  inb_S8x1024_S1x16_1_272 : ∀ a, (![1, 272] : Fin 2 → Nat) a + S1x16.size a ≤ S8x1024.size a
  inb_S8x1024_S1x16_1_288 : ∀ a, (![1, 288] : Fin 2 → Nat) a + S1x16.size a ≤ S8x1024.size a
  inb_S8x1024_S1x16_1_304 : ∀ a, (![1, 304] : Fin 2 → Nat) a + S1x16.size a ≤ S8x1024.size a
  inb_S8x1024_S1x16_1_320 : ∀ a, (![1, 320] : Fin 2 → Nat) a + S1x16.size a ≤ S8x1024.size a
  inb_S8x1024_S1x16_1_336 : ∀ a, (![1, 336] : Fin 2 → Nat) a + S1x16.size a ≤ S8x1024.size a
  inb_S8x1024_S1x16_1_352 : ∀ a, (![1, 352] : Fin 2 → Nat) a + S1x16.size a ≤ S8x1024.size a
  inb_S8x1024_S1x16_1_368 : ∀ a, (![1, 368] : Fin 2 → Nat) a + S1x16.size a ≤ S8x1024.size a
  inb_S8x1024_S1x16_1_384 : ∀ a, (![1, 384] : Fin 2 → Nat) a + S1x16.size a ≤ S8x1024.size a
  inb_S8x1024_S1x16_1_400 : ∀ a, (![1, 400] : Fin 2 → Nat) a + S1x16.size a ≤ S8x1024.size a
  inb_S8x1024_S1x16_1_416 : ∀ a, (![1, 416] : Fin 2 → Nat) a + S1x16.size a ≤ S8x1024.size a
  inb_S8x1024_S1x16_1_432 : ∀ a, (![1, 432] : Fin 2 → Nat) a + S1x16.size a ≤ S8x1024.size a
  inb_S8x1024_S1x16_1_448 : ∀ a, (![1, 448] : Fin 2 → Nat) a + S1x16.size a ≤ S8x1024.size a
  inb_S8x1024_S1x16_1_464 : ∀ a, (![1, 464] : Fin 2 → Nat) a + S1x16.size a ≤ S8x1024.size a
  inb_S8x1024_S1x16_1_480 : ∀ a, (![1, 480] : Fin 2 → Nat) a + S1x16.size a ≤ S8x1024.size a
  inb_S8x1024_S1x16_1_496 : ∀ a, (![1, 496] : Fin 2 → Nat) a + S1x16.size a ≤ S8x1024.size a
  inb_S8x1024_S1x16_1_512 : ∀ a, (![1, 512] : Fin 2 → Nat) a + S1x16.size a ≤ S8x1024.size a
  inb_S8x1024_S1x16_1_528 : ∀ a, (![1, 528] : Fin 2 → Nat) a + S1x16.size a ≤ S8x1024.size a
  inb_S8x1024_S1x16_1_544 : ∀ a, (![1, 544] : Fin 2 → Nat) a + S1x16.size a ≤ S8x1024.size a
  inb_S8x1024_S1x16_1_560 : ∀ a, (![1, 560] : Fin 2 → Nat) a + S1x16.size a ≤ S8x1024.size a
  inb_S8x1024_S1x16_1_576 : ∀ a, (![1, 576] : Fin 2 → Nat) a + S1x16.size a ≤ S8x1024.size a
  inb_S8x1024_S1x16_1_592 : ∀ a, (![1, 592] : Fin 2 → Nat) a + S1x16.size a ≤ S8x1024.size a
  inb_S8x1024_S1x16_1_608 : ∀ a, (![1, 608] : Fin 2 → Nat) a + S1x16.size a ≤ S8x1024.size a
  inb_S8x1024_S1x16_1_624 : ∀ a, (![1, 624] : Fin 2 → Nat) a + S1x16.size a ≤ S8x1024.size a
  inb_S8x1024_S1x16_1_640 : ∀ a, (![1, 640] : Fin 2 → Nat) a + S1x16.size a ≤ S8x1024.size a
  inb_S8x1024_S1x16_1_656 : ∀ a, (![1, 656] : Fin 2 → Nat) a + S1x16.size a ≤ S8x1024.size a
  inb_S8x1024_S1x16_1_672 : ∀ a, (![1, 672] : Fin 2 → Nat) a + S1x16.size a ≤ S8x1024.size a
  inb_S8x1024_S1x16_1_688 : ∀ a, (![1, 688] : Fin 2 → Nat) a + S1x16.size a ≤ S8x1024.size a
  inb_S8x1024_S1x16_1_704 : ∀ a, (![1, 704] : Fin 2 → Nat) a + S1x16.size a ≤ S8x1024.size a
  inb_S8x1024_S1x16_1_720 : ∀ a, (![1, 720] : Fin 2 → Nat) a + S1x16.size a ≤ S8x1024.size a
  inb_S8x1024_S1x16_1_736 : ∀ a, (![1, 736] : Fin 2 → Nat) a + S1x16.size a ≤ S8x1024.size a
  inb_S8x1024_S1x16_1_752 : ∀ a, (![1, 752] : Fin 2 → Nat) a + S1x16.size a ≤ S8x1024.size a
  inb_S8x1024_S1x16_1_768 : ∀ a, (![1, 768] : Fin 2 → Nat) a + S1x16.size a ≤ S8x1024.size a
  inb_S8x1024_S1x16_1_784 : ∀ a, (![1, 784] : Fin 2 → Nat) a + S1x16.size a ≤ S8x1024.size a
  inb_S8x1024_S1x16_1_800 : ∀ a, (![1, 800] : Fin 2 → Nat) a + S1x16.size a ≤ S8x1024.size a
  inb_S8x1024_S1x16_1_816 : ∀ a, (![1, 816] : Fin 2 → Nat) a + S1x16.size a ≤ S8x1024.size a
  inb_S8x1024_S1x16_1_832 : ∀ a, (![1, 832] : Fin 2 → Nat) a + S1x16.size a ≤ S8x1024.size a
  inb_S8x1024_S1x16_1_848 : ∀ a, (![1, 848] : Fin 2 → Nat) a + S1x16.size a ≤ S8x1024.size a
  inb_S8x1024_S1x16_1_864 : ∀ a, (![1, 864] : Fin 2 → Nat) a + S1x16.size a ≤ S8x1024.size a
  inb_S8x1024_S1x16_1_880 : ∀ a, (![1, 880] : Fin 2 → Nat) a + S1x16.size a ≤ S8x1024.size a
  inb_S8x1024_S1x16_1_896 : ∀ a, (![1, 896] : Fin 2 → Nat) a + S1x16.size a ≤ S8x1024.size a
  inb_S8x1024_S1x16_1_912 : ∀ a, (![1, 912] : Fin 2 → Nat) a + S1x16.size a ≤ S8x1024.size a
  inb_S8x1024_S1x16_1_928 : ∀ a, (![1, 928] : Fin 2 → Nat) a + S1x16.size a ≤ S8x1024.size a
  inb_S8x1024_S1x16_1_944 : ∀ a, (![1, 944] : Fin 2 → Nat) a + S1x16.size a ≤ S8x1024.size a
  inb_S8x1024_S1x16_1_960 : ∀ a, (![1, 960] : Fin 2 → Nat) a + S1x16.size a ≤ S8x1024.size a
  inb_S8x1024_S1x16_1_976 : ∀ a, (![1, 976] : Fin 2 → Nat) a + S1x16.size a ≤ S8x1024.size a
  inb_S8x1024_S1x16_1_992 : ∀ a, (![1, 992] : Fin 2 → Nat) a + S1x16.size a ≤ S8x1024.size a
  inb_S8x1024_S1x16_1_1008 : ∀ a, (![1, 1008] : Fin 2 → Nat) a + S1x16.size a ≤ S8x1024.size a
  inb_S8x1024_S1x16_2_0 : ∀ a, (![2, 0] : Fin 2 → Nat) a + S1x16.size a ≤ S8x1024.size a
  inb_S8x1024_S1x16_2_16 : ∀ a, (![2, 16] : Fin 2 → Nat) a + S1x16.size a ≤ S8x1024.size a
  inb_S8x1024_S1x16_2_32 : ∀ a, (![2, 32] : Fin 2 → Nat) a + S1x16.size a ≤ S8x1024.size a
  inb_S8x1024_S1x16_2_48 : ∀ a, (![2, 48] : Fin 2 → Nat) a + S1x16.size a ≤ S8x1024.size a
  inb_S8x1024_S1x16_2_64 : ∀ a, (![2, 64] : Fin 2 → Nat) a + S1x16.size a ≤ S8x1024.size a
  inb_S8x1024_S1x16_2_80 : ∀ a, (![2, 80] : Fin 2 → Nat) a + S1x16.size a ≤ S8x1024.size a
  inb_S8x1024_S1x16_2_96 : ∀ a, (![2, 96] : Fin 2 → Nat) a + S1x16.size a ≤ S8x1024.size a
  inb_S8x1024_S1x16_2_112 : ∀ a, (![2, 112] : Fin 2 → Nat) a + S1x16.size a ≤ S8x1024.size a
  inb_S8x1024_S1x16_2_128 : ∀ a, (![2, 128] : Fin 2 → Nat) a + S1x16.size a ≤ S8x1024.size a
  inb_S8x1024_S1x16_2_144 : ∀ a, (![2, 144] : Fin 2 → Nat) a + S1x16.size a ≤ S8x1024.size a
  inb_S8x1024_S1x16_2_160 : ∀ a, (![2, 160] : Fin 2 → Nat) a + S1x16.size a ≤ S8x1024.size a
  inb_S8x1024_S1x16_2_176 : ∀ a, (![2, 176] : Fin 2 → Nat) a + S1x16.size a ≤ S8x1024.size a
  inb_S8x1024_S1x16_2_192 : ∀ a, (![2, 192] : Fin 2 → Nat) a + S1x16.size a ≤ S8x1024.size a
  inb_S8x1024_S1x16_2_208 : ∀ a, (![2, 208] : Fin 2 → Nat) a + S1x16.size a ≤ S8x1024.size a
  inb_S8x1024_S1x16_2_224 : ∀ a, (![2, 224] : Fin 2 → Nat) a + S1x16.size a ≤ S8x1024.size a
  inb_S8x1024_S1x16_2_240 : ∀ a, (![2, 240] : Fin 2 → Nat) a + S1x16.size a ≤ S8x1024.size a
  inb_S8x1024_S1x16_2_256 : ∀ a, (![2, 256] : Fin 2 → Nat) a + S1x16.size a ≤ S8x1024.size a
  inb_S8x1024_S1x16_2_272 : ∀ a, (![2, 272] : Fin 2 → Nat) a + S1x16.size a ≤ S8x1024.size a
  inb_S8x1024_S1x16_2_288 : ∀ a, (![2, 288] : Fin 2 → Nat) a + S1x16.size a ≤ S8x1024.size a
  inb_S8x1024_S1x16_2_304 : ∀ a, (![2, 304] : Fin 2 → Nat) a + S1x16.size a ≤ S8x1024.size a
  inb_S8x1024_S1x16_2_320 : ∀ a, (![2, 320] : Fin 2 → Nat) a + S1x16.size a ≤ S8x1024.size a
  inb_S8x1024_S1x16_2_336 : ∀ a, (![2, 336] : Fin 2 → Nat) a + S1x16.size a ≤ S8x1024.size a
  inb_S8x1024_S1x16_2_352 : ∀ a, (![2, 352] : Fin 2 → Nat) a + S1x16.size a ≤ S8x1024.size a
  inb_S8x1024_S1x16_2_368 : ∀ a, (![2, 368] : Fin 2 → Nat) a + S1x16.size a ≤ S8x1024.size a
  inb_S8x1024_S1x16_2_384 : ∀ a, (![2, 384] : Fin 2 → Nat) a + S1x16.size a ≤ S8x1024.size a
  inb_S8x1024_S1x16_2_400 : ∀ a, (![2, 400] : Fin 2 → Nat) a + S1x16.size a ≤ S8x1024.size a
  inb_S8x1024_S1x16_2_416 : ∀ a, (![2, 416] : Fin 2 → Nat) a + S1x16.size a ≤ S8x1024.size a
  inb_S8x1024_S1x16_2_432 : ∀ a, (![2, 432] : Fin 2 → Nat) a + S1x16.size a ≤ S8x1024.size a
  inb_S8x1024_S1x16_2_448 : ∀ a, (![2, 448] : Fin 2 → Nat) a + S1x16.size a ≤ S8x1024.size a
  inb_S8x1024_S1x16_2_464 : ∀ a, (![2, 464] : Fin 2 → Nat) a + S1x16.size a ≤ S8x1024.size a
  inb_S8x1024_S1x16_2_480 : ∀ a, (![2, 480] : Fin 2 → Nat) a + S1x16.size a ≤ S8x1024.size a
  inb_S8x1024_S1x16_2_496 : ∀ a, (![2, 496] : Fin 2 → Nat) a + S1x16.size a ≤ S8x1024.size a
  inb_S8x1024_S1x16_2_512 : ∀ a, (![2, 512] : Fin 2 → Nat) a + S1x16.size a ≤ S8x1024.size a
  inb_S8x1024_S1x16_2_528 : ∀ a, (![2, 528] : Fin 2 → Nat) a + S1x16.size a ≤ S8x1024.size a
  inb_S8x1024_S1x16_2_544 : ∀ a, (![2, 544] : Fin 2 → Nat) a + S1x16.size a ≤ S8x1024.size a
  inb_S8x1024_S1x16_2_560 : ∀ a, (![2, 560] : Fin 2 → Nat) a + S1x16.size a ≤ S8x1024.size a
  inb_S8x1024_S1x16_2_576 : ∀ a, (![2, 576] : Fin 2 → Nat) a + S1x16.size a ≤ S8x1024.size a
  inb_S8x1024_S1x16_2_592 : ∀ a, (![2, 592] : Fin 2 → Nat) a + S1x16.size a ≤ S8x1024.size a
  inb_S8x1024_S1x16_2_608 : ∀ a, (![2, 608] : Fin 2 → Nat) a + S1x16.size a ≤ S8x1024.size a
  inb_S8x1024_S1x16_2_624 : ∀ a, (![2, 624] : Fin 2 → Nat) a + S1x16.size a ≤ S8x1024.size a
  inb_S8x1024_S1x16_2_640 : ∀ a, (![2, 640] : Fin 2 → Nat) a + S1x16.size a ≤ S8x1024.size a
  inb_S8x1024_S1x16_2_656 : ∀ a, (![2, 656] : Fin 2 → Nat) a + S1x16.size a ≤ S8x1024.size a
  inb_S8x1024_S1x16_2_672 : ∀ a, (![2, 672] : Fin 2 → Nat) a + S1x16.size a ≤ S8x1024.size a
  inb_S8x1024_S1x16_2_688 : ∀ a, (![2, 688] : Fin 2 → Nat) a + S1x16.size a ≤ S8x1024.size a
  inb_S8x1024_S1x16_2_704 : ∀ a, (![2, 704] : Fin 2 → Nat) a + S1x16.size a ≤ S8x1024.size a
  inb_S8x1024_S1x16_2_720 : ∀ a, (![2, 720] : Fin 2 → Nat) a + S1x16.size a ≤ S8x1024.size a
  inb_S8x1024_S1x16_2_736 : ∀ a, (![2, 736] : Fin 2 → Nat) a + S1x16.size a ≤ S8x1024.size a
  inb_S8x1024_S1x16_2_752 : ∀ a, (![2, 752] : Fin 2 → Nat) a + S1x16.size a ≤ S8x1024.size a
  inb_S8x1024_S1x16_2_768 : ∀ a, (![2, 768] : Fin 2 → Nat) a + S1x16.size a ≤ S8x1024.size a
  inb_S8x1024_S1x16_2_784 : ∀ a, (![2, 784] : Fin 2 → Nat) a + S1x16.size a ≤ S8x1024.size a
  inb_S8x1024_S1x16_2_800 : ∀ a, (![2, 800] : Fin 2 → Nat) a + S1x16.size a ≤ S8x1024.size a
  inb_S8x1024_S1x16_2_816 : ∀ a, (![2, 816] : Fin 2 → Nat) a + S1x16.size a ≤ S8x1024.size a
  inb_S8x1024_S1x16_2_832 : ∀ a, (![2, 832] : Fin 2 → Nat) a + S1x16.size a ≤ S8x1024.size a
  inb_S8x1024_S1x16_2_848 : ∀ a, (![2, 848] : Fin 2 → Nat) a + S1x16.size a ≤ S8x1024.size a
  inb_S8x1024_S1x16_2_864 : ∀ a, (![2, 864] : Fin 2 → Nat) a + S1x16.size a ≤ S8x1024.size a
  inb_S8x1024_S1x16_2_880 : ∀ a, (![2, 880] : Fin 2 → Nat) a + S1x16.size a ≤ S8x1024.size a
  inb_S8x1024_S1x16_2_896 : ∀ a, (![2, 896] : Fin 2 → Nat) a + S1x16.size a ≤ S8x1024.size a
  inb_S8x1024_S1x16_2_912 : ∀ a, (![2, 912] : Fin 2 → Nat) a + S1x16.size a ≤ S8x1024.size a
  inb_S8x1024_S1x16_2_928 : ∀ a, (![2, 928] : Fin 2 → Nat) a + S1x16.size a ≤ S8x1024.size a
  inb_S8x1024_S1x16_2_944 : ∀ a, (![2, 944] : Fin 2 → Nat) a + S1x16.size a ≤ S8x1024.size a
  inb_S8x1024_S1x16_2_960 : ∀ a, (![2, 960] : Fin 2 → Nat) a + S1x16.size a ≤ S8x1024.size a
  inb_S8x1024_S1x16_2_976 : ∀ a, (![2, 976] : Fin 2 → Nat) a + S1x16.size a ≤ S8x1024.size a
  inb_S8x1024_S1x16_2_992 : ∀ a, (![2, 992] : Fin 2 → Nat) a + S1x16.size a ≤ S8x1024.size a
  inb_S8x1024_S1x16_2_1008 : ∀ a, (![2, 1008] : Fin 2 → Nat) a + S1x16.size a ≤ S8x1024.size a
  inb_S8x1024_S1x16_3_0 : ∀ a, (![3, 0] : Fin 2 → Nat) a + S1x16.size a ≤ S8x1024.size a
  inb_S8x1024_S1x16_3_16 : ∀ a, (![3, 16] : Fin 2 → Nat) a + S1x16.size a ≤ S8x1024.size a
  inb_S8x1024_S1x16_3_32 : ∀ a, (![3, 32] : Fin 2 → Nat) a + S1x16.size a ≤ S8x1024.size a
  inb_S8x1024_S1x16_3_48 : ∀ a, (![3, 48] : Fin 2 → Nat) a + S1x16.size a ≤ S8x1024.size a
  inb_S8x1024_S1x16_3_64 : ∀ a, (![3, 64] : Fin 2 → Nat) a + S1x16.size a ≤ S8x1024.size a
  inb_S8x1024_S1x16_3_80 : ∀ a, (![3, 80] : Fin 2 → Nat) a + S1x16.size a ≤ S8x1024.size a
  inb_S8x1024_S1x16_3_96 : ∀ a, (![3, 96] : Fin 2 → Nat) a + S1x16.size a ≤ S8x1024.size a
  inb_S8x1024_S1x16_3_112 : ∀ a, (![3, 112] : Fin 2 → Nat) a + S1x16.size a ≤ S8x1024.size a
  inb_S8x1024_S1x16_3_128 : ∀ a, (![3, 128] : Fin 2 → Nat) a + S1x16.size a ≤ S8x1024.size a
  inb_S8x1024_S1x16_3_144 : ∀ a, (![3, 144] : Fin 2 → Nat) a + S1x16.size a ≤ S8x1024.size a
  inb_S8x1024_S1x16_3_160 : ∀ a, (![3, 160] : Fin 2 → Nat) a + S1x16.size a ≤ S8x1024.size a
  inb_S8x1024_S1x16_3_176 : ∀ a, (![3, 176] : Fin 2 → Nat) a + S1x16.size a ≤ S8x1024.size a
  inb_S8x1024_S1x16_3_192 : ∀ a, (![3, 192] : Fin 2 → Nat) a + S1x16.size a ≤ S8x1024.size a
  inb_S8x1024_S1x16_3_208 : ∀ a, (![3, 208] : Fin 2 → Nat) a + S1x16.size a ≤ S8x1024.size a
  inb_S8x1024_S1x16_3_224 : ∀ a, (![3, 224] : Fin 2 → Nat) a + S1x16.size a ≤ S8x1024.size a
  inb_S8x1024_S1x16_3_240 : ∀ a, (![3, 240] : Fin 2 → Nat) a + S1x16.size a ≤ S8x1024.size a
  inb_S8x1024_S1x16_3_256 : ∀ a, (![3, 256] : Fin 2 → Nat) a + S1x16.size a ≤ S8x1024.size a
  inb_S8x1024_S1x16_3_272 : ∀ a, (![3, 272] : Fin 2 → Nat) a + S1x16.size a ≤ S8x1024.size a
  inb_S8x1024_S1x16_3_288 : ∀ a, (![3, 288] : Fin 2 → Nat) a + S1x16.size a ≤ S8x1024.size a
  inb_S8x1024_S1x16_3_304 : ∀ a, (![3, 304] : Fin 2 → Nat) a + S1x16.size a ≤ S8x1024.size a
  inb_S8x1024_S1x16_3_320 : ∀ a, (![3, 320] : Fin 2 → Nat) a + S1x16.size a ≤ S8x1024.size a
  inb_S8x1024_S1x16_3_336 : ∀ a, (![3, 336] : Fin 2 → Nat) a + S1x16.size a ≤ S8x1024.size a
  inb_S8x1024_S1x16_3_352 : ∀ a, (![3, 352] : Fin 2 → Nat) a + S1x16.size a ≤ S8x1024.size a
  inb_S8x1024_S1x16_3_368 : ∀ a, (![3, 368] : Fin 2 → Nat) a + S1x16.size a ≤ S8x1024.size a
  inb_S8x1024_S1x16_3_384 : ∀ a, (![3, 384] : Fin 2 → Nat) a + S1x16.size a ≤ S8x1024.size a
  inb_S8x1024_S1x16_3_400 : ∀ a, (![3, 400] : Fin 2 → Nat) a + S1x16.size a ≤ S8x1024.size a
  inb_S8x1024_S1x16_3_416 : ∀ a, (![3, 416] : Fin 2 → Nat) a + S1x16.size a ≤ S8x1024.size a
  inb_S8x1024_S1x16_3_432 : ∀ a, (![3, 432] : Fin 2 → Nat) a + S1x16.size a ≤ S8x1024.size a
  inb_S8x1024_S1x16_3_448 : ∀ a, (![3, 448] : Fin 2 → Nat) a + S1x16.size a ≤ S8x1024.size a
  inb_S8x1024_S1x16_3_464 : ∀ a, (![3, 464] : Fin 2 → Nat) a + S1x16.size a ≤ S8x1024.size a
  inb_S8x1024_S1x16_3_480 : ∀ a, (![3, 480] : Fin 2 → Nat) a + S1x16.size a ≤ S8x1024.size a
  inb_S8x1024_S1x16_3_496 : ∀ a, (![3, 496] : Fin 2 → Nat) a + S1x16.size a ≤ S8x1024.size a
  inb_S8x1024_S1x16_3_512 : ∀ a, (![3, 512] : Fin 2 → Nat) a + S1x16.size a ≤ S8x1024.size a
  inb_S8x1024_S1x16_3_528 : ∀ a, (![3, 528] : Fin 2 → Nat) a + S1x16.size a ≤ S8x1024.size a
  inb_S8x1024_S1x16_3_544 : ∀ a, (![3, 544] : Fin 2 → Nat) a + S1x16.size a ≤ S8x1024.size a
  inb_S8x1024_S1x16_3_560 : ∀ a, (![3, 560] : Fin 2 → Nat) a + S1x16.size a ≤ S8x1024.size a
  inb_S8x1024_S1x16_3_576 : ∀ a, (![3, 576] : Fin 2 → Nat) a + S1x16.size a ≤ S8x1024.size a
  inb_S8x1024_S1x16_3_592 : ∀ a, (![3, 592] : Fin 2 → Nat) a + S1x16.size a ≤ S8x1024.size a
  inb_S8x1024_S1x16_3_608 : ∀ a, (![3, 608] : Fin 2 → Nat) a + S1x16.size a ≤ S8x1024.size a
  inb_S8x1024_S1x16_3_624 : ∀ a, (![3, 624] : Fin 2 → Nat) a + S1x16.size a ≤ S8x1024.size a
  inb_S8x1024_S1x16_3_640 : ∀ a, (![3, 640] : Fin 2 → Nat) a + S1x16.size a ≤ S8x1024.size a
  inb_S8x1024_S1x16_3_656 : ∀ a, (![3, 656] : Fin 2 → Nat) a + S1x16.size a ≤ S8x1024.size a
  inb_S8x1024_S1x16_3_672 : ∀ a, (![3, 672] : Fin 2 → Nat) a + S1x16.size a ≤ S8x1024.size a
  inb_S8x1024_S1x16_3_688 : ∀ a, (![3, 688] : Fin 2 → Nat) a + S1x16.size a ≤ S8x1024.size a
  inb_S8x1024_S1x16_3_704 : ∀ a, (![3, 704] : Fin 2 → Nat) a + S1x16.size a ≤ S8x1024.size a
  inb_S8x1024_S1x16_3_720 : ∀ a, (![3, 720] : Fin 2 → Nat) a + S1x16.size a ≤ S8x1024.size a
  inb_S8x1024_S1x16_3_736 : ∀ a, (![3, 736] : Fin 2 → Nat) a + S1x16.size a ≤ S8x1024.size a
  inb_S8x1024_S1x16_3_752 : ∀ a, (![3, 752] : Fin 2 → Nat) a + S1x16.size a ≤ S8x1024.size a
  inb_S8x1024_S1x16_3_768 : ∀ a, (![3, 768] : Fin 2 → Nat) a + S1x16.size a ≤ S8x1024.size a
  inb_S8x1024_S1x16_3_784 : ∀ a, (![3, 784] : Fin 2 → Nat) a + S1x16.size a ≤ S8x1024.size a
  inb_S8x1024_S1x16_3_800 : ∀ a, (![3, 800] : Fin 2 → Nat) a + S1x16.size a ≤ S8x1024.size a
  inb_S8x1024_S1x16_3_816 : ∀ a, (![3, 816] : Fin 2 → Nat) a + S1x16.size a ≤ S8x1024.size a
  inb_S8x1024_S1x16_3_832 : ∀ a, (![3, 832] : Fin 2 → Nat) a + S1x16.size a ≤ S8x1024.size a
  inb_S8x1024_S1x16_3_848 : ∀ a, (![3, 848] : Fin 2 → Nat) a + S1x16.size a ≤ S8x1024.size a
  inb_S8x1024_S1x16_3_864 : ∀ a, (![3, 864] : Fin 2 → Nat) a + S1x16.size a ≤ S8x1024.size a
  inb_S8x1024_S1x16_3_880 : ∀ a, (![3, 880] : Fin 2 → Nat) a + S1x16.size a ≤ S8x1024.size a
  inb_S8x1024_S1x16_3_896 : ∀ a, (![3, 896] : Fin 2 → Nat) a + S1x16.size a ≤ S8x1024.size a
  inb_S8x1024_S1x16_3_912 : ∀ a, (![3, 912] : Fin 2 → Nat) a + S1x16.size a ≤ S8x1024.size a
  inb_S8x1024_S1x16_3_928 : ∀ a, (![3, 928] : Fin 2 → Nat) a + S1x16.size a ≤ S8x1024.size a
  inb_S8x1024_S1x16_3_944 : ∀ a, (![3, 944] : Fin 2 → Nat) a + S1x16.size a ≤ S8x1024.size a
  inb_S8x1024_S1x16_3_960 : ∀ a, (![3, 960] : Fin 2 → Nat) a + S1x16.size a ≤ S8x1024.size a
  inb_S8x1024_S1x16_3_976 : ∀ a, (![3, 976] : Fin 2 → Nat) a + S1x16.size a ≤ S8x1024.size a
  inb_S8x1024_S1x16_3_992 : ∀ a, (![3, 992] : Fin 2 → Nat) a + S1x16.size a ≤ S8x1024.size a
  inb_S8x1024_S1x16_3_1008 : ∀ a, (![3, 1008] : Fin 2 → Nat) a + S1x16.size a ≤ S8x1024.size a
  inb_S8x1024_S1x16_4_0 : ∀ a, (![4, 0] : Fin 2 → Nat) a + S1x16.size a ≤ S8x1024.size a
  inb_S8x1024_S1x16_4_16 : ∀ a, (![4, 16] : Fin 2 → Nat) a + S1x16.size a ≤ S8x1024.size a
  inb_S8x1024_S1x16_4_32 : ∀ a, (![4, 32] : Fin 2 → Nat) a + S1x16.size a ≤ S8x1024.size a
  inb_S8x1024_S1x16_4_48 : ∀ a, (![4, 48] : Fin 2 → Nat) a + S1x16.size a ≤ S8x1024.size a
  inb_S8x1024_S1x16_4_64 : ∀ a, (![4, 64] : Fin 2 → Nat) a + S1x16.size a ≤ S8x1024.size a
  inb_S8x1024_S1x16_4_80 : ∀ a, (![4, 80] : Fin 2 → Nat) a + S1x16.size a ≤ S8x1024.size a
  inb_S8x1024_S1x16_4_96 : ∀ a, (![4, 96] : Fin 2 → Nat) a + S1x16.size a ≤ S8x1024.size a
  inb_S8x1024_S1x16_4_112 : ∀ a, (![4, 112] : Fin 2 → Nat) a + S1x16.size a ≤ S8x1024.size a
  inb_S8x1024_S1x16_4_128 : ∀ a, (![4, 128] : Fin 2 → Nat) a + S1x16.size a ≤ S8x1024.size a
  inb_S8x1024_S1x16_4_144 : ∀ a, (![4, 144] : Fin 2 → Nat) a + S1x16.size a ≤ S8x1024.size a
  inb_S8x1024_S1x16_4_160 : ∀ a, (![4, 160] : Fin 2 → Nat) a + S1x16.size a ≤ S8x1024.size a
  inb_S8x1024_S1x16_4_176 : ∀ a, (![4, 176] : Fin 2 → Nat) a + S1x16.size a ≤ S8x1024.size a
  inb_S8x1024_S1x16_4_192 : ∀ a, (![4, 192] : Fin 2 → Nat) a + S1x16.size a ≤ S8x1024.size a
  inb_S8x1024_S1x16_4_208 : ∀ a, (![4, 208] : Fin 2 → Nat) a + S1x16.size a ≤ S8x1024.size a
  inb_S8x1024_S1x16_4_224 : ∀ a, (![4, 224] : Fin 2 → Nat) a + S1x16.size a ≤ S8x1024.size a
  inb_S8x1024_S1x16_4_240 : ∀ a, (![4, 240] : Fin 2 → Nat) a + S1x16.size a ≤ S8x1024.size a
  inb_S8x1024_S1x16_4_256 : ∀ a, (![4, 256] : Fin 2 → Nat) a + S1x16.size a ≤ S8x1024.size a
  inb_S8x1024_S1x16_4_272 : ∀ a, (![4, 272] : Fin 2 → Nat) a + S1x16.size a ≤ S8x1024.size a
  inb_S8x1024_S1x16_4_288 : ∀ a, (![4, 288] : Fin 2 → Nat) a + S1x16.size a ≤ S8x1024.size a
  inb_S8x1024_S1x16_4_304 : ∀ a, (![4, 304] : Fin 2 → Nat) a + S1x16.size a ≤ S8x1024.size a
  inb_S8x1024_S1x16_4_320 : ∀ a, (![4, 320] : Fin 2 → Nat) a + S1x16.size a ≤ S8x1024.size a
  inb_S8x1024_S1x16_4_336 : ∀ a, (![4, 336] : Fin 2 → Nat) a + S1x16.size a ≤ S8x1024.size a
  inb_S8x1024_S1x16_4_352 : ∀ a, (![4, 352] : Fin 2 → Nat) a + S1x16.size a ≤ S8x1024.size a
  inb_S8x1024_S1x16_4_368 : ∀ a, (![4, 368] : Fin 2 → Nat) a + S1x16.size a ≤ S8x1024.size a
  inb_S8x1024_S1x16_4_384 : ∀ a, (![4, 384] : Fin 2 → Nat) a + S1x16.size a ≤ S8x1024.size a
  inb_S8x1024_S1x16_4_400 : ∀ a, (![4, 400] : Fin 2 → Nat) a + S1x16.size a ≤ S8x1024.size a
  inb_S8x1024_S1x16_4_416 : ∀ a, (![4, 416] : Fin 2 → Nat) a + S1x16.size a ≤ S8x1024.size a
  inb_S8x1024_S1x16_4_432 : ∀ a, (![4, 432] : Fin 2 → Nat) a + S1x16.size a ≤ S8x1024.size a
  inb_S8x1024_S1x16_4_448 : ∀ a, (![4, 448] : Fin 2 → Nat) a + S1x16.size a ≤ S8x1024.size a
  inb_S8x1024_S1x16_4_464 : ∀ a, (![4, 464] : Fin 2 → Nat) a + S1x16.size a ≤ S8x1024.size a
  inb_S8x1024_S1x16_4_480 : ∀ a, (![4, 480] : Fin 2 → Nat) a + S1x16.size a ≤ S8x1024.size a
  inb_S8x1024_S1x16_4_496 : ∀ a, (![4, 496] : Fin 2 → Nat) a + S1x16.size a ≤ S8x1024.size a
  inb_S8x1024_S1x16_4_512 : ∀ a, (![4, 512] : Fin 2 → Nat) a + S1x16.size a ≤ S8x1024.size a
  inb_S8x1024_S1x16_4_528 : ∀ a, (![4, 528] : Fin 2 → Nat) a + S1x16.size a ≤ S8x1024.size a
  inb_S8x1024_S1x16_4_544 : ∀ a, (![4, 544] : Fin 2 → Nat) a + S1x16.size a ≤ S8x1024.size a
  inb_S8x1024_S1x16_4_560 : ∀ a, (![4, 560] : Fin 2 → Nat) a + S1x16.size a ≤ S8x1024.size a
  inb_S8x1024_S1x16_4_576 : ∀ a, (![4, 576] : Fin 2 → Nat) a + S1x16.size a ≤ S8x1024.size a
  inb_S8x1024_S1x16_4_592 : ∀ a, (![4, 592] : Fin 2 → Nat) a + S1x16.size a ≤ S8x1024.size a
  inb_S8x1024_S1x16_4_608 : ∀ a, (![4, 608] : Fin 2 → Nat) a + S1x16.size a ≤ S8x1024.size a
  inb_S8x1024_S1x16_4_624 : ∀ a, (![4, 624] : Fin 2 → Nat) a + S1x16.size a ≤ S8x1024.size a
  inb_S8x1024_S1x16_4_640 : ∀ a, (![4, 640] : Fin 2 → Nat) a + S1x16.size a ≤ S8x1024.size a
  inb_S8x1024_S1x16_4_656 : ∀ a, (![4, 656] : Fin 2 → Nat) a + S1x16.size a ≤ S8x1024.size a
  inb_S8x1024_S1x16_4_672 : ∀ a, (![4, 672] : Fin 2 → Nat) a + S1x16.size a ≤ S8x1024.size a
  inb_S8x1024_S1x16_4_688 : ∀ a, (![4, 688] : Fin 2 → Nat) a + S1x16.size a ≤ S8x1024.size a
  inb_S8x1024_S1x16_4_704 : ∀ a, (![4, 704] : Fin 2 → Nat) a + S1x16.size a ≤ S8x1024.size a
  inb_S8x1024_S1x16_4_720 : ∀ a, (![4, 720] : Fin 2 → Nat) a + S1x16.size a ≤ S8x1024.size a
  inb_S8x1024_S1x16_4_736 : ∀ a, (![4, 736] : Fin 2 → Nat) a + S1x16.size a ≤ S8x1024.size a
  inb_S8x1024_S1x16_4_752 : ∀ a, (![4, 752] : Fin 2 → Nat) a + S1x16.size a ≤ S8x1024.size a
  inb_S8x1024_S1x16_4_768 : ∀ a, (![4, 768] : Fin 2 → Nat) a + S1x16.size a ≤ S8x1024.size a
  inb_S8x1024_S1x16_4_784 : ∀ a, (![4, 784] : Fin 2 → Nat) a + S1x16.size a ≤ S8x1024.size a
  inb_S8x1024_S1x16_4_800 : ∀ a, (![4, 800] : Fin 2 → Nat) a + S1x16.size a ≤ S8x1024.size a
  inb_S8x1024_S1x16_4_816 : ∀ a, (![4, 816] : Fin 2 → Nat) a + S1x16.size a ≤ S8x1024.size a
  inb_S8x1024_S1x16_4_832 : ∀ a, (![4, 832] : Fin 2 → Nat) a + S1x16.size a ≤ S8x1024.size a
  inb_S8x1024_S1x16_4_848 : ∀ a, (![4, 848] : Fin 2 → Nat) a + S1x16.size a ≤ S8x1024.size a
  inb_S8x1024_S1x16_4_864 : ∀ a, (![4, 864] : Fin 2 → Nat) a + S1x16.size a ≤ S8x1024.size a
  inb_S8x1024_S1x16_4_880 : ∀ a, (![4, 880] : Fin 2 → Nat) a + S1x16.size a ≤ S8x1024.size a
  inb_S8x1024_S1x16_4_896 : ∀ a, (![4, 896] : Fin 2 → Nat) a + S1x16.size a ≤ S8x1024.size a
  inb_S8x1024_S1x16_4_912 : ∀ a, (![4, 912] : Fin 2 → Nat) a + S1x16.size a ≤ S8x1024.size a
  inb_S8x1024_S1x16_4_928 : ∀ a, (![4, 928] : Fin 2 → Nat) a + S1x16.size a ≤ S8x1024.size a
  inb_S8x1024_S1x16_4_944 : ∀ a, (![4, 944] : Fin 2 → Nat) a + S1x16.size a ≤ S8x1024.size a
  inb_S8x1024_S1x16_4_960 : ∀ a, (![4, 960] : Fin 2 → Nat) a + S1x16.size a ≤ S8x1024.size a
  inb_S8x1024_S1x16_4_976 : ∀ a, (![4, 976] : Fin 2 → Nat) a + S1x16.size a ≤ S8x1024.size a
  inb_S8x1024_S1x16_4_992 : ∀ a, (![4, 992] : Fin 2 → Nat) a + S1x16.size a ≤ S8x1024.size a
  inb_S8x1024_S1x16_4_1008 : ∀ a, (![4, 1008] : Fin 2 → Nat) a + S1x16.size a ≤ S8x1024.size a
  inb_S8x1024_S1x16_5_0 : ∀ a, (![5, 0] : Fin 2 → Nat) a + S1x16.size a ≤ S8x1024.size a
  inb_S8x1024_S1x16_5_16 : ∀ a, (![5, 16] : Fin 2 → Nat) a + S1x16.size a ≤ S8x1024.size a
  inb_S8x1024_S1x16_5_32 : ∀ a, (![5, 32] : Fin 2 → Nat) a + S1x16.size a ≤ S8x1024.size a
  inb_S8x1024_S1x16_5_48 : ∀ a, (![5, 48] : Fin 2 → Nat) a + S1x16.size a ≤ S8x1024.size a
  inb_S8x1024_S1x16_5_64 : ∀ a, (![5, 64] : Fin 2 → Nat) a + S1x16.size a ≤ S8x1024.size a
  inb_S8x1024_S1x16_5_80 : ∀ a, (![5, 80] : Fin 2 → Nat) a + S1x16.size a ≤ S8x1024.size a
  inb_S8x1024_S1x16_5_96 : ∀ a, (![5, 96] : Fin 2 → Nat) a + S1x16.size a ≤ S8x1024.size a
  inb_S8x1024_S1x16_5_112 : ∀ a, (![5, 112] : Fin 2 → Nat) a + S1x16.size a ≤ S8x1024.size a
  inb_S8x1024_S1x16_5_128 : ∀ a, (![5, 128] : Fin 2 → Nat) a + S1x16.size a ≤ S8x1024.size a
  inb_S8x1024_S1x16_5_144 : ∀ a, (![5, 144] : Fin 2 → Nat) a + S1x16.size a ≤ S8x1024.size a
  inb_S8x1024_S1x16_5_160 : ∀ a, (![5, 160] : Fin 2 → Nat) a + S1x16.size a ≤ S8x1024.size a
  inb_S8x1024_S1x16_5_176 : ∀ a, (![5, 176] : Fin 2 → Nat) a + S1x16.size a ≤ S8x1024.size a
  inb_S8x1024_S1x16_5_192 : ∀ a, (![5, 192] : Fin 2 → Nat) a + S1x16.size a ≤ S8x1024.size a
  inb_S8x1024_S1x16_5_208 : ∀ a, (![5, 208] : Fin 2 → Nat) a + S1x16.size a ≤ S8x1024.size a
  inb_S8x1024_S1x16_5_224 : ∀ a, (![5, 224] : Fin 2 → Nat) a + S1x16.size a ≤ S8x1024.size a
  inb_S8x1024_S1x16_5_240 : ∀ a, (![5, 240] : Fin 2 → Nat) a + S1x16.size a ≤ S8x1024.size a
  inb_S8x1024_S1x16_5_256 : ∀ a, (![5, 256] : Fin 2 → Nat) a + S1x16.size a ≤ S8x1024.size a
  inb_S8x1024_S1x16_5_272 : ∀ a, (![5, 272] : Fin 2 → Nat) a + S1x16.size a ≤ S8x1024.size a
  inb_S8x1024_S1x16_5_288 : ∀ a, (![5, 288] : Fin 2 → Nat) a + S1x16.size a ≤ S8x1024.size a
  inb_S8x1024_S1x16_5_304 : ∀ a, (![5, 304] : Fin 2 → Nat) a + S1x16.size a ≤ S8x1024.size a
  inb_S8x1024_S1x16_5_320 : ∀ a, (![5, 320] : Fin 2 → Nat) a + S1x16.size a ≤ S8x1024.size a
  inb_S8x1024_S1x16_5_336 : ∀ a, (![5, 336] : Fin 2 → Nat) a + S1x16.size a ≤ S8x1024.size a
  inb_S8x1024_S1x16_5_352 : ∀ a, (![5, 352] : Fin 2 → Nat) a + S1x16.size a ≤ S8x1024.size a
  inb_S8x1024_S1x16_5_368 : ∀ a, (![5, 368] : Fin 2 → Nat) a + S1x16.size a ≤ S8x1024.size a
  inb_S8x1024_S1x16_5_384 : ∀ a, (![5, 384] : Fin 2 → Nat) a + S1x16.size a ≤ S8x1024.size a
  inb_S8x1024_S1x16_5_400 : ∀ a, (![5, 400] : Fin 2 → Nat) a + S1x16.size a ≤ S8x1024.size a
  inb_S8x1024_S1x16_5_416 : ∀ a, (![5, 416] : Fin 2 → Nat) a + S1x16.size a ≤ S8x1024.size a
  inb_S8x1024_S1x16_5_432 : ∀ a, (![5, 432] : Fin 2 → Nat) a + S1x16.size a ≤ S8x1024.size a
  inb_S8x1024_S1x16_5_448 : ∀ a, (![5, 448] : Fin 2 → Nat) a + S1x16.size a ≤ S8x1024.size a
  inb_S8x1024_S1x16_5_464 : ∀ a, (![5, 464] : Fin 2 → Nat) a + S1x16.size a ≤ S8x1024.size a
  inb_S8x1024_S1x16_5_480 : ∀ a, (![5, 480] : Fin 2 → Nat) a + S1x16.size a ≤ S8x1024.size a
  inb_S8x1024_S1x16_5_496 : ∀ a, (![5, 496] : Fin 2 → Nat) a + S1x16.size a ≤ S8x1024.size a
  inb_S8x1024_S1x16_5_512 : ∀ a, (![5, 512] : Fin 2 → Nat) a + S1x16.size a ≤ S8x1024.size a
  inb_S8x1024_S1x16_5_528 : ∀ a, (![5, 528] : Fin 2 → Nat) a + S1x16.size a ≤ S8x1024.size a
  inb_S8x1024_S1x16_5_544 : ∀ a, (![5, 544] : Fin 2 → Nat) a + S1x16.size a ≤ S8x1024.size a
  inb_S8x1024_S1x16_5_560 : ∀ a, (![5, 560] : Fin 2 → Nat) a + S1x16.size a ≤ S8x1024.size a
  inb_S8x1024_S1x16_5_576 : ∀ a, (![5, 576] : Fin 2 → Nat) a + S1x16.size a ≤ S8x1024.size a
  inb_S8x1024_S1x16_5_592 : ∀ a, (![5, 592] : Fin 2 → Nat) a + S1x16.size a ≤ S8x1024.size a
  inb_S8x1024_S1x16_5_608 : ∀ a, (![5, 608] : Fin 2 → Nat) a + S1x16.size a ≤ S8x1024.size a
  inb_S8x1024_S1x16_5_624 : ∀ a, (![5, 624] : Fin 2 → Nat) a + S1x16.size a ≤ S8x1024.size a
  inb_S8x1024_S1x16_5_640 : ∀ a, (![5, 640] : Fin 2 → Nat) a + S1x16.size a ≤ S8x1024.size a
  inb_S8x1024_S1x16_5_656 : ∀ a, (![5, 656] : Fin 2 → Nat) a + S1x16.size a ≤ S8x1024.size a
  inb_S8x1024_S1x16_5_672 : ∀ a, (![5, 672] : Fin 2 → Nat) a + S1x16.size a ≤ S8x1024.size a
  inb_S8x1024_S1x16_5_688 : ∀ a, (![5, 688] : Fin 2 → Nat) a + S1x16.size a ≤ S8x1024.size a
  inb_S8x1024_S1x16_5_704 : ∀ a, (![5, 704] : Fin 2 → Nat) a + S1x16.size a ≤ S8x1024.size a
  inb_S8x1024_S1x16_5_720 : ∀ a, (![5, 720] : Fin 2 → Nat) a + S1x16.size a ≤ S8x1024.size a
  inb_S8x1024_S1x16_5_736 : ∀ a, (![5, 736] : Fin 2 → Nat) a + S1x16.size a ≤ S8x1024.size a
  inb_S8x1024_S1x16_5_752 : ∀ a, (![5, 752] : Fin 2 → Nat) a + S1x16.size a ≤ S8x1024.size a
  inb_S8x1024_S1x16_5_768 : ∀ a, (![5, 768] : Fin 2 → Nat) a + S1x16.size a ≤ S8x1024.size a
  inb_S8x1024_S1x16_5_784 : ∀ a, (![5, 784] : Fin 2 → Nat) a + S1x16.size a ≤ S8x1024.size a
  inb_S8x1024_S1x16_5_800 : ∀ a, (![5, 800] : Fin 2 → Nat) a + S1x16.size a ≤ S8x1024.size a
  inb_S8x1024_S1x16_5_816 : ∀ a, (![5, 816] : Fin 2 → Nat) a + S1x16.size a ≤ S8x1024.size a
  inb_S8x1024_S1x16_5_832 : ∀ a, (![5, 832] : Fin 2 → Nat) a + S1x16.size a ≤ S8x1024.size a
  inb_S8x1024_S1x16_5_848 : ∀ a, (![5, 848] : Fin 2 → Nat) a + S1x16.size a ≤ S8x1024.size a
  inb_S8x1024_S1x16_5_864 : ∀ a, (![5, 864] : Fin 2 → Nat) a + S1x16.size a ≤ S8x1024.size a
  inb_S8x1024_S1x16_5_880 : ∀ a, (![5, 880] : Fin 2 → Nat) a + S1x16.size a ≤ S8x1024.size a
  inb_S8x1024_S1x16_5_896 : ∀ a, (![5, 896] : Fin 2 → Nat) a + S1x16.size a ≤ S8x1024.size a
  inb_S8x1024_S1x16_5_912 : ∀ a, (![5, 912] : Fin 2 → Nat) a + S1x16.size a ≤ S8x1024.size a
  inb_S8x1024_S1x16_5_928 : ∀ a, (![5, 928] : Fin 2 → Nat) a + S1x16.size a ≤ S8x1024.size a
  inb_S8x1024_S1x16_5_944 : ∀ a, (![5, 944] : Fin 2 → Nat) a + S1x16.size a ≤ S8x1024.size a
  inb_S8x1024_S1x16_5_960 : ∀ a, (![5, 960] : Fin 2 → Nat) a + S1x16.size a ≤ S8x1024.size a
  inb_S8x1024_S1x16_5_976 : ∀ a, (![5, 976] : Fin 2 → Nat) a + S1x16.size a ≤ S8x1024.size a
  inb_S8x1024_S1x16_5_992 : ∀ a, (![5, 992] : Fin 2 → Nat) a + S1x16.size a ≤ S8x1024.size a
  inb_S8x1024_S1x16_5_1008 : ∀ a, (![5, 1008] : Fin 2 → Nat) a + S1x16.size a ≤ S8x1024.size a
  inb_S8x1024_S1x16_6_0 : ∀ a, (![6, 0] : Fin 2 → Nat) a + S1x16.size a ≤ S8x1024.size a
  inb_S8x1024_S1x16_6_16 : ∀ a, (![6, 16] : Fin 2 → Nat) a + S1x16.size a ≤ S8x1024.size a
  inb_S8x1024_S1x16_6_32 : ∀ a, (![6, 32] : Fin 2 → Nat) a + S1x16.size a ≤ S8x1024.size a
  inb_S8x1024_S1x16_6_48 : ∀ a, (![6, 48] : Fin 2 → Nat) a + S1x16.size a ≤ S8x1024.size a
  inb_S8x1024_S1x16_6_64 : ∀ a, (![6, 64] : Fin 2 → Nat) a + S1x16.size a ≤ S8x1024.size a
  inb_S8x1024_S1x16_6_80 : ∀ a, (![6, 80] : Fin 2 → Nat) a + S1x16.size a ≤ S8x1024.size a
  inb_S8x1024_S1x16_6_96 : ∀ a, (![6, 96] : Fin 2 → Nat) a + S1x16.size a ≤ S8x1024.size a
  inb_S8x1024_S1x16_6_112 : ∀ a, (![6, 112] : Fin 2 → Nat) a + S1x16.size a ≤ S8x1024.size a
  inb_S8x1024_S1x16_6_128 : ∀ a, (![6, 128] : Fin 2 → Nat) a + S1x16.size a ≤ S8x1024.size a
  inb_S8x1024_S1x16_6_144 : ∀ a, (![6, 144] : Fin 2 → Nat) a + S1x16.size a ≤ S8x1024.size a
  inb_S8x1024_S1x16_6_160 : ∀ a, (![6, 160] : Fin 2 → Nat) a + S1x16.size a ≤ S8x1024.size a
  inb_S8x1024_S1x16_6_176 : ∀ a, (![6, 176] : Fin 2 → Nat) a + S1x16.size a ≤ S8x1024.size a
  inb_S8x1024_S1x16_6_192 : ∀ a, (![6, 192] : Fin 2 → Nat) a + S1x16.size a ≤ S8x1024.size a
  inb_S8x1024_S1x16_6_208 : ∀ a, (![6, 208] : Fin 2 → Nat) a + S1x16.size a ≤ S8x1024.size a
  inb_S8x1024_S1x16_6_224 : ∀ a, (![6, 224] : Fin 2 → Nat) a + S1x16.size a ≤ S8x1024.size a
  inb_S8x1024_S1x16_6_240 : ∀ a, (![6, 240] : Fin 2 → Nat) a + S1x16.size a ≤ S8x1024.size a
  inb_S8x1024_S1x16_6_256 : ∀ a, (![6, 256] : Fin 2 → Nat) a + S1x16.size a ≤ S8x1024.size a
  inb_S8x1024_S1x16_6_272 : ∀ a, (![6, 272] : Fin 2 → Nat) a + S1x16.size a ≤ S8x1024.size a
  inb_S8x1024_S1x16_6_288 : ∀ a, (![6, 288] : Fin 2 → Nat) a + S1x16.size a ≤ S8x1024.size a
  inb_S8x1024_S1x16_6_304 : ∀ a, (![6, 304] : Fin 2 → Nat) a + S1x16.size a ≤ S8x1024.size a
  inb_S8x1024_S1x16_6_320 : ∀ a, (![6, 320] : Fin 2 → Nat) a + S1x16.size a ≤ S8x1024.size a
  inb_S8x1024_S1x16_6_336 : ∀ a, (![6, 336] : Fin 2 → Nat) a + S1x16.size a ≤ S8x1024.size a
  inb_S8x1024_S1x16_6_352 : ∀ a, (![6, 352] : Fin 2 → Nat) a + S1x16.size a ≤ S8x1024.size a
  inb_S8x1024_S1x16_6_368 : ∀ a, (![6, 368] : Fin 2 → Nat) a + S1x16.size a ≤ S8x1024.size a
  inb_S8x1024_S1x16_6_384 : ∀ a, (![6, 384] : Fin 2 → Nat) a + S1x16.size a ≤ S8x1024.size a
  inb_S8x1024_S1x16_6_400 : ∀ a, (![6, 400] : Fin 2 → Nat) a + S1x16.size a ≤ S8x1024.size a
  inb_S8x1024_S1x16_6_416 : ∀ a, (![6, 416] : Fin 2 → Nat) a + S1x16.size a ≤ S8x1024.size a
  inb_S8x1024_S1x16_6_432 : ∀ a, (![6, 432] : Fin 2 → Nat) a + S1x16.size a ≤ S8x1024.size a
  inb_S8x1024_S1x16_6_448 : ∀ a, (![6, 448] : Fin 2 → Nat) a + S1x16.size a ≤ S8x1024.size a
  inb_S8x1024_S1x16_6_464 : ∀ a, (![6, 464] : Fin 2 → Nat) a + S1x16.size a ≤ S8x1024.size a
  inb_S8x1024_S1x16_6_480 : ∀ a, (![6, 480] : Fin 2 → Nat) a + S1x16.size a ≤ S8x1024.size a
  inb_S8x1024_S1x16_6_496 : ∀ a, (![6, 496] : Fin 2 → Nat) a + S1x16.size a ≤ S8x1024.size a
  inb_S8x1024_S1x16_6_512 : ∀ a, (![6, 512] : Fin 2 → Nat) a + S1x16.size a ≤ S8x1024.size a
  inb_S8x1024_S1x16_6_528 : ∀ a, (![6, 528] : Fin 2 → Nat) a + S1x16.size a ≤ S8x1024.size a
  inb_S8x1024_S1x16_6_544 : ∀ a, (![6, 544] : Fin 2 → Nat) a + S1x16.size a ≤ S8x1024.size a
  inb_S8x1024_S1x16_6_560 : ∀ a, (![6, 560] : Fin 2 → Nat) a + S1x16.size a ≤ S8x1024.size a
  inb_S8x1024_S1x16_6_576 : ∀ a, (![6, 576] : Fin 2 → Nat) a + S1x16.size a ≤ S8x1024.size a
  inb_S8x1024_S1x16_6_592 : ∀ a, (![6, 592] : Fin 2 → Nat) a + S1x16.size a ≤ S8x1024.size a
  inb_S8x1024_S1x16_6_608 : ∀ a, (![6, 608] : Fin 2 → Nat) a + S1x16.size a ≤ S8x1024.size a
  inb_S8x1024_S1x16_6_624 : ∀ a, (![6, 624] : Fin 2 → Nat) a + S1x16.size a ≤ S8x1024.size a
  inb_S8x1024_S1x16_6_640 : ∀ a, (![6, 640] : Fin 2 → Nat) a + S1x16.size a ≤ S8x1024.size a
  inb_S8x1024_S1x16_6_656 : ∀ a, (![6, 656] : Fin 2 → Nat) a + S1x16.size a ≤ S8x1024.size a
  inb_S8x1024_S1x16_6_672 : ∀ a, (![6, 672] : Fin 2 → Nat) a + S1x16.size a ≤ S8x1024.size a
  inb_S8x1024_S1x16_6_688 : ∀ a, (![6, 688] : Fin 2 → Nat) a + S1x16.size a ≤ S8x1024.size a
  inb_S8x1024_S1x16_6_704 : ∀ a, (![6, 704] : Fin 2 → Nat) a + S1x16.size a ≤ S8x1024.size a
  inb_S8x1024_S1x16_6_720 : ∀ a, (![6, 720] : Fin 2 → Nat) a + S1x16.size a ≤ S8x1024.size a
  inb_S8x1024_S1x16_6_736 : ∀ a, (![6, 736] : Fin 2 → Nat) a + S1x16.size a ≤ S8x1024.size a
  inb_S8x1024_S1x16_6_752 : ∀ a, (![6, 752] : Fin 2 → Nat) a + S1x16.size a ≤ S8x1024.size a
  inb_S8x1024_S1x16_6_768 : ∀ a, (![6, 768] : Fin 2 → Nat) a + S1x16.size a ≤ S8x1024.size a
  inb_S8x1024_S1x16_6_784 : ∀ a, (![6, 784] : Fin 2 → Nat) a + S1x16.size a ≤ S8x1024.size a
  inb_S8x1024_S1x16_6_800 : ∀ a, (![6, 800] : Fin 2 → Nat) a + S1x16.size a ≤ S8x1024.size a
  inb_S8x1024_S1x16_6_816 : ∀ a, (![6, 816] : Fin 2 → Nat) a + S1x16.size a ≤ S8x1024.size a
  inb_S8x1024_S1x16_6_832 : ∀ a, (![6, 832] : Fin 2 → Nat) a + S1x16.size a ≤ S8x1024.size a
  inb_S8x1024_S1x16_6_848 : ∀ a, (![6, 848] : Fin 2 → Nat) a + S1x16.size a ≤ S8x1024.size a
  inb_S8x1024_S1x16_6_864 : ∀ a, (![6, 864] : Fin 2 → Nat) a + S1x16.size a ≤ S8x1024.size a
  inb_S8x1024_S1x16_6_880 : ∀ a, (![6, 880] : Fin 2 → Nat) a + S1x16.size a ≤ S8x1024.size a
  inb_S8x1024_S1x16_6_896 : ∀ a, (![6, 896] : Fin 2 → Nat) a + S1x16.size a ≤ S8x1024.size a
  inb_S8x1024_S1x16_6_912 : ∀ a, (![6, 912] : Fin 2 → Nat) a + S1x16.size a ≤ S8x1024.size a
  inb_S8x1024_S1x16_6_928 : ∀ a, (![6, 928] : Fin 2 → Nat) a + S1x16.size a ≤ S8x1024.size a
  inb_S8x1024_S1x16_6_944 : ∀ a, (![6, 944] : Fin 2 → Nat) a + S1x16.size a ≤ S8x1024.size a
  inb_S8x1024_S1x16_6_960 : ∀ a, (![6, 960] : Fin 2 → Nat) a + S1x16.size a ≤ S8x1024.size a
  inb_S8x1024_S1x16_6_976 : ∀ a, (![6, 976] : Fin 2 → Nat) a + S1x16.size a ≤ S8x1024.size a
  inb_S8x1024_S1x16_6_992 : ∀ a, (![6, 992] : Fin 2 → Nat) a + S1x16.size a ≤ S8x1024.size a
  inb_S8x1024_S1x16_6_1008 : ∀ a, (![6, 1008] : Fin 2 → Nat) a + S1x16.size a ≤ S8x1024.size a
  inb_S8x1024_S1x16_7_0 : ∀ a, (![7, 0] : Fin 2 → Nat) a + S1x16.size a ≤ S8x1024.size a
  inb_S8x1024_S1x16_7_16 : ∀ a, (![7, 16] : Fin 2 → Nat) a + S1x16.size a ≤ S8x1024.size a
  inb_S8x1024_S1x16_7_32 : ∀ a, (![7, 32] : Fin 2 → Nat) a + S1x16.size a ≤ S8x1024.size a
  inb_S8x1024_S1x16_7_48 : ∀ a, (![7, 48] : Fin 2 → Nat) a + S1x16.size a ≤ S8x1024.size a
  inb_S8x1024_S1x16_7_64 : ∀ a, (![7, 64] : Fin 2 → Nat) a + S1x16.size a ≤ S8x1024.size a
  inb_S8x1024_S1x16_7_80 : ∀ a, (![7, 80] : Fin 2 → Nat) a + S1x16.size a ≤ S8x1024.size a
  inb_S8x1024_S1x16_7_96 : ∀ a, (![7, 96] : Fin 2 → Nat) a + S1x16.size a ≤ S8x1024.size a
  inb_S8x1024_S1x16_7_112 : ∀ a, (![7, 112] : Fin 2 → Nat) a + S1x16.size a ≤ S8x1024.size a
  inb_S8x1024_S1x16_7_128 : ∀ a, (![7, 128] : Fin 2 → Nat) a + S1x16.size a ≤ S8x1024.size a
  inb_S8x1024_S1x16_7_144 : ∀ a, (![7, 144] : Fin 2 → Nat) a + S1x16.size a ≤ S8x1024.size a
  inb_S8x1024_S1x16_7_160 : ∀ a, (![7, 160] : Fin 2 → Nat) a + S1x16.size a ≤ S8x1024.size a
  inb_S8x1024_S1x16_7_176 : ∀ a, (![7, 176] : Fin 2 → Nat) a + S1x16.size a ≤ S8x1024.size a
  inb_S8x1024_S1x16_7_192 : ∀ a, (![7, 192] : Fin 2 → Nat) a + S1x16.size a ≤ S8x1024.size a
  inb_S8x1024_S1x16_7_208 : ∀ a, (![7, 208] : Fin 2 → Nat) a + S1x16.size a ≤ S8x1024.size a
  inb_S8x1024_S1x16_7_224 : ∀ a, (![7, 224] : Fin 2 → Nat) a + S1x16.size a ≤ S8x1024.size a
  inb_S8x1024_S1x16_7_240 : ∀ a, (![7, 240] : Fin 2 → Nat) a + S1x16.size a ≤ S8x1024.size a
  inb_S8x1024_S1x16_7_256 : ∀ a, (![7, 256] : Fin 2 → Nat) a + S1x16.size a ≤ S8x1024.size a
  inb_S8x1024_S1x16_7_272 : ∀ a, (![7, 272] : Fin 2 → Nat) a + S1x16.size a ≤ S8x1024.size a
  inb_S8x1024_S1x16_7_288 : ∀ a, (![7, 288] : Fin 2 → Nat) a + S1x16.size a ≤ S8x1024.size a
  inb_S8x1024_S1x16_7_304 : ∀ a, (![7, 304] : Fin 2 → Nat) a + S1x16.size a ≤ S8x1024.size a
  inb_S8x1024_S1x16_7_320 : ∀ a, (![7, 320] : Fin 2 → Nat) a + S1x16.size a ≤ S8x1024.size a
  inb_S8x1024_S1x16_7_336 : ∀ a, (![7, 336] : Fin 2 → Nat) a + S1x16.size a ≤ S8x1024.size a
  inb_S8x1024_S1x16_7_352 : ∀ a, (![7, 352] : Fin 2 → Nat) a + S1x16.size a ≤ S8x1024.size a
  inb_S8x1024_S1x16_7_368 : ∀ a, (![7, 368] : Fin 2 → Nat) a + S1x16.size a ≤ S8x1024.size a
  inb_S8x1024_S1x16_7_384 : ∀ a, (![7, 384] : Fin 2 → Nat) a + S1x16.size a ≤ S8x1024.size a
  inb_S8x1024_S1x16_7_400 : ∀ a, (![7, 400] : Fin 2 → Nat) a + S1x16.size a ≤ S8x1024.size a
  inb_S8x1024_S1x16_7_416 : ∀ a, (![7, 416] : Fin 2 → Nat) a + S1x16.size a ≤ S8x1024.size a
  inb_S8x1024_S1x16_7_432 : ∀ a, (![7, 432] : Fin 2 → Nat) a + S1x16.size a ≤ S8x1024.size a
  inb_S8x1024_S1x16_7_448 : ∀ a, (![7, 448] : Fin 2 → Nat) a + S1x16.size a ≤ S8x1024.size a
  inb_S8x1024_S1x16_7_464 : ∀ a, (![7, 464] : Fin 2 → Nat) a + S1x16.size a ≤ S8x1024.size a
  inb_S8x1024_S1x16_7_480 : ∀ a, (![7, 480] : Fin 2 → Nat) a + S1x16.size a ≤ S8x1024.size a
  inb_S8x1024_S1x16_7_496 : ∀ a, (![7, 496] : Fin 2 → Nat) a + S1x16.size a ≤ S8x1024.size a
  inb_S8x1024_S1x16_7_512 : ∀ a, (![7, 512] : Fin 2 → Nat) a + S1x16.size a ≤ S8x1024.size a
  inb_S8x1024_S1x16_7_528 : ∀ a, (![7, 528] : Fin 2 → Nat) a + S1x16.size a ≤ S8x1024.size a
  inb_S8x1024_S1x16_7_544 : ∀ a, (![7, 544] : Fin 2 → Nat) a + S1x16.size a ≤ S8x1024.size a
  inb_S8x1024_S1x16_7_560 : ∀ a, (![7, 560] : Fin 2 → Nat) a + S1x16.size a ≤ S8x1024.size a
  inb_S8x1024_S1x16_7_576 : ∀ a, (![7, 576] : Fin 2 → Nat) a + S1x16.size a ≤ S8x1024.size a
  inb_S8x1024_S1x16_7_592 : ∀ a, (![7, 592] : Fin 2 → Nat) a + S1x16.size a ≤ S8x1024.size a
  inb_S8x1024_S1x16_7_608 : ∀ a, (![7, 608] : Fin 2 → Nat) a + S1x16.size a ≤ S8x1024.size a
  inb_S8x1024_S1x16_7_624 : ∀ a, (![7, 624] : Fin 2 → Nat) a + S1x16.size a ≤ S8x1024.size a
  inb_S8x1024_S1x16_7_640 : ∀ a, (![7, 640] : Fin 2 → Nat) a + S1x16.size a ≤ S8x1024.size a
  inb_S8x1024_S1x16_7_656 : ∀ a, (![7, 656] : Fin 2 → Nat) a + S1x16.size a ≤ S8x1024.size a
  inb_S8x1024_S1x16_7_672 : ∀ a, (![7, 672] : Fin 2 → Nat) a + S1x16.size a ≤ S8x1024.size a
  inb_S8x1024_S1x16_7_688 : ∀ a, (![7, 688] : Fin 2 → Nat) a + S1x16.size a ≤ S8x1024.size a
  inb_S8x1024_S1x16_7_704 : ∀ a, (![7, 704] : Fin 2 → Nat) a + S1x16.size a ≤ S8x1024.size a
  inb_S8x1024_S1x16_7_720 : ∀ a, (![7, 720] : Fin 2 → Nat) a + S1x16.size a ≤ S8x1024.size a
  inb_S8x1024_S1x16_7_736 : ∀ a, (![7, 736] : Fin 2 → Nat) a + S1x16.size a ≤ S8x1024.size a
  inb_S8x1024_S1x16_7_752 : ∀ a, (![7, 752] : Fin 2 → Nat) a + S1x16.size a ≤ S8x1024.size a
  inb_S8x1024_S1x16_7_768 : ∀ a, (![7, 768] : Fin 2 → Nat) a + S1x16.size a ≤ S8x1024.size a
  inb_S8x1024_S1x16_7_784 : ∀ a, (![7, 784] : Fin 2 → Nat) a + S1x16.size a ≤ S8x1024.size a
  inb_S8x1024_S1x16_7_800 : ∀ a, (![7, 800] : Fin 2 → Nat) a + S1x16.size a ≤ S8x1024.size a
  inb_S8x1024_S1x16_7_816 : ∀ a, (![7, 816] : Fin 2 → Nat) a + S1x16.size a ≤ S8x1024.size a
  inb_S8x1024_S1x16_7_832 : ∀ a, (![7, 832] : Fin 2 → Nat) a + S1x16.size a ≤ S8x1024.size a
  inb_S8x1024_S1x16_7_848 : ∀ a, (![7, 848] : Fin 2 → Nat) a + S1x16.size a ≤ S8x1024.size a
  inb_S8x1024_S1x16_7_864 : ∀ a, (![7, 864] : Fin 2 → Nat) a + S1x16.size a ≤ S8x1024.size a
  inb_S8x1024_S1x16_7_880 : ∀ a, (![7, 880] : Fin 2 → Nat) a + S1x16.size a ≤ S8x1024.size a
  inb_S8x1024_S1x16_7_896 : ∀ a, (![7, 896] : Fin 2 → Nat) a + S1x16.size a ≤ S8x1024.size a
  inb_S8x1024_S1x16_7_912 : ∀ a, (![7, 912] : Fin 2 → Nat) a + S1x16.size a ≤ S8x1024.size a
  inb_S8x1024_S1x16_7_928 : ∀ a, (![7, 928] : Fin 2 → Nat) a + S1x16.size a ≤ S8x1024.size a
  inb_S8x1024_S1x16_7_944 : ∀ a, (![7, 944] : Fin 2 → Nat) a + S1x16.size a ≤ S8x1024.size a
  inb_S8x1024_S1x16_7_960 : ∀ a, (![7, 960] : Fin 2 → Nat) a + S1x16.size a ≤ S8x1024.size a
  inb_S8x1024_S1x16_7_976 : ∀ a, (![7, 976] : Fin 2 → Nat) a + S1x16.size a ≤ S8x1024.size a
  inb_S8x1024_S1x16_7_992 : ∀ a, (![7, 992] : Fin 2 → Nat) a + S1x16.size a ≤ S8x1024.size a
  inb_S8x1024_S1x16_7_1008 : ∀ a, (![7, 1008] : Fin 2 → Nat) a + S1x16.size a ≤ S8x1024.size a
  shapeCasts_S32768x2048_S4x8192x2048 : S32768x2048.ShapeCasts S4x8192x2048
  hcc0_scoped0 : 0 + S_.numel ≤ 4
  hcc0_scoped1 : 1 + S_.numel ≤ 4
  hcc0_scoped2 : 2 + S_.numel ≤ 4
  hcc0_scoped3 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1024x512.size a ≤ S32768x2048.size a
  k0_off2_inb : ∀ i : grid0.Coords, ∀ a, (k0_off2 i) a + S1024x512.size a ≤ S32768x2048.size a
  k0_t1_ok : k0_t1_loop.OK
  k0_off3_inb : ∀ (i : grid0.Coords) (k0_t1 : Fin k0_t1_loop.trips), ∀ a, (k0_off3 i k0_t1) a + S8x1024.size a ≤ S32768x2048.size a
  k0_off4_inb : ∀ (i : grid0.Coords) (k0_t1 : Fin k0_t1_loop.trips), ∀ a, (k0_off4 i k0_t1) a + S8x1024.size a ≤ S32768x2048.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc0_scoped3 : DmaSems sig S_ := SemArray.consecutive 3 S_ hcc0_scoped3

class Facts : Prop extends Facts₀ where

variable [Facts]
-- ==== ReferenceIdeal.lean ====
abbrev S4x8192x2048 : Shape := ⟨3, ![4, 8192, 2048]⟩
abbrev S2048 : Shape := ⟨1, ![2048]⟩
abbrev S_ : Shape := ⟨0, ![]⟩
abbrev S2048x1 : Shape := ⟨2, ![2048, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .i32⟩
  | .hbm, ⟨2, _⟩ => ⟨S_, .i32⟩
  | .hbm, ⟨3, _⟩ => ⟨S2048, .i32⟩
  | .hbm, ⟨4, _⟩ => ⟨S2048, .i1⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S1, .i32⟩
  | .hbm, ⟨11, _⟩ => ⟨S_, .i32⟩
  | .hbm, ⟨12, _⟩ => ⟨S2048x1, .i32⟩
  | .hbm, ⟨13, _⟩ => ⟨S2048x1, .i1⟩
  | .hbm, ⟨14, _⟩ => ⟨S1x1, .i32⟩
  | .hbm, ⟨15, _⟩ => ⟨S2048x1, .i32⟩
  | .hbm, ⟨16, _⟩ => ⟨S2048x1, .i1⟩
  | .hbm, ⟨17, _⟩ => ⟨S2048x1, .i1⟩
  | .hbm, ⟨18, _⟩ => ⟨S_, .i1⟩
  | .hbm, ⟨19, _⟩ => ⟨S2048, .i1⟩
  | .hbm, ⟨20, _⟩ => ⟨S4x8192x2048, .f32⟩
  | .hbm, ⟨21, _⟩ => ⟨S4x8192x2048, .i1⟩
  | .hbm, ⟨22, _⟩ => ⟨S_, .f32⟩
  | .hbm, ⟨23, _⟩ => ⟨S4x8192x2048, .f32⟩
  | .hbm, ⟨24, _⟩ => ⟨S4x8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S4x8192x2048_2 : S2048.BroadcastsInDim S4x8192x2048 (![2] : Fin 1 → Fin S4x8192x2048.rank)
  bcast_S_S4x8192x2048 : S_.BroadcastsInDim S4x8192x2048 (![] : Fin 0 → Fin S4x8192x2048.rank)
  gather_S4x8192x2048_S2048x1_S4x8192x2048_01_2_n_n_2_1_481921_wf : GatherDims.WF S4x8192x2048 S2048x1 S4x8192x2048 [0, 1] [2] [] [2] [] 1 ![4, 8192, 1]

variable [Facts₀]

def gather_S4x8192x2048_S2048x1_S4x8192x2048_01_2_n_n_2_1_481921 : GatherDims S4x8192x2048 S2048x1 S4x8192x2048 where
  offsetDims := [0, 1]
  collapsedSliceDims := [2]
  operandBatchingDims := []
  startIndicesBatchingDims := []
  startIndexMap := [2]
  indexVectorDim := 1
  sliceSizes := ![4, 8192, 1]
  wf := gather_S4x8192x2048_S2048x1_S4x8192x2048_01_2_n_n_2_1_481921_wf

class Facts : Prop extends Facts₀ where

variable [Facts]
-- ==== Proof.Spec.lean ====
/-
  The specification. A row of 2048 channels is re-ordered: the first 512 and the last 512 channels stay where they are;
  in the middle 1024, result channel `512 + j` takes source channel `512 + j / 2` when `j` is even and
  `1024 + j / 2` when `j` is odd — the two middle halves interleaved. `srcCol` is that map on channels, `G3` the
  whole-array function on `[4, 8192, 2048]`, `G2` the same on the array flattened to `[32768, 2048]`; the flattening
  keeps the channel coordinate, so the two are one function through the reshape.
-/
import Idealize.ShloMosaic.Lib.ValueIdx
import Idealize.ShloMosaic.Lib.Pipeline.Value
import Idealize.ShloMosaic.PureOps

namespace Cert.Spec

open Idealize.ShloMosaic Idealize.ShloMosaic.ValueIdx

abbrev S3 : Shape := ⟨3, ![4, 8192, 2048]⟩
abbrev S2 : Shape := ⟨2, ![32768, 2048]⟩

/-- The source channel of result channel `j`. -/
def srcCol (j : Fin 2048) : Fin 2048 :=
  if h : j.val < 512 ∨ 1536 ≤ j.val then j
  else ⟨512 + (j.val - 512) / 2 + 512 * ((j.val - 512) % 2), by omega⟩

theorem srcCol_outer (j : Fin 2048) (h : j.val < 512 ∨ 1536 ≤ j.val) : srcCol j = j := dif_pos h

theorem srcCol_mid_val (j : Fin 2048) (h1 : 512 ≤ j.val) (h2 : j.val < 1536) :
    (srcCol j).val = 512 + (j.val - 512) / 2 + 512 * ((j.val - 512) % 2) := by
  unfold srcCol; rw [dif_neg (by omega)]

/-- The result on `[4, 8192, 2048]`: every row re-ordered along its channels. -/
def G3 {α : Type} (x : S3.Idx → α) : S3.Idx → α := fun i => x (ix3 (i 0) (i 1) (srcCol (i 2)))

/-- The same on the flattened `[32768, 2048]`. -/
def G2 {α : Type} (x : S2.Idx → α) : S2.Idx → α := fun i => x (ix2 (i 0) (srcCol (i 1)))

end Cert.Spec
-- ==== Proof.KISetup.lean ====
/-
  The vocabulary of the kernel's run: the launch configuration, the ghost state (the launch handshakes beside the
  transfers' counters), the two flattened arrays `x` (the argument, `[32768, 2048]`) and `o` (the result), and the
  block of 1024 rows that the task on SparseCore `c`, vector subcore `s` owns: rows `[1024 · (2 s + c), + 1024)`
  of both arrays. The 32 blocks tile the 32768 rows. A task's scoped storage is two `[8, 1024]` scratch buffers and
  four DMA semaphores.
-/
import proofs.«211075_g81750407512465_cont_sun_c4_77_5_alg».proof.Defs
import proofs.«211075_g81750407512465_cont_sun_c4_77_5_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«211075_g81750407512465_cont_sun_c4_77_5_alg».proof.Proof.Gen.KernelIdeal
import proofs.«211075_g81750407512465_cont_sun_c4_77_5_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The block of rows of worker `w < 32`: rows `[1024 w, 1024 w + 1024)`, every channel. -/
theorem blk_inb (w : Fin 32) : ∀ a, (![1024 * w.val, 0] : Fin 2 → Nat) a + (![1024, 2048] : Fin 2 → Nat) a ≤ S32768x2048.size a := by
  have := w.isLt
  intro a; fin_cases a <;> simp <;> omega
abbrev blk (w : Fin 32) : Rect S32768x2048 := Rect.unit (s := S32768x2048) ![1024 * w.val, 0] ![1024, 2048] (blk_inb w)

section Tile
variable (L : grid0.Coords)

abbrev cV (L : grid0.Coords) : Fin τ.nSC := (L 0).castLE hcore0
abbrev jV (L : grid0.Coords) : Fin τ.nSub := (L 1).castLE hsub0

/-- The worker number of the task at grid point `L`: `2 s + c`. -/
def wid (L : grid0.Coords) : Fin 32 := ⟨2 * (L 1).val + (L 0).val, by
  have h0 : (L 0).val < 2 := (L 0).isLt
  have h1 : (L 1).val < 16 := (L 1).isLt
  omega⟩

end Tile

/-- The task's block of rows, spelt by the grid point's coordinates: rows `[2048 s + 1024 c, + 1024)`, every channel. -/
theorem tR_inb (L : grid0.Coords) : ∀ a, (![2048 * (L 1).val + 1024 * (L 0).val, 0] : Fin 2 → Nat) a + (![1024, 2048] : Fin 2 → Nat) a ≤ S32768x2048.size a := by
  have h0 : (L 0).val < 2 := (L 0).isLt
  have h1 : (L 1).val < 16 := (L 1).isLt
  intro a; fin_cases a <;> simp <;> omega
abbrev tR (L : grid0.Coords) : Rect S32768x2048 := Rect.unit (s := S32768x2048) ![2048 * (L 1).val + 1024 * (L 0).val, 0] ![1024, 2048] (tR_inb L)

/-- The elements of the task's block, as a set of indices of either flattened array. -/
abbrev tSet (L : grid0.Coords) : Finset S32768x2048.Idx :=
  (Memref.whole main_v0_scv : Memref sig Kind.scVector Space.hbm S32768x2048 EltTy.f32).view.setOn (tR L).set

end Cert.Proof.KI

end
-- ==== Proof.LibPieces.lean ====
/-
  Pieces of an `[8, 1024]` array, each sixteen lanes gathered out of a source array `A` of the same shape. Result
  column `j` of a row takes source column `midSrc j = j / 2 + 512 * (j % 2)` of that row: the row's two halves
  interleaved. A piece is the `[1, 16]` strip at `(ro, co)` holding, at lane `l`, the source element
  `(ro, midSrc (co + l))`; when every piece of a list has this form and the pieces cover the array, the array the
  writes leave reads `A (r, midSrc j)` at every `(r, j)`, whatever it held before. `tileCov` is the covering
  certificate for the 512 strips of the `8 × 64` tiling listed newest first.
-/
import Idealize.ShloMosaic.Lib.Writes
import Idealize.ShloMosaic.Lib.Exec.Geometry
import Idealize.ShloMosaic.Lib.ValueIdx
import Idealize.ShloMosaic.Lib.ValueLayout
import Idealize.ShloMosaic.PureOps

namespace Cert.Lib

open Idealize.ShloMosaic Idealize.ShloMosaic.ValueIdx

abbrev S8x1024 : Shape := ⟨2, ![8, 1024]⟩
abbrev S1x16 : Shape := ⟨2, ![1, 16]⟩
abbrev S16 : Shape := ⟨1, ![16]⟩

/-- The source column of result column `j` within a row of 1024: even columns take the first half in order, odd
    columns the second half. -/
def midSrc (j : Fin 1024) : Fin 1024 := ⟨j.val / 2 + 512 * (j.val % 2), by have := j.isLt; omega⟩

theorem midSrc_val (j : Fin 1024) : (midSrc j).val = j.val / 2 + 512 * (j.val % 2) := rfl

section
variable {F : FTy → Type}

/-- A piece agrees with the interleaving of `A`: its payload at its own index `x` is `A` at the row of the
    element `x` sits on and the source column of that element's column. -/
def PieceOK (A : Vec F S8x1024 .f32) (p : View.Piece (Elt F) S8x1024 .f32) : Prop :=
  ∀ x : p.1.shape.Idx,
    p.2 x = A (ix2 (n0 := 8) (n1 := 1024) (p.1.emb x 0) (midSrc (p.1.emb x 1)))

/-- The strip at `(ro, co)` whose sixteen lanes are gathered from `A` by index vectors that are constantly the row
    `ro` and, at lane `l`, the source column of `co + l`: it agrees with the interleaving. The `[16]` gather
    recast to `[1, 16]` reads lane `x 1`; the strip's element under `x` is `(ro + x 0, co + x 1)` with `x 0 = 0`. -/
theorem pieceOK_of (A : Vec F S8x1024 .f32) (ro co : Nat)
    (hin : ∀ a, (![ro, co] : Fin 2 → Nat) a + S1x16.size a ≤ S8x1024.size a)
    (vr vc : IVec S16 32) (h : ∀ a x, ((![vr, vc] : Fin 2 → IVec S16 32) a x).toNat < S8x1024.size a)
    (hsc : S16.ShapeCasts S1x16)
    (hr : ∀ l : S16.Idx, (vr l).toNat = ro)
    (hc : ∀ l : S16.Idx, (vc l).toNat = (co + (l 0).val) / 2 + 512 * ((co + (l 0).val) % 2)) :
    PieceOK A ⟨Rect.unit (s := S8x1024) ![ro, co] S1x16.size hin, shapeCast S1x16 (loadIdx A ![vr, vc] h) hsc⟩ := by
  intro x
  have hx : x = ix2 (n0 := 1) (n1 := 16) (x 0) (x 1) := eq_ix2 (n0 := 1) (n1 := 16) x
  have hcast : shapeCast S1x16 (loadIdx A ![vr, vc] h) hsc x = loadIdx A ![vr, vc] h (ix1 (n := 16) (x 1)) := by
    conv_lhs => rw [hx]
    exact shapeCast_a_1a_apply (a := 16) (loadIdx A ![vr, vc] h) hsc (x 0) (x 1)
  show shapeCast S1x16 (loadIdx A ![vr, vc] h) hsc x = _
  rw [hcast]
  show A (idxAt ![vr, vc] h (ix1 (n := 16) (x 1))) = _
  refine congrArg A ?_
  funext a
  refine Fin.ext ?_
  have h0 : (x 0).val = 0 := by have h1 : (x 0).val < 1 := (x 0).isLt; omega
  match a with
  | ⟨0, _⟩ =>
    show (vr (ix1 (n := 16) (x 1))).toNat = ro + 1 * (x 0).val
    rw [hr, h0, Nat.mul_zero, Nat.add_zero]
  | ⟨1, _⟩ =>
    show (vc (ix1 (n := 16) (x 1))).toNat = (co + 1 * (x 1).val) / 2 + 512 * ((co + 1 * (x 1).val) % 2)
    rw [hc, Nat.one_mul]

/-- The whole array's box places each index at itself. -/
theorem whole_idx (y : S8x1024.Idx) : (LoadRect.whole S8x1024).idx y = y := by
  funext a; refine Fin.ext ?_
  show 0 + 1 * (y a).val = (y a).val
  omega

/-- After writes whose pieces all agree with the interleaving of `A` and together cover the array (the covering
    checked on the pieces' rectangles), the array reads `A (r, midSrc j)` at every `(r, j)`, through any view and
    over any prior contents: the newest piece over an element decides it, and that piece agrees. -/
theorem read_pieces {sig : RefSig} {κ : Kind} {sp : Space} (v : View sig κ sp S8x1024 .f32)
    (f : v.ty.Contents (Elt F)) (A : Vec F S8x1024 .f32) (L : List (View.Piece (Elt F) S8x1024 .f32))
    (t : LoadRect.Cov) (hcov : LoadRect.covChk (L.map Sigma.fst) (LoadRect.whole S8x1024) t = true)
    (hall : ∀ p ∈ L, PieceOK A p) (y : S8x1024.Idx) :
    v.read (Elt F) (v.writes (Elt F) f L) y = A (ix2 (n0 := 8) (n1 := 1024) (y 0) (midSrc (y 1))) := by
  refine View.read_writes_apply_of_pieces v f
    (fun y => A (ix2 (n0 := 8) (n1 := 1024) (y 0) (midSrc (y 1)))) L hall y ?_
  obtain ⟨p, hp, hy⟩ := LoadRect.cover_of_covChk L (LoadRect.whole S8x1024) t hcov y
  rw [whole_idx] at hy
  exact ⟨p, hp, hy⟩

end

/-! ## The covering certificate of the `8 × 64` tiling by `[1, 16]` strips -/

/-- Row `r`, the `n` strips from strip `c` on: cut the first sixteen columns off, they lie in the strip of `(r, c)`
    — the `(64 r + c)`-th stored, at position `511 − (64 r + c)` of the list, newest first. -/
def colsCov (r : Nat) : Nat → Nat → LoadRect.Cov
  | _, 0 => .leaf 0
  | c, 1 => .leaf (511 - (64 * r + c))
  | c, n + 2 => .split 1 16 (.leaf (511 - (64 * r + c))) (colsCov r (c + 1) (n + 1))

/-- The `n` rows from row `r` on: cut the first row off and cover it strip by strip. -/
def rowsCov : Nat → Nat → LoadRect.Cov
  | _, 0 => .leaf 0
  | r, 1 => colsCov r 0 64
  | r, n + 2 => .split 0 1 (colsCov r 0 64) (rowsCov (r + 1) (n + 1))

/-- The certificate for the whole `[8, 1024]` array against the 512 strips, the strip of `(r, c)` (row `r`, columns
    `16 c … 16 c + 15`) at position `511 − (64 r + c)`. -/
def tileCov : LoadRect.Cov := rowsCov 0 8

end Cert.Lib
-- ==== Proof.LibSliceWrite.lean ====
/-
  Writing and reading through a unit-stride rectangle of an array, at an index. The rectangle of sizes `size` at
  offsets `off` holds the indices `y` with `off a ≤ y a < off a + size a` on every axis `a`; such a `y` is the
  rectangle's own index `y − off` (`unitLocal`) placed at `off + (y − off)`. An unmasked write through the
  rectangle puts the payload's element `y − off` at `y` and leaves every index outside the rectangle as it was; a
  read through the rectangle at its own index `x` is the array at `off + x`. Stated for any view (through `read`),
  for a whole buffer (directly on its contents), and with rank-2 indices spelled by coordinates.
-/
import Idealize.ShloMosaic.Signature.Memref
import Idealize.ShloMosaic.Lib.ValueIdx

namespace Cert.Lib

open Idealize.ShloMosaic Idealize.ShloMosaic.ValueIdx

section
variable {s : Shape}

/-- Membership in a unit-stride rectangle, as a proposition on the index's coordinates. -/
def InUnit (off size : Fin s.rank → Nat) (y : s.Idx) : Prop := ∀ a, off a ≤ (y a).val ∧ (y a).val < off a + size a

theorem mem_unit_iff {off size : Fin s.rank → Nat} {hin : ∀ a, off a + size a ≤ s.size a} {y : s.Idx} :
    y ∈ (Rect.unit off size hin).set ↔ InUnit off size y := Rect.mem_set_unit

/-- An index inside the rectangle, as the rectangle's own index: each coordinate less the offset. -/
def unitLocal (off size : Fin s.rank → Nat) (y : s.Idx) (h : InUnit off size y) : (⟨s.rank, size⟩ : Shape).Idx :=
  fun a => ⟨(y a).val - off a, by have := h a; show (y a).val - off a < size a; omega⟩

/-- The rectangle places its own index `x` at `off + x`. -/
theorem emb_unit_val (off size : Fin s.rank → Nat) (hin : ∀ a, off a + size a ≤ s.size a)
    (x : (Rect.unit off size hin).shape.Idx) (a : Fin s.rank) :
    ((Rect.unit off size hin).emb x a).val = off a + (x a).val := by
  show off a + 1 * (x a).val = _
  rw [Nat.one_mul]

/-- It places `y − off` back at `y`. -/
theorem emb_unitLocal (off size : Fin s.rank → Nat) (hin : ∀ a, off a + size a ≤ s.size a) (y : s.Idx)
    (h : InUnit off size y) : (Rect.unit off size hin).emb (unitLocal off size y h) = y := by
  funext a; refine Fin.ext ?_
  rw [emb_unit_val]
  show off a + ((y a).val - off a) = (y a).val
  have := (h a).1; omega

end

section
variable {sig : RefSig} {κ : Kind} {sp : Space} {s : Shape} {e : EltTy} {Val : EltTy → Type}

/-! ## Through any view -/

/-- After an unmasked write through the rectangle, an index inside it reads the payload at `y − off`. -/
theorem read_write_unit_of_mem (v : View sig κ sp s e) (off size : Fin s.rank → Nat)
    (hin : ∀ a, off a + size a ≤ s.size a) (f : v.ty.Contents Val)
    (w : (Rect.unit off size hin).shape.Idx → Val e) (y : s.Idx) (h : InUnit off size y) :
    v.read Val ((v.slice (Rect.unit off size hin)).write Val f w Finset.univ) y = w (unitLocal off size y h) := by
  conv_lhs => rw [← emb_unitLocal off size hin y h]
  exact View.read_slice_write_emb _ f w (Finset.mem_univ _)

/-- An index outside the rectangle reads what was there before. -/
theorem read_write_unit_of_not_mem (v : View sig κ sp s e) (off size : Fin s.rank → Nat)
    (hin : ∀ a, off a + size a ≤ s.size a) (f : v.ty.Contents Val)
    (w : (Rect.unit off size hin).shape.Idx → Val e) (y : s.Idx) (h : ¬ InUnit off size y) :
    v.read Val ((v.slice (Rect.unit off size hin)).write Val f w Finset.univ) y = v.read Val f y :=
  View.read_slice_write_of_not_mem _ f w Finset.univ (by rw [Rect.map_emb_univ, mem_unit_iff]; exact h)

/-- A read through the rectangle at its own index is the view's read at the index it is placed at. -/
theorem read_slice_unit (v : View sig κ sp s e) (off size : Fin s.rank → Nat)
    (hin : ∀ a, off a + size a ≤ s.size a) (f : v.ty.Contents Val) (x : (Rect.unit off size hin).shape.Idx) :
    (v.slice (Rect.unit off size hin)).read Val f x = v.read Val f ((Rect.unit off size hin).emb x) := rfl

end

section
variable {sig : RefSig} {κ : Kind} {Val : EltTy → Type}

/-! ## A whole buffer: directly on its contents -/

/-- Written through a unit-stride rectangle of the whole buffer `b`, an index inside the rectangle holds the
    payload at `i − off`. -/
theorem whole_write_unit_of_mem (b : Ref sig κ) (off size : Fin b.ty.shape.rank → Nat)
    (hin : ∀ a, off a + size a ≤ b.ty.shape.size a) (hs : ∀ a, (Rect.unit off size hin).stride a = 1)
    (f : b.ty.Contents Val) (w : (Rect.unit off size hin).shape.Idx → Val b.ty.elt) (i : b.ty.shape.Idx)
    (h : InUnit off size i) :
    ((Memref.whole b).slice (Rect.unit off size hin) hs).view.write Val f w Finset.univ i
      = w (unitLocal off size i h) :=
  read_write_unit_of_mem (View.whole b) off size hin f w i h

/-- An index outside the rectangle holds what it held. -/
theorem whole_write_unit_of_not_mem (b : Ref sig κ) (off size : Fin b.ty.shape.rank → Nat)
    (hin : ∀ a, off a + size a ≤ b.ty.shape.size a) (hs : ∀ a, (Rect.unit off size hin).stride a = 1)
    (f : b.ty.Contents Val) (w : (Rect.unit off size hin).shape.Idx → Val b.ty.elt) (i : b.ty.shape.Idx)
    (h : ¬ InUnit off size i) :
    ((Memref.whole b).slice (Rect.unit off size hin) hs).view.write Val f w Finset.univ i = f i :=
  read_write_unit_of_not_mem (View.whole b) off size hin f w i h

/-- Read through the rectangle at its own index `x`: the contents at the index `x` is placed at, `off + x`. -/
theorem whole_read_unit (b : Ref sig κ) (off size : Fin b.ty.shape.rank → Nat)
    (hin : ∀ a, off a + size a ≤ b.ty.shape.size a) (hs : ∀ a, (Rect.unit off size hin).stride a = 1)
    (f : b.ty.Contents Val) (x : (Rect.unit off size hin).shape.Idx) :
    ((Memref.whole b).slice (Rect.unit off size hin) hs).view.read Val f x = f ((Rect.unit off size hin).emb x) :=
  rfl

end

/-! ## Rank 2, by coordinates -/

section
variable {R C : Nat}

/-- Inside the `[m, n]` rectangle at `(a, b)`: both coordinates in their ranges. -/
theorem inUnit_ix2_iff (a b m n : Nat) (p : Fin R) (q : Fin C) :
    InUnit (s := ⟨2, ![R, C]⟩) ![a, b] ![m, n] (ix2 p q) ↔ (a ≤ p.val ∧ p.val < a + m) ∧ (b ≤ q.val ∧ q.val < b + n) :=
  Fin.forall_fin_two

/-- The local index of `(p, q)` in the rectangle at `(a, b)` is `(p − a, q − b)`. -/
theorem unitLocal_ix2 (a b m n : Nat) (p : Fin R) (q : Fin C)
    (h : InUnit (s := ⟨2, ![R, C]⟩) ![a, b] ![m, n] (ix2 p q)) :
    unitLocal (s := ⟨2, ![R, C]⟩) ![a, b] ![m, n] (ix2 p q) h
      = ix2 (n0 := m) (n1 := n)
          ⟨p.val - a, by have h0 : a ≤ p.val ∧ p.val < a + m := h 0; omega⟩
          ⟨q.val - b, by have h1 : b ≤ q.val ∧ q.val < b + n := h 1; omega⟩ := by
  funext k
  match k with
  | ⟨0, _⟩ => rfl
  | ⟨1, _⟩ => rfl

/-- The rectangle at `(a, b)` places its own `(x0, x1)` at `(a + x0, b + x1)`. -/
theorem emb_unit_ix2 (a b m n : Nat)
    (hin : ∀ k, (![a, b] : Fin 2 → Nat) k + (![m, n] : Fin 2 → Nat) k ≤ (⟨2, ![R, C]⟩ : Shape).size k)
    (x0 : Fin m) (x1 : Fin n) :
    (Rect.unit (s := ⟨2, ![R, C]⟩) ![a, b] ![m, n] hin).emb (ix2 x0 x1)
      = ix2 (n0 := R) (n1 := C)
          ⟨a + x0.val, by have h0 : a + m ≤ R := hin 0; have := x0.isLt; omega⟩
          ⟨b + x1.val, by have h1 : b + n ≤ C := hin 1; have := x1.isLt; omega⟩ := by
  funext k; refine Fin.ext ?_
  rw [emb_unit_val]
  match k with
  | ⟨0, _⟩ => rfl
  | ⟨1, _⟩ => rfl

/-- Through any view of an `[R, C]` array: after an unmasked write through the `[m, n]` rectangle at `(a, b)`, the
    element `(p, q)` inside it reads the payload at `(p − a, q − b)`. -/
theorem read_write_unit2_of_mem {sig : RefSig} {κ : Kind} {sp : Space} {e : EltTy} {Val : EltTy → Type}
    (v : View sig κ sp ⟨2, ![R, C]⟩ e) (a b m n : Nat)
    (hin : ∀ k, (![a, b] : Fin 2 → Nat) k + (![m, n] : Fin 2 → Nat) k ≤ (⟨2, ![R, C]⟩ : Shape).size k)
    (f : v.ty.Contents Val) (w : (⟨2, ![m, n]⟩ : Shape).Idx → Val e) (p : Fin R) (q : Fin C)
    (hp : a ≤ p.val ∧ p.val < a + m) (hq : b ≤ q.val ∧ q.val < b + n) :
    v.read Val ((v.slice (Rect.unit ![a, b] ![m, n] hin)).write Val f w Finset.univ) (ix2 p q)
      = w (ix2 (n0 := m) (n1 := n) ⟨p.val - a, by omega⟩ ⟨q.val - b, by omega⟩) := by
  rw [read_write_unit_of_mem v ![a, b] ![m, n] hin f w (ix2 p q) ((inUnit_ix2_iff a b m n p q).mpr ⟨hp, hq⟩),
    unitLocal_ix2]

/-- The same outside the rectangle: the element reads what was there. -/
theorem read_write_unit2_of_not_mem {sig : RefSig} {κ : Kind} {sp : Space} {e : EltTy} {Val : EltTy → Type}
    (v : View sig κ sp ⟨2, ![R, C]⟩ e) (a b m n : Nat)
    (hin : ∀ k, (![a, b] : Fin 2 → Nat) k + (![m, n] : Fin 2 → Nat) k ≤ (⟨2, ![R, C]⟩ : Shape).size k)
    (f : v.ty.Contents Val) (w : (⟨2, ![m, n]⟩ : Shape).Idx → Val e) (p : Fin R) (q : Fin C)
    (h : ¬ ((a ≤ p.val ∧ p.val < a + m) ∧ (b ≤ q.val ∧ q.val < b + n))) :
    v.read Val ((v.slice (Rect.unit ![a, b] ![m, n] hin)).write Val f w Finset.univ) (ix2 p q)
      = v.read Val f (ix2 p q) :=
  read_write_unit_of_not_mem v ![a, b] ![m, n] hin f w (ix2 p q) (fun hh => h ((inUnit_ix2_iff a b m n p q).mp hh))

end

end Cert.Lib
-- ==== Proof.KIOk.lean ====
/-
  The loop invariant's pure fact, moved along. `OK k` says of a result array `fo`, on the task's block of 1024 rows:
  the two outer bands of channels `[0, 512)` and `[1536, 2048)`, and the middle band `[512, 1536)` of the block's
  first `8 k` rows, hold the re-ordered rows `G2 x`. It holds at `k = 0` once the two outer bands have been copied
  from `x` (the channel map is the identity there); a trip that writes rows `[8 k, 8 k + 8)` of the middle band with
  channel `512 + j` taken from source channel `512 + j / 2 + 512 (j % 2)` takes `OK k` to `OK (k + 1)`; and
  `OK 128` is the whole block.
-/
import proofs.«211075_g81750407512465_cont_sun_c4_77_5_alg».proof.Proof.KISetup
import proofs.«211075_g81750407512465_cont_sun_c4_77_5_alg».proof.Proof.LibPieces
import proofs.«211075_g81750407512465_cont_sun_c4_77_5_alg».proof.Proof.LibSliceWrite

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (d : Dev nD) (L : grid0.Coords)

/-- The first row of the task's block. -/
abbrev row0 (L : grid0.Coords) : Nat := 2048 * (L 1).val + 1024 * (L 0).val

/-- What is already right after `k` trips: on the task's block, the two outer bands of channels, and the middle band of
    the block's first `8 k` rows, hold the re-ordered rows. -/
def OK (xv : Buf (Elt F) (xLoc d)) (k : Nat) (fo : Buf (Elt F) (oLoc d)) : Prop :=
  ∀ i : S32768x2048.Idx, i ∈ tSet L →
    ((i 1).val < 512 ∨ 1536 ≤ (i 1).val ∨ (i 0).val < 2048 * (L 1).val + 1024 * (L 0).val + 8 * k) →
    (fo : S32768x2048.Idx → Elt F .f32) i = Cert.Spec.G2 (xv : S32768x2048.Idx → Elt F .f32) i

/-! ## The block, and rectangles of the array, by coordinates -/

/-- An index is in the task's block exactly when its row is one of the block's 1024. -/
theorem mem_tSet (i : S32768x2048.Idx) : i ∈ tSet L ↔ row0 L ≤ (i 0).val ∧ (i 0).val < row0 L + 1024 := by
  show i ∈ (tR L).set.map (Function.Embedding.refl _) ↔ _
  rw [Finset.map_refl, Rect.mem_set_unit, Fin.forall_fin_two]
  show (row0 L ≤ (i 0).val ∧ (i 0).val < row0 L + 1024) ∧ (0 ≤ (i 1).val ∧ (i 1).val < 0 + 2048) ↔ _
  have h1 : (i 1).val < 2048 := (i 1).isLt
  constructor
  · exact fun h => h.1
  · exact fun h => ⟨h, Nat.zero_le _, by omega⟩

/-- Inside the `[m, n]` rectangle at `(a, b)` of the array: both coordinates in their ranges. -/
theorem inUnit2 (a b m n : Nat) (i : S32768x2048.Idx) :
    Cert.Lib.InUnit (s := S32768x2048) ![a, b] ![m, n] i
      ↔ (a ≤ (i 0).val ∧ (i 0).val < a + m) ∧ (b ≤ (i 1).val ∧ (i 1).val < b + n) :=
  Fin.forall_fin_two

/-- The local index of `i` in that rectangle, by coordinates. -/
theorem unitLocal2 (a b m n : Nat) (i : S32768x2048.Idx) (h : Cert.Lib.InUnit (s := S32768x2048) ![a, b] ![m, n] i) :
    Cert.Lib.unitLocal (s := S32768x2048) ![a, b] ![m, n] i h
      = ix2 (n0 := m) (n1 := n)
          ⟨(i 0).val - a, by have h0 : a ≤ (i 0).val ∧ (i 0).val < a + m := h 0; omega⟩
          ⟨(i 1).val - b, by have h1 : b ≤ (i 1).val ∧ (i 1).val < b + n := h 1; omega⟩ := by
  funext k
  match k with
  | ⟨0, _⟩ => rfl
  | ⟨1, _⟩ => rfl

/-- On the outer bands the re-ordering keeps the channel, so the re-ordered array reads the array itself. -/
theorem G2_outer (xv : S32768x2048.Idx → Elt F .f32) (i : S32768x2048.Idx) (h : (i 1).val < 512 ∨ 1536 ≤ (i 1).val) :
    Cert.Spec.G2 xv i = xv i := by
  show xv (ix2 (i 0) (Cert.Spec.srcCol (i 1))) = xv i
  rw [Cert.Spec.srcCol_outer (i 1) h]
  exact congrArg xv (eq_ix2 i).symm

/-- A row of the strip a trip writes is a row of the array. -/
theorem row_lt (k : Nat) (hk : k < 128) (r : Fin 8) : row0 L + 8 * k + r.val < 32768 := by
  have h0 : (L 0).val < 2 := (L 0).isLt
  have h1 : (L 1).val < 16 := (L 1).isLt
  have := r.isLt
  show 2048 * (L 1).val + 1024 * (L 0).val + 8 * k + r.val < 32768
  omega

/-- A source channel of the middle band is a channel of the array. -/
theorem col_lt (j : Fin 1024) : 512 + (Cert.Lib.midSrc j).val < 2048 := by
  have := (Cert.Lib.midSrc j).isLt; omega

/-! ## The three steps -/

/-- Before the first trip: the two outer bands of the block's rows were copied from `x` unchanged, where the
    re-ordering is the identity; no row of the block is below the block's first. -/
theorem ok_zero (xv : Buf (Elt F) (xLoc d)) (o0 : Buf (Elt F) (oLoc d)) (off1 off2 : Fin 2 → Nat)
    (e1 : off1 = ![row0 L, 0]) (e2 : off2 = ![row0 L, 1536])
    (hin1 : ∀ a, off1 a + S1024x512.size a ≤ S32768x2048.size a) (hin2 : ∀ a, off2 a + S1024x512.size a ≤ S32768x2048.size a)
    (hs1 : ∀ a, (Rect.unit (s := S32768x2048) off1 S1024x512.size hin1).stride a = 1)
    (hs2 : ∀ a, (Rect.unit (s := S32768x2048) off2 S1024x512.size hin2).stride a = 1)
    (w1 : (Rect.unit (s := S32768x2048) off1 S1024x512.size hin1).shape.Idx → Elt F .f32)
    (w2 : (Rect.unit (s := S32768x2048) off2 S1024x512.size hin2).shape.Idx → Elt F .f32)
    (hw1 : ∀ x, w1 x = (xv : S32768x2048.Idx → Elt F .f32) ((Rect.unit (s := S32768x2048) off1 S1024x512.size hin1).emb x))
    (hw2 : ∀ x, w2 x = (xv : S32768x2048.Idx → Elt F .f32) ((Rect.unit (s := S32768x2048) off2 S1024x512.size hin2).emb x)) :
    OK d L xv 0 (((Memref.whole main_v1_scv : Memref sig Kind.scVector Space.hbm S32768x2048 EltTy.f32).slice
        (Rect.unit (s := S32768x2048) off2 S1024x512.size hin2) hs2).view.write (Elt F)
      (((Memref.whole main_v1_scv : Memref sig Kind.scVector Space.hbm S32768x2048 EltTy.f32).slice
        (Rect.unit (s := S32768x2048) off1 S1024x512.size hin1) hs1).view.write (Elt F) o0 w1 Finset.univ) w2 Finset.univ) := by
  subst e1 e2
  intro i hi hc
  obtain ⟨hlo, hhi⟩ := (mem_tSet L i).mp hi
  have hi1 : (i 1).val < 2048 := (i 1).isLt
  rcases hc with h | h | h
  · rw [G2_outer _ i (Or.inl h)]
    have hm1 : Cert.Lib.InUnit (s := S32768x2048) ![row0 L, 0] S1024x512.size i :=
      (inUnit2 _ _ _ _ i).mpr ⟨⟨hlo, hhi⟩, Nat.zero_le _, by omega⟩
    have hn2 : ¬ Cert.Lib.InUnit (s := S32768x2048) ![row0 L, 1536] S1024x512.size i := fun hh => by
      have := ((inUnit2 _ _ _ _ i).mp hh).2.1; omega
    exact (Cert.Lib.whole_write_unit_of_not_mem main_v1_scv _ _ hin2 hs2 _ w2 i hn2).trans
      ((Cert.Lib.whole_write_unit_of_mem main_v1_scv _ _ hin1 hs1 o0 w1 i hm1).trans
        ((hw1 _).trans (congrArg xv (Cert.Lib.emb_unitLocal _ _ hin1 i hm1))))
  · rw [G2_outer _ i (Or.inr h)]
    have hm2 : Cert.Lib.InUnit (s := S32768x2048) ![row0 L, 1536] S1024x512.size i :=
      (inUnit2 _ _ _ _ i).mpr ⟨⟨hlo, hhi⟩, h, by omega⟩
    exact (Cert.Lib.whole_write_unit_of_mem main_v1_scv _ _ hin2 hs2 _ w2 i hm2).trans
      ((hw2 _).trans (congrArg xv (Cert.Lib.emb_unitLocal _ _ hin2 i hm2)))
  · exact absurd h (by show ¬ (i 0).val < row0 L + 8 * 0; omega)

/-- One trip: rows `[8 k, 8 k + 8)` of the block's middle band are written, channel `512 + j` from source channel
    `512 + j / 2 + 512 (j % 2)`, which is the re-ordering's source channel there; every other element keeps its value,
    and for it the condition of `OK (k + 1)` is that of `OK k`. -/
theorem ok_step (xv : Buf (Elt F) (xLoc d)) (fo : Buf (Elt F) (oLoc d)) (k : Nat) (hk : k < 128) (off : Fin 2 → Nat)
    (e : off = ![row0 L + 8 * k, 512])
    (hin : ∀ a, off a + S8x1024.size a ≤ S32768x2048.size a)
    (hs : ∀ a, (Rect.unit (s := S32768x2048) off S8x1024.size hin).stride a = 1)
    (w : (Rect.unit (s := S32768x2048) off S8x1024.size hin).shape.Idx → Elt F .f32)
    (hw : ∀ (r : Fin 8) (j : Fin 1024), w (ix2 r j)
      = (xv : S32768x2048.Idx → Elt F .f32) (ix2 (n0 := 32768) (n1 := 2048) ⟨row0 L + 8 * k + r.val, row_lt L k hk r⟩
          ⟨512 + (Cert.Lib.midSrc j).val, col_lt j⟩))
    (hfo : OK d L xv k fo) :
    OK d L xv (k + 1) (((Memref.whole main_v1_scv : Memref sig Kind.scVector Space.hbm S32768x2048 EltTy.f32).slice
      (Rect.unit (s := S32768x2048) off S8x1024.size hin) hs).view.write (Elt F) fo w Finset.univ) := by
  subst e
  intro i hi hc
  obtain ⟨hlo, hhi⟩ := (mem_tSet L i).mp hi
  have hi1 : (i 1).val < 2048 := (i 1).isLt
  by_cases hm : Cert.Lib.InUnit (s := S32768x2048) ![row0 L + 8 * k, 512] S8x1024.size i
  · obtain ⟨⟨hr0, hr1⟩, hc0, hc1⟩ := (inUnit2 _ _ _ _ i).mp hm
    refine (Cert.Lib.whole_write_unit_of_mem main_v1_scv _ _ hin hs fo w i hm).trans ?_
    rw [unitLocal2 (row0 L + 8 * k) 512 8 1024 i hm, hw]
    show xv _ = xv (ix2 (i 0) (Cert.Spec.srcCol (i 1)))
    refine congrArg xv ?_
    funext a
    refine Fin.ext ?_
    match a with
    | ⟨0, _⟩ =>
      show row0 L + 8 * k + ((i 0).val - (row0 L + 8 * k)) = (i 0).val
      omega
    | ⟨1, _⟩ =>
      show 512 + (((i 1).val - 512) / 2 + 512 * (((i 1).val - 512) % 2)) = (Cert.Spec.srcCol (i 1)).val
      rw [Cert.Spec.srcCol_mid_val (i 1) hc0 (by omega)]
      omega
  · refine (Cert.Lib.whole_write_unit_of_not_mem main_v1_scv _ _ hin hs fo w i hm).trans (hfo i hi ?_)
    rcases hc with h | h | h
    · exact Or.inl h
    · exact Or.inr (Or.inl h)
    · by_cases hb : (i 1).val < 512 ∨ 1536 ≤ (i 1).val
      · rcases hb with hb | hb
        · exact Or.inl hb
        · exact Or.inr (Or.inl hb)
      · refine Or.inr (Or.inr ?_)
        have hnr : ¬ (row0 L + 8 * k ≤ (i 0).val ∧ (i 0).val < row0 L + 8 * k + 8) := fun hh =>
          hm ((inUnit2 _ _ _ _ i).mpr ⟨hh, by omega, by omega⟩)
        have h' : (i 0).val < row0 L + 8 * (k + 1) := h
        show (i 0).val < row0 L + 8 * k
        omega

/-- After the last trip the block is the re-ordered block: every row of the block is among its first `8 · 128`. -/
theorem ok_final (xv : Buf (Elt F) (xLoc d)) (fo : Buf (Elt F) (oLoc d)) (h : OK d L xv 128 fo) :
    (oLoc d ↦[tSet L]{fullShare} fo : sProp (MT nD τ sig (HIx 1) (Elt F) ℕ UU ℕ))
      = oLoc d ↦[tSet L]{fullShare} (Cert.Spec.G2 xv) :=
  pointsTo_congr fun i hi => h i hi (Or.inr (Or.inr (by
    have := ((mem_tSet L i).mp hi).2
    show (i 0).val < row0 L + 8 * 128
    omega)))

end Cert.Proof.KI

end
-- ==== Proof.KIFold.lean ====
/-
  One trip of the task's loop, restated as a fold over its 512 strips.
-/
import proofs.«211075_g81750407512465_cont_sun_c4_77_5_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S32768x2048 EltTy.f32)
local notation "oW" => (Memref.whole Cert.KernelIdeal.main_v1_scv : Memref Cert.KernelIdeal.sig Kind.scVector Space.hbm Cert.KernelIdeal.S32768x2048 EltTy.f32)
local notation "sA" => (Memref.whole Cert.KernelIdeal.cc0_scratch0 : Memref Cert.KernelIdeal.sig Kind.scVector Space.vmem Cert.KernelIdeal.S8x1024 EltTy.f32)
local notation "sB" => (Memref.whole Cert.KernelIdeal.cc0_scratch1 : Memref Cert.KernelIdeal.sig Kind.scVector Space.vmem Cert.KernelIdeal.S8x1024 EltTy.f32)

/-! ## One trip of the loop, as a fold over its 512 strips

A trip copies the block's next 8 rows of the middle channels into the first scratch, fills the second scratch strip by strip
— strip `n = 64 r + c` is the 16 lanes at `(r, 16 c)`, gathered from row `r` of the first scratch at the lanes' source
channels —, and copies the second scratch out. The printed trip spells the 512 strips out one after the other; the same
operations, in the same order, are the fold below (`trip_eq`: by unfolding both). -/

variable [FloatOps F]

/-- The lanes' row vector for row `r`, and their channel vector for strip `c`, as the body computes them. -/
def rowV (v3 : IVec S16 32) (r : Nat) : IVec S16 32 := addi (andi v3 (broadcast S16 0#32)) (broadcast S16 (BitVec.ofNat 32 r))
def colV (c : Nat) : IVec S16 32 := addi k0_pay1 (broadcast S16 (BitVec.ofNat 32 (8 * c)))

theorem strip_inb (n : Nat) (hn : n < 512) : ∀ a, (![n / 64, 16 * (n % 64)] : Fin 2 → Nat) a + S1x16.size a ≤ S8x1024.size a := by
  have h1 : n / 64 < 8 := by omega
  have h2 : n % 64 < 64 := Nat.mod_lt _ (by decide)
  intro a; fin_cases a <;> simp <;> omega

abbrev stripR (n : Nat) (hn : n < 512) : Rect S8x1024 := Rect.unit (s := S8x1024) ![n / 64, 16 * (n % 64)] S1x16.size (strip_inb n hn)

/-- Strip `n`: the check of the lanes' indices, the gather, the (unused) load of the strip and its store. -/
def groupOps (L : grid0.Coords) (v3 : IVec S16 32) (n : Nat) (hn : n < 512) :
    Prog (TpuEff nD τ sig (Elt F) Λ₀ (.scVector ((L 0).castLE hcore0) ((L 1).castLE hsub0))) PUnit := do
  have hw : k0_chk1 (rowV v3 (n / 64)) (colV (n % 64)) :=
    (← Prog.lift (TpuEff.assume (k0_chk1 (rowV v3 (n / 64)) (colV (n % 64))) (k0_chk1.dec (rowV v3 (n / 64)) (colV (n % 64))))).down
  let v : Vec F S16 .f32 ← SparseCore.vectorLoadIdx sA ![rowV v3 (n / 64), colV (n % 64)] (k0_idx1_inb _ _ hw) (View.loads_vmem h_S8x1024)
  let _ld : Vec F S1x16 .f32 ← Prog.lift (.load sB (stripR n hn).toLoadRect (View.loadsAt_vmem h_S1x16))
  Prog.lift (.store sB (stripR n hn) (shapeCast S1x16 v shapeCasts_S16_S1x16) Finset.univ (View.stores_vmem_bits_univ h_S1x16 rfl) (.inl rfl))

/-- The last `m` strips, in order. -/
def gatherFrom (L : grid0.Coords) (v3 : IVec S16 32) :
    (m : Nat) → m ≤ 512 → Prog (TpuEff nD τ sig (Elt F) Λ₀ (.scVector ((L 0).castLE hcore0) ((L 1).castLE hsub0))) PUnit
  | 0, _ => pure ⟨⟩
  | m + 1, h => do
    groupOps L v3 (512 - (m + 1)) (by omega)
    gatherFrom L v3 m (by omega)

abbrev xWin (L : grid0.Coords) (k : Fin k0_t1_loop.trips) : Memref sig .scVector .hbm S8x1024 .f32 :=
  (xW).slice (Rect.unit (s := S32768x2048) (k0_off3 L k) S8x1024.size (k0_off3_inb L k)) (fun _ => rfl)
abbrev oWin (L : grid0.Coords) (k : Fin k0_t1_loop.trips) : Memref sig .scVector .hbm S8x1024 .f32 :=
  (oW).slice (Rect.unit (s := S32768x2048) (k0_off4 L k) S8x1024.size (k0_off4_inb L k)) (fun _ => rfl)

/-- One trip. -/
def myTrip (L : grid0.Coords) (v3 : IVec S16 32) (k : Fin k0_t1_loop.trips) :
    Prog (TpuEff nD τ sig (Elt F) Λ₀ (.scVector ((L 0).castLE hcore0) ((L 1).castLE hsub0))) Unit := do
  Prog.lift (.enqueueDma (xWin L k) (.here sA) (.dma cc0_scoped2.sem) (View.wordExact_bits rfl) (Memref.isWhole_whole _).wordExact ⟨Or.inl rfl, trivial⟩)
  Prog.lift (.waitDma2 cc0_scoped2.sem (xWin L k) sA (View.wordExact_bits rfl) (Memref.isWhole_whole _).wordExact)
  gatherFrom L v3 512 (le_refl _)
  Prog.lift (.enqueueDma sB (.here (oWin L k)) (.dma cc0_scoped3.sem) (Memref.isWhole_whole _).wordExact (View.wordExact_bits rfl) ⟨Or.inl rfl, trivial⟩)
  Prog.lift (.waitDma2 cc0_scoped3.sem sB (oWin L k) (Memref.isWhole_whole _).wordExact (View.wordExact_bits rfl))
  pure ⟨⟩

open Lean Elab Tactic Meta in
/-- Close `a = b` by `Eq.refl a`, leaving the comparison of the two sides to the kernel. -/
elab "kernel_rfl" : tactic => do
  let g ← getMainGoal
  let t ← instantiateMVars (← g.getType)
  let some (_, lhs, _) := t.eq? | throwError "kernel_rfl: not an equation"
  g.assign (← mkEqRefl lhs)

theorem trip_eq (L : grid0.Coords) (v2 : BitVec 32) (v3 : IVec S16 32) (k : Fin k0_t1_loop.trips) (acc : Unit) :
    k0_t1_body (F := F) L xW (Memref.isWhole_whole _) oW (Memref.isWhole_whole _) sA (Memref.isWhole_whole _) sB (Memref.isWhole_whole _)
        cc0_scoped0 cc0_scoped1 cc0_scoped2 cc0_scoped3 v2 v3 k acc
      = myTrip L v3 k := by
  kernel_rfl

end Cert.Proof.KI

end
-- ==== Proof.LibGood.lean ====
/-
  A counted form of "the strips stored so far are right". The 512 strips of sixteen lanes of an `[8, 1024]` array are
  stored one after the other, the `n`-th (`n = 64 r + c`, row `r < 8`, `c < 64`) at `(r, 16 c)`; element `(r, j)` lies in
  strip number `pos (r, j) = 64 r + j / 16`. `Good v A n f`: every element of the first `n` strips reads, through the
  view `v` of contents `f`, the source `A` at its row and the interleaved source column. Storing strip `n` — gathered
  from `A` by the row `ro` and the source columns of `co + l` — over contents that are good to `n = 64 ro + co / 16`
  leaves contents good to `n + 1`: an element under the new strip reads its payload, any other element keeps what it
  read, and an element of the first `n + 1` strips that is not under strip `n` is one of the first `n`. At `n = 512`
  every element is covered.
-/
import proofs.«211075_g81750407512465_cont_sun_c4_77_5_alg».proof.Proof.LibPieces

namespace Cert.Lib

open Idealize.ShloMosaic Idealize.ShloMosaic.ValueIdx

/-- The number of the strip that element `y` lies in: `64 r + j / 16` for `y = (r, j)`. -/
def pos (y : S8x1024.Idx) : Nat := 64 * (y 0).val + (y 1).val / 16

section
variable {F : FTy → Type} {sig : RefSig} {κ : Kind} {sp : Space}

/-- Every element of the first `n` strips reads the interleaving of `A`. -/
def Good (v : View sig κ sp S8x1024 .f32) (A : Vec F S8x1024 .f32) (n : Nat) (f : v.ty.Contents (Elt F)) : Prop :=
  ∀ y : S8x1024.Idx, pos y < n → v.read (Elt F) f y = A (ix2 (n0 := 8) (n1 := 1024) (y 0) (midSrc (y 1)))

theorem good_zero (v : View sig κ sp S8x1024 .f32) (A : Vec F S8x1024 .f32) (f : v.ty.Contents (Elt F)) : Good v A 0 f :=
  fun _ h => absurd h (Nat.not_lt_zero _)

/-- The same fact at an equal count. -/
theorem Good.cast {v : View sig κ sp S8x1024 .f32} {A : Vec F S8x1024 .f32} {f : v.ty.Contents (Elt F)} {n n' : Nat}
    (e : n = n') (hg : Good v A n f) : Good v A n' f := e ▸ hg

/-- Element `y` is under the strip at `(ro, co)`, `co` a multiple of 16, exactly when it lies in strip `64 ro + co / 16`. -/
theorem mem_strip_iff (ro co : Nat) (hin : ∀ a, (![ro, co] : Fin 2 → Nat) a + S1x16.size a ≤ S8x1024.size a)
    (hco : co % 16 = 0) (y : S8x1024.Idx) :
    y ∈ (Rect.unit (s := S8x1024) ![ro, co] S1x16.size hin).set ↔ pos y = 64 * ro + co / 16 := by
  have h0 : ro + 1 ≤ 8 := hin 0
  have h1 : co + 16 ≤ 1024 := hin 1
  have hy0 : (y 0).val < 8 := idx2_lt0 (n0 := 8) (n1 := 1024) y
  have hy1 : (y 1).val < 1024 := idx2_lt1 (n0 := 8) (n1 := 1024) y
  rw [Rect.mem_set_unit]
  unfold pos
  constructor
  · intro hm
    have m0 : ro ≤ (y 0).val ∧ (y 0).val < ro + 1 := hm 0
    have m1 : co ≤ (y 1).val ∧ (y 1).val < co + 16 := hm 1
    omega
  · intro hp
    refine Fin.forall_fin_two.mpr ⟨?_, ?_⟩
    · show ro ≤ (y 0).val ∧ (y 0).val < ro + 1
      omega
    · show co ≤ (y 1).val ∧ (y 1).val < co + 16
      omega

/-- One more strip: strip `64 ro + co / 16`, gathered from `A`, stored over contents good so far. -/
theorem good_step (v : View sig κ sp S8x1024 .f32) (A : Vec F S8x1024 .f32) (f : v.ty.Contents (Elt F)) (ro co : Nat)
    (hin : ∀ a, (![ro, co] : Fin 2 → Nat) a + S1x16.size a ≤ S8x1024.size a)
    (vr vc : IVec S16 32) (h : ∀ a x, ((![vr, vc] : Fin 2 → IVec S16 32) a x).toNat < S8x1024.size a) (hsc : S16.ShapeCasts S1x16)
    (hco : co % 16 = 0) (hr : ∀ l : S16.Idx, (vr l).toNat = ro)
    (hc : ∀ l : S16.Idx, (vc l).toNat = (co + (l 0).val) / 2 + 512 * ((co + (l 0).val) % 2))
    (hg : Good v A (64 * ro + co / 16) f) :
    Good v A (64 * ro + co / 16 + 1)
      (v.writes (Elt F) f [⟨Rect.unit (s := S8x1024) ![ro, co] S1x16.size hin, shapeCast S1x16 (loadIdx A ![vr, vc] h) hsc⟩]) := by
  intro y hy
  by_cases hm : y ∈ (Rect.unit (s := S8x1024) ![ro, co] S1x16.size hin).set
  · -- under the new strip: its payload, which is the interleaving of `A`
    refine View.read_writes_apply_of_pieces v f (fun y => A (ix2 (n0 := 8) (n1 := 1024) (y 0) (midSrc (y 1)))) _
      (fun p hp x => ?_) y ⟨_, List.mem_singleton.mpr rfl, hm⟩
    obtain rfl := List.mem_singleton.mp hp
    exact pieceOK_of A ro co hin vr vc h hsc hr hc x
  · -- elsewhere: what was there, and the element is one of the earlier strips'
    rw [View.read_writes_apply_of_forall_not_mem v f y _ (fun p hp => by obtain rfl := List.mem_singleton.mp hp; exact hm)]
    refine hg y ?_
    have hne : pos y ≠ 64 * ro + co / 16 := fun e => hm ((mem_strip_iff ro co hin hco y).mpr e)
    omega

/-- All 512 strips stored: every element reads the interleaving of `A`. -/
theorem good_full (v : View sig κ sp S8x1024 .f32) (A : Vec F S8x1024 .f32) (f : v.ty.Contents (Elt F)) (hg : Good v A 512 f)
    (y : S8x1024.Idx) : v.read (Elt F) f y = A (ix2 (n0 := 8) (n1 := 1024) (y 0) (midSrc (y 1))) := by
  refine hg y ?_
  have hy0 : (y 0).val < 8 := idx2_lt0 (n0 := 8) (n1 := 1024) y
  have hy1 : (y 1).val < 1024 := idx2_lt1 (n0 := 8) (n1 := 1024) y
  unfold pos
  omega

end

end Cert.Lib
-- ==== Proof.KIGather.lean ====
/-
  The 512 strips of one trip, by induction on how many remain: each strip's check holds, its gather reads the first
  scratch at the strip's source channels, and its store makes one more strip of the second scratch right (Cert.Lib.Good).
-/
import proofs.«211075_g81750407512465_cont_sun_c4_77_5_alg».proof.Proof.KIFold
import proofs.«211075_g81750407512465_cont_sun_c4_77_5_alg».proof.Proof.LibGood

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S32768x2048 EltTy.f32)
local notation "oW" => (Memref.whole Cert.KernelIdeal.main_v1_scv : Memref Cert.KernelIdeal.sig Kind.scVector Space.hbm Cert.KernelIdeal.S32768x2048 EltTy.f32)
local notation "sA" => (Memref.whole Cert.KernelIdeal.cc0_scratch0 : Memref Cert.KernelIdeal.sig Kind.scVector Space.vmem Cert.KernelIdeal.S8x1024 EltTy.f32)
local notation "sB" => (Memref.whole Cert.KernelIdeal.cc0_scratch1 : Memref Cert.KernelIdeal.sig Kind.scVector Space.vmem Cert.KernelIdeal.S8x1024 EltTy.f32)

/-! ## The strips' index vectors, once for all 512 -/

variable [FloatOps F]

/-- The lane numbers, as the body reads them. -/
def v3c : IVec S16 32 := iota .scVector S16 32 [0] iota_S16_d0_w32_scVector

/-- Every strip's indices name elements of the scratch; its row lanes are all the strip's row; its channel lanes are the
    sources `j / 2 + 512 (j % 2)` of the strip's channels `j = 16 c + l`. -/
theorem chk_all : ∀ n : Fin 512, k0_chk1 (rowV v3c (n.val / 64)) (colV (n.val % 64)) := by decide +kernel
theorem row_all : ∀ n : Fin 512, ∀ l : S16.Idx, (rowV v3c (n.val / 64) l).toNat = n.val / 64 := by decide +kernel
theorem col_all : ∀ n : Fin 512, ∀ l : S16.Idx,
    (colV (n.val % 64) l).toNat = (16 * (n.val % 64) + (l 0).val) / 2 + 512 * ((16 * (n.val % 64) + (l 0).val) % 2) := by decide +kernel

section Gather
variable (d : Dev nD) (L : grid0.Coords)

/-- What the gathers read: the first scratch's contents, as a vector. -/
abbrev Asrc (A0 : Buf (Elt F) ((V d (cV L) (jV L)).loc cc0_scratch0)) : Vec F Cert.Lib.S8x1024 .f32 :=
  (sA).view.readAt (Elt F) (LoadRect.whole S8x1024) A0

set_option maxHeartbeats 1000000 in
theorem gather_wp (A0 : Buf (Elt F) ((V d (cV L) (jV L)).loc cc0_scratch0)) :
    ∀ (m : Nat) (hm : m ≤ 512) (fb : Buf (Elt F) ((V d (cV L) (jV L)).loc cc0_scratch1)),
      Cert.Lib.Good (sB).view (Asrc d L A0) (512 - m) fb →
      (iprop(((sA).view.loc (V d (cV L) (jV L)) ↦{fullShare} A0) ∗ ((sB).view.loc (V d (cV L) (jV L)) ↦{fullShare} fb)) : sProp 𝕄)
        ⊢ wp frame (wpE (defs₀ (F := F)) 𝒱₀ (V d (cV L) (jV L)) none) Set.univ (gatherFrom (F := F) L v3c m hm)
            fun _ => iprop(((sA).view.loc (V d (cV L) (jV L)) ↦{fullShare} A0)
              ∗ ∃ fb', ⌜Cert.Lib.Good (sB).view (Asrc d L A0) 512 fb'⌝ ∗ (sB).view.loc (V d (cV L) (jV L)) ↦{fullShare} fb') := by
  intro m
  induction m with
  | zero =>
    intro hm fb hg
    unfold gatherFrom
    iintro ⟨Ha, Hb⟩
    sl_step
    isplitl [Ha]; · iexact Ha
    iexists fb; isplitr
    · ipureintro; exact hg
    · iexact Hb
  | succ m ih =>
    intro hm fb hg
    unfold gatherFrom groupOps
    iintro ⟨Ha, Hb⟩
    have hn : 512 - (m + 1) < 512 := by omega
    sl_exec (disch := exact chk_all ⟨512 - (m + 1), hn⟩)
    rw [SparseCore.vectorLoadIdx]
    have hidx : ∀ a x, ((![rowV v3c ((512 - (m + 1)) / 64), colV ((512 - (m + 1)) % 64)] : Fin 2 → IVec S16 32) a x).toNat < S8x1024.size a :=
      chk_all ⟨512 - (m + 1), hn⟩
    have hg' : Cert.Lib.Good (sB).view (Asrc d L A0) (512 - m)
        ((sB).view.writes (Elt F) fb [⟨stripR (512 - (m + 1)) hn,
          shapeCast S1x16 (loadIdx (Asrc d L A0) ![rowV v3c ((512 - (m + 1)) / 64), colV ((512 - (m + 1)) % 64)] hidx) shapeCasts_S16_S1x16⟩]) :=
      (Cert.Lib.good_step (sB).view (Asrc d L A0) fb ((512 - (m + 1)) / 64) (16 * ((512 - (m + 1)) % 64)) (strip_inb _ hn) _ _ hidx shapeCasts_S16_S1x16
        (by omega) (row_all ⟨_, hn⟩) (col_all ⟨_, hn⟩) (hg.cast (by omega))).cast (by omega)
    have ihs := ih (by omega) _ hg'
    clear ih
    sl_exec
    isplitl [HgatherFrom_0]; · iexact HgatherFrom_0
    iexists _; isplitr
    · ipureintro; exact hgatherFrom_1
    · iexact HgatherFrom_2

/-- All 512 strips, from any contents of the second scratch. -/
theorem gather_all (A0 : Buf (Elt F) ((V d (cV L) (jV L)).loc cc0_scratch0)) (fb : Buf (Elt F) ((V d (cV L) (jV L)).loc cc0_scratch1)) :
    (iprop(((sA).view.loc (V d (cV L) (jV L)) ↦{fullShare} A0) ∗ ((sB).view.loc (V d (cV L) (jV L)) ↦{fullShare} fb)) : sProp 𝕄)
      ⊢ wp frame (wpE (defs₀ (F := F)) 𝒱₀ (V d (cV L) (jV L)) none) Set.univ (gatherFrom (F := F) L v3c 512 (le_refl _))
          fun _ => iprop(((sA).view.loc (V d (cV L) (jV L)) ↦{fullShare} A0)
            ∗ ∃ fb', ⌜Cert.Lib.Good (sB).view (Asrc d L A0) 512 fb'⌝ ∗ (sB).view.loc (V d (cV L) (jV L)) ↦{fullShare} fb') :=
  gather_wp d L A0 512 (le_refl _) fb ((Cert.Lib.good_zero _ _ _).cast (by decide))

end Gather

end Cert.Proof.KI

end
-- ==== Proof.KIPayload.lean ====
/-
  What one trip hands to the result: the first scratch buffer is written whole with the window `w` of `x` (rows
  `[8 k, 8 k + 8)` of the block, channels `[512, 1536)`), so read whole it is `w`; the second scratch buffer, all of
  its 512 strips stored, reads at `(r, j)` the first at `(r, midSrc j)`; and the window places its `(r, c)` at
  row `8 k + r` of the block, channel `512 + c`. So the second scratch buffer at `(r, j)` is `x` at that row and
  channel `512 + midSrc j`.
-/
import proofs.«211075_g81750407512465_cont_sun_c4_77_5_alg».proof.Proof.KIOk
import proofs.«211075_g81750407512465_cont_sun_c4_77_5_alg».proof.Proof.LibGood

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "sA" => (Memref.whole Cert.KernelIdeal.cc0_scratch0 : Memref Cert.KernelIdeal.sig Kind.scVector Space.vmem Cert.KernelIdeal.S8x1024 EltTy.f32)
local notation "sB" => (Memref.whole Cert.KernelIdeal.cc0_scratch1 : Memref Cert.KernelIdeal.sig Kind.scVector Space.vmem Cert.KernelIdeal.S8x1024 EltTy.f32)

variable (d : Dev nD) (L : grid0.Coords)

/-- A buffer written whole and then read whole is the payload. -/
theorem readAt_write_whole (fa : Buf (Elt F) ((V d (cV L) (jV L)).loc cc0_scratch0)) (w : S8x1024.Idx → Elt F .f32)
    (y : S8x1024.Idx) :
    (sA).view.readAt (Elt F) (LoadRect.whole S8x1024) ((sA).view.write (Elt F) fa w Finset.univ) y = w y := by
  show ((View.whole cc0_scratch0).write (Elt F) fa w Finset.univ) ((LoadRect.whole S8x1024).idx y) = w y
  rw [View.write_whole_univ, Cert.Lib.whole_idx]

/-- The second scratch buffer after the trip's 512 strips, at `(r, j)`: the argument at row `8 k + r` of the block and
    channel `512 + midSrc j`. -/
theorem trip_payload (xv : Buf (Elt F) (xLoc d)) (k : Nat) (hk : k < 128) (off : Fin 2 → Nat) (e : off = ![row0 L + 8 * k, 512])
    (hin : ∀ a, off a + S8x1024.size a ≤ S32768x2048.size a)
    (w : S8x1024.Idx → Elt F .f32)
    (hw : ∀ x : S8x1024.Idx, w x = (xv : S32768x2048.Idx → Elt F .f32) ((Rect.unit (s := S32768x2048) off S8x1024.size hin).emb x))
    (fa : Buf (Elt F) ((V d (cV L) (jV L)).loc cc0_scratch0)) (fb' : Buf (Elt F) ((V d (cV L) (jV L)).loc cc0_scratch1))
    (hg : Cert.Lib.Good (sB).view ((sA).view.readAt (Elt F) (LoadRect.whole S8x1024) ((sA).view.write (Elt F) fa w Finset.univ)) 512 fb') :
    ∀ (r : Fin 8) (j : Fin 1024), (sB).view.read (Elt F) fb' (ix2 r j)
      = (xv : S32768x2048.Idx → Elt F .f32) (ix2 (n0 := 32768) (n1 := 2048) ⟨row0 L + 8 * k + r.val, row_lt L k hk r⟩
          ⟨512 + (Cert.Lib.midSrc j).val, col_lt j⟩) := by
  subst e
  intro r j
  refine (Cert.Lib.good_full (sB).view _ fb' hg (ix2 r j)).trans ?_
  refine (readAt_write_whole d L fa w _).trans ?_
  refine (hw _).trans (congrArg xv ?_)
  exact Cert.Lib.emb_unit_ix2 (R := 32768) (C := 2048) (row0 L + 8 * k) 512 8 1024 hin r (Cert.Lib.midSrc j)

end Cert.Proof.KI

end
-- ==== Proof.KITile.lean ====
/-
  The task of one vector subcore, at a symbolic grid point: the two outer channel bands copied whole, then 128 trips, each
  re-ordering the middle channels of 8 rows through the two scratch buffers.
-/
import proofs.«211075_g81750407512465_cont_sun_c4_77_5_alg».proof.Proof.KISetup
import proofs.«211075_g81750407512465_cont_sun_c4_77_5_alg».proof.Proof.KIOk
import proofs.«211075_g81750407512465_cont_sun_c4_77_5_alg».proof.Proof.KIGather
import proofs.«211075_g81750407512465_cont_sun_c4_77_5_alg».proof.Proof.KIPayload

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S32768x2048 EltTy.f32)
local notation "oW" => (Memref.whole Cert.KernelIdeal.main_v1_scv : Memref Cert.KernelIdeal.sig Kind.scVector Space.hbm Cert.KernelIdeal.S32768x2048 EltTy.f32)
local notation "sA" => (Memref.whole Cert.KernelIdeal.cc0_scratch0 : Memref Cert.KernelIdeal.sig Kind.scVector Space.vmem Cert.KernelIdeal.S8x1024 EltTy.f32)
local notation "sB" => (Memref.whole Cert.KernelIdeal.cc0_scratch1 : Memref Cert.KernelIdeal.sig Kind.scVector Space.vmem Cert.KernelIdeal.S8x1024 EltTy.f32)

variable (d : Dev nD) (L : grid0.Coords)

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
theorem pts_sB (f : Buf (Elt F) ((V d (cV L) (jV L)).loc cc0_scratch1)) :
    ((sB).view.loc (V d (cV L) (jV L)) ↦{fullShare} f : sProp 𝕄) = (V d (cV L) (jV L)).loc cc0_scratch1 ↦{fullShare} f := rfl
theorem pts_x (f : Buf (Elt F) (xLoc d)) :
    ((xW).view.loc (V d (cV L) (jV L)) ↦[(xW).view.setOn (tR L).set]{fullShare} f : sProp 𝕄) = xLoc d ↦[tSet L]{fullShare} f := rfl
theorem pts_o (f : Buf (Elt F) (oLoc d)) :
    ((oW).view.loc (V d (cV L) (jV L)) ↦[(oW).view.setOn (tR L).set]{fullShare} f : sProp 𝕄) = oLoc d ↦[tSet L]{fullShare} f := rfl

/-- The loop's invariant: the argument block read-only, the result block right so far (`OK`), the two scratch buffers at
    whatever they hold, the loop's two semaphores at zero, and the waits recorded so far all at the kernel's own index. -/
def inv (xv : Buf (Elt F) (xLoc d)) (O : CellTallies nD τ sig (HIx 1)) (W : Waits sig (HIx 1)) (k : Nat) (_ : PUnit) : sProp 𝕄 :=
  iprop(Transfers.MayWaits (V d (cV L) (jV L)) (none : HIx 1) O
    ∗ ((xW).view.loc (V d (cV L) (jV L)) ↦[(xW).view.setOn (tR L).set]{fullShare} xv)
    ∗ (∃ fo, ⌜OK d L xv k fo⌝ ∗ (oW).view.loc (V d (cV L) (jV L)) ↦[(oW).view.setOn (tR L).set]{fullShare} fo)
    ∗ (∃ fa, (sA).view.loc (V d (cV L) (jV L)) ↦{fullShare} fa)
    ∗ (∃ fb, (sB).view.loc (V d (cV L) (jV L)) ↦{fullShare} fb)
    ∗ semVal (V d (cV L) (jV L), SemLoc.dma cc0_scoped2.sem) 0
    ∗ semVal (V d (cV L) (jV L), SemLoc.dma cc0_scoped3.sem) 0
    ∗ ∃ W', ⌜∀ p ∈ W', p ∈ W ∨ p.2 = none⌝ ∗ owes (V d (cV L) (jV L)) O W')

set_option maxHeartbeats 4000000 in
theorem tile_body [FloatOps F] (hF : (K (F := F)).Facts) (xv : Buf (Elt F) (xLoc d)) (o0 : Buf (Elt F) (oLoc d))
    (O : CellTallies nD τ sig (HIx 1)) (W : Waits sig (HIx 1)) (hO : ∀ g, O g none = 0) :
    iprop(levAts (K (F := F)).L (K (F := F)).lev ∗ emp
        ∗ ((xLoc d ↦[tSet L]{fullShare} xv : sProp 𝕄) ∗ (oLoc d ↦[tSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__permute L xW (Memref.isWhole_whole _) oW (Memref.isWhole_whole _) sA (Memref.isWhole_whole _) sB (Memref.isWhole_whole _)
            cc0_scoped0 cc0_scoped1 cc0_scoped2 cc0_scoped3)
          fun _ => iprop(((xLoc d ↦[tSet L]{fullShare} xv) ∗ (oLoc d ↦[tSet L]{fullShare} (Cert.Spec.G2 xv)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__permute_eq_skeleton]; unfold cc0__permute_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fa, Ha⟩, ⟨%fb, Hb⟩, Hbufs⟩, ⟨Hs0, Hs1, Hs2, Hs3, Hsems⟩, HO⟩
  ihave Hmw := ((K (F := F)).mayWaits_none (thr := V d (cV L) (jV L)) hO) $$ Hlv
  ihave Ha' := (Entails.of_eq (pts_sA (F := F) d L _).symm) $$ Ha
  ihave Hb' := (Entails.of_eq (pts_sB (F := F) d L _).symm) $$ Hb
  ihave Hx' := (Entails.of_eq (pts_x (F := F) d L _).symm) $$ Hx
  ihave Ho' := (Entails.of_eq (pts_o (F := F) d L _).symm) $$ Ho
  -- the two outer bands, copied whole
  sl_exec
  sl_for (inv d L xv O W) $$ [Hmw Hx' Ho' Ha' Hb' Hs2 Hs3 HO]
  case region =>
    intro k acc
    have hk : k.val < 128 := lt_of_lt_of_le k.isLt k0_t1_abs.2.1
    rw [show tile_body.sl.prog.body_1 (F := F) L k acc = myTrip L v3c k from trip_eq L _ v3c k acc]
    unfold myTrip inv
    iintro ⟨Hmw, Hx, ⟨%fo, %hfo, Ho⟩, ⟨%fa, Ha⟩, ⟨%fb, Hb⟩, Hs2, Hs3, %W', %hW', HO⟩
    have hcut := gather_all (F := F) d L
    sl_exec
    sl_step
    isplitl [Hmw]; · iexact Hmw
    isplitl [Hx]; · iexact Hx
    isplitl [Ho]
    · iexists (tile_body.sl.Ho_w0 d L k fo fb'gatherFrom_0); isplitr
      · ipureintro
        exact ok_step d L xv fo k.val hk (k0_off4 L k) (k0_off4_eq L k) _ _ _
          (trip_payload d L xv k.val hk (k0_off3 L k) (k0_off3_eq L k) _ _ (fun _ => rfl) fa _ hgatherFrom_1) hfo
      · iexact Ho
    isplitl [HgatherFrom_0]; · iexists _; iexact HgatherFrom_0
    isplitl [HgatherFrom_2]; · iexists _; iexact HgatherFrom_2
    isplitl [Hs2]; · iexact Hs2
    isplitl [Hs3]; · iexact Hs3
    iexists (insert (SemLoc.dma cc0_scoped3.sem, (default : HIx 1)) (insert (SemLoc.dma cc0_scoped2.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold inv
    isplitl [Hmw]; · iexact Hmw
    isplitl [Hx']; · iexact Hx'
    isplitl [Ho']
    · iexists (tile_body.sl.Ho'_w1 d L xv o0); isplitr
      · ipureintro
        exact ok_zero d L xv o0 (k0_off1 L) (k0_off2 L) (k0_off1_eq L) (k0_off2_eq L) _ _ _ _ _ _ (fun _ => rfl) (fun _ => rfl)
      · iexact Ho'
    isplitl [Ha']; · iexists _; iexact Ha'
    isplitl [Hb']; · iexists _; iexact Hb'
    isplitl [Hs2]; · iexact Hs2
    isplitl [Hs3]; · iexact Hs3
    iexists (insert (SemLoc.dma cc0_scoped1.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  iintro %_ HI
  unfold inv
  icases HI with ⟨-, Hx, ⟨%fo, %hfo, Ho⟩, ⟨%fa', Ha⟩, ⟨%fb', Hb⟩, Hs2, Hs3, %W', %hW', HO⟩
  have h128 : Scf.trips k0_t1_loop.lb k0_t1_loop.ub k0_t1_loop.st = 128 := by decide
  have hfo' : OK d L xv 128 fo := h128 ▸ hfo
  sl_exec
  sl_step
  isplitl [Hx Ho]
  · isplitl [Hx]; · iexact Hx
    iapply (Entails.of_eq (ok_final (F := F) d L xv fo hfo')); iexact Ho
  isplitl [Ha Hb Hbufs]
  · isplitl [Ha]; · iexists _; iexact Ha
    isplitl [Hb]; · iexists _; iexact Hb
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KI

end
-- ==== Proof.KILaunchGeom.lean ====
/-
  The geometry of the launch. The task on SparseCore `c`, vector subcore `s` owns the rows `[2048 s + 1024 c, + 1024)`
  of the flattened arrays: the 32 blocks are pairwise disjoint and cover `[32768, 2048]`. And the value: the flattening
  `[4, 8192, 2048] → [32768, 2048]` keeps the channel coordinate (element `(a, b, j)` is element `(8192 a + b, j)`), so
  re-ordering the channels of the flattened array and reading the result back at `[4, 8192, 2048]` is re-ordering the
  channels there.
-/
import proofs.«211075_g81750407512465_cont_sun_c4_77_5_alg».proof.Proof.KITile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The grid points and their blocks -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_zero (c : Fin (grid0.bound 0)) (s : Fin (grid0.bound 1)) : coordsV c s 0 = c := rfl
theorem coordsV_one (c : Fin (grid0.bound 0)) (s : Fin (grid0.bound 1)) : coordsV c s 1 = s := rfl

/-- A task's elements are its rectangle's: the arrays are addressed whole. -/
theorem tSet_eq (L : grid0.Coords) : tSet L = (tR L).set := by
  unfold tSet View.setOn
  exact Finset.map_refl

/-- An element is the task's when its row is one of the task's 1024. -/
theorem mem_tBlock (L : grid0.Coords) (i : S32768x2048.Idx) :
    i ∈ tSet L ↔ 2048 * (L 1).val + 1024 * (L 0).val ≤ (i 0).val ∧ (i 0).val < 2048 * (L 1).val + 1024 * (L 0).val + 1024 := by
  rw [tSet_eq, Rect.mem_set_unit]
  constructor
  · intro h; simpa using h 0
  · intro h a
    have h1 : (i 1).val < 2048 := idx2_lt1 i
    fin_cases a
    · simpa using h
    · simpa using h1

/-- The block of the task at `(c, s)`. -/
abbrev bSet (p : Fin 2 × Fin 16) : Finset S32768x2048.Idx := tSet (coordsV p.1 p.2)

theorem mem_bSet (p : Fin 2 × Fin 16) (i : S32768x2048.Idx) :
    i ∈ bSet p ↔ 2048 * p.2.val + 1024 * p.1.val ≤ (i 0).val ∧ (i 0).val < 2048 * p.2.val + 1024 * p.1.val + 1024 :=
  mem_tBlock _ i

/-- Two different tasks' blocks share no row. -/
theorem blocks_disjoint : ∀ p ∈ (Finset.univ : Finset (Fin 2 × Fin 16)), ∀ q ∈ (Finset.univ : Finset (Fin 2 × Fin 16)), p ≠ q → Disjoint (bSet p) (bSet q) := by
  intro p _ q _ hpq
  refine Finset.disjoint_left.mpr fun i hp hq => ?_
  rw [mem_bSet] at hp hq
  have h1 := p.1.isLt; have h2 := p.2.isLt; have h3 := q.1.isLt; have h4 := q.2.isLt
  apply hpq
  refine Prod.ext (Fin.ext ?_) (Fin.ext ?_) <;> omega

/-- Every row is in some task's block: row `r` in that of worker `r / 1024 = 2 s + c`. -/
theorem blocks_cover : (Finset.univ : Finset (Fin 2 × Fin 16)).biUnion bSet = Finset.univ := by
  ext i
  simp only [Finset.mem_biUnion, Finset.mem_univ, true_and, iff_true]
  have hr : (i 0).val < 32768 := idx2_lt0 i
  refine ⟨(⟨(i 0).val / 1024 % 2, by omega⟩, ⟨(i 0).val / 2048, by omega⟩), ?_⟩
  rw [mem_bSet]
  dsimp only
  omega

/-! ## The value through the two reshapes -/

/-- The row-major position of an element of `[4, 8192, 2048]`, -/
theorem rowMajor_S3 (j : S4x8192x2048.Idx) :
    (S4x8192x2048.rowMajor j).val = ((j 0).val * 8192 + (j 1).val) * 2048 + (j 2).val := by
  rw [Shape.rowMajor_val_three]; rfl
/-- and of an element of `[32768, 2048]`. -/
theorem rowMajor_S2 (j : S32768x2048.Idx) : (S32768x2048.rowMajor j).val = (j 0).val * 2048 + (j 1).val := by
  rw [Shape.rowMajor_val_two]; rfl

/-- Flatten, re-order the channels, un-flatten: the re-ordering on `[4, 8192, 2048]`. -/
theorem G3_eq_reshape {α : Type} (a : S4x8192x2048.Idx → α) (h1 : S4x8192x2048.ShapeCasts S32768x2048) (h2 : S32768x2048.ShapeCasts S4x8192x2048) :
    shapeCast S4x8192x2048 (Cert.Spec.G2 (shapeCast S32768x2048 a h1)) h2 = Cert.Spec.G3 a := by
  funext j
  have h0 : (j 0).val < 4 := (j 0).isLt
  have h1' : (j 1).val < 8192 := (j 1).isLt
  rw [shapeCast_apply _ h2 j (ix2 (⟨8192 * (j 0).val + (j 1).val, by omega⟩ : Fin 32768) (j 2)) (by
    rw [rowMajor_S2, rowMajor_S3]
    show (8192 * (j 0).val + (j 1).val) * 2048 + (j 2).val = _
    omega)]
  unfold Cert.Spec.G2 Cert.Spec.G3
  refine shapeCast_apply _ h1 _ _ ?_
  rw [rowMajor_S2, rowMajor_S3]
  show ((j 0).val * 8192 + (j 1).val) * 2048 + (Cert.Spec.srcCol (j 2)).val = (8192 * (j 0).val + (j 1).val) * 2048 + (Cert.Spec.srcCol (j 2)).val
  omega

end Cert.Proof.KI

end
-- ==== Proof.KILaunchObl.lean ====
/-
  The launch theorem's obligations for the one SparseCore call. The call hands each of the two SparseCores the blocks of
  its sixteen tasks, each task its block of rows of `x` (the flattened argument, read-only) and of `o` (at whatever it
  held); a task hands back its block of `x` unchanged and its block of `o` at the re-ordered rows — every block at the
  ONE whole-array function `G2` of the flattened argument, so that the blocks join. The kernel keeps no ghost state of
  its own beyond the transfers' counters.
-/
import proofs.«211075_g81750407512465_cont_sun_c4_77_5_alg».proof.Proof.KILaunchGeom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S32768x2048 EltTy.f32)
local notation "oW" => (Memref.whole Cert.KernelIdeal.main_v1_scv : Memref Cert.KernelIdeal.sig Kind.scVector Space.hbm Cert.KernelIdeal.S32768x2048 EltTy.f32)
local notation "sA" => (Memref.whole Cert.KernelIdeal.cc0_scratch0 : Memref Cert.KernelIdeal.sig Kind.scVector Space.vmem Cert.KernelIdeal.S8x1024 EltTy.f32)
local notation "sB" => (Memref.whole Cert.KernelIdeal.cc0_scratch1 : Memref Cert.KernelIdeal.sig Kind.scVector Space.vmem Cert.KernelIdeal.S8x1024 EltTy.f32)

variable (m : (ℓ : Loc nD τ sig) → Buf (Elt F) ℓ)

/-! ## What the call carries -/

/-- What `x` holds when the call starts: the argument, flattened. -/
def xval (d : Dev nD) : Buf (Elt F) (xLoc d) := shapeCast S32768x2048 (m (aLoc d)) shapeCasts_S4x8192x2048_S32768x2048

/-- What `o` holds when the call is over: the flattened argument, its rows re-ordered. -/
def oval (d : Dev nD) : Buf (Elt F) (oLoc d) := Cert.Spec.G2 (xval m d)

theorem nCore_bound : (K (F := F)).nCore 0 = grid0.bound 0 := rfl
theorem nSub_bound : (K (F := F)).nSub 0 = grid0.bound 1 := rfl

/-- The grid point of task `i` of SparseCore `c` of the call. -/
abbrev LV (c : Fin ((K (F := F)).nCore 0)) (i : Fin ((K (F := F)).nSub 0)) : grid0.Coords :=
  coordsV (Fin.cast nCore_bound c) (Fin.cast nSub_bound i)

/-- A task's share: its block of `x` at the flattened argument, its block of `o` at `fo`. -/
abbrev share (d : Dev nD) (L : grid0.Coords) (fo : Buf (Elt F) (oLoc d)) : sProp 𝕄 :=
  iprop((xLoc d ↦[tSet L]{fullShare} xval m d) ∗ (oLoc d ↦[tSet L]{fullShare} fo))

/-- The call takes, per SparseCore, its sixteen tasks' shares with `o` at its launch contents, and brings them back with
    `o` at the re-ordered rows; a task takes and brings back its own. -/
def P : (K (F := F)).Pay (nD := nD) (Val := Elt F) (Name := ℕ) (U := UU) where
  st := fun q d c => match q with
    | 0 => bigSep Finset.univ fun i : Fin ((K (F := F)).nSub 0) => share m d (LV c i) (m (oLoc d))
  dn := fun q d c => match q with
    | 0 => bigSep Finset.univ fun i : Fin ((K (F := F)).nSub 0) => share m d (LV c i) (oval m d)
  go := fun q d c i => match q with
    | 0 => share m d (LV c i) (m (oLoc d))
  td := fun q d c i => match q with
    | 0 => share m d (LV c i) (oval m d)
  x := fun _ _ => iprop(emp)

instance P_storable : (P (F := F) m).IsStorable where
  st q d c := match q with
    | 0 => (inferInstance : BI.Storable (upEmb : UEmb _ 𝕄) (bigSep Finset.univ fun i : Fin ((K (F := F)).nSub 0) => share m d (LV c i) (m (oLoc d))))
  dn q d c := match q with
    | 0 => (inferInstance : BI.Storable (upEmb : UEmb _ 𝕄) (bigSep Finset.univ fun i : Fin ((K (F := F)).nSub 0) => share m d (LV c i) (oval m d)))
  go q d c i := match q with
    | 0 => (inferInstance : BI.Storable (upEmb : UEmb _ 𝕄) (share m d (LV c i) (m (oLoc d))))
  td q d c i := match q with
    | 0 => (inferInstance : BI.Storable (upEmb : UEmb _ 𝕄) (share m d (LV c i) (oval m d)))

/-! ## The task's obligation -/

variable [FloatOps F]

theorem defs₀_vector (c : Fin τ.nSC) (s : Fin τ.nSub) :
    defs₀ (F := F) (.scVector c s) 0 ()
      = SparseCore.onTile hcore0 hsub0 (fun c s => cc0__permute (coordsV c s)
          xW (Memref.isWhole_whole _) oW (Memref.isWhole_whole _) sA (Memref.isWhole_whole _) sB (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (xval m d) (m (oLoc d)) O W hO).trans (wp_mono frame _ _ fun _ => obl_post)

/-! ## A SparseCore's operands are its tasks' -/

omit [FloatOps F] in
theorem vecSplit : (K (F := F)).VecSplit' (P m) 0 := by
  intro d c
  show (bigSep Finset.univ fun i : Fin ((K (F := F)).nSub 0) => share m d (LV c i) (m (oLoc d))) ⊢ |={Set.univ}=> iprop(
      (bigSep Finset.univ fun i : Fin ((K (F := F)).nSub 0) => share m d (LV c i) (m (oLoc d)))
      ∗ ((bigSep Finset.univ fun i : Fin ((K (F := F)).nSub 0) => share m d (LV c i) (oval m d))
          -∗ (bigSep Finset.univ fun i : Fin ((K (F := F)).nSub 0) => share m d (LV c i) (oval m d))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KI

end
-- ==== Proof.KILaunchMain.lean ====
/-
  @main on the TensorCore: the argument `[4, 8192, 2048]` flattened into `x` (a reshape), the SparseCore call from
  `x` and `o` — both split into the 32 tasks' blocks of rows and joined back, `o` at the re-ordered rows —, and `o`
  un-flattened into the result (a reshape). The argument is kept through all three; the result ends at the re-ordering of
  the argument on `[4, 8192, 2048]`.
-/
import proofs.«211075_g81750407512465_cont_sun_c4_77_5_alg».proof.Proof.KILaunchObl

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S32768x2048 EltTy.f32)
local notation "oW" => (Memref.whole Cert.KernelIdeal.main_v1_scv : Memref Cert.KernelIdeal.sig Kind.scVector Space.hbm Cert.KernelIdeal.S32768x2048 EltTy.f32)
local notation "sA" => (Memref.whole Cert.KernelIdeal.cc0_scratch0 : Memref Cert.KernelIdeal.sig Kind.scVector Space.vmem Cert.KernelIdeal.S8x1024 EltTy.f32)
local notation "sB" => (Memref.whole Cert.KernelIdeal.cc0_scratch1 : Memref Cert.KernelIdeal.sig Kind.scVector Space.vmem Cert.KernelIdeal.S8x1024 EltTy.f32)

variable (m : (ℓ : Loc nD τ sig) → Buf (Elt F) ℓ) (ρ : Dev nD → PrngReg)

/-! ## The two SparseCores' operands are the two arrays whole -/

/-- The 32 tasks' shares are `x` whole at the flattened argument and `o` whole at `fo`: the blocks are pairwise disjoint
    and cover the rows. -/
theorem shares_eq (d : Dev nD) (fo : Buf (Elt F) (oLoc d)) :
    (bigSep Finset.univ fun c : Fin ((K (F := F)).nCore 0) => bigSep Finset.univ fun i : Fin ((K (F := F)).nSub 0) => share m d (LV c i) fo)
      = iprop((xLoc d ↦{fullShare} xval m d) ∗ (oLoc d ↦{fullShare} fo)) := by
  show (bigSep (Finset.univ : Finset (Fin 2)) fun c => bigSep (Finset.univ : Finset (Fin 16)) fun i =>
      (iprop((xLoc d ↦[bSet (c, i)]{fullShare} xval m d) ∗ (oLoc d ↦[bSet (c, i)]{fullShare} fo)) : sProp 𝕄)) = _
  rw [← BI.bigSep_univ_prod (fun p : Fin 2 × Fin 16 => (iprop((xLoc d ↦[bSet p]{fullShare} xval m d) ∗ (oLoc d ↦[bSet p]{fullShare} fo)) : sProp 𝕄)),
    bigSep_sep', ← pointsTo_biUnion Finset.univ (ℓ := xLoc d) (q := fullShare) (f := xval m d) bSet blocks_disjoint,
    ← pointsTo_biUnion Finset.univ (ℓ := oLoc d) (q := fullShare) (f := fo) bSet blocks_disjoint, blocks_cover]

theorem st0_eq (d : Dev nD) :
    (bigSep Finset.univ fun c : Fin ((K (F := F)).nCore 0) => (P m).st 0 d c) = iprop((xLoc d ↦{fullShare} xval m d) ∗ (oLoc d ↦{fullShare} m (oLoc d))) :=
  shares_eq m d (m (oLoc d))
theorem dn0_eq (d : Dev nD) :
    (bigSep Finset.univ fun c : Fin ((K (F := F)).nCore 0) => (P m).dn 0 d c) = iprop((xLoc d ↦{fullShare} xval m d) ∗ (oLoc d ↦{fullShare} oval m d)) :=
  shares_eq m d (oval m d)

/-! ## The TensorCore's arrays and the two reshapes -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 rfl shapeCasts_S4x8192x2048_S32768x2048
abbrev opOut : HloOp τ sig (Elt F) := StableHlo.reshape main_v1 main_v2 rfl shapeCasts_S32768x2048_S4x8192x2048

/-- The TensorCore's arrays, all unscoped: the argument, `x`, `o`, the result. -/
abbrev S4 : Finset (DevRef τ sig) := {a', x', o', r'}

theorem held_S4 (d : Dev nD) (W : Valuation τ sig (Elt F)) :
    (held (T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; -/
def V0 (d : Dev nD) : Valuation τ sig (Elt F) := fun b => m (d, b)
/-- and the one after the call: `x` at the flattened argument, `o` at its re-ordered rows. -/
def V2 (d : Dev nD) : Valuation τ sig (Elt F) := Function.update (Function.update (V0 m d) x' (xval m d)) o' (oval m d)

theorem unscoped_held (d : Dev nD) : (unscopedBufs d (fun b => m ((SparseCore.T d).loc b)) : sProp 𝕄) = held (T d) S4 (V0 m d) := by
  rw [unscopedBufs_eq, held_S4]; rfl

theorem V2_a (d : Dev nD) : V2 m d a' = m (aLoc d) :=
  (Function.update_of_ne (show a' ≠ o' by decide) _ _).trans (Function.update_of_ne (show a' ≠ x' by decide) _ _)
theorem V2_x (d : Dev nD) : V2 m d x' = xval m d :=
  (Function.update_of_ne (show x' ≠ o' by decide) _ _).trans (Function.update_self _ _ _)
theorem V2_o (d : Dev nD) : V2 m d o' = oval m d := Function.update_self _ _ _
theorem V2_r (d : Dev nD) : V2 m d r' = m (rLoc d) :=
  (Function.update_of_ne (show r' ≠ o' by decide) _ _).trans (Function.update_of_ne (show r' ≠ x' by decide) _ _)

theorem hIn : (opIn (F := F)).bufs ⊆ S4 := show ({a', x'} : Finset (DevRef τ sig)) ⊆ S4 by decide
theorem hOut : (opOut (F := F)).bufs ⊆ S4 := show ({o', r'} : Finset (DevRef τ sig)) ⊆ S4 by decide

/-- After the first reshape: `x` at the flattened argument, the other three arrays as they were. -/
theorem held_in (d : Dev nD) :
    (held (T d) S4 ((opIn (F := F)).result (V0 m d)) : sProp 𝕄)
      = iprop((aLoc d ↦{fullShare} m (aLoc d)) ∗ (xLoc d ↦{fullShare} xval m d) ∗ (oLoc d ↦{fullShare} m (oLoc d)) ∗ rLoc d ↦{fullShare} m (rLoc d)) := by
  rw [held_S4,
    (opIn (F := F)).result_of_not_mem (V0 m d) (b := a') (show a' ∉ ({x'} : Finset (DevRef τ sig)) by decide),
    (opIn (F := F)).result_of_not_mem (V0 m d) (b := o') (show o' ∉ ({x'} : Finset (DevRef τ sig)) by decide),
    (opIn (F := F)).result_of_not_mem (V0 m d) (b := r') (show r' ∉ ({x'} : Finset (DevRef τ sig)) by decide),
    show (opIn (F := F)).result (V0 m d) x' = xval m d from StableHlo.reshape_result main_arg0 main_v0 rfl _ _ _ (V0 m d)]
  rfl

/-- After the second: the result at the re-ordering of the argument, the argument as it was. -/
theorem held_out (d : Dev nD) :
    (held (T d) S4 ((opOut (F := F)).result (V2 m d)) : sProp 𝕄)
      = iprop((aLoc d ↦{fullShare} m (aLoc d)) ∗ (xLoc d ↦{fullShare} xval m d) ∗ (oLoc d ↦{fullShare} oval m d)
          ∗ rLoc d ↦{fullShare} (Cert.Spec.G3 (m (aLoc d)) : Buf (Elt F) (rLoc d))) := by
  rw [held_S4,
    (opOut (F := F)).result_of_not_mem (V2 m d) (b := a') (show a' ∉ ({r'} : Finset (DevRef τ sig)) by decide),
    (opOut (F := F)).result_of_not_mem (V2 m d) (b := x') (show x' ∉ ({r'} : Finset (DevRef τ sig)) by decide),
    (opOut (F := F)).result_of_not_mem (V2 m d) (b := o') (show o' ∉ ({r'} : Finset (DevRef τ sig)) by decide),
    show (opOut (F := F)).result (V2 m d) r' = (Cert.Spec.G3 (m (aLoc d)) : Buf (Elt F) (rLoc d)) from
      (StableHlo.reshape_result main_v1 main_v2 rfl _ _ _ (V2 m d)).trans (by
        rw [V2_o]; exact G3_eq_reshape (m (aLoc d)) _ _),
    V2_a, V2_x, V2_o]

/-! ## @main -/

variable [FloatOps F]

/-- What @main leaves the claim: the argument at its launch contents, the result at its re-ordering. -/
abbrev FIN (d : Dev nD) : sProp 𝕄 :=
  iprop((aLoc d ↦{fullShare} m (aLoc d)) ∗ rLoc d ↦{fullShare} (Cert.Spec.G3 (m (aLoc d)) : Buf (Elt F) (rLoc d)))

/-- @main on device `d`'s TensorCore: the reshape into `x`, the call from `x` and `o`, the reshape of `o` into the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the argument flattened into `x`
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  ihave Hh := (Entails.of_eq (held_in (F := F) m d)) $$ Hheld
  icases Hh with ⟨Ha, Hx, Ho, Hr⟩
  rw [wp_ret]; imodintro
  -- the call: `x` and `o` to the two SparseCores' tasks and back
  iapply ((K (F := F)).wp_run (D (F := F)) 𝒱 (EH := EH) (P := P m) κ d 0) $$ [Hst Hx Ho Hb Ha Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  -- `o` un-flattened into the result
  iapply (wp_hlo_within 𝒱 (SparseCore.T d) none Set.univ (op := opOut) (S := S4) hOut (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_out (F := F) m d)) $$ Hheld
  icases Hh with ⟨Ha, -, -, Hr⟩
  rw [wp_ret]; imodintro; imodintro
  isplitl [Hst]; · iexact Hst
  isplitl [Ha]; · iexact Ha
  iexact Hr

end Cert.Proof.KI

end
-- ==== Proof.KILaunch.lean ====
/-
  The run of the whole program. Every weakly fair execution of the device's threads — @main on the TensorCore, the two
  SparseCores' sequencers, their 32 vector subcores' tasks — terminates, nothing faulting, with the result array at the
  re-ordering `G3` of the argument and the argument unchanged: the launch theorem at the one vector-subcore call, from the
  task's proof (`tile_body`, through `tileObl`), the split of the two arrays into the tasks' blocks, and @main's proof.
-/
import proofs.«211075_g81750407512465_cont_sun_c4_77_5_alg».proof.Proof.KILaunchMain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

local notation "xW" => (Memref.whole Cert.KernelIdeal.main_v0_scv : Memref Cert.KernelIdeal.sig Kind.scVector Space.hbm Cert.KernelIdeal.S32768x2048 EltTy.f32)
local notation "oW" => (Memref.whole Cert.KernelIdeal.main_v1_scv : Memref Cert.KernelIdeal.sig Kind.scVector Space.hbm Cert.KernelIdeal.S32768x2048 EltTy.f32)
local notation "sA" => (Memref.whole Cert.KernelIdeal.cc0_scratch0 : Memref Cert.KernelIdeal.sig Kind.scVector Space.vmem Cert.KernelIdeal.S8x1024 EltTy.f32)
local notation "sB" => (Memref.whole Cert.KernelIdeal.cc0_scratch1 : Memref Cert.KernelIdeal.sig Kind.scVector Space.vmem Cert.KernelIdeal.S8x1024 EltTy.f32)

section Fin

variable (m : (ℓ : Loc nD τ sig) → Buf (Elt F) ℓ)

/-- What the final memory shows on device `d`: the result at the re-ordering of the argument, the argument unchanged. -/
def fq (d : Dev nD) (s' : Phys nD τ sig (Elt F)) : Prop :=
  s'.mem.mem (rLoc d) = Cert.Spec.G3 (m (aLoc d)) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare)
    (f := (Cert.Spec.G3 (m (aLoc d)) : Buf (Elt F) (rLoc d)))) $$ [HSI Hr]
  · isplitl [HSI] <;> iassumption
  icases H with %h2
  ipureintro; exact ⟨funext fun i => h2 i (Finset.mem_univ i), funext fun i => h1 i (Finset.mem_univ i)⟩

end Fin

/-! ## The program's run -/

theorem run_main [FloatOps F] [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩
      (fun r => ∀ c : Dev nD, r.2.mem (rLoc c) = Cert.Spec.G3 (m (aLoc c)) ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (rLoc c) = Cert.Spec.G3 (m (aLoc c)) ∧ r.2.mem (aLoc c) = m (aLoc c)) (fun _ h => h)

end Cert.Proof.KI

end
-- ==== Proof.KBSetup.lean ====
/-
  The vocabulary of the kernel's run: the launch configuration, the ghost state (the launch handshakes beside the
  transfers' counters), the two flattened arrays `x` (the argument, `[32768, 2048]`) and `o` (the result), and the
  block of 1024 rows that the task on SparseCore `c`, vector subcore `s` owns: rows `[1024 · (2 s + c), + 1024)`
  of both arrays. The 32 blocks tile the 32768 rows. A task's scoped storage is two `[8, 1024]` scratch buffers and
  four DMA semaphores.
-/
import proofs.«211075_g81750407512465_cont_sun_c4_77_5_alg».proof.Defs
import proofs.«211075_g81750407512465_cont_sun_c4_77_5_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«211075_g81750407512465_cont_sun_c4_77_5_alg».proof.Proof.Gen.Kernel
import proofs.«211075_g81750407512465_cont_sun_c4_77_5_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev aLoc (d : Dev nD) : Loc nD τ sig := (SparseCore.T d).loc main_arg0
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The block of rows of worker `w < 32`: rows `[1024 w, 1024 w + 1024)`, every channel. -/
theorem blk_inb (w : Fin 32) : ∀ a, (![1024 * w.val, 0] : Fin 2 → Nat) a + (![1024, 2048] : Fin 2 → Nat) a ≤ S32768x2048.size a := by
  have := w.isLt
  intro a; fin_cases a <;> simp <;> omega
abbrev blk (w : Fin 32) : Rect S32768x2048 := Rect.unit (s := S32768x2048) ![1024 * w.val, 0] ![1024, 2048] (blk_inb w)

section Tile
variable (L : grid0.Coords)

abbrev cV (L : grid0.Coords) : Fin τ.nSC := (L 0).castLE hcore0
abbrev jV (L : grid0.Coords) : Fin τ.nSub := (L 1).castLE hsub0

/-- The worker number of the task at grid point `L`: `2 s + c`. -/
def wid (L : grid0.Coords) : Fin 32 := ⟨2 * (L 1).val + (L 0).val, by
  have h0 : (L 0).val < 2 := (L 0).isLt
  have h1 : (L 1).val < 16 := (L 1).isLt
  omega⟩

end Tile

/-- The task's block of rows, spelt by the grid point's coordinates: rows `[2048 s + 1024 c, + 1024)`, every channel. -/
theorem tR_inb (L : grid0.Coords) : ∀ a, (![2048 * (L 1).val + 1024 * (L 0).val, 0] : Fin 2 → Nat) a + (![1024, 2048] : Fin 2 → Nat) a ≤ S32768x2048.size a := by
  have h0 : (L 0).val < 2 := (L 0).isLt
  have h1 : (L 1).val < 16 := (L 1).isLt
  intro a; fin_cases a <;> simp <;> omega
abbrev tR (L : grid0.Coords) : Rect S32768x2048 := Rect.unit (s := S32768x2048) ![2048 * (L 1).val + 1024 * (L 0).val, 0] ![1024, 2048] (tR_inb L)

/-- The elements of the task's block, as a set of indices of either flattened array. -/
abbrev tSet (L : grid0.Coords) : Finset S32768x2048.Idx :=
  (Memref.whole main_v0_scv : Memref sig Kind.scVector Space.hbm S32768x2048 EltTy.f32).view.setOn (tR L).set

end Cert.Proof.KB

end
-- ==== Proof.KBOk.lean ====
/-
  The loop invariant's pure fact, moved along. `OK k` says of a result array `fo`, on the task's block of 1024 rows:
  the two outer bands of channels `[0, 512)` and `[1536, 2048)`, and the middle band `[512, 1536)` of the block's
  first `8 k` rows, hold the re-ordered rows `G2 x`. It holds at `k = 0` once the two outer bands have been copied
  from `x` (the channel map is the identity there); a trip that writes rows `[8 k, 8 k + 8)` of the middle band with
  channel `512 + j` taken from source channel `512 + j / 2 + 512 (j % 2)` takes `OK k` to `OK (k + 1)`; and
  `OK 128` is the whole block.
-/
import proofs.«211075_g81750407512465_cont_sun_c4_77_5_alg».proof.Proof.KBSetup
import proofs.«211075_g81750407512465_cont_sun_c4_77_5_alg».proof.Proof.LibPieces
import proofs.«211075_g81750407512465_cont_sun_c4_77_5_alg».proof.Proof.LibSliceWrite

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable (d : Dev nD) (L : grid0.Coords)

/-- The first row of the task's block. -/
abbrev row0 (L : grid0.Coords) : Nat := 2048 * (L 1).val + 1024 * (L 0).val

/-- What is already right after `k` trips: on the task's block, the two outer bands of channels, and the middle band of
    the block's first `8 k` rows, hold the re-ordered rows. -/
def OK (xv : Buf (Elt F) (xLoc d)) (k : Nat) (fo : Buf (Elt F) (oLoc d)) : Prop :=
  ∀ i : S32768x2048.Idx, i ∈ tSet L →
    ((i 1).val < 512 ∨ 1536 ≤ (i 1).val ∨ (i 0).val < 2048 * (L 1).val + 1024 * (L 0).val + 8 * k) →
    (fo : S32768x2048.Idx → Elt F .f32) i = Cert.Spec.G2 (xv : S32768x2048.Idx → Elt F .f32) i

/-! ## The block, and rectangles of the array, by coordinates -/

/-- An index is in the task's block exactly when its row is one of the block's 1024. -/
theorem mem_tSet (i : S32768x2048.Idx) : i ∈ tSet L ↔ row0 L ≤ (i 0).val ∧ (i 0).val < row0 L + 1024 := by
  show i ∈ (tR L).set.map (Function.Embedding.refl _) ↔ _
  rw [Finset.map_refl, Rect.mem_set_unit, Fin.forall_fin_two]
  show (row0 L ≤ (i 0).val ∧ (i 0).val < row0 L + 1024) ∧ (0 ≤ (i 1).val ∧ (i 1).val < 0 + 2048) ↔ _
  have h1 : (i 1).val < 2048 := (i 1).isLt
  constructor
  · exact fun h => h.1
  · exact fun h => ⟨h, Nat.zero_le _, by omega⟩

/-- Inside the `[m, n]` rectangle at `(a, b)` of the array: both coordinates in their ranges. -/
theorem inUnit2 (a b m n : Nat) (i : S32768x2048.Idx) :
    Cert.Lib.InUnit (s := S32768x2048) ![a, b] ![m, n] i
      ↔ (a ≤ (i 0).val ∧ (i 0).val < a + m) ∧ (b ≤ (i 1).val ∧ (i 1).val < b + n) :=
  Fin.forall_fin_two

/-- The local index of `i` in that rectangle, by coordinates. -/
theorem unitLocal2 (a b m n : Nat) (i : S32768x2048.Idx) (h : Cert.Lib.InUnit (s := S32768x2048) ![a, b] ![m, n] i) :
    Cert.Lib.unitLocal (s := S32768x2048) ![a, b] ![m, n] i h
      = ix2 (n0 := m) (n1 := n)
          ⟨(i 0).val - a, by have h0 : a ≤ (i 0).val ∧ (i 0).val < a + m := h 0; omega⟩
          ⟨(i 1).val - b, by have h1 : b ≤ (i 1).val ∧ (i 1).val < b + n := h 1; omega⟩ := by
  funext k
  match k with
  | ⟨0, _⟩ => rfl
  | ⟨1, _⟩ => rfl

/-- On the outer bands the re-ordering keeps the channel, so the re-ordered array reads the array itself. -/
theorem G2_outer (xv : S32768x2048.Idx → Elt F .f32) (i : S32768x2048.Idx) (h : (i 1).val < 512 ∨ 1536 ≤ (i 1).val) :
    Cert.Spec.G2 xv i = xv i := by
  show xv (ix2 (i 0) (Cert.Spec.srcCol (i 1))) = xv i
  rw [Cert.Spec.srcCol_outer (i 1) h]
  exact congrArg xv (eq_ix2 i).symm

/-- A row of the strip a trip writes is a row of the array. -/
theorem row_lt (k : Nat) (hk : k < 128) (r : Fin 8) : row0 L + 8 * k + r.val < 32768 := by
  have h0 : (L 0).val < 2 := (L 0).isLt
  have h1 : (L 1).val < 16 := (L 1).isLt
  have := r.isLt
  show 2048 * (L 1).val + 1024 * (L 0).val + 8 * k + r.val < 32768
  omega

/-- A source channel of the middle band is a channel of the array. -/
theorem col_lt (j : Fin 1024) : 512 + (Cert.Lib.midSrc j).val < 2048 := by
  have := (Cert.Lib.midSrc j).isLt; omega

/-! ## The three steps -/

/-- Before the first trip: the two outer bands of the block's rows were copied from `x` unchanged, where the
    re-ordering is the identity; no row of the block is below the block's first. -/
theorem ok_zero (xv : Buf (Elt F) (xLoc d)) (o0 : Buf (Elt F) (oLoc d)) (off1 off2 : Fin 2 → Nat)
    (e1 : off1 = ![row0 L, 0]) (e2 : off2 = ![row0 L, 1536])
    (hin1 : ∀ a, off1 a + S1024x512.size a ≤ S32768x2048.size a) (hin2 : ∀ a, off2 a + S1024x512.size a ≤ S32768x2048.size a)
    (hs1 : ∀ a, (Rect.unit (s := S32768x2048) off1 S1024x512.size hin1).stride a = 1)
    (hs2 : ∀ a, (Rect.unit (s := S32768x2048) off2 S1024x512.size hin2).stride a = 1)
    (w1 : (Rect.unit (s := S32768x2048) off1 S1024x512.size hin1).shape.Idx → Elt F .f32)
    (w2 : (Rect.unit (s := S32768x2048) off2 S1024x512.size hin2).shape.Idx → Elt F .f32)
    (hw1 : ∀ x, w1 x = (xv : S32768x2048.Idx → Elt F .f32) ((Rect.unit (s := S32768x2048) off1 S1024x512.size hin1).emb x))
    (hw2 : ∀ x, w2 x = (xv : S32768x2048.Idx → Elt F .f32) ((Rect.unit (s := S32768x2048) off2 S1024x512.size hin2).emb x)) :
    OK d L xv 0 (((Memref.whole main_v1_scv : Memref sig Kind.scVector Space.hbm S32768x2048 EltTy.f32).slice
        (Rect.unit (s := S32768x2048) off2 S1024x512.size hin2) hs2).view.write (Elt F)
      (((Memref.whole main_v1_scv : Memref sig Kind.scVector Space.hbm S32768x2048 EltTy.f32).slice
        (Rect.unit (s := S32768x2048) off1 S1024x512.size hin1) hs1).view.write (Elt F) o0 w1 Finset.univ) w2 Finset.univ) := by
  subst e1 e2
  intro i hi hc
  obtain ⟨hlo, hhi⟩ := (mem_tSet L i).mp hi
  have hi1 : (i 1).val < 2048 := (i 1).isLt
  rcases hc with h | h | h
  · rw [G2_outer _ i (Or.inl h)]
    have hm1 : Cert.Lib.InUnit (s := S32768x2048) ![row0 L, 0] S1024x512.size i :=
      (inUnit2 _ _ _ _ i).mpr ⟨⟨hlo, hhi⟩, Nat.zero_le _, by omega⟩
    have hn2 : ¬ Cert.Lib.InUnit (s := S32768x2048) ![row0 L, 1536] S1024x512.size i := fun hh => by
      have := ((inUnit2 _ _ _ _ i).mp hh).2.1; omega
    exact (Cert.Lib.whole_write_unit_of_not_mem main_v1_scv _ _ hin2 hs2 _ w2 i hn2).trans
      ((Cert.Lib.whole_write_unit_of_mem main_v1_scv _ _ hin1 hs1 o0 w1 i hm1).trans
        ((hw1 _).trans (congrArg xv (Cert.Lib.emb_unitLocal _ _ hin1 i hm1))))
  · rw [G2_outer _ i (Or.inr h)]
    have hm2 : Cert.Lib.InUnit (s := S32768x2048) ![row0 L, 1536] S1024x512.size i :=
      (inUnit2 _ _ _ _ i).mpr ⟨⟨hlo, hhi⟩, h, by omega⟩
    exact (Cert.Lib.whole_write_unit_of_mem main_v1_scv _ _ hin2 hs2 _ w2 i hm2).trans
      ((hw2 _).trans (congrArg xv (Cert.Lib.emb_unitLocal _ _ hin2 i hm2)))
  · exact absurd h (by show ¬ (i 0).val < row0 L + 8 * 0; omega)

/-- One trip: rows `[8 k, 8 k + 8)` of the block's middle band are written, channel `512 + j` from source channel
    `512 + j / 2 + 512 (j % 2)`, which is the re-ordering's source channel there; every other element keeps its value,
    and for it the condition of `OK (k + 1)` is that of `OK k`. -/
theorem ok_step (xv : Buf (Elt F) (xLoc d)) (fo : Buf (Elt F) (oLoc d)) (k : Nat) (hk : k < 128) (off : Fin 2 → Nat)
    (e : off = ![row0 L + 8 * k, 512])
    (hin : ∀ a, off a + S8x1024.size a ≤ S32768x2048.size a)
    (hs : ∀ a, (Rect.unit (s := S32768x2048) off S8x1024.size hin).stride a = 1)
    (w : (Rect.unit (s := S32768x2048) off S8x1024.size hin).shape.Idx → Elt F .f32)
    (hw : ∀ (r : Fin 8) (j : Fin 1024), w (ix2 r j)
      = (xv : S32768x2048.Idx → Elt F .f32) (ix2 (n0 := 32768) (n1 := 2048) ⟨row0 L + 8 * k + r.val, row_lt L k hk r⟩
          ⟨512 + (Cert.Lib.midSrc j).val, col_lt j⟩))
    (hfo : OK d L xv k fo) :
    OK d L xv (k + 1) (((Memref.whole main_v1_scv : Memref sig Kind.scVector Space.hbm S32768x2048 EltTy.f32).slice
      (Rect.unit (s := S32768x2048) off S8x1024.size hin) hs).view.write (Elt F) fo w Finset.univ) := by
  subst e
  intro i hi hc
  obtain ⟨hlo, hhi⟩ := (mem_tSet L i).mp hi
  have hi1 : (i 1).val < 2048 := (i 1).isLt
  by_cases hm : Cert.Lib.InUnit (s := S32768x2048) ![row0 L + 8 * k, 512] S8x1024.size i
  · obtain ⟨⟨hr0, hr1⟩, hc0, hc1⟩ := (inUnit2 _ _ _ _ i).mp hm
    refine (Cert.Lib.whole_write_unit_of_mem main_v1_scv _ _ hin hs fo w i hm).trans ?_
    rw [unitLocal2 (row0 L + 8 * k) 512 8 1024 i hm, hw]
    show xv _ = xv (ix2 (i 0) (Cert.Spec.srcCol (i 1)))
    refine congrArg xv ?_
    funext a
    refine Fin.ext ?_
    match a with
    | ⟨0, _⟩ =>
      show row0 L + 8 * k + ((i 0).val - (row0 L + 8 * k)) = (i 0).val
      omega
    | ⟨1, _⟩ =>
      show 512 + (((i 1).val - 512) / 2 + 512 * (((i 1).val - 512) % 2)) = (Cert.Spec.srcCol (i 1)).val
      rw [Cert.Spec.srcCol_mid_val (i 1) hc0 (by omega)]
      omega
  · refine (Cert.Lib.whole_write_unit_of_not_mem main_v1_scv _ _ hin hs fo w i hm).trans (hfo i hi ?_)
    rcases hc with h | h | h
    · exact Or.inl h
    · exact Or.inr (Or.inl h)
    · by_cases hb : (i 1).val < 512 ∨ 1536 ≤ (i 1).val
      · rcases hb with hb | hb
        · exact Or.inl hb
        · exact Or.inr (Or.inl hb)
      · refine Or.inr (Or.inr ?_)
        have hnr : ¬ (row0 L + 8 * k ≤ (i 0).val ∧ (i 0).val < row0 L + 8 * k + 8) := fun hh =>
          hm ((inUnit2 _ _ _ _ i).mpr ⟨hh, by omega, by omega⟩)
        have h' : (i 0).val < row0 L + 8 * (k + 1) := h
        show (i 0).val < row0 L + 8 * k
        omega

/-- After the last trip the block is the re-ordered block: every row of the block is among its first `8 · 128`. -/
theorem ok_final (xv : Buf (Elt F) (xLoc d)) (fo : Buf (Elt F) (oLoc d)) (h : OK d L xv 128 fo) :
    (oLoc d ↦[tSet L]{fullShare} fo : sProp (MT nD τ sig (HIx 1) (Elt F) ℕ UU ℕ))
      = oLoc d ↦[tSet L]{fullShare} (Cert.Spec.G2 xv) :=
  pointsTo_congr fun i hi => h i hi (Or.inr (Or.inr (by
    have := ((mem_tSet L i).mp hi).2
    show (i 0).val < row0 L + 8 * 128
    omega)))

end Cert.Proof.KB

end
-- ==== Proof.KBFold.lean ====
/-
  One trip of the task's loop, restated as a fold over its 512 strips.
-/
import proofs.«211075_g81750407512465_cont_sun_c4_77_5_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S32768x2048 EltTy.f32)
local notation "oW" => (Memref.whole Cert.Kernel.main_v1_scv : Memref Cert.Kernel.sig Kind.scVector Space.hbm Cert.Kernel.S32768x2048 EltTy.f32)
local notation "sA" => (Memref.whole Cert.Kernel.cc0_scratch0 : Memref Cert.Kernel.sig Kind.scVector Space.vmem Cert.Kernel.S8x1024 EltTy.f32)
local notation "sB" => (Memref.whole Cert.Kernel.cc0_scratch1 : Memref Cert.Kernel.sig Kind.scVector Space.vmem Cert.Kernel.S8x1024 EltTy.f32)

/-! ## One trip of the loop, as a fold over its 512 strips

A trip copies the block's next 8 rows of the middle channels into the first scratch, fills the second scratch strip by strip
— strip `n = 64 r + c` is the 16 lanes at `(r, 16 c)`, gathered from row `r` of the first scratch at the lanes' source
channels —, and copies the second scratch out. The printed trip spells the 512 strips out one after the other; the same
operations, in the same order, are the fold below (`trip_eq`: by unfolding both). -/

variable [FloatOps F]

/-- The lanes' row vector for row `r`, and their channel vector for strip `c`, as the body computes them. -/
def rowV (v3 : IVec S16 32) (r : Nat) : IVec S16 32 := addi (andi v3 (broadcast S16 0#32)) (broadcast S16 (BitVec.ofNat 32 r))
def colV (c : Nat) : IVec S16 32 := addi k0_pay1 (broadcast S16 (BitVec.ofNat 32 (8 * c)))

theorem strip_inb (n : Nat) (hn : n < 512) : ∀ a, (![n / 64, 16 * (n % 64)] : Fin 2 → Nat) a + S1x16.size a ≤ S8x1024.size a := by
  have h1 : n / 64 < 8 := by omega
  have h2 : n % 64 < 64 := Nat.mod_lt _ (by decide)
  intro a; fin_cases a <;> simp <;> omega

abbrev stripR (n : Nat) (hn : n < 512) : Rect S8x1024 := Rect.unit (s := S8x1024) ![n / 64, 16 * (n % 64)] S1x16.size (strip_inb n hn)

/-- Strip `n`: the check of the lanes' indices, the gather, the (unused) load of the strip and its store. -/
def groupOps (L : grid0.Coords) (v3 : IVec S16 32) (n : Nat) (hn : n < 512) :
    Prog (TpuEff nD τ sig (Elt F) Λ₀ (.scVector ((L 0).castLE hcore0) ((L 1).castLE hsub0))) PUnit := do
  have hw : k0_chk1 (rowV v3 (n / 64)) (colV (n % 64)) :=
    (← Prog.lift (TpuEff.assume (k0_chk1 (rowV v3 (n / 64)) (colV (n % 64))) (k0_chk1.dec (rowV v3 (n / 64)) (colV (n % 64))))).down
  let v : Vec F S16 .f32 ← SparseCore.vectorLoadIdx sA ![rowV v3 (n / 64), colV (n % 64)] (k0_idx1_inb _ _ hw) (View.loads_vmem h_S8x1024)
  let _ld : Vec F S1x16 .f32 ← Prog.lift (.load sB (stripR n hn).toLoadRect (View.loadsAt_vmem h_S1x16))
  Prog.lift (.store sB (stripR n hn) (shapeCast S1x16 v shapeCasts_S16_S1x16) Finset.univ (View.stores_vmem_bits_univ h_S1x16 rfl) (.inl rfl))

/-- The last `m` strips, in order. -/
def gatherFrom (L : grid0.Coords) (v3 : IVec S16 32) :
    (m : Nat) → m ≤ 512 → Prog (TpuEff nD τ sig (Elt F) Λ₀ (.scVector ((L 0).castLE hcore0) ((L 1).castLE hsub0))) PUnit
  | 0, _ => pure ⟨⟩
  | m + 1, h => do
    groupOps L v3 (512 - (m + 1)) (by omega)
    gatherFrom L v3 m (by omega)

abbrev xWin (L : grid0.Coords) (k : Fin k0_t1_loop.trips) : Memref sig .scVector .hbm S8x1024 .f32 :=
  (xW).slice (Rect.unit (s := S32768x2048) (k0_off3 L k) S8x1024.size (k0_off3_inb L k)) (fun _ => rfl)
abbrev oWin (L : grid0.Coords) (k : Fin k0_t1_loop.trips) : Memref sig .scVector .hbm S8x1024 .f32 :=
  (oW).slice (Rect.unit (s := S32768x2048) (k0_off4 L k) S8x1024.size (k0_off4_inb L k)) (fun _ => rfl)

/-- One trip. -/
def myTrip (L : grid0.Coords) (v3 : IVec S16 32) (k : Fin k0_t1_loop.trips) :
    Prog (TpuEff nD τ sig (Elt F) Λ₀ (.scVector ((L 0).castLE hcore0) ((L 1).castLE hsub0))) Unit := do
  Prog.lift (.enqueueDma (xWin L k) (.here sA) (.dma cc0_scoped2.sem) (View.wordExact_bits rfl) (Memref.isWhole_whole _).wordExact ⟨Or.inl rfl, trivial⟩)
  Prog.lift (.waitDma2 cc0_scoped2.sem (xWin L k) sA (View.wordExact_bits rfl) (Memref.isWhole_whole _).wordExact)
  gatherFrom L v3 512 (le_refl _)
  Prog.lift (.enqueueDma sB (.here (oWin L k)) (.dma cc0_scoped3.sem) (Memref.isWhole_whole _).wordExact (View.wordExact_bits rfl) ⟨Or.inl rfl, trivial⟩)
  Prog.lift (.waitDma2 cc0_scoped3.sem sB (oWin L k) (Memref.isWhole_whole _).wordExact (View.wordExact_bits rfl))
  pure ⟨⟩

open Lean Elab Tactic Meta in
/-- Close `a = b` by `Eq.refl a`, leaving the comparison of the two sides to the kernel. -/
elab "kernel_rfl" : tactic => do
  let g ← getMainGoal
  let t ← instantiateMVars (← g.getType)
  let some (_, lhs, _) := t.eq? | throwError "kernel_rfl: not an equation"
  g.assign (← mkEqRefl lhs)

theorem trip_eq (L : grid0.Coords) (v2 : BitVec 32) (v3 : IVec S16 32) (k : Fin k0_t1_loop.trips) (acc : Unit) :
    k0_t1_body (F := F) L xW (Memref.isWhole_whole _) oW (Memref.isWhole_whole _) sA (Memref.isWhole_whole _) sB (Memref.isWhole_whole _)
        cc0_scoped0 cc0_scoped1 cc0_scoped2 cc0_scoped3 v2 v3 k acc
      = myTrip L v3 k := by
  kernel_rfl

end Cert.Proof.KB

end
-- ==== Proof.KBGather.lean ====
/-
  The 512 strips of one trip, by induction on how many remain: each strip's check holds, its gather reads the first
  scratch at the strip's source channels, and its store makes one more strip of the second scratch right (Cert.Lib.Good).
-/
import proofs.«211075_g81750407512465_cont_sun_c4_77_5_alg».proof.Proof.KBFold
import proofs.«211075_g81750407512465_cont_sun_c4_77_5_alg».proof.Proof.LibGood

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S32768x2048 EltTy.f32)
local notation "oW" => (Memref.whole Cert.Kernel.main_v1_scv : Memref Cert.Kernel.sig Kind.scVector Space.hbm Cert.Kernel.S32768x2048 EltTy.f32)
local notation "sA" => (Memref.whole Cert.Kernel.cc0_scratch0 : Memref Cert.Kernel.sig Kind.scVector Space.vmem Cert.Kernel.S8x1024 EltTy.f32)
local notation "sB" => (Memref.whole Cert.Kernel.cc0_scratch1 : Memref Cert.Kernel.sig Kind.scVector Space.vmem Cert.Kernel.S8x1024 EltTy.f32)

/-! ## The strips' index vectors, once for all 512 -/

variable [FloatOps F]

/-- The lane numbers, as the body reads them. -/
def v3c : IVec S16 32 := iota .scVector S16 32 [0] iota_S16_d0_w32_scVector

/-- Every strip's indices name elements of the scratch; its row lanes are all the strip's row; its channel lanes are the
    sources `j / 2 + 512 (j % 2)` of the strip's channels `j = 16 c + l`. -/
theorem chk_all : ∀ n : Fin 512, k0_chk1 (rowV v3c (n.val / 64)) (colV (n.val % 64)) := by decide +kernel
theorem row_all : ∀ n : Fin 512, ∀ l : S16.Idx, (rowV v3c (n.val / 64) l).toNat = n.val / 64 := by decide +kernel
theorem col_all : ∀ n : Fin 512, ∀ l : S16.Idx,
    (colV (n.val % 64) l).toNat = (16 * (n.val % 64) + (l 0).val) / 2 + 512 * ((16 * (n.val % 64) + (l 0).val) % 2) := by decide +kernel

section Gather
variable (d : Dev nD) (L : grid0.Coords)

/-- What the gathers read: the first scratch's contents, as a vector. -/
abbrev Asrc (A0 : Buf (Elt F) ((V d (cV L) (jV L)).loc cc0_scratch0)) : Vec F Cert.Lib.S8x1024 .f32 :=
  (sA).view.readAt (Elt F) (LoadRect.whole S8x1024) A0

set_option maxHeartbeats 1000000 in
theorem gather_wp (A0 : Buf (Elt F) ((V d (cV L) (jV L)).loc cc0_scratch0)) :
    ∀ (m : Nat) (hm : m ≤ 512) (fb : Buf (Elt F) ((V d (cV L) (jV L)).loc cc0_scratch1)),
      Cert.Lib.Good (sB).view (Asrc d L A0) (512 - m) fb →
      (iprop(((sA).view.loc (V d (cV L) (jV L)) ↦{fullShare} A0) ∗ ((sB).view.loc (V d (cV L) (jV L)) ↦{fullShare} fb)) : sProp 𝕄)
        ⊢ wp frame (wpE (defs₀ (F := F)) 𝒱₀ (V d (cV L) (jV L)) none) Set.univ (gatherFrom (F := F) L v3c m hm)
            fun _ => iprop(((sA).view.loc (V d (cV L) (jV L)) ↦{fullShare} A0)
              ∗ ∃ fb', ⌜Cert.Lib.Good (sB).view (Asrc d L A0) 512 fb'⌝ ∗ (sB).view.loc (V d (cV L) (jV L)) ↦{fullShare} fb') := by
  intro m
  induction m with
  | zero =>
    intro hm fb hg
    unfold gatherFrom
    iintro ⟨Ha, Hb⟩
    sl_step
    isplitl [Ha]; · iexact Ha
    iexists fb; isplitr
    · ipureintro; exact hg
    · iexact Hb
  | succ m ih =>
    intro hm fb hg
    unfold gatherFrom groupOps
    iintro ⟨Ha, Hb⟩
    have hn : 512 - (m + 1) < 512 := by omega
    sl_exec (disch := exact chk_all ⟨512 - (m + 1), hn⟩)
    rw [SparseCore.vectorLoadIdx]
    have hidx : ∀ a x, ((![rowV v3c ((512 - (m + 1)) / 64), colV ((512 - (m + 1)) % 64)] : Fin 2 → IVec S16 32) a x).toNat < S8x1024.size a :=
      chk_all ⟨512 - (m + 1), hn⟩
    have hg' : Cert.Lib.Good (sB).view (Asrc d L A0) (512 - m)
        ((sB).view.writes (Elt F) fb [⟨stripR (512 - (m + 1)) hn,
          shapeCast S1x16 (loadIdx (Asrc d L A0) ![rowV v3c ((512 - (m + 1)) / 64), colV ((512 - (m + 1)) % 64)] hidx) shapeCasts_S16_S1x16⟩]) :=
      (Cert.Lib.good_step (sB).view (Asrc d L A0) fb ((512 - (m + 1)) / 64) (16 * ((512 - (m + 1)) % 64)) (strip_inb _ hn) _ _ hidx shapeCasts_S16_S1x16
        (by omega) (row_all ⟨_, hn⟩) (col_all ⟨_, hn⟩) (hg.cast (by omega))).cast (by omega)
    have ihs := ih (by omega) _ hg'
    clear ih
    sl_exec
    isplitl [HgatherFrom_0]; · iexact HgatherFrom_0
    iexists _; isplitr
    · ipureintro; exact hgatherFrom_1
    · iexact HgatherFrom_2

/-- All 512 strips, from any contents of the second scratch. -/
theorem gather_all (A0 : Buf (Elt F) ((V d (cV L) (jV L)).loc cc0_scratch0)) (fb : Buf (Elt F) ((V d (cV L) (jV L)).loc cc0_scratch1)) :
    (iprop(((sA).view.loc (V d (cV L) (jV L)) ↦{fullShare} A0) ∗ ((sB).view.loc (V d (cV L) (jV L)) ↦{fullShare} fb)) : sProp 𝕄)
      ⊢ wp frame (wpE (defs₀ (F := F)) 𝒱₀ (V d (cV L) (jV L)) none) Set.univ (gatherFrom (F := F) L v3c 512 (le_refl _))
          fun _ => iprop(((sA).view.loc (V d (cV L) (jV L)) ↦{fullShare} A0)
            ∗ ∃ fb', ⌜Cert.Lib.Good (sB).view (Asrc d L A0) 512 fb'⌝ ∗ (sB).view.loc (V d (cV L) (jV L)) ↦{fullShare} fb') :=
  gather_wp d L A0 512 (le_refl _) fb ((Cert.Lib.good_zero _ _ _).cast (by decide))

end Gather

end Cert.Proof.KB

end
-- ==== Proof.KBPayload.lean ====
/-
  What one trip hands to the result: the first scratch buffer is written whole with the window `w` of `x` (rows
  `[8 k, 8 k + 8)` of the block, channels `[512, 1536)`), so read whole it is `w`; the second scratch buffer, all of
  its 512 strips stored, reads at `(r, j)` the first at `(r, midSrc j)`; and the window places its `(r, c)` at
  row `8 k + r` of the block, channel `512 + c`. So the second scratch buffer at `(r, j)` is `x` at that row and
  channel `512 + midSrc j`.
-/
import proofs.«211075_g81750407512465_cont_sun_c4_77_5_alg».proof.Proof.KBOk
import proofs.«211075_g81750407512465_cont_sun_c4_77_5_alg».proof.Proof.LibGood

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "sA" => (Memref.whole Cert.Kernel.cc0_scratch0 : Memref Cert.Kernel.sig Kind.scVector Space.vmem Cert.Kernel.S8x1024 EltTy.f32)
local notation "sB" => (Memref.whole Cert.Kernel.cc0_scratch1 : Memref Cert.Kernel.sig Kind.scVector Space.vmem Cert.Kernel.S8x1024 EltTy.f32)

variable (d : Dev nD) (L : grid0.Coords)

/-- A buffer written whole and then read whole is the payload. -/
theorem readAt_write_whole (fa : Buf (Elt F) ((V d (cV L) (jV L)).loc cc0_scratch0)) (w : S8x1024.Idx → Elt F .f32)
    (y : S8x1024.Idx) :
    (sA).view.readAt (Elt F) (LoadRect.whole S8x1024) ((sA).view.write (Elt F) fa w Finset.univ) y = w y := by
  show ((View.whole cc0_scratch0).write (Elt F) fa w Finset.univ) ((LoadRect.whole S8x1024).idx y) = w y
  rw [View.write_whole_univ, Cert.Lib.whole_idx]

/-- The second scratch buffer after the trip's 512 strips, at `(r, j)`: the argument at row `8 k + r` of the block and
    channel `512 + midSrc j`. -/
theorem trip_payload (xv : Buf (Elt F) (xLoc d)) (k : Nat) (hk : k < 128) (off : Fin 2 → Nat) (e : off = ![row0 L + 8 * k, 512])
    (hin : ∀ a, off a + S8x1024.size a ≤ S32768x2048.size a)
    (w : S8x1024.Idx → Elt F .f32)
    (hw : ∀ x : S8x1024.Idx, w x = (xv : S32768x2048.Idx → Elt F .f32) ((Rect.unit (s := S32768x2048) off S8x1024.size hin).emb x))
    (fa : Buf (Elt F) ((V d (cV L) (jV L)).loc cc0_scratch0)) (fb' : Buf (Elt F) ((V d (cV L) (jV L)).loc cc0_scratch1))
    (hg : Cert.Lib.Good (sB).view ((sA).view.readAt (Elt F) (LoadRect.whole S8x1024) ((sA).view.write (Elt F) fa w Finset.univ)) 512 fb') :
    ∀ (r : Fin 8) (j : Fin 1024), (sB).view.read (Elt F) fb' (ix2 r j)
      = (xv : S32768x2048.Idx → Elt F .f32) (ix2 (n0 := 32768) (n1 := 2048) ⟨row0 L + 8 * k + r.val, row_lt L k hk r⟩
          ⟨512 + (Cert.Lib.midSrc j).val, col_lt j⟩) := by
  subst e
  intro r j
  refine (Cert.Lib.good_full (sB).view _ fb' hg (ix2 r j)).trans ?_
  refine (readAt_write_whole d L fa w _).trans ?_
  refine (hw _).trans (congrArg xv ?_)
  exact Cert.Lib.emb_unit_ix2 (R := 32768) (C := 2048) (row0 L + 8 * k) 512 8 1024 hin r (Cert.Lib.midSrc j)

end Cert.Proof.KB

end
-- ==== Proof.KBTile.lean ====
/-
  The task of one vector subcore, at a symbolic grid point: the two outer channel bands copied whole, then 128 trips, each
  re-ordering the middle channels of 8 rows through the two scratch buffers.
-/
import proofs.«211075_g81750407512465_cont_sun_c4_77_5_alg».proof.Proof.KBSetup
import proofs.«211075_g81750407512465_cont_sun_c4_77_5_alg».proof.Proof.KBOk
import proofs.«211075_g81750407512465_cont_sun_c4_77_5_alg».proof.Proof.KBGather
import proofs.«211075_g81750407512465_cont_sun_c4_77_5_alg».proof.Proof.KBPayload

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S32768x2048 EltTy.f32)
local notation "oW" => (Memref.whole Cert.Kernel.main_v1_scv : Memref Cert.Kernel.sig Kind.scVector Space.hbm Cert.Kernel.S32768x2048 EltTy.f32)
local notation "sA" => (Memref.whole Cert.Kernel.cc0_scratch0 : Memref Cert.Kernel.sig Kind.scVector Space.vmem Cert.Kernel.S8x1024 EltTy.f32)
local notation "sB" => (Memref.whole Cert.Kernel.cc0_scratch1 : Memref Cert.Kernel.sig Kind.scVector Space.vmem Cert.Kernel.S8x1024 EltTy.f32)

variable (d : Dev nD) (L : grid0.Coords)

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)
abbrev cell3 (d : Dev nD) (c : Fin τ.nSC) (i : Fin τ.nSub) : GSem nD τ sig := (V d c i, .dma cc0_scoped3.sem)

theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase (cell3 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide,
      (mem_ownCells (g := cell3 d (cV L) (jV L))).mpr ⟨rfl, by show (SemLoc.dma cc0_scoped3.sem : SemLoc sig).isScoped .scVector = true; decide⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem pts_sA (f : Buf (Elt F) ((V d (cV L) (jV L)).loc cc0_scratch0)) :
    ((sA).view.loc (V d (cV L) (jV L)) ↦{fullShare} f : sProp 𝕄) = (V d (cV L) (jV L)).loc cc0_scratch0 ↦{fullShare} f := rfl
theorem pts_sB (f : Buf (Elt F) ((V d (cV L) (jV L)).loc cc0_scratch1)) :
    ((sB).view.loc (V d (cV L) (jV L)) ↦{fullShare} f : sProp 𝕄) = (V d (cV L) (jV L)).loc cc0_scratch1 ↦{fullShare} f := rfl
theorem pts_x (f : Buf (Elt F) (xLoc d)) :
    ((xW).view.loc (V d (cV L) (jV L)) ↦[(xW).view.setOn (tR L).set]{fullShare} f : sProp 𝕄) = xLoc d ↦[tSet L]{fullShare} f := rfl
theorem pts_o (f : Buf (Elt F) (oLoc d)) :
    ((oW).view.loc (V d (cV L) (jV L)) ↦[(oW).view.setOn (tR L).set]{fullShare} f : sProp 𝕄) = oLoc d ↦[tSet L]{fullShare} f := rfl

/-- The loop's invariant: the argument block read-only, the result block right so far (`OK`), the two scratch buffers at
    whatever they hold, the loop's two semaphores at zero, and the waits recorded so far all at the kernel's own index. -/
def inv (xv : Buf (Elt F) (xLoc d)) (O : CellTallies nD τ sig (HIx 1)) (W : Waits sig (HIx 1)) (k : Nat) (_ : PUnit) : sProp 𝕄 :=
  iprop(Transfers.MayWaits (V d (cV L) (jV L)) (none : HIx 1) O
    ∗ ((xW).view.loc (V d (cV L) (jV L)) ↦[(xW).view.setOn (tR L).set]{fullShare} xv)
    ∗ (∃ fo, ⌜OK d L xv k fo⌝ ∗ (oW).view.loc (V d (cV L) (jV L)) ↦[(oW).view.setOn (tR L).set]{fullShare} fo)
    ∗ (∃ fa, (sA).view.loc (V d (cV L) (jV L)) ↦{fullShare} fa)
    ∗ (∃ fb, (sB).view.loc (V d (cV L) (jV L)) ↦{fullShare} fb)
    ∗ semVal (V d (cV L) (jV L), SemLoc.dma cc0_scoped2.sem) 0
    ∗ semVal (V d (cV L) (jV L), SemLoc.dma cc0_scoped3.sem) 0
    ∗ ∃ W', ⌜∀ p ∈ W', p ∈ W ∨ p.2 = none⌝ ∗ owes (V d (cV L) (jV L)) O W')

set_option maxHeartbeats 4000000 in
theorem tile_body [FloatOps F] (hF : (K (F := F)).Facts) (xv : Buf (Elt F) (xLoc d)) (o0 : Buf (Elt F) (oLoc d))
    (O : CellTallies nD τ sig (HIx 1)) (W : Waits sig (HIx 1)) (hO : ∀ g, O g none = 0) :
    iprop(levAts (K (F := F)).L (K (F := F)).lev ∗ emp
        ∗ ((xLoc d ↦[tSet L]{fullShare} xv : sProp 𝕄) ∗ (oLoc d ↦[tSet L]{fullShare} o0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__permute L xW (Memref.isWhole_whole _) oW (Memref.isWhole_whole _) sA (Memref.isWhole_whole _) sB (Memref.isWhole_whole _)
            cc0_scoped0 cc0_scoped1 cc0_scoped2 cc0_scoped3)
          fun _ => iprop(((xLoc d ↦[tSet L]{fullShare} xv) ∗ (oLoc d ↦[tSet L]{fullShare} (Cert.Spec.G2 xv)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__permute_eq_skeleton]; unfold cc0__permute_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fa, Ha⟩, ⟨%fb, Hb⟩, Hbufs⟩, ⟨Hs0, Hs1, Hs2, Hs3, Hsems⟩, HO⟩
  ihave Hmw := ((K (F := F)).mayWaits_none (thr := V d (cV L) (jV L)) hO) $$ Hlv
  ihave Ha' := (Entails.of_eq (pts_sA (F := F) d L _).symm) $$ Ha
  ihave Hb' := (Entails.of_eq (pts_sB (F := F) d L _).symm) $$ Hb
  ihave Hx' := (Entails.of_eq (pts_x (F := F) d L _).symm) $$ Hx
  ihave Ho' := (Entails.of_eq (pts_o (F := F) d L _).symm) $$ Ho
  -- the two outer bands, copied whole
  sl_exec
  sl_for (inv d L xv O W) $$ [Hmw Hx' Ho' Ha' Hb' Hs2 Hs3 HO]
  case region =>
    intro k acc
    have hk : k.val < 128 := lt_of_lt_of_le k.isLt k0_t1_abs.2.1
    rw [show tile_body.sl.prog.body_1 (F := F) L k acc = myTrip L v3c k from trip_eq L _ v3c k acc]
    unfold myTrip inv
    iintro ⟨Hmw, Hx, ⟨%fo, %hfo, Ho⟩, ⟨%fa, Ha⟩, ⟨%fb, Hb⟩, Hs2, Hs3, %W', %hW', HO⟩
    have hcut := gather_all (F := F) d L
    sl_exec
    sl_step
    isplitl [Hmw]; · iexact Hmw
    isplitl [Hx]; · iexact Hx
    isplitl [Ho]
    · iexists (tile_body.sl.Ho_w0 d L k fo fb'gatherFrom_0); isplitr
      · ipureintro
        exact ok_step d L xv fo k.val hk (k0_off4 L k) (k0_off4_eq L k) _ _ _
          (trip_payload d L xv k.val hk (k0_off3 L k) (k0_off3_eq L k) _ _ (fun _ => rfl) fa _ hgatherFrom_1) hfo
      · iexact Ho
    isplitl [HgatherFrom_0]; · iexists _; iexact HgatherFrom_0
    isplitl [HgatherFrom_2]; · iexists _; iexact HgatherFrom_2
    isplitl [Hs2]; · iexact Hs2
    isplitl [Hs3]; · iexact Hs3
    iexists (insert (SemLoc.dma cc0_scoped3.sem, (default : HIx 1)) (insert (SemLoc.dma cc0_scoped2.sem, (default : HIx 1)) W')); isplitr
    · ipureintro; intro p hp
      rcases Finset.mem_insert.mp hp with hp | hp
      · exact .inr (hp ▸ rfl)
      rcases Finset.mem_insert.mp hp with hp | hp
      · exact .inr (hp ▸ rfl)
      · exact hW' p hp
    · iexact HO
  · unfold inv
    isplitl [Hmw]; · iexact Hmw
    isplitl [Hx']; · iexact Hx'
    isplitl [Ho']
    · iexists (tile_body.sl.Ho'_w1 d L xv o0); isplitr
      · ipureintro
        exact ok_zero d L xv o0 (k0_off1 L) (k0_off2 L) (k0_off1_eq L) (k0_off2_eq L) _ _ _ _ _ _ (fun _ => rfl) (fun _ => rfl)
      · iexact Ho'
    isplitl [Ha']; · iexists _; iexact Ha'
    isplitl [Hb']; · iexists _; iexact Hb'
    isplitl [Hs2]; · iexact Hs2
    isplitl [Hs3]; · iexact Hs3
    iexists (insert (SemLoc.dma cc0_scoped1.sem, (default : HIx 1)) (insert (SemLoc.dma cc0_scoped0.sem, (default : HIx 1)) W)); isplitr
    · ipureintro; intro p hp
      rcases Finset.mem_insert.mp hp with hp | hp
      · exact .inr (hp ▸ rfl)
      rcases Finset.mem_insert.mp hp with hp | hp
      · exact .inr (hp ▸ rfl)
      · exact .inl hp
    · iexact HO
  iintro %_ HI
  unfold inv
  icases HI with ⟨-, Hx, ⟨%fo, %hfo, Ho⟩, ⟨%fa', Ha⟩, ⟨%fb', Hb⟩, Hs2, Hs3, %W', %hW', HO⟩
  have h128 : Scf.trips k0_t1_loop.lb k0_t1_loop.ub k0_t1_loop.st = 128 := by decide
  have hfo' : OK d L xv 128 fo := h128 ▸ hfo
  sl_exec
  sl_step
  isplitl [Hx Ho]
  · isplitl [Hx]; · iexact Hx
    iapply (Entails.of_eq (ok_final (F := F) d L xv fo hfo')); iexact Ho
  isplitl [Ha Hb Hbufs]
  · isplitl [Ha]; · iexists _; iexact Ha
    isplitl [Hb]; · iexists _; iexact Hb
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexists W'; isplitr
  · ipureintro; exact hW'
  · iexact HO

end Cert.Proof.KB

end
-- ==== Proof.KBLaunchGeom.lean ====
/-
  The geometry of the launch. The task on SparseCore `c`, vector subcore `s` owns the rows `[2048 s + 1024 c, + 1024)`
  of the flattened arrays: the 32 blocks are pairwise disjoint and cover `[32768, 2048]`. And the value: the flattening
  `[4, 8192, 2048] → [32768, 2048]` keeps the channel coordinate (element `(a, b, j)` is element `(8192 a + b, j)`), so
  re-ordering the channels of the flattened array and reading the result back at `[4, 8192, 2048]` is re-ordering the
  channels there.
-/
import proofs.«211075_g81750407512465_cont_sun_c4_77_5_alg».proof.Proof.KBTile

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The grid points and their blocks -/

/-- The grid point of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem coordsV_zero (c : Fin (grid0.bound 0)) (s : Fin (grid0.bound 1)) : coordsV c s 0 = c := rfl
theorem coordsV_one (c : Fin (grid0.bound 0)) (s : Fin (grid0.bound 1)) : coordsV c s 1 = s := rfl

/-- A task's elements are its rectangle's: the arrays are addressed whole. -/
theorem tSet_eq (L : grid0.Coords) : tSet L = (tR L).set := by
  unfold tSet View.setOn
  exact Finset.map_refl

/-- An element is the task's when its row is one of the task's 1024. -/
theorem mem_tBlock (L : grid0.Coords) (i : S32768x2048.Idx) :
    i ∈ tSet L ↔ 2048 * (L 1).val + 1024 * (L 0).val ≤ (i 0).val ∧ (i 0).val < 2048 * (L 1).val + 1024 * (L 0).val + 1024 := by
  rw [tSet_eq, Rect.mem_set_unit]
  constructor
  · intro h; simpa using h 0
  · intro h a
    have h1 : (i 1).val < 2048 := idx2_lt1 i
    fin_cases a
    · simpa using h
    · simpa using h1

/-- The block of the task at `(c, s)`. -/
abbrev bSet (p : Fin 2 × Fin 16) : Finset S32768x2048.Idx := tSet (coordsV p.1 p.2)

theorem mem_bSet (p : Fin 2 × Fin 16) (i : S32768x2048.Idx) :
    i ∈ bSet p ↔ 2048 * p.2.val + 1024 * p.1.val ≤ (i 0).val ∧ (i 0).val < 2048 * p.2.val + 1024 * p.1.val + 1024 :=
  mem_tBlock _ i

/-- Two different tasks' blocks share no row. -/
theorem blocks_disjoint : ∀ p ∈ (Finset.univ : Finset (Fin 2 × Fin 16)), ∀ q ∈ (Finset.univ : Finset (Fin 2 × Fin 16)), p ≠ q → Disjoint (bSet p) (bSet q) := by
  intro p _ q _ hpq
  refine Finset.disjoint_left.mpr fun i hp hq => ?_
  rw [mem_bSet] at hp hq
  have h1 := p.1.isLt; have h2 := p.2.isLt; have h3 := q.1.isLt; have h4 := q.2.isLt
  apply hpq
  refine Prod.ext (Fin.ext ?_) (Fin.ext ?_) <;> omega

/-- Every row is in some task's block: row `r` in that of worker `r / 1024 = 2 s + c`. -/
theorem blocks_cover : (Finset.univ : Finset (Fin 2 × Fin 16)).biUnion bSet = Finset.univ := by
  ext i
  simp only [Finset.mem_biUnion, Finset.mem_univ, true_and, iff_true]
  have hr : (i 0).val < 32768 := idx2_lt0 i
  refine ⟨(⟨(i 0).val / 1024 % 2, by omega⟩, ⟨(i 0).val / 2048, by omega⟩), ?_⟩
  rw [mem_bSet]
  dsimp only
  omega

/-! ## The value through the two reshapes -/

/-- The row-major position of an element of `[4, 8192, 2048]`, -/
theorem rowMajor_S3 (j : S4x8192x2048.Idx) :
    (S4x8192x2048.rowMajor j).val = ((j 0).val * 8192 + (j 1).val) * 2048 + (j 2).val := by
  rw [Shape.rowMajor_val_three]; rfl
/-- and of an element of `[32768, 2048]`. -/
theorem rowMajor_S2 (j : S32768x2048.Idx) : (S32768x2048.rowMajor j).val = (j 0).val * 2048 + (j 1).val := by
  rw [Shape.rowMajor_val_two]; rfl

/-- Flatten, re-order the channels, un-flatten: the re-ordering on `[4, 8192, 2048]`. -/
theorem G3_eq_reshape {α : Type} (a : S4x8192x2048.Idx → α) (h1 : S4x8192x2048.ShapeCasts S32768x2048) (h2 : S32768x2048.ShapeCasts S4x8192x2048) :
    shapeCast S4x8192x2048 (Cert.Spec.G2 (shapeCast S32768x2048 a h1)) h2 = Cert.Spec.G3 a := by
  funext j
  have h0 : (j 0).val < 4 := (j 0).isLt
  have h1' : (j 1).val < 8192 := (j 1).isLt
  rw [shapeCast_apply _ h2 j (ix2 (⟨8192 * (j 0).val + (j 1).val, by omega⟩ : Fin 32768) (j 2)) (by
    rw [rowMajor_S2, rowMajor_S3]
    show (8192 * (j 0).val + (j 1).val) * 2048 + (j 2).val = _
    omega)]
  unfold Cert.Spec.G2 Cert.Spec.G3
  refine shapeCast_apply _ h1 _ _ ?_
  rw [rowMajor_S2, rowMajor_S3]
  show ((j 0).val * 8192 + (j 1).val) * 2048 + (Cert.Spec.srcCol (j 2)).val = (8192 * (j 0).val + (j 1).val) * 2048 + (Cert.Spec.srcCol (j 2)).val
  omega

end Cert.Proof.KB

end
-- ==== Proof.KBLaunchObl.lean ====
/-
  The launch theorem's obligations for the one SparseCore call. The call hands each of the two SparseCores the blocks of
  its sixteen tasks, each task its block of rows of `x` (the flattened argument, read-only) and of `o` (at whatever it
  held); a task hands back its block of `x` unchanged and its block of `o` at the re-ordered rows — every block at the
  ONE whole-array function `G2` of the flattened argument, so that the blocks join. The kernel keeps no ghost state of
  its own beyond the transfers' counters.
-/
import proofs.«211075_g81750407512465_cont_sun_c4_77_5_alg».proof.Proof.KBLaunchGeom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S32768x2048 EltTy.f32)
local notation "oW" => (Memref.whole Cert.Kernel.main_v1_scv : Memref Cert.Kernel.sig Kind.scVector Space.hbm Cert.Kernel.S32768x2048 EltTy.f32)
local notation "sA" => (Memref.whole Cert.Kernel.cc0_scratch0 : Memref Cert.Kernel.sig Kind.scVector Space.vmem Cert.Kernel.S8x1024 EltTy.f32)
local notation "sB" => (Memref.whole Cert.Kernel.cc0_scratch1 : Memref Cert.Kernel.sig Kind.scVector Space.vmem Cert.Kernel.S8x1024 EltTy.f32)

variable (m : (ℓ : Loc nD τ sig) → Buf (Elt F) ℓ)

/-! ## What the call carries -/

/-- What `x` holds when the call starts: the argument, flattened. -/
def xval (d : Dev nD) : Buf (Elt F) (xLoc d) := shapeCast S32768x2048 (m (aLoc d)) shapeCasts_S4x8192x2048_S32768x2048

/-- What `o` holds when the call is over: the flattened argument, its rows re-ordered. -/
def oval (d : Dev nD) : Buf (Elt F) (oLoc d) := Cert.Spec.G2 (xval m d)

theorem nCore_bound : (K (F := F)).nCore 0 = grid0.bound 0 := rfl
theorem nSub_bound : (K (F := F)).nSub 0 = grid0.bound 1 := rfl

/-- The grid point of task `i` of SparseCore `c` of the call. -/
abbrev LV (c : Fin ((K (F := F)).nCore 0)) (i : Fin ((K (F := F)).nSub 0)) : grid0.Coords :=
  coordsV (Fin.cast nCore_bound c) (Fin.cast nSub_bound i)

/-- A task's share: its block of `x` at the flattened argument, its block of `o` at `fo`. -/
abbrev share (d : Dev nD) (L : grid0.Coords) (fo : Buf (Elt F) (oLoc d)) : sProp 𝕄 :=
  iprop((xLoc d ↦[tSet L]{fullShare} xval m d) ∗ (oLoc d ↦[tSet L]{fullShare} fo))

/-- The call takes, per SparseCore, its sixteen tasks' shares with `o` at its launch contents, and brings them back with
    `o` at the re-ordered rows; a task takes and brings back its own. -/
def P : (K (F := F)).Pay (nD := nD) (Val := Elt F) (Name := ℕ) (U := UU) where
  st := fun q d c => match q with
    | 0 => bigSep Finset.univ fun i : Fin ((K (F := F)).nSub 0) => share m d (LV c i) (m (oLoc d))
  dn := fun q d c => match q with
    | 0 => bigSep Finset.univ fun i : Fin ((K (F := F)).nSub 0) => share m d (LV c i) (oval m d)
  go := fun q d c i => match q with
    | 0 => share m d (LV c i) (m (oLoc d))
  td := fun q d c i => match q with
    | 0 => share m d (LV c i) (oval m d)
  x := fun _ _ => iprop(emp)

instance P_storable : (P (F := F) m).IsStorable where
  st q d c := match q with
    | 0 => (inferInstance : BI.Storable (upEmb : UEmb _ 𝕄) (bigSep Finset.univ fun i : Fin ((K (F := F)).nSub 0) => share m d (LV c i) (m (oLoc d))))
  dn q d c := match q with
    | 0 => (inferInstance : BI.Storable (upEmb : UEmb _ 𝕄) (bigSep Finset.univ fun i : Fin ((K (F := F)).nSub 0) => share m d (LV c i) (oval m d)))
  go q d c i := match q with
    | 0 => (inferInstance : BI.Storable (upEmb : UEmb _ 𝕄) (share m d (LV c i) (m (oLoc d))))
  td q d c i := match q with
    | 0 => (inferInstance : BI.Storable (upEmb : UEmb _ 𝕄) (share m d (LV c i) (oval m d)))

/-! ## The task's obligation -/

variable [FloatOps F]

theorem defs₀_vector (c : Fin τ.nSC) (s : Fin τ.nSub) :
    defs₀ (F := F) (.scVector c s) 0 ()
      = SparseCore.onTile hcore0 hsub0 (fun c s => cc0__permute (coordsV c s)
          xW (Memref.isWhole_whole _) oW (Memref.isWhole_whole _) sA (Memref.isWhole_whole _) sB (Memref.isWhole_whole _)
          cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF (xval m d) (m (oLoc d)) O W hO).trans (wp_mono frame _ _ fun _ => obl_post)

/-! ## A SparseCore's operands are its tasks' -/

omit [FloatOps F] in
theorem vecSplit : (K (F := F)).VecSplit' (P m) 0 := by
  intro d c
  show (bigSep Finset.univ fun i : Fin ((K (F := F)).nSub 0) => share m d (LV c i) (m (oLoc d))) ⊢ |={Set.univ}=> iprop(
      (bigSep Finset.univ fun i : Fin ((K (F := F)).nSub 0) => share m d (LV c i) (m (oLoc d)))
      ∗ ((bigSep Finset.univ fun i : Fin ((K (F := F)).nSub 0) => share m d (LV c i) (oval m d))
          -∗ (bigSep Finset.univ fun i : Fin ((K (F := F)).nSub 0) => share m d (LV c i) (oval m d))))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Proof.KB

end
-- ==== Proof.KBLaunchMain.lean ====
/-
  @main on the TensorCore: the argument `[4, 8192, 2048]` flattened into `x` (a reshape), the SparseCore call from
  `x` and `o` — both split into the 32 tasks' blocks of rows and joined back, `o` at the re-ordered rows —, and `o`
  un-flattened into the result (a reshape). The argument is kept through all three; the result ends at the re-ordering of
  the argument on `[4, 8192, 2048]`.
-/
import proofs.«211075_g81750407512465_cont_sun_c4_77_5_alg».proof.Proof.KBLaunchObl

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S32768x2048 EltTy.f32)
local notation "oW" => (Memref.whole Cert.Kernel.main_v1_scv : Memref Cert.Kernel.sig Kind.scVector Space.hbm Cert.Kernel.S32768x2048 EltTy.f32)
local notation "sA" => (Memref.whole Cert.Kernel.cc0_scratch0 : Memref Cert.Kernel.sig Kind.scVector Space.vmem Cert.Kernel.S8x1024 EltTy.f32)
local notation "sB" => (Memref.whole Cert.Kernel.cc0_scratch1 : Memref Cert.Kernel.sig Kind.scVector Space.vmem Cert.Kernel.S8x1024 EltTy.f32)

variable (m : (ℓ : Loc nD τ sig) → Buf (Elt F) ℓ) (ρ : Dev nD → PrngReg)

/-! ## The two SparseCores' operands are the two arrays whole -/

/-- The 32 tasks' shares are `x` whole at the flattened argument and `o` whole at `fo`: the blocks are pairwise disjoint
    and cover the rows. -/
theorem shares_eq (d : Dev nD) (fo : Buf (Elt F) (oLoc d)) :
    (bigSep Finset.univ fun c : Fin ((K (F := F)).nCore 0) => bigSep Finset.univ fun i : Fin ((K (F := F)).nSub 0) => share m d (LV c i) fo)
      = iprop((xLoc d ↦{fullShare} xval m d) ∗ (oLoc d ↦{fullShare} fo)) := by
  show (bigSep (Finset.univ : Finset (Fin 2)) fun c => bigSep (Finset.univ : Finset (Fin 16)) fun i =>
      (iprop((xLoc d ↦[bSet (c, i)]{fullShare} xval m d) ∗ (oLoc d ↦[bSet (c, i)]{fullShare} fo)) : sProp 𝕄)) = _
  rw [← BI.bigSep_univ_prod (fun p : Fin 2 × Fin 16 => (iprop((xLoc d ↦[bSet p]{fullShare} xval m d) ∗ (oLoc d ↦[bSet p]{fullShare} fo)) : sProp 𝕄)),
    bigSep_sep', ← pointsTo_biUnion Finset.univ (ℓ := xLoc d) (q := fullShare) (f := xval m d) bSet blocks_disjoint,
    ← pointsTo_biUnion Finset.univ (ℓ := oLoc d) (q := fullShare) (f := fo) bSet blocks_disjoint, blocks_cover]

theorem st0_eq (d : Dev nD) :
    (bigSep Finset.univ fun c : Fin ((K (F := F)).nCore 0) => (P m).st 0 d c) = iprop((xLoc d ↦{fullShare} xval m d) ∗ (oLoc d ↦{fullShare} m (oLoc d))) :=
  shares_eq m d (m (oLoc d))
theorem dn0_eq (d : Dev nD) :
    (bigSep Finset.univ fun c : Fin ((K (F := F)).nCore 0) => (P m).dn 0 d c) = iprop((xLoc d ↦{fullShare} xval m d) ∗ (oLoc d ↦{fullShare} oval m d)) :=
  shares_eq m d (oval m d)

/-! ## The TensorCore's arrays and the two reshapes -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev opIn : HloOp τ sig (Elt F) := StableHlo.reshape main_arg0 main_v0 rfl shapeCasts_S4x8192x2048_S32768x2048
abbrev opOut : HloOp τ sig (Elt F) := StableHlo.reshape main_v1 main_v2 rfl shapeCasts_S32768x2048_S4x8192x2048

/-- The TensorCore's arrays, all unscoped: the argument, `x`, `o`, the result. -/
abbrev S4 : Finset (DevRef τ sig) := {a', x', o', r'}

theorem held_S4 (d : Dev nD) (W : Valuation τ sig (Elt F)) :
    (held (T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; -/
def V0 (d : Dev nD) : Valuation τ sig (Elt F) := fun b => m (d, b)
/-- and the one after the call: `x` at the flattened argument, `o` at its re-ordered rows. -/
def V2 (d : Dev nD) : Valuation τ sig (Elt F) := Function.update (Function.update (V0 m d) x' (xval m d)) o' (oval m d)

theorem unscoped_held (d : Dev nD) : (unscopedBufs d (fun b => m ((SparseCore.T d).loc b)) : sProp 𝕄) = held (T d) S4 (V0 m d) := by
  rw [unscopedBufs_eq, held_S4]; rfl

theorem V2_a (d : Dev nD) : V2 m d a' = m (aLoc d) :=
  (Function.update_of_ne (show a' ≠ o' by decide) _ _).trans (Function.update_of_ne (show a' ≠ x' by decide) _ _)
theorem V2_x (d : Dev nD) : V2 m d x' = xval m d :=
  (Function.update_of_ne (show x' ≠ o' by decide) _ _).trans (Function.update_self _ _ _)
theorem V2_o (d : Dev nD) : V2 m d o' = oval m d := Function.update_self _ _ _
theorem V2_r (d : Dev nD) : V2 m d r' = m (rLoc d) :=
  (Function.update_of_ne (show r' ≠ o' by decide) _ _).trans (Function.update_of_ne (show r' ≠ x' by decide) _ _)

theorem hIn : (opIn (F := F)).bufs ⊆ S4 := show ({a', x'} : Finset (DevRef τ sig)) ⊆ S4 by decide
theorem hOut : (opOut (F := F)).bufs ⊆ S4 := show ({o', r'} : Finset (DevRef τ sig)) ⊆ S4 by decide

/-- After the first reshape: `x` at the flattened argument, the other three arrays as they were. -/
theorem held_in (d : Dev nD) :
    (held (T d) S4 ((opIn (F := F)).result (V0 m d)) : sProp 𝕄)
      = iprop((aLoc d ↦{fullShare} m (aLoc d)) ∗ (xLoc d ↦{fullShare} xval m d) ∗ (oLoc d ↦{fullShare} m (oLoc d)) ∗ rLoc d ↦{fullShare} m (rLoc d)) := by
  rw [held_S4,
    (opIn (F := F)).result_of_not_mem (V0 m d) (b := a') (show a' ∉ ({x'} : Finset (DevRef τ sig)) by decide),
    (opIn (F := F)).result_of_not_mem (V0 m d) (b := o') (show o' ∉ ({x'} : Finset (DevRef τ sig)) by decide),
    (opIn (F := F)).result_of_not_mem (V0 m d) (b := r') (show r' ∉ ({x'} : Finset (DevRef τ sig)) by decide),
    show (opIn (F := F)).result (V0 m d) x' = xval m d from StableHlo.reshape_result main_arg0 main_v0 rfl _ _ _ (V0 m d)]
  rfl

/-- After the second: the result at the re-ordering of the argument, the argument as it was. -/
theorem held_out (d : Dev nD) :
    (held (T d) S4 ((opOut (F := F)).result (V2 m d)) : sProp 𝕄)
      = iprop((aLoc d ↦{fullShare} m (aLoc d)) ∗ (xLoc d ↦{fullShare} xval m d) ∗ (oLoc d ↦{fullShare} oval m d)
          ∗ rLoc d ↦{fullShare} (Cert.Spec.G3 (m (aLoc d)) : Buf (Elt F) (rLoc d))) := by
  rw [held_S4,
    (opOut (F := F)).result_of_not_mem (V2 m d) (b := a') (show a' ∉ ({r'} : Finset (DevRef τ sig)) by decide),
    (opOut (F := F)).result_of_not_mem (V2 m d) (b := x') (show x' ∉ ({r'} : Finset (DevRef τ sig)) by decide),
    (opOut (F := F)).result_of_not_mem (V2 m d) (b := o') (show o' ∉ ({r'} : Finset (DevRef τ sig)) by decide),
    show (opOut (F := F)).result (V2 m d) r' = (Cert.Spec.G3 (m (aLoc d)) : Buf (Elt F) (rLoc d)) from
      (StableHlo.reshape_result main_v1 main_v2 rfl _ _ _ (V2 m d)).trans (by
        rw [V2_o]; exact G3_eq_reshape (m (aLoc d)) _ _),
    V2_a, V2_x, V2_o]

/-! ## @main -/

variable [FloatOps F]

/-- What @main leaves the claim: the argument at its launch contents, the result at its re-ordering. -/
abbrev FIN (d : Dev nD) : sProp 𝕄 :=
  iprop((aLoc d ↦{fullShare} m (aLoc d)) ∗ rLoc d ↦{fullShare} (Cert.Spec.G3 (m (aLoc d)) : Buf (Elt F) (rLoc d)))

/-- @main on device `d`'s TensorCore: the reshape into `x`, the call from `x` and `o`, the reshape of `o` into the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the argument flattened into `x`
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  ihave Hh := (Entails.of_eq (held_in (F := F) m d)) $$ Hheld
  icases Hh with ⟨Ha, Hx, Ho, Hr⟩
  rw [wp_ret]; imodintro
  -- the call: `x` and `o` to the two SparseCores' tasks and back
  iapply ((K (F := F)).wp_run (D (F := F)) 𝒱 (EH := EH) (P := P m) κ d 0) $$ [Hst Hx Ho Hb Ha Hr]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  -- `o` un-flattened into the result
  iapply (wp_hlo_within 𝒱 (SparseCore.T d) none Set.univ (op := opOut) (S := S4) hOut (V := V2 m d)) $$ [Hb Ha Hx Ho Hr]
  · isplitl [Hb]; · iexact Hb
    rw [held_S4, V2_a, V2_x, V2_o, V2_r]
    isplitl [Ha]; · iexact Ha
    isplitl [Hx]; · iexact Hx
    isplitl [Ho]; · iexact Ho
    iexact Hr
  iintro ⟨Hb, Hheld⟩
  ihave Hh := (Entails.of_eq (held_out (F := F) m d)) $$ Hheld
  icases Hh with ⟨Ha, -, -, Hr⟩
  rw [wp_ret]; imodintro; imodintro
  isplitl [Hst]; · iexact Hst
  isplitl [Ha]; · iexact Ha
  iexact Hr

end Cert.Proof.KB

end
-- ==== Proof.KBLaunch.lean ====
/-
  The run of the whole program. Every weakly fair execution of the device's threads — @main on the TensorCore, the two
  SparseCores' sequencers, their 32 vector subcores' tasks — terminates, nothing faulting, with the result array at the
  re-ordering `G3` of the argument and the argument unchanged: the launch theorem at the one vector-subcore call, from the
  task's proof (`tile_body`, through `tileObl`), the split of the two arrays into the tasks' blocks, and @main's proof.
-/
import proofs.«211075_g81750407512465_cont_sun_c4_77_5_alg».proof.Proof.KBLaunchMain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

local notation "𝕄" => MT nD τ sig (HIx 1) (Elt F) ℕ UU ℕ

local notation "xW" => (Memref.whole Cert.Kernel.main_v0_scv : Memref Cert.Kernel.sig Kind.scVector Space.hbm Cert.Kernel.S32768x2048 EltTy.f32)
local notation "oW" => (Memref.whole Cert.Kernel.main_v1_scv : Memref Cert.Kernel.sig Kind.scVector Space.hbm Cert.Kernel.S32768x2048 EltTy.f32)
local notation "sA" => (Memref.whole Cert.Kernel.cc0_scratch0 : Memref Cert.Kernel.sig Kind.scVector Space.vmem Cert.Kernel.S8x1024 EltTy.f32)
local notation "sB" => (Memref.whole Cert.Kernel.cc0_scratch1 : Memref Cert.Kernel.sig Kind.scVector Space.vmem Cert.Kernel.S8x1024 EltTy.f32)

section Fin

variable (m : (ℓ : Loc nD τ sig) → Buf (Elt F) ℓ)

/-- What the final memory shows on device `d`: the result at the re-ordering of the argument, the argument unchanged. -/
def fq (d : Dev nD) (s' : Phys nD τ sig (Elt F)) : Prop :=
  s'.mem.mem (rLoc d) = Cert.Spec.G3 (m (aLoc d)) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare)
    (f := (Cert.Spec.G3 (m (aLoc d)) : Buf (Elt F) (rLoc d)))) $$ [HSI Hr]
  · isplitl [HSI] <;> iassumption
  icases H with %h2
  ipureintro; exact ⟨funext fun i => h2 i (Finset.mem_univ i), funext fun i => h1 i (Finset.mem_univ i)⟩

end Fin

/-! ## The program's run -/

theorem run_main [FloatOps F] [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩
      (fun r => ∀ c : Dev nD, r.2.mem (rLoc c) = Cert.Spec.G3 (m (aLoc c)) ∧ r.2.mem (aLoc c) = m (aLoc c)) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m)
    (fun r => ∀ c : Dev nD, r.2.mem (rLoc c) = Cert.Spec.G3 (m (aLoc c)) ∧ r.2.mem (aLoc c) = m (aLoc c)) (fun _ h => h)

end Cert.Proof.KB

end
-- ==== Proof.RefRunOps.lean ====
/-
  The reference program's run, part 1: `@main` as a straight line of its twenty-four host operations — the index
  table, then the outlined take's body with the nested select inlined at its call — and the run read back: every
  weakly fair execution terminates with the result buffer at the operations' composed term `res` of the argument's
  launch contents, and the argument unchanged.
-/
import proofs.«211075_g81750407512465_cont_sun_c4_77_5_alg».proof.ReferenceIdeal
import proofs.«211075_g81750407512465_cont_sun_c4_77_5_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- `@main`'s operations in order, the two calls unfolded: the table; the take's six operations up to the
    call of the select; that select into the inner call's buffer; the take's remaining seventeen. -/
abbrev ops : List (HloOp τ sig (Elt F)) :=
  [ nullary main_c (fun i => lit0 (S2048.rowMajor i)),
    TRef.nullary main_call0.c (constantI S_ 32 0#32),
    TRef.unary main_call0.c main_call0.v0 (broadcastInDim S2048 ![] bcast_S_S2048),
    TRef.binary (.of main_c) main_call0.v0 main_call0.v1 (cmpi .slt),
    TRef.nullary main_call0.c_0 (constantI S_ 32 2048#32),
    TRef.unary main_call0.c_0 main_call0.v2 (broadcastInDim S2048 ![] bcast_S_S2048),
    TRef.binary (.of main_c) main_call0.v2 main_call0.v3 addi,
    TRef.ternary main_call0.v1 main_call0.v3 (.of main_c) main_call0.call0.v0 select,
    TRef.unary main_call0.call0.v0 main_call0.v5 (broadcastInDim S2048x1 ![0] bcast_S2048_S2048x1_0),
    TRef.nullary main_call0.c_1 (constantI S1 32 2047#32),
    TRef.nullary main_call0.c_2 (constantI S_ 32 0#32),
    TRef.unary main_call0.c_2 main_call0.v6 (broadcastInDim S2048x1 ![] bcast_S_S2048x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S2048x1 ![0, 1] bcast_S1x1_S2048x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S2048x1_S2048_d1 h_S_),
    TRef.binary (.of main_arg0) main_call0.v5 main_call0.v13 (fun x i => Host.gather gather_S4x8192x2048_S2048x1_S4x8192x2048_01_2_n_n_2_1_481921 x i),
    TRef.unary main_call0.v12 main_call0.v14 (broadcastInDim S4x8192x2048 ![2] bcast_S2048_S4x8192x2048_2),
    TRef.nullary main_call0.cst (constant S_ .f32 0x7FC00000#32),
    TRef.unary main_call0.cst main_call0.v15 (broadcastInDim S4x8192x2048 ![] bcast_S_S4x8192x2048),
    TRef.ternary main_call0.v14 main_call0.v13 main_call0.v15 main_call0.v16 select ]

-- twenty-four binds re-associated: the rewrite under the chain recurses once per statement
set_option maxRecDepth 1024 in
/-- `@main` is that straight line: the two functions' definitions unfolded at their calls, both sides are one chain
    of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..⟩

/-! ## The composed term -/

/-- The index table as a vector of 2048 words. -/
abbrev tbl : IVec S2048 32 := fun i => lit0 (S2048.rowMajor i)

/-- The table with its negative entries moved up by 2048 (the take's index normalisation). -/
abbrev nidx : IVec S2048 32 :=
  select (cmpi .slt tbl (broadcastInDim S2048 ![] bcast_S_S2048 (constantI S_ 32 0#32)))
    (addi tbl (broadcastInDim S2048 ![] bcast_S_S2048 (constantI S_ 32 2048#32))) tbl

/-- The normalised indices as the gather's start indices, one per row. -/
abbrev sidx : IVec S2048x1 32 := broadcastInDim S2048x1 ![0] bcast_S2048_S2048x1_0 nidx

/-- Which start indices lie in `[0, 2047]`. -/
abbrev inb : IVec S2048x1 1 :=
  andi (cmpi .sge sidx (broadcastInDim S2048x1 ![] bcast_S_S2048x1 (constantI S_ 32 0#32)))
    (cmpi .sle sidx (broadcastInDim S2048x1 ![0, 1] bcast_S1x1_S2048x1_0_1
      (broadcastInDim S1x1 ![1] bcast_S1_S1x1_1 (constantI S1 32 2047#32))))

/-- The same reduced by `and` along the start index's one component. -/
abbrev mask : IVec S2048 1 := Host.reduce IntOp.andi inb (constantI S_ 1 1#1) reducesTo_S2048x1_S2048_d1 h_S_

/-- What the result buffer holds, as a function of the argument's contents `x`: the gather of `x` along its last
    axis where the start index is in range, the literal elsewhere. -/
def res (x : FVec F S4x8192x2048 .f32) : FVec F S4x8192x2048 .f32 :=
  select (broadcastInDim S4x8192x2048 ![2] bcast_S2048_S4x8192x2048_2 mask)
    (Host.gather gather_S4x8192x2048_S2048x1_S4x8192x2048_01_2_n_n_2_1_481921 x sidx)
    (broadcastInDim S4x8192x2048 ![] bcast_S_S4x8192x2048 (constant S_ .f32 0x7FC00000#32))

/-! ## The run -/

/-- The fold of the operations at the result buffer is `res` of the argument: each operation's result read at its own
    buffer, the typed references' transports the identity at these literal references. -/
theorem out_eq (V : Valuation τ sig (Elt F)) :
    after ops V (main_v0 : DevRef τ sig) = res (V (main_arg0 : DevRef τ sig)) := by
  after_results
  simp only [TRef.ofBuf, TRef.toBuf, cast_eq, res]
  with_reducible_and_instances rfl

/-- No operation writes the argument's buffer. -/
theorem arg0_eq (V : Valuation τ sig (Elt F)) :
    after ops V (main_arg0 : DevRef τ sig) = V (main_arg0 : DevRef τ sig) := by
  after_results

/-- On every device, for any float values, from any memory with zero counters: every weakly fair execution of
    `@main` terminates with the result at `res` of the argument and the argument unchanged. -/
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = res (m ((c.tc : Thread nD τ).loc main_arg0))
      ∧ r.2.mem ((c.tc : Thread nD τ).loc main_arg0) = m ((c.tc : Thread nD τ).loc main_arg0) :=
  (θ_run defs _ _).mono (fun _ h c => ⟨(h c main_v0).trans (out_eq _), (h c main_arg0).trans (arg0_eq _)⟩)
    (run_seq scopedRefs_eq scopedSems_eq defs main (fun _ => ops) main_eq (fun _ => ops_sub) m ρ)

end Cert.Proof.RefRun

end
-- ==== Proof.RefRun.lean ====
/-
  The reference program's run, part 2: the composed term is the specification. Every entry of the index table is
  the source channel `srcCol` of its position, a number in `[0, 2047]`; so the index normalisation (add 2048 to a
  negative entry) changes nothing, the bounds mask is all ones, the gather along the last axis reads the argument at
  channel `srcCol`, and the final select keeps the gathered array: `res x = G3 x`. With part 1's run this is the
  statement `run`.
-/
import proofs.«211075_g81750407512465_cont_sun_c4_77_5_alg».proof.Proof.RefRunOps
import proofs.«211075_g81750407512465_cont_sun_c4_77_5_alg».proof.Proof.Spec
import Idealize.ShloMosaic.Lib.ValueIdx
import Idealize.ShloMosaic.Lib.ReduceAll
import Idealize.ShloMosaic.Lib.Decide

noncomputable section

namespace Cert.Proof.RefRun

open Cert.ReferenceIdeal Cert.ReferenceIdeal.Gen Idealize.ShloMosaic Idealize.ShloMosaic.TcCoe Idealize.SL.Sem Idealize.ShloMosaic.StableHlo Idealize.ShloMosaic.ValueIdx Cert.Spec

variable {F : FTy → Type} [FloatOps F]

/-! ## The table -/

/-- Every entry of the index table, read as a signed word: it is not negative, it is at most 2047, and its value is
    the source channel of its position. All 2048 entries by evaluation. -/
theorem table_facts : ∀ j : Fin 2048,
    IntOp.cmpi .slt (lit0 j) 0#32 = 0#1 ∧ IntOp.cmpi .sge (lit0 j) 0#32 = 1#1 ∧ IntOp.cmpi .sle (lit0 j) 2047#32 = 1#1
    ∧ (lit0 j).toInt.toNat = (srcCol j).val := by decide +kernel

/-! ## The index operations, read at an index -/

/-- The table as a vector reads the entry at the index's one coordinate (a rank-1 index's row-major position). -/
theorem tbl_apply (i : S2048.Idx) : tbl i = lit0 (i 0) :=
  congrArg lit0 (Fin.ext (Shape.rowMajor_val_one i) : (S2048.rowMajor i : Fin 2048) = (i 0 : Fin 2048))

/-- The normalisation is the identity here: no entry is negative, so the select takes the entry itself. -/
theorem nidx_apply (i : S2048.Idx) : nidx i = lit0 (i 0) := by
  show Scalar.select (IntOp.cmpi .slt (tbl i) 0#32) (IntOp.addi (tbl i) 2048#32) (tbl i) = _
  rw [tbl_apply, (table_facts (i 0)).1, select_zero]

/-- The start index of row `k` is the table's entry `k`. -/
theorem sidx_apply (k : S2048x1.Idx) : sidx k = lit0 (k 0) := by
  have h : sidx k = nidx (ix1 (n := 2048) (k 0)) := by
    show nidx _ = nidx _
    congr 1; funext a; match a with | ⟨0, _⟩ => rfl
  rw [h, nidx_apply]

/-- Every start index is in range: both comparisons hold, and so does their conjunction. -/
theorem inb_apply (k : S2048x1.Idx) : inb k = 1#1 := by
  show IntOp.andi (IntOp.cmpi .sge (sidx k) 0#32) (IntOp.cmpi .sle (sidx k) 2047#32) = 1#1
  rw [sidx_apply, (table_facts (k 0)).2.1, (table_facts (k 0)).2.2.1]; rfl

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : IntOp.andi 1#1 (f a) = 1#1 := by rw [h a List.mem_cons_self]; rfl
    rw [List.foldl_cons, ha]
    exact foldl_andi_one f l fun n hn => h n (List.mem_cons_of_mem _ hn)

/-- The bounds mask is all ones: the reduction by `and` folds, from 1, words that are all 1. -/
theorem mask_apply (j : S2048.Idx) : mask j = 1#1 := by
  show Host.reduce IntOp.andi inb (constantI S_ 1 1#1) reducesTo_S2048x1_S2048_d1 h_S_ j = 1#1
  rw [Host.reduce_eq_foldl]
  exact foldl_andi_one inb _ fun n _ => inb_apply n

/-! ## The gather, read at an index -/

/-- The take's dimension numbers: the result's first two axes are the slice's (whole extents 4 and 8192), the
    operand's last axis is collapsed and indexed by the one component of the start index in row `i 2`. -/
abbrev gd : GatherDims S4x8192x2048 S2048x1 S4x8192x2048 := gather_S4x8192x2048_S2048x1_S4x8192x2048_01_2_n_n_2_1_481921

/-- The gather at `(a, b, c)`: the operand at `(a, b, s)`, where `s` is start index `c` read signed and clamped
    into `[0, 2047]`. On the first two operand axes the start is 0 and the offset is the result's coordinate; on
    the last the offset is 0 (the axis is collapsed) and the start is the clamped index. -/
theorem gather_apply {α : Type} (x : S4x8192x2048.Idx → α) (idx : IVec S2048x1 32) (i : S4x8192x2048.Idx) :
    Host.gather gd x idx i
      = x (ix3 (i 0) (i 1) ⟨min (idx (ix2 (i 2) (0 : Fin 1))).toInt.toNat 2047, by omega⟩) := by
  unfold Host.gather
  congr 1
  funext a
  refine Fin.ext ?_
  show gd.start i idx a + gd.batchCoord i a + gd.offCoord i a = _
  rw [GatherDims.batchCoord_eq_zero _ _ _ List.not_mem_nil, Nat.add_zero]
  match a with
  | ⟨0, _⟩ =>
    have h1 : gd.start i idx ⟨0, by decide⟩ = 0 := by unfold GatherDims.start; exact dif_neg (by decide)
    have h2 : gd.offCoord i ⟨0, by decide⟩ = (i 0).val := by
      unfold GatherDims.offCoord; rw [dif_pos (by decide)]; rfl
    rw [h1, h2, Nat.zero_add]
  | ⟨1, _⟩ =>
    have h1 : gd.start i idx ⟨1, by decide⟩ = 0 := by unfold GatherDims.start; exact dif_neg (by decide)
    have h2 : gd.offCoord i ⟨1, by decide⟩ = (i 1).val := by
      unfold GatherDims.offCoord; rw [dif_pos (by decide)]; rfl
    rw [h1, h2, Nat.zero_add]
  | ⟨2, _⟩ =>
    have h2 : gd.offCoord i ⟨2, by decide⟩ = 0 := GatherDims.offCoord_eq_zero _ _ _ (by decide)
    rw [h2, Nat.add_zero]
    unfold GatherDims.start
    rw [dif_pos (show (⟨2, by decide⟩ : Fin 3) ∈ gd.startIndexMap by decide)]
    have hsi : gd.siIdx i ⟨List.idxOf (⟨2, by decide⟩ : Fin 3) gd.startIndexMap,
        List.idxOf_lt_length_iff.2 (show (⟨2, by decide⟩ : Fin 3) ∈ gd.startIndexMap by decide)⟩ = ix2 (i 2) (0 : Fin 1) := by
      funext b; refine Fin.ext ?_
      match b with
      | ⟨0, _⟩ => rfl
      | ⟨1, _⟩ => rfl
    rw [hsi]
    rfl

/-! ## The composed term is the specification -/

/-- For any float values: the mask bit is 1 at every index, so the select is the gathered array; the gather reads
    channel `srcCol (i 2)` — start index `i 2` is the table's entry, whose value is that channel, already in range. -/
theorem res_eq (x : FVec F S4x8192x2048 .f32) : res x = G3 x := by
  funext i
  show Scalar.select (mask _) (Host.gather gd x sidx i) _ = x (ix3 (i 0) (i 1) (srcCol (i 2)))
  rw [mask_apply, select_one, gather_apply]
  refine congrArg x (congrArg (ix3 (i 0) (i 1)) (Fin.ext ?_))
  show min (sidx (ix2 (i 2) (0 : Fin 1))).toInt.toNat 2047 = (srcCol (i 2)).val
  rw [sidx_apply]
  show min (lit0 (i 2)).toInt.toNat 2047 = (srcCol (i 2)).val
  rw [(table_facts (i 2)).2.2.2]
  exact Nat.min_eq_left (by have := (srcCol (i 2)).isLt; omega)

/-! ## The run -/

/-- At the ideal instance, on every device, from any memory with zero counters: every weakly fair execution of the
    reference's `@main` terminates with the result buffer at the specification `G3` of the argument's launch contents
    and the argument unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v0)
            = Cert.Spec.G3 (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)) :=
  (θ_run _ _ _).mono (fun _ h c => ⟨(h c).1.trans (res_eq _), (h c).2⟩) (run_res m ρ)

end Cert.Proof.RefRun

end
-- ==== Proof.lean ====
/-
  The certificate's claims, assembled.

  The kernel re-orders the 2048 channels of every row: the outer 512 + 512 channels are copied where they are, and the middle
  1024 are interleaved — result channel `512 + j` takes source channel `512 + j / 2 + 512 (j % 2)` (`Cert.Spec.srcCol`). On the
  flattened array `[32768, 2048]` each of the 32 vector-subcore tasks does this for its own 1024 rows (two whole-band copies, then
  128 trips of 8 rows through two scratch buffers, each trip's 512 gathered strips of 16 lanes proved as one fold); the launch
  deals the 32 row blocks and joins them; the two reshapes around the call keep the channel coordinate. The reference is
  `take` along the channel axis at a constant table whose entries are exactly `srcCol`; all entries are in range, so its bounds
  mask is all ones and the fill value is never selected. Both sides therefore end at `Cert.Spec.G3` of the argument — pure data
  movement, the same at every float instance, which is why the word-level program's frame is the same proof read at words.
  The ideal pass rewrote nothing, so `preserves` has no conjunct.
-/
import proofs.«211075_g81750407512465_cont_sun_c4_77_5_alg».proof.Defs
import proofs.«211075_g81750407512465_cont_sun_c4_77_5_alg».proof.Proof.Gen.Kernel
import proofs.«211075_g81750407512465_cont_sun_c4_77_5_alg».proof.Proof.Gen.Kernel.Skeleton
import proofs.«211075_g81750407512465_cont_sun_c4_77_5_alg».proof.Proof.Gen.KernelIdeal
import proofs.«211075_g81750407512465_cont_sun_c4_77_5_alg».proof.Proof.Gen.KernelIdeal.Skeleton
import proofs.«211075_g81750407512465_cont_sun_c4_77_5_alg».proof.Proof.Gen.ReferenceIdeal
import proofs.«211075_g81750407512465_cont_sun_c4_77_5_alg».proof.Proof.Gen.Pre_finite_inputs
import proofs.«211075_g81750407512465_cont_sun_c4_77_5_alg».proof.Proof.KILaunch
import proofs.«211075_g81750407512465_cont_sun_c4_77_5_alg».proof.Proof.KBLaunch
import proofs.«211075_g81750407512465_cont_sun_c4_77_5_alg».proof.Proof.RefRun
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => (h c).2) (Cert.Proof.KB.run_main (F := Bits) m ρ)

theorem frame_ki : Cert.frame_KernelIdeal := fun m ρ _ =>
  (θ_run Cert.KernelIdeal.defs _ _).mono (fun _ h c => (h c).2) (Cert.Proof.KI.run_main (F := Ideal) m ρ)

theorem frame_ri : Cert.frame_ReferenceIdeal := fun m ρ _ =>
  (θ_run Cert.ReferenceIdeal.defs _ _).mono (fun _ h c => (h c).2) (Cert.Proof.RefRun.run m ρ)

theorem preserves : Cert.preserves_Kernel_KernelIdeal := trivial

/-- Both programs end at `Cert.Spec.G3` of the argument, and the two arguments agree. -/
theorem algebraic : Cert.algebraic_KernelIdeal_ReferenceIdeal := by
  intro m ρ m' ρ' _ hagree
  refine ⟨fun c => Cert.Spec.G3 (m (Cert.Proof.KI.aLoc c)), (θ_run Cert.KernelIdeal.defs _ _).mono (fun _ h c => h c) (Cert.Proof.KI.run_main (F := Ideal) m ρ), ?_⟩
  refine (θ_run Cert.ReferenceIdeal.defs _ _).mono (fun _ h c => ⟨(h c).1.trans ?_, (h c).2⟩) (Cert.Proof.RefRun.run m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
